-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v116)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v116) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v4) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1x28x28 : Shape := ⟨4, ![8192, 1, 28, 28]⟩
abbrev S25x1x20 : Shape := ⟨3, ![25, 1, 20]⟩
abbrev S1x20 : Shape := ⟨2, ![1, 20]⟩
abbrev S25x20x50 : Shape := ⟨3, ![25, 20, 50]⟩
abbrev S1x50 : Shape := ⟨2, ![1, 50]⟩
abbrev S200x500 : Shape := ⟨2, ![200, 500]⟩
abbrev S1x500 : Shape := ⟨2, ![1, 500]⟩
abbrev S500x10 : Shape := ⟨2, ![500, 10]⟩
abbrev S1x10 : Shape := ⟨2, ![1, 10]⟩
abbrev S_ : Shape := ⟨0, ![]⟩

class Facts : Prop where
  bcast_S_S8192x1x28x28 : S_.BroadcastsInDim S8192x1x28x28 (![] : Fin 0 → Fin S8192x1x28x28.rank)
  reducesTo_S8192x1x28x28_S_d0_1_2_3 : S8192x1x28x28.ReducesTo [0, 1, 2, 3] S_
  h_S_ : 0 < S_.numel
  bcast_S_S25x1x20 : S_.BroadcastsInDim S25x1x20 (![] : Fin 0 → Fin S25x1x20.rank)
  reducesTo_S25x1x20_S_d0_1_2 : S25x1x20.ReducesTo [0, 1, 2] S_
  bcast_S_S1x20 : S_.BroadcastsInDim S1x20 (![] : Fin 0 → Fin S1x20.rank)
  reducesTo_S1x20_S_d0_1 : S1x20.ReducesTo [0, 1] S_
  bitsLt_bf16_f32 : FTy.bits .bf16 < FTy.bits .f32
  bcast_S_S25x20x50 : S_.BroadcastsInDim S25x20x50 (![] : Fin 0 → Fin S25x20x50.rank)
  reducesTo_S25x20x50_S_d0_1_2 : S25x20x50.ReducesTo [0, 1, 2] S_
  bcast_S_S1x50 : S_.BroadcastsInDim S1x50 (![] : Fin 0 → Fin S1x50.rank)
  reducesTo_S1x50_S_d0_1 : S1x50.ReducesTo [0, 1] S_
  bcast_S_S200x500 : S_.BroadcastsInDim S200x500 (![] : Fin 0 → Fin S200x500.rank)
  reducesTo_S200x500_S_d0_1 : S200x500.ReducesTo [0, 1] S_
  bcast_S_S1x500 : S_.BroadcastsInDim S1x500 (![] : Fin 0 → Fin S1x500.rank)
  reducesTo_S1x500_S_d0_1 : S1x500.ReducesTo [0, 1] S_
  bcast_S_S500x10 : S_.BroadcastsInDim S500x10 (![] : Fin 0 → Fin S500x10.rank)
  reducesTo_S500x10_S_d0_1 : S500x10.ReducesTo [0, 1] S_
  bcast_S_S1x10 : S_.BroadcastsInDim S1x10 (![] : Fin 0 → Fin S1x10.rank)
  reducesTo_S1x10_S_d0_1 : S1x10.ReducesTo [0, 1] S_

variable [Facts]

def fn_part3 {F : FTy → Type} [FloatOps F] (main_arg11 : FVec F S1x10 .f32) (main_v50 : IVec S_ 1) (main_v51 : FVec F S500x10 .f32) : IVec S_ 1 :=
  let main_v52 : FVec F S500x10 .f32 := Host.absf main_v51
  let main_cst_18 : FVec F S_ .f32 := constant S_ .f32 0x7F800000#32
  let main_v53 : FVec F S500x10 .f32 := broadcastInDim S500x10 ![] bcast_S_S500x10 main_cst_18
  let main_v54 : IVec S500x10 1 := cmpf .olt main_v52 main_v53
  let main_c_19 : IVec S_ 1 := constantI S_ 1 1#1
  let main_v55 : IVec S_ 1 := (fun x v => Host.reduce IntOp.andi x v reducesTo_S500x10_S_d0_1 h_S_) main_v54 main_c_19
  let main_v56 : IVec S_ 1 := andi main_v50 main_v55
  let main_v57 : FVec F S1x10 .f32 := Host.absf main_arg11
  let main_cst_20 : FVec F S_ .f32 := constant S_ .f32 0x7F800000#32
  let main_v58 : FVec F S1x10 .f32 := broadcastInDim S1x10 ![] bcast_S_S1x10 main_cst_20
  let main_v59 : IVec S1x10 1 := cmpf .olt main_v57 main_v58
  let main_c_21 : IVec S_ 1 := constantI S_ 1 1#1
  let main_v60 : IVec S_ 1 := (fun x v => Host.reduce IntOp.andi x v reducesTo_S1x10_S_d0_1 h_S_) main_v59 main_c_21
  let main_v61 : IVec S_ 1 := andi main_v56 main_v60
  main_v61

def fn_part2 {F : FTy → Type} [FloatOps F] (main_arg7 : FVec F S200x500 .bf16) (main_arg8 : FVec F S1x500 .f32) (main_arg9 : FVec F S1x500 .f32) (main_arg10 : FVec F S500x10 .bf16) (main_arg11 : FVec F S1x10 .f32) (main_v29 : IVec S_ 1) (main_v33 : IVec S_ 1) : IVec S_ 1 :=
  let main_v34 : IVec S_ 1 := andi main_v29 main_v33
  let main_v35 : FVec F S200x500 .f32 := (extf .f32 · bitsLt_bf16_f32) main_arg7
  let main_v36 : FVec F S200x500 .f32 := Host.absf main_v35
  let main_cst_12 : FVec F S_ .f32 := constant S_ .f32 0x7F800000#32
  let main_v37 : FVec F S200x500 .f32 := broadcastInDim S200x500 ![] bcast_S_S200x500 main_cst_12
  let main_v38 : IVec S200x500 1 := cmpf .olt main_v36 main_v37
  let main_c_13 : IVec S_ 1 := constantI S_ 1 1#1
  let main_v39 : IVec S_ 1 := (fun x v => Host.reduce IntOp.andi x v reducesTo_S200x500_S_d0_1 h_S_) main_v38 main_c_13
  let main_v40 : IVec S_ 1 := andi main_v34 main_v39
  let main_v41 : FVec F S1x500 .f32 := Host.absf main_arg8
  let main_cst_14 : FVec F S_ .f32 := constant S_ .f32 0x7F800000#32
  let main_v42 : FVec F S1x500 .f32 := broadcastInDim S1x500 ![] bcast_S_S1x500 main_cst_14
  let main_v43 : IVec S1x500 1 := cmpf .olt main_v41 main_v42
  let main_c_15 : IVec S_ 1 := constantI S_ 1 1#1
  let main_v44 : IVec S_ 1 := (fun x v => Host.reduce IntOp.andi x v reducesTo_S1x500_S_d0_1 h_S_) main_v43 main_c_15
  let main_v45 : IVec S_ 1 := andi main_v40 main_v44
  let main_v46 : FVec F S1x500 .f32 := Host.absf main_arg9
  let main_cst_16 : FVec F S_ .f32 := constant S_ .f32 0x7F800000#32
  let main_v47 : FVec F S1x500 .f32 := broadcastInDim S1x500 ![] bcast_S_S1x500 main_cst_16
  let main_v48 : IVec S1x500 1 := cmpf .olt main_v46 main_v47
  let main_c_17 : IVec S_ 1 := constantI S_ 1 1#1
  let main_v49 : IVec S_ 1 := (fun x v => Host.reduce IntOp.andi x v reducesTo_S1x500_S_d0_1 h_S_) main_v48 main_c_17
  let main_v50 : IVec S_ 1 := andi main_v45 main_v49
  let main_v51 : FVec F S500x10 .f32 := (extf .f32 · bitsLt_bf16_f32) main_arg10
  fn_part3 (F := F) main_arg11 main_v50 main_v51

def fn_part1 {F : FTy → Type} [FloatOps F] (main_arg4 : FVec F S25x20x50 .bf16) (main_arg5 : FVec F S1x50 .f32) (main_arg6 : FVec F S1x50 .f32) (main_arg7 : FVec F S200x500 .bf16) (main_arg8 : FVec F S1x500 .f32) (main_arg9 : FVec F S1x500 .f32) (main_arg10 : FVec F S500x10 .bf16) (main_arg11 : FVec F S1x10 .f32) (main_v13 : IVec S_ 1) (main_v16 : IVec S1x20 1) : IVec S_ 1 :=
  let main_c_5 : IVec S_ 1 := constantI S_ 1 1#1
  let main_v17 : IVec S_ 1 := (fun x v => Host.reduce IntOp.andi x v reducesTo_S1x20_S_d0_1 h_S_) main_v16 main_c_5
  let main_v18 : IVec S_ 1 := andi main_v13 main_v17
  let main_v19 : FVec F S25x20x50 .f32 := (extf .f32 · bitsLt_bf16_f32) main_arg4
  let main_v20 : FVec F S25x20x50 .f32 := Host.absf main_v19
  let main_cst_6 : FVec F S_ .f32 := constant S_ .f32 0x7F800000#32
  let main_v21 : FVec F S25x20x50 .f32 := broadcastInDim S25x20x50 ![] bcast_S_S25x20x50 main_cst_6
  let main_v22 : IVec S25x20x50 1 := cmpf .olt main_v20 main_v21
  let main_c_7 : IVec S_ 1 := constantI S_ 1 1#1
  let main_v23 : IVec S_ 1 := (fun x v => Host.reduce IntOp.andi x v reducesTo_S25x20x50_S_d0_1_2 h_S_) main_v22 main_c_7
  let main_v24 : IVec S_ 1 := andi main_v18 main_v23
  let main_v25 : FVec F S1x50 .f32 := Host.absf main_arg5
  let main_cst_8 : FVec F S_ .f32 := constant S_ .f32 0x7F800000#32
  let main_v26 : FVec F S1x50 .f32 := broadcastInDim S1x50 ![] bcast_S_S1x50 main_cst_8
  let main_v27 : IVec S1x50 1 := cmpf .olt main_v25 main_v26
  let main_c_9 : IVec S_ 1 := constantI S_ 1 1#1
  let main_v28 : IVec S_ 1 := (fun x v => Host.reduce IntOp.andi x v reducesTo_S1x50_S_d0_1 h_S_) main_v27 main_c_9
  let main_v29 : IVec S_ 1 := andi main_v24 main_v28
  let main_v30 : FVec F S1x50 .f32 := Host.absf main_arg6
  let main_cst_10 : FVec F S_ .f32 := constant S_ .f32 0x7F800000#32
  let main_v31 : FVec F S1x50 .f32 := broadcastInDim S1x50 ![] bcast_S_S1x50 main_cst_10
  let main_v32 : IVec S1x50 1 := cmpf .olt main_v30 main_v31
  let main_c_11 : IVec S_ 1 := constantI S_ 1 1#1
  let main_v33 : IVec S_ 1 := (fun x v => Host.reduce IntOp.andi x v reducesTo_S1x50_S_d0_1 h_S_) main_v32 main_c_11
  fn_part2 (F := F) main_arg7 main_arg8 main_arg9 main_arg10 main_arg11 main_v29 main_v33

def fn {F : FTy → Type} [FloatOps F] (main_arg0 : FVec F S8192x1x28x28 .f32) (main_arg1 : FVec F S25x1x20 .f32) (main_arg2 : FVec F S1x20 .f32) (main_arg3 : FVec F S1x20 .f32) (main_arg4 : FVec F S25x20x50 .bf16) (main_arg5 : FVec F S1x50 .f32) (main_arg6 : FVec F S1x50 .f32) (main_arg7 : FVec F S200x500 .bf16) (main_arg8 : FVec F S1x500 .f32) (main_arg9 : FVec F S1x500 .f32) (main_arg10 : FVec F S500x10 .bf16) (main_arg11 : FVec F S1x10 .f32) : IVec S_ 1 :=
  let main_v0 : FVec F S8192x1x28x28 .f32 := Host.absf main_arg0
  let main_cst : FVec F S_ .f32 := constant S_ .f32 0x7F800000#32
  let main_v1 : FVec F S8192x1x28x28 .f32 := broadcastInDim S8192x1x28x28 ![] bcast_S_S8192x1x28x28 main_cst
  let main_v2 : IVec S8192x1x28x28 1 := cmpf .olt main_v0 main_v1
  let main_c : IVec S_ 1 := constantI S_ 1 1#1
  let main_v3 : IVec S_ 1 := (fun x v => Host.reduce IntOp.andi x v reducesTo_S8192x1x28x28_S_d0_1_2_3 h_S_) main_v2 main_c
  let main_v4 : FVec F S25x1x20 .f32 := Host.absf main_arg1
  let main_cst_0 : FVec F S_ .f32 := constant S_ .f32 0x7F800000#32
  let main_v5 : FVec F S25x1x20 .f32 := broadcastInDim S25x1x20 ![] bcast_S_S25x1x20 main_cst_0
  let main_v6 : IVec S25x1x20 1 := cmpf .olt main_v4 main_v5
  let main_c_1 : IVec S_ 1 := constantI S_ 1 1#1
  let main_v7 : IVec S_ 1 := (fun x v => Host.reduce IntOp.andi x v reducesTo_S25x1x20_S_d0_1_2 h_S_) main_v6 main_c_1
  let main_v8 : IVec S_ 1 := andi main_v3 main_v7
  let main_v9 : FVec F S1x20 .f32 := Host.absf main_arg2
  let main_cst_2 : FVec F S_ .f32 := constant S_ .f32 0x7F800000#32
  let main_v10 : FVec F S1x20 .f32 := broadcastInDim S1x20 ![] bcast_S_S1x20 main_cst_2
  let main_v11 : IVec S1x20 1 := cmpf .olt main_v9 main_v10
  let main_c_3 : IVec S_ 1 := constantI S_ 1 1#1
  let main_v12 : IVec S_ 1 := (fun x v => Host.reduce IntOp.andi x v reducesTo_S1x20_S_d0_1 h_S_) main_v11 main_c_3
  let main_v13 : IVec S_ 1 := andi main_v8 main_v12
  let main_v14 : FVec F S1x20 .f32 := Host.absf main_arg3
  let main_cst_4 : FVec F S_ .f32 := constant S_ .f32 0x7F800000#32
  let main_v15 : FVec F S1x20 .f32 := broadcastInDim S1x20 ![] bcast_S_S1x20 main_cst_4
  let main_v16 : IVec S1x20 1 := cmpf .olt main_v14 main_v15
  fn_part1 (F := F) main_arg4 main_arg5 main_arg6 main_arg7 main_arg8 main_arg9 main_arg10 main_arg11 main_v13 main_v16
-- ==== Kernel.lean ====
abbrev S8192x1x28x28 : Shape := ⟨4, ![8192, 1, 28, 28]⟩
abbrev S25x1x20 : Shape := ⟨3, ![25, 1, 20]⟩
abbrev S1x20 : Shape := ⟨2, ![1, 20]⟩
abbrev S25x20x50 : Shape := ⟨3, ![25, 20, 50]⟩
abbrev S1x50 : Shape := ⟨2, ![1, 50]⟩
abbrev S200x500 : Shape := ⟨2, ![200, 500]⟩
abbrev S1x500 : Shape := ⟨2, ![1, 500]⟩
abbrev S500x10 : Shape := ⟨2, ![500, 10]⟩
abbrev S1x10 : Shape := ⟨2, ![1, 10]⟩
abbrev S8192x28x28 : Shape := ⟨3, ![8192, 28, 28]⟩
abbrev S5x5x20 : Shape := ⟨3, ![5, 5, 20]⟩
abbrev S1x1x20 : Shape := ⟨3, ![1, 1, 20]⟩
abbrev S28 : Shape := ⟨1, ![28]⟩
abbrev S28x1 : Shape := ⟨2, ![28, 1]⟩
abbrev S8 : Shape := ⟨1, ![8]⟩
abbrev S1x8 : Shape := ⟨2, ![1, 8]⟩
abbrev S_ : Shape := ⟨0, ![]⟩
abbrev S28x8 : Shape := ⟨2, ![28, 8]⟩
abbrev S28x8x1 : Shape := ⟨3, ![28, 8, 1]⟩
abbrev S5x28x8x20 : Shape := ⟨4, ![5, 28, 8, 20]⟩
abbrev S1x28x8x1 : Shape := ⟨4, ![1, 28, 8, 1]⟩
abbrev S140x160 : Shape := ⟨2, ![140, 160]⟩
abbrev S1x140x160 : Shape := ⟨3, ![1, 140, 160]⟩
abbrev S3x140x160 : Shape := ⟨3, ![3, 140, 160]⟩
abbrev S1x1x1x20 : Shape := ⟨4, ![1, 1, 1, 20]⟩
abbrev S1x1x8x20 : Shape := ⟨4, ![1, 1, 8, 20]⟩
abbrev S1x160 : Shape := ⟨2, ![1, 160]⟩
abbrev S5x5x20x50 : Shape := ⟨4, ![5, 5, 20, 50]⟩
abbrev S8x1 : Shape := ⟨2, ![8, 1]⟩
abbrev S4 : Shape := ⟨1, ![4]⟩
abbrev S1x4 : Shape := ⟨2, ![1, 4]⟩
abbrev S8x4 : Shape := ⟨2, ![8, 4]⟩
abbrev S8x4x1 : Shape := ⟨3, ![8, 4, 1]⟩
abbrev S5x8x4x20x50 : Shape := ⟨5, ![5, 8, 4, 20, 50]⟩
abbrev S1x8x4x1x1 : Shape := ⟨5, ![1, 8, 4, 1, 1]⟩
abbrev S5x8x20x4x50 : Shape := ⟨5, ![5, 8, 20, 4, 50]⟩
abbrev S5x160x200 : Shape := ⟨3, ![5, 160, 200]⟩
abbrev S1x1x1x50 : Shape := ⟨4, ![1, 1, 1, 50]⟩
abbrev S1x1x4x50 : Shape := ⟨4, ![1, 1, 4, 50]⟩
abbrev S1x200 : Shape := ⟨2, ![1, 200]⟩
abbrev S8192x10 : Shape := ⟨2, ![8192, 10]⟩
abbrev S256x28x28 : Shape := ⟨3, ![256, 28, 28]⟩
abbrev S256x10 : Shape := ⟨2, ![256, 10]⟩
abbrev S256x24x28 : Shape := ⟨3, ![256, 24, 28]⟩
abbrev S6144x28 : Shape := ⟨2, ![6144, 28]⟩
abbrev S6144x140 : Shape := ⟨2, ![6144, 140]⟩
abbrev S6144x160 : Shape := ⟨2, ![6144, 160]⟩
abbrev S2048x3x160 : Shape := ⟨3, ![2048, 3, 160]⟩
abbrev S2048x160 : Shape := ⟨2, ![2048, 160]⟩
abbrev S256x8x160 : Shape := ⟨3, ![256, 8, 160]⟩
abbrev S1024x200 : Shape := ⟨2, ![1024, 200]⟩
abbrev S256x4x160 : Shape := ⟨3, ![256, 4, 160]⟩
abbrev S1024x160 : Shape := ⟨2, ![1024, 160]⟩
abbrev S1x160x200 : Shape := ⟨3, ![1, 160, 200]⟩
abbrev S160x200 : Shape := ⟨2, ![160, 200]⟩
abbrev S1024x50 : Shape := ⟨2, ![1024, 50]⟩
abbrev S1024x100 : Shape := ⟨2, ![1024, 100]⟩
abbrev S512x2x100 : Shape := ⟨3, ![512, 2, 100]⟩
abbrev S512x100 : Shape := ⟨2, ![512, 100]⟩
abbrev S256x2x100 : Shape := ⟨3, ![256, 2, 100]⟩
abbrev S256x1x100 : Shape := ⟨3, ![256, 1, 100]⟩
abbrev S256x100 : Shape := ⟨2, ![256, 100]⟩
abbrev S256x200 : Shape := ⟨2, ![256, 200]⟩
abbrev S256x500 : Shape := ⟨2, ![256, 500]⟩

abbrev nBuf : Space → Nat
  | .hbm => 194
  | .vmem => 14
  | .smem => 0
  | _ => 0

abbrev hbmTy0_0 (i : Nat) : BufTy := match i % 128 with
  | 0 => ⟨S8192x1x28x28, .f32⟩
  | 1 => ⟨S25x1x20, .f32⟩
  | 2 => ⟨S1x20, .f32⟩
  | 3 => ⟨S1x20, .f32⟩
  | 4 => ⟨S25x20x50, .bf16⟩
  | 5 => ⟨S1x50, .f32⟩
  | 6 => ⟨S1x50, .f32⟩
  | 7 => ⟨S200x500, .bf16⟩
  | 8 => ⟨S1x500, .f32⟩
  | 9 => ⟨S1x500, .f32⟩
  | 10 => ⟨S500x10, .bf16⟩
  | 11 => ⟨S1x10, .f32⟩
  | 12 => ⟨S8192x28x28, .f32⟩
  | 13 => ⟨S5x5x20, .f32⟩
  | 14 => ⟨S1x1x20, .f32⟩
  | 15 => ⟨S5x5x20, .f32⟩
  | 16 => ⟨S5x5x20, .f32⟩
  | 17 => ⟨S28, .i32⟩
  | 18 => ⟨S28x1, .i32⟩
  | 19 => ⟨S8, .i32⟩
  | 20 => ⟨S1x8, .i32⟩
  | 21 => ⟨S_, .i32⟩
  | 22 => ⟨S1x8, .i32⟩
  | 23 => ⟨S1x8, .i32⟩
  | 24 => ⟨S_, .i32⟩
  | 25 => ⟨S1x8, .i32⟩
  | 26 => ⟨S1x8, .i32⟩
  | 27 => ⟨S28x8, .i32⟩
  | 28 => ⟨S28x8, .i32⟩
  | 29 => ⟨S28x8, .i32⟩
  | 30 => ⟨S_, .i32⟩
  | 31 => ⟨S28x8, .i32⟩
  | 32 => ⟨S28x8, .i1⟩
  | 33 => ⟨S_, .i32⟩
  | 34 => ⟨S28x8, .i32⟩
  | 35 => ⟨S28x8, .i1⟩
  | 36 => ⟨S28x8, .i1⟩
  | 37 => ⟨S_, .i32⟩
  | 38 => ⟨S_, .i32⟩
  | 39 => ⟨S_, .i32⟩
  | 40 => ⟨S28x8, .i32⟩
  | 41 => ⟨S28x8, .i32⟩
  | 42 => ⟨S_, .i32⟩
  | 43 => ⟨S28x8, .i32⟩
  | 44 => ⟨S28x8, .i32⟩
  | 45 => ⟨S_, .i32⟩
  | 46 => ⟨S28x8, .i32⟩
  | 47 => ⟨S28x8, .i1⟩
  | 48 => ⟨S_, .i32⟩
  | 49 => ⟨S28x8, .i32⟩
  | 50 => ⟨S28x8, .i32⟩
  | 51 => ⟨S28x8, .i32⟩
  | 52 => ⟨S28x8x1, .i32⟩
  | 53 => ⟨S5x28x8x20, .f32⟩
  | 54 => ⟨S1x28x8x1, .i1⟩
  | 55 => ⟨S_, .f32⟩
  | 56 => ⟨S_, .f32⟩
  | 57 => ⟨S5x28x8x20, .i1⟩
  | 58 => ⟨S5x28x8x20, .f32⟩
  | 59 => ⟨S5x28x8x20, .f32⟩
  | 60 => ⟨S140x160, .f32⟩
  | 61 => ⟨S_, .i32⟩
  | 62 => ⟨S1x8, .i32⟩
  | 63 => ⟨S1x8, .i32⟩
  | 64 => ⟨S_, .i32⟩
  | 65 => ⟨S1x8, .i32⟩
  | 66 => ⟨S1x8, .i32⟩
  | 67 => ⟨S28x8, .i32⟩
  | 68 => ⟨S28x8, .i32⟩
  | 69 => ⟨S28x8, .i32⟩
  | 70 => ⟨S_, .i32⟩
  | 71 => ⟨S28x8, .i32⟩
  | 72 => ⟨S28x8, .i1⟩
  | 73 => ⟨S_, .i32⟩
  | 74 => ⟨S28x8, .i32⟩
  | 75 => ⟨S28x8, .i1⟩
  | 76 => ⟨S28x8, .i1⟩
  | 77 => ⟨S_, .i32⟩
  | 78 => ⟨S_, .i32⟩
  | 79 => ⟨S_, .i32⟩
  | 80 => ⟨S28x8, .i32⟩
  | 81 => ⟨S28x8, .i32⟩
  | 82 => ⟨S_, .i32⟩
  | 83 => ⟨S28x8, .i32⟩
  | 84 => ⟨S28x8, .i32⟩
  | 85 => ⟨S_, .i32⟩
  | 86 => ⟨S28x8, .i32⟩
  | 87 => ⟨S28x8, .i1⟩
  | 88 => ⟨S_, .i32⟩
  | 89 => ⟨S28x8, .i32⟩
  | 90 => ⟨S28x8, .i32⟩
  | 91 => ⟨S28x8, .i32⟩
  | 92 => ⟨S28x8x1, .i32⟩
  | 93 => ⟨S5x28x8x20, .f32⟩
  | 94 => ⟨S1x28x8x1, .i1⟩
  | 95 => ⟨S_, .f32⟩
  | 96 => ⟨S_, .f32⟩
  | 97 => ⟨S5x28x8x20, .i1⟩
  | 98 => ⟨S5x28x8x20, .f32⟩
  | 99 => ⟨S5x28x8x20, .f32⟩
  | 100 => ⟨S140x160, .f32⟩
  | 101 => ⟨S_, .i32⟩
  | 102 => ⟨S1x8, .i32⟩
  | 103 => ⟨S1x8, .i32⟩
  | 104 => ⟨S_, .i32⟩
  | 105 => ⟨S1x8, .i32⟩
  | 106 => ⟨S1x8, .i32⟩
  | 107 => ⟨S28x8, .i32⟩
  | 108 => ⟨S28x8, .i32⟩
  | 109 => ⟨S28x8, .i32⟩
  | 110 => ⟨S_, .i32⟩
  | 111 => ⟨S28x8, .i32⟩
  | 112 => ⟨S28x8, .i1⟩
  | 113 => ⟨S_, .i32⟩
  | 114 => ⟨S28x8, .i32⟩
  | 115 => ⟨S28x8, .i1⟩
  | 116 => ⟨S28x8, .i1⟩
  | 117 => ⟨S_, .i32⟩
  | 118 => ⟨S_, .i32⟩
  | 119 => ⟨S_, .i32⟩
  | 120 => ⟨S28x8, .i32⟩
  | 121 => ⟨S28x8, .i32⟩
  | 122 => ⟨S_, .i32⟩
  | 123 => ⟨S28x8, .i32⟩
  | 124 => ⟨S28x8, .i32⟩
  | 125 => ⟨S_, .i32⟩
  | 126 => ⟨S28x8, .i32⟩
  | 127 => ⟨S28x8, .i1⟩
  | _ => ⟨S8192x1x28x28, .f32⟩

abbrev hbmTy0_1 (i : Nat) : BufTy := match i % 128 with
  | 0 => ⟨S_, .i32⟩
  | 1 => ⟨S28x8, .i32⟩
  | 2 => ⟨S28x8, .i32⟩
  | 3 => ⟨S28x8, .i32⟩
  | 4 => ⟨S28x8x1, .i32⟩
  | 5 => ⟨S5x28x8x20, .f32⟩
  | 6 => ⟨S1x28x8x1, .i1⟩
  | 7 => ⟨S_, .f32⟩
  | 8 => ⟨S_, .f32⟩
  | 9 => ⟨S5x28x8x20, .i1⟩
  | 10 => ⟨S5x28x8x20, .f32⟩
  | 11 => ⟨S5x28x8x20, .f32⟩
  | 12 => ⟨S140x160, .f32⟩
  | 13 => ⟨S1x140x160, .f32⟩
  | 14 => ⟨S1x140x160, .f32⟩
  | 15 => ⟨S1x140x160, .f32⟩
  | 16 => ⟨S3x140x160, .f32⟩
  | 17 => ⟨S1x1x1x20, .f32⟩
  | 18 => ⟨S1x1x8x20, .f32⟩
  | 19 => ⟨S1x160, .f32⟩
  | 20 => ⟨S5x5x20x50, .bf16⟩
  | 21 => ⟨S8, .i32⟩
  | 22 => ⟨S8x1, .i32⟩
  | 23 => ⟨S4, .i32⟩
  | 24 => ⟨S1x4, .i32⟩
  | 25 => ⟨S8x4, .i32⟩
  | 26 => ⟨S8x4, .i32⟩
  | 27 => ⟨S8x4, .i32⟩
  | 28 => ⟨S_, .i32⟩
  | 29 => ⟨S8x4, .i32⟩
  | 30 => ⟨S8x4, .i1⟩
  | 31 => ⟨S_, .i32⟩
  | 32 => ⟨S8x4, .i32⟩
  | 33 => ⟨S8x4, .i1⟩
  | 34 => ⟨S8x4, .i1⟩
  | 35 => ⟨S_, .i32⟩
  | 36 => ⟨S_, .i32⟩
  | 37 => ⟨S_, .i32⟩
  | 38 => ⟨S8x4, .i32⟩
  | 39 => ⟨S8x4, .i32⟩
  | 40 => ⟨S_, .i32⟩
  | 41 => ⟨S8x4, .i32⟩
  | 42 => ⟨S8x4, .i32⟩
  | 43 => ⟨S_, .i32⟩
  | 44 => ⟨S8x4, .i32⟩
  | 45 => ⟨S8x4, .i1⟩
  | 46 => ⟨S_, .i32⟩
  | 47 => ⟨S8x4, .i32⟩
  | 48 => ⟨S8x4, .i32⟩
  | 49 => ⟨S8x4, .i32⟩
  | 50 => ⟨S8x4x1, .i32⟩
  | 51 => ⟨S5x8x4x20x50, .bf16⟩
  | 52 => ⟨S1x8x4x1x1, .i1⟩
  | 53 => ⟨S_, .bf16⟩
  | 54 => ⟨S5x8x4x20x50, .i1⟩
  | 55 => ⟨S5x8x4x20x50, .bf16⟩
  | 56 => ⟨S5x8x4x20x50, .bf16⟩
  | 57 => ⟨S5x8x20x4x50, .bf16⟩
  | 58 => ⟨S5x160x200, .bf16⟩
  | 59 => ⟨S1x1x1x50, .f32⟩
  | 60 => ⟨S1x1x4x50, .f32⟩
  | 61 => ⟨S1x200, .f32⟩
  | 62 => ⟨S1x1x1x50, .f32⟩
  | 63 => ⟨S1x1x4x50, .f32⟩
  | 64 => ⟨S1x200, .f32⟩
  | 65 => ⟨S8192x10, .f32⟩
  | _ => ⟨S8192x1x28x28, .f32⟩

abbrev hbmTy (i : Nat) : BufTy := match i / 128 with
  | 0 => hbmTy0_0 i
  | 1 => hbmTy0_1 i
  | _ => ⟨S8192x1x28x28, .f32⟩

abbrev bufTy : (tb : Table) → Fin (tcTables nBuf tb) → BufTy
  | .hbm, ⟨i, _⟩ => hbmTy i
  | .local _ .vmem, ⟨0, _⟩ => ⟨S256x28x28, .f32⟩
  | .local _ .vmem, ⟨1, _⟩ => ⟨S256x28x28, .f32⟩
  | .local _ .vmem, ⟨2, _⟩ => ⟨S3x140x160, .f32⟩
  | .local _ .vmem, ⟨3, _⟩ => ⟨S1x160, .f32⟩
  | .local _ .vmem, ⟨4, _⟩ => ⟨S5x160x200, .bf16⟩
  | .local _ .vmem, ⟨5, _⟩ => ⟨S1x200, .f32⟩
  | .local _ .vmem, ⟨6, _⟩ => ⟨S1x200, .f32⟩
  | .local _ .vmem, ⟨7, _⟩ => ⟨S200x500, .bf16⟩
  | .local _ .vmem, ⟨8, _⟩ => ⟨S1x500, .f32⟩
  | .local _ .vmem, ⟨9, _⟩ => ⟨S1x500, .f32⟩
  | .local _ .vmem, ⟨10, _⟩ => ⟨S500x10, .bf16⟩
  | .local _ .vmem, ⟨11, _⟩ => ⟨S1x10, .f32⟩
  | .local _ .vmem, ⟨12, _⟩ => ⟨S256x10, .f32⟩
  | .local _ .vmem, ⟨13, _⟩ => ⟨S256x10, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_v9 : Ref sig .tc := ⟨.hbm, 22, rfl⟩
abbrev main_v10 : Ref sig .tc := ⟨.hbm, 23, rfl⟩
abbrev main_c_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_c_1 : Ref sig .tc := ⟨.hbm, 30, rfl⟩
abbrev main_v16 : Ref sig .tc := ⟨.hbm, 31, rfl⟩
abbrev main_v17 : Ref sig .tc := ⟨.hbm, 32, rfl⟩
abbrev main_c_2 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_c_3 : Ref sig .tc := ⟨.hbm, 37, rfl⟩
abbrev main_c_4 : Ref sig .tc := ⟨.hbm, 38, rfl⟩
abbrev main_call0_v0 : Ref sig .tc := ⟨.hbm, 39, rfl⟩
abbrev main_call0_v1 : Ref sig .tc := ⟨.hbm, 40, rfl⟩
abbrev main_call0_v2 : Ref sig .tc := ⟨.hbm, 41, rfl⟩
abbrev main_call0_v3 : Ref sig .tc := ⟨.hbm, 42, rfl⟩
abbrev main_call0_v4 : Ref sig .tc := ⟨.hbm, 43, rfl⟩
abbrev main_v21 : Ref sig .tc := ⟨.hbm, 44, rfl⟩
abbrev main_c_5 : Ref sig .tc := ⟨.hbm, 45, rfl⟩
abbrev main_v22 : Ref sig .tc := ⟨.hbm, 46, rfl⟩
abbrev main_v23 : Ref sig .tc := ⟨.hbm, 47, rfl⟩
abbrev main_c_6 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v30 : Ref sig .tc := ⟨.hbm, 59, rfl⟩
abbrev main_v31 : Ref sig .tc := ⟨.hbm, 60, rfl⟩
abbrev main_c_7 : Ref sig .tc := ⟨.hbm, 61, rfl⟩
abbrev main_v32 : Ref sig .tc := ⟨.hbm, 62, rfl⟩
abbrev main_v33 : Ref sig .tc := ⟨.hbm, 63, rfl⟩
abbrev main_c_8 : Ref sig .tc := ⟨.hbm, 64, rfl⟩
abbrev main_v34 : Ref sig .tc := ⟨.hbm, 65, rfl⟩
abbrev main_v35 : Ref sig .tc := ⟨.hbm, 66, rfl⟩
abbrev main_v36 : Ref sig .tc := ⟨.hbm, 67, rfl⟩
abbrev main_v37 : Ref sig .tc := ⟨.hbm, 68, rfl⟩
abbrev main_v38 : Ref sig .tc := ⟨.hbm, 69, rfl⟩
abbrev main_c_9 : Ref sig .tc := ⟨.hbm, 70, rfl⟩
abbrev main_v39 : Ref sig .tc := ⟨.hbm, 71, rfl⟩
abbrev main_v40 : Ref sig .tc := ⟨.hbm, 72, rfl⟩
abbrev main_c_10 : Ref sig .tc := ⟨.hbm, 73, rfl⟩
abbrev main_v41 : Ref sig .tc := ⟨.hbm, 74, rfl⟩
abbrev main_v42 : Ref sig .tc := ⟨.hbm, 75, rfl⟩
abbrev main_v43 : Ref sig .tc := ⟨.hbm, 76, rfl⟩
abbrev main_c_11 : Ref sig .tc := ⟨.hbm, 77, rfl⟩
abbrev main_c_12 : Ref sig .tc := ⟨.hbm, 78, rfl⟩
abbrev main_call2_v0 : Ref sig .tc := ⟨.hbm, 79, rfl⟩
abbrev main_call2_v1 : Ref sig .tc := ⟨.hbm, 80, rfl⟩
abbrev main_call2_v2 : Ref sig .tc := ⟨.hbm, 81, rfl⟩
abbrev main_call2_v3 : Ref sig .tc := ⟨.hbm, 82, rfl⟩
abbrev main_call2_v4 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_c_14 : Ref sig .tc := ⟨.hbm, 88, rfl⟩
abbrev main_v47 : Ref sig .tc := ⟨.hbm, 89, rfl⟩
abbrev main_v48 : Ref sig .tc := ⟨.hbm, 90, rfl⟩
abbrev main_v49 : Ref sig .tc := ⟨.hbm, 91, rfl⟩
abbrev main_v50 : Ref sig .tc := ⟨.hbm, 92, rfl⟩
abbrev main_v51 : Ref sig .tc := ⟨.hbm, 93, rfl⟩
abbrev main_v52 : Ref sig .tc := ⟨.hbm, 94, rfl⟩
abbrev main_cst_15 : Ref sig .tc := ⟨.hbm, 95, rfl⟩
abbrev main_call3_v0 : Ref sig .tc := ⟨.hbm, 96, rfl⟩
abbrev main_call3_v1 : Ref sig .tc := ⟨.hbm, 97, rfl⟩
abbrev main_call3_v2 : Ref sig .tc := ⟨.hbm, 98, rfl⟩
abbrev main_v53 : Ref sig .tc := ⟨.hbm, 99, rfl⟩
abbrev main_v54 : Ref sig .tc := ⟨.hbm, 100, rfl⟩
abbrev main_c_16 : Ref sig .tc := ⟨.hbm, 101, rfl⟩
abbrev main_v55 : Ref sig .tc := ⟨.hbm, 102, rfl⟩
abbrev main_v56 : Ref sig .tc := ⟨.hbm, 103, rfl⟩
abbrev main_c_17 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_c_18 : Ref sig .tc := ⟨.hbm, 110, rfl⟩
abbrev main_v62 : Ref sig .tc := ⟨.hbm, 111, rfl⟩
abbrev main_v63 : Ref sig .tc := ⟨.hbm, 112, rfl⟩
abbrev main_c_19 : Ref sig .tc := ⟨.hbm, 113, rfl⟩
abbrev main_v64 : Ref sig .tc := ⟨.hbm, 114, rfl⟩
abbrev main_v65 : Ref sig .tc := ⟨.hbm, 115, rfl⟩
abbrev main_v66 : Ref sig .tc := ⟨.hbm, 116, rfl⟩
abbrev main_c_20 : Ref sig .tc := ⟨.hbm, 117, rfl⟩
abbrev main_c_21 : Ref sig .tc := ⟨.hbm, 118, rfl⟩
abbrev main_call4_v0 : Ref sig .tc := ⟨.hbm, 119, rfl⟩
abbrev main_call4_v1 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_v67 : Ref sig .tc := ⟨.hbm, 124, rfl⟩
abbrev main_c_22 : Ref sig .tc := ⟨.hbm, 125, rfl⟩
abbrev main_v68 : Ref sig .tc := ⟨.hbm, 126, rfl⟩
abbrev main_v69 : Ref sig .tc := ⟨.hbm, 127, rfl⟩
abbrev main_c_23 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_cst_24 : Ref sig .tc := ⟨.hbm, 135, rfl⟩
abbrev main_call5_v0 : Ref sig .tc := ⟨.hbm, 136, rfl⟩
abbrev main_call5_v1 : Ref sig .tc := ⟨.hbm, 137, rfl⟩
abbrev main_call5_v2 : Ref sig .tc := ⟨.hbm, 138, rfl⟩
abbrev main_v76 : Ref sig .tc := ⟨.hbm, 139, rfl⟩
abbrev main_v77 : Ref sig .tc := ⟨.hbm, 140, rfl⟩
abbrev main_v78 : Ref sig .tc := ⟨.hbm, 141, rfl⟩
abbrev main_v79 : Ref sig .tc := ⟨.hbm, 142, rfl⟩
abbrev main_v80 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩
abbrev main_v85 : Ref sig .tc := ⟨.hbm, 148, rfl⟩
abbrev main_v86 : Ref sig .tc := ⟨.hbm, 149, rfl⟩
abbrev main_v87 : Ref sig .tc := ⟨.hbm, 150, rfl⟩
abbrev main_v88 : Ref sig .tc := ⟨.hbm, 151, rfl⟩
abbrev main_v89 : Ref sig .tc := ⟨.hbm, 152, rfl⟩
abbrev main_v90 : Ref sig .tc := ⟨.hbm, 153, rfl⟩
abbrev main_v91 : Ref sig .tc := ⟨.hbm, 154, rfl⟩
abbrev main_v92 : Ref sig .tc := ⟨.hbm, 155, rfl⟩
abbrev main_c_25 : Ref sig .tc := ⟨.hbm, 156, rfl⟩
abbrev main_v93 : Ref sig .tc := ⟨.hbm, 157, rfl⟩
abbrev main_v94 : Ref sig .tc := ⟨.hbm, 158, rfl⟩
abbrev main_c_26 : Ref sig .tc := ⟨.hbm, 159, rfl⟩
abbrev main_v95 : Ref sig .tc := ⟨.hbm, 160, rfl⟩
abbrev main_v96 : Ref sig .tc := ⟨.hbm, 161, rfl⟩
abbrev main_v97 : Ref sig .tc := ⟨.hbm, 162, rfl⟩
abbrev main_c_27 : Ref sig .tc := ⟨.hbm, 163, rfl⟩
abbrev main_c_28 : Ref sig .tc := ⟨.hbm, 164, rfl⟩
abbrev main_call6_v0 : Ref sig .tc := ⟨.hbm, 165, rfl⟩
abbrev main_call6_v1 : Ref sig .tc := ⟨.hbm, 166, rfl⟩
abbrev main_call6_v2 : Ref sig .tc := ⟨.hbm, 167, rfl⟩
abbrev main_call6_v3 : Ref sig .tc := ⟨.hbm, 168, rfl⟩
abbrev main_call6_v4 : Ref sig .tc := ⟨.hbm, 169, rfl⟩
abbrev main_v98 : Ref sig .tc := ⟨.hbm, 170, rfl⟩
abbrev main_c_29 : Ref sig .tc := ⟨.hbm, 171, rfl⟩
abbrev main_v99 : Ref sig .tc := ⟨.hbm, 172, rfl⟩
abbrev main_v100 : Ref sig .tc := ⟨.hbm, 173, rfl⟩
abbrev main_c_30 : Ref sig .tc := ⟨.hbm, 174, rfl⟩
abbrev main_v101 : Ref sig .tc := ⟨.hbm, 175, rfl⟩
abbrev main_v102 : Ref sig .tc := ⟨.hbm, 176, rfl⟩
abbrev main_v103 : Ref sig .tc := ⟨.hbm, 177, rfl⟩
abbrev main_v104 : Ref sig .tc := ⟨.hbm, 178, rfl⟩
abbrev main_v105 : Ref sig .tc := ⟨.hbm, 179, rfl⟩
abbrev main_v106 : Ref sig .tc := ⟨.hbm, 180, rfl⟩
abbrev main_cst_31 : Ref sig .tc := ⟨.hbm, 181, rfl⟩
abbrev main_call7_v0 : Ref sig .tc := ⟨.hbm, 182, rfl⟩
abbrev main_call7_v1 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_v114 : Ref sig .tc := ⟨.hbm, 191, rfl⟩
abbrev main_v115 : Ref sig .tc := ⟨.hbm, 192, rfl⟩
abbrev main_v116 : Ref sig .tc := ⟨.hbm, 193, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg11_0 : Ref sig .tc := ⟨.vmem, 12, rfl⟩
abbrev cc0_stg11_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem11_0 : DmaSem sig := 12
abbrev cc0_sem11_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x140x160 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x160 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S5x160x200 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x200 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x200 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S200x500 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x500 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x500 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S500x10 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x10 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x10 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  shapeCasts_S8192x1x28x28_S8192x28x28 : S8192x1x28x28.ShapeCasts S8192x28x28
  shapeCasts_S25x1x20_S5x5x20 : S25x1x20.ShapeCasts S5x5x20
  shapeCasts_S1x20_S1x1x20 : S1x20.ShapeCasts S1x1x20
  bcast_S1x1x20_S5x5x20_0_1_2 : S1x1x20.BroadcastsInDim S5x5x20 (![0, 1, 2] : Fin 3 → Fin S5x5x20.rank)
  bcast_S28_S28x1_0 : S28.BroadcastsInDim S28x1 (![0] : Fin 1 → Fin S28x1.rank)
  bcast_S8_S1x8_1 : S8.BroadcastsInDim S1x8 (![1] : Fin 1 → Fin S1x8.rank)
  bcast_S_S1x8 : S_.BroadcastsInDim S1x8 (![] : Fin 0 → Fin S1x8.rank)
  bcast_S28x1_S28x8_0_1 : S28x1.BroadcastsInDim S28x8 (![0, 1] : Fin 2 → Fin S28x8.rank)
  bcast_S1x8_S28x8_0_1 : S1x8.BroadcastsInDim S28x8 (![0, 1] : Fin 2 → Fin S28x8.rank)
  bcast_S_S28x8 : S_.BroadcastsInDim S28x8 (![] : Fin 0 → Fin S28x8.rank)
  bcast_S28x8_S28x8x1_0_1 : S28x8.BroadcastsInDim S28x8x1 (![0, 1] : Fin 2 → Fin S28x8x1.rank)
  bcast_S28x8_S1x28x8x1_1_2 : S28x8.BroadcastsInDim S1x28x8x1 (![1, 2] : Fin 2 → Fin S1x28x8x1.rank)
  bcast_S1x28x8x1_S5x28x8x20_0_1_2_3 : S1x28x8x1.BroadcastsInDim S5x28x8x20 (![0, 1, 2, 3] : Fin 4 → Fin S5x28x8x20.rank)
  bcast_S_S5x28x8x20 : S_.BroadcastsInDim S5x28x8x20 (![] : Fin 0 → Fin S5x28x8x20.rank)
  shapeCasts_S5x28x8x20_S140x160 : S5x28x8x20.ShapeCasts S140x160
  bcast_S140x160_S1x140x160_1_2 : S140x160.BroadcastsInDim S1x140x160 (![1, 2] : Fin 2 → Fin S1x140x160.rank)
  concatenates_S1x140x160_S1x140x160_S1x140x160_S3x140x160_d0 : Shape.Concatenates [S1x140x160, S1x140x160, S1x140x160] S3x140x160 0
  shapeCasts_S1x20_S1x1x1x20 : S1x20.ShapeCasts S1x1x1x20
  bcast_S1x1x1x20_S1x1x8x20_0_1_2_3 : S1x1x1x20.BroadcastsInDim S1x1x8x20 (![0, 1, 2, 3] : Fin 4 → Fin S1x1x8x20.rank)
  shapeCasts_S1x1x8x20_S1x160 : S1x1x8x20.ShapeCasts S1x160
  shapeCasts_S25x20x50_S5x5x20x50 : S25x20x50.ShapeCasts S5x5x20x50
  bcast_S8_S8x1_0 : S8.BroadcastsInDim S8x1 (![0] : Fin 1 → Fin S8x1.rank)
  bcast_S4_S1x4_1 : S4.BroadcastsInDim S1x4 (![1] : Fin 1 → Fin S1x4.rank)
  bcast_S8x1_S8x4_0_1 : S8x1.BroadcastsInDim S8x4 (![0, 1] : Fin 2 → Fin S8x4.rank)
  bcast_S1x4_S8x4_0_1 : S1x4.BroadcastsInDim S8x4 (![0, 1] : Fin 2 → Fin S8x4.rank)
  bcast_S_S8x4 : S_.BroadcastsInDim S8x4 (![] : Fin 0 → Fin S8x4.rank)
  bcast_S8x4_S8x4x1_0_1 : S8x4.BroadcastsInDim S8x4x1 (![0, 1] : Fin 2 → Fin S8x4x1.rank)
  bcast_S8x4_S1x8x4x1x1_1_2 : S8x4.BroadcastsInDim S1x8x4x1x1 (![1, 2] : Fin 2 → Fin S1x8x4x1x1.rank)
  bcast_S1x8x4x1x1_S5x8x4x20x50_0_1_2_3_4 : S1x8x4x1x1.BroadcastsInDim S5x8x4x20x50 (![0, 1, 2, 3, 4] : Fin 5 → Fin S5x8x4x20x50.rank)
  bcast_S_S5x8x4x20x50 : S_.BroadcastsInDim S5x8x4x20x50 (![] : Fin 0 → Fin S5x8x4x20x50.rank)
  transposes_S5x8x4x20x50_S5x8x20x4x50_0_1_3_2_4 : S5x8x4x20x50.Transposes [0, 1, 3, 2, 4] S5x8x20x4x50
  shapeCasts_S5x8x20x4x50_S5x160x200 : S5x8x20x4x50.ShapeCasts S5x160x200
  shapeCasts_S1x50_S1x1x1x50 : S1x50.ShapeCasts S1x1x1x50
  bcast_S1x1x1x50_S1x1x4x50_0_1_2_3 : S1x1x1x50.BroadcastsInDim S1x1x4x50 (![0, 1, 2, 3] : Fin 4 → Fin S1x1x4x50.rank)
  shapeCasts_S1x1x4x50_S1x200 : S1x1x4x50.ShapeCasts S1x200
  inb_S256x28x28_S256x28x28_0_0_0 : ∀ a, (![0, 0, 0] : Fin 3 → Nat) a + S256x28x28.size a ≤ S256x28x28.size a
  h_S256x28x28 : 0 < S256x28x28.numel
  shapeCasts_S256x28x28_S256x28x28 : S256x28x28.ShapeCasts S256x28x28
  slices_S256x28x28_o0_0_0_S256x24x28 : S256x28x28.Slices ![0, 0, 0] S256x24x28
  shapeCasts_S256x24x28_S6144x28 : S256x24x28.ShapeCasts S6144x28
  slices_S256x28x28_o0_1_0_S256x24x28 : S256x28x28.Slices ![0, 1, 0] S256x24x28
  slices_S256x28x28_o0_2_0_S256x24x28 : S256x28x28.Slices ![0, 2, 0] S256x24x28
  slices_S256x28x28_o0_3_0_S256x24x28 : S256x28x28.Slices ![0, 3, 0] S256x24x28
  slices_S256x28x28_o0_4_0_S256x24x28 : S256x28x28.Slices ![0, 4, 0] S256x24x28
  concatenates_S6144x28_S6144x28_S6144x28_S6144x28_S6144x28_S6144x140_d1 : Shape.Concatenates [S6144x28, S6144x28, S6144x28, S6144x28, S6144x28] S6144x140 1
  inb_S1x160_S1x160_0_0 : ∀ a, (![0, 0] : Fin 2 → Nat) a + S1x160.size a ≤ S1x160.size a
  h_S1x160 : 0 < S1x160.numel
  inb_S3x140x160_S1x140x160_0_0_0 : ∀ a, (![0, 0, 0] : Fin 3 → Nat) a + S1x140x160.size a ≤ S3x140x160.size a
  h_S1x140x160 : 0 < S1x140x160.numel
  shapeCasts_S1x140x160_S140x160 : S1x140x160.ShapeCasts S140x160
  broadcasts_S1x160_S6144x160 : S1x160.Broadcasts S6144x160
  inb_S3x140x160_S1x140x160_1_0_0 : ∀ a, (![1, 0, 0] : Fin 3 → Nat) a + S1x140x160.size a ≤ S3x140x160.size a
  inb_S3x140x160_S1x140x160_2_0_0 : ∀ a, (![2, 0, 0] : Fin 3 → Nat) a + S1x140x160.size a ≤ S3x140x160.size a
  bitsLt_bf16_f32 : FTy.bits .bf16 < FTy.bits .f32
  shapeCasts_S6144x160_S2048x3x160 : S6144x160.ShapeCasts S2048x3x160
  reduces_S2048x3x160_S2048x160 : S2048x3x160.Reduces [1] S2048x160
  shapeCasts_S2048x160_S256x8x160 : S2048x160.ShapeCasts S256x8x160
  slices_S256x8x160_o0_0_0_S256x4x160 : S256x8x160.Slices ![0, 0, 0] S256x4x160
  shapeCasts_S256x4x160_S1024x160 : S256x4x160.ShapeCasts S1024x160
  inb_S5x160x200_S1x160x200_0_0_0 : ∀ a, (![0, 0, 0] : Fin 3 → Nat) a + S1x160x200.size a ≤ S5x160x200.size a
  h_S1x160x200 : 0 < S1x160x200.numel
  shapeCasts_S1x160x200_S160x200 : S1x160x200.ShapeCasts S160x200
  slices_S256x8x160_o0_1_0_S256x4x160 : S256x8x160.Slices ![0, 1, 0] S256x4x160
  inb_S5x160x200_S1x160x200_1_0_0 : ∀ a, (![1, 0, 0] : Fin 3 → Nat) a + S1x160x200.size a ≤ S5x160x200.size a
  slices_S256x8x160_o0_2_0_S256x4x160 : S256x8x160.Slices ![0, 2, 0] S256x4x160
  inb_S5x160x200_S1x160x200_2_0_0 : ∀ a, (![2, 0, 0] : Fin 3 → Nat) a + S1x160x200.size a ≤ S5x160x200.size a
  slices_S256x8x160_o0_3_0_S256x4x160 : S256x8x160.Slices ![0, 3, 0] S256x4x160
  inb_S5x160x200_S1x160x200_3_0_0 : ∀ a, (![3, 0, 0] : Fin 3 → Nat) a + S1x160x200.size a ≤ S5x160x200.size a
  slices_S256x8x160_o0_4_0_S256x4x160 : S256x8x160.Slices ![0, 4, 0] S256x4x160
  inb_S5x160x200_S1x160x200_4_0_0 : ∀ a, (![4, 0, 0] : Fin 3 → Nat) a + S1x160x200.size a ≤ S5x160x200.size a
  inb_S1x200_S1x200_0_0 : ∀ a, (![0, 0] : Fin 2 → Nat) a + S1x200.size a ≤ S1x200.size a
  h_S1x200 : 0 < S1x200.numel
  broadcasts_S1x200_S1024x200 : S1x200.Broadcasts S1024x200
  slices_S1024x200_o0_0_S1024x50 : S1024x200.Slices ![0, 0] S1024x50
  slices_S1024x200_o0_50_S1024x50 : S1024x200.Slices ![0, 50] S1024x50
  slices_S1024x200_o0_100_S1024x50 : S1024x200.Slices ![0, 100] S1024x50
  slices_S1024x200_o0_150_S1024x50 : S1024x200.Slices ![0, 150] S1024x50
  concatenates_S1024x50_S1024x50_S1024x100_d1 : Shape.Concatenates [S1024x50, S1024x50] S1024x100 1
  shapeCasts_S1024x100_S512x2x100 : S1024x100.ShapeCasts S512x2x100
  reduces_S512x2x100_S512x100 : S512x2x100.Reduces [1] S512x100
  shapeCasts_S512x100_S256x2x100 : S512x100.ShapeCasts S256x2x100
  slices_S256x2x100_o0_0_0_S256x1x100 : S256x2x100.Slices ![0, 0, 0] S256x1x100
  shapeCasts_S256x1x100_S256x100 : S256x1x100.ShapeCasts S256x100
  slices_S256x2x100_o0_1_0_S256x1x100 : S256x2x100.Slices ![0, 1, 0] S256x1x100
  concatenates_S256x100_S256x100_S256x200_d1 : Shape.Concatenates [S256x100, S256x100] S256x200 1
  inb_S200x500_S200x500_0_0 : ∀ a, (![0, 0] : Fin 2 → Nat) a + S200x500.size a ≤ S200x500.size a
  h_S200x500 : 0 < S200x500.numel
  inb_S1x500_S1x500_0_0 : ∀ a, (![0, 0] : Fin 2 → Nat) a + S1x500.size a ≤ S1x500.size a
  h_S1x500 : 0 < S1x500.numel
  broadcasts_S1x500_S256x500 : S1x500.Broadcasts S256x500
  inb_S500x10_S500x10_0_0 : ∀ a, (![0, 0] : Fin 2 → Nat) a + S500x10.size a ≤ S500x10.size a
  h_S500x10 : 0 < S500x10.numel
  inb_S1x10_S1x10_0_0 : ∀ a, (![0, 0] : Fin 2 → Nat) a + S1x10.size a ≤ S1x10.size a
  h_S1x10 : 0 < S1x10.numel
  broadcasts_S1x10_S256x10 : S1x10.Broadcasts S256x10
  inb_S256x10_S256x10_0_0 : ∀ a, (![0, 0] : Fin 2 → Nat) a + S256x10.size a ≤ S256x10.size a
  h_S256x10 : 0 < S256x10.numel
  gather_S5x5x20_S28x8x1_S5x28x8x20_03_1_n_n_1_2_5120_wf : GatherDims.WF S5x5x20 S28x8x1 S5x28x8x20 [0, 3] [1] [] [1] [] 2 ![5, 1, 20]
  gather_S5x5x20x50_S8x4x1_S5x8x4x20x50_034_1_n_n_1_2_512050_wf : GatherDims.WF S5x5x20x50 S8x4x1 S5x8x4x20x50 [0, 3, 4] [1] [] [1] [] 2 ![5, 1, 20, 50]
  dot_S6144x140_S140x160_S6144x160_1_0_0_1_n_n_wf : DotDims.WF S6144x140 S140x160 S6144x160 [1] [0] [0] [1] [] []
  dot_S1024x160_S160x200_S1024x200_1_0_0_1_n_n_wf : DotDims.WF S1024x160 S160x200 S1024x200 [1] [0] [0] [1] [] []
  dot_S256x200_S200x500_S256x500_1_0_0_1_n_n_wf : DotDims.WF S256x200 S200x500 S256x500 [1] [0] [0] [1] [] []
  dot_S256x500_S500x10_S256x10_1_0_0_1_n_n_wf : DotDims.WF S256x500 S500x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x28x28.size a ≤ S8192x28x28.size a
  hwx0_0 : ∀ i : grid0.Coords, EltTy.bits .f32 = 32 ∨ (Rect.block (s := S8192x28x28) S256x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x140x160.size a ≤ S3x140x160.size a
  hwx0_1 : ∀ i : grid0.Coords, EltTy.bits .f32 = 32 ∨ (Rect.block (s := S3x140x160) S3x140x160.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x160.size a ≤ S1x160.size a
  hwx0_2 : ∀ i : grid0.Coords, EltTy.bits .f32 = 32 ∨ (Rect.block (s := S1x160) S1x160.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S5x160x200.size a ≤ S5x160x200.size a
  hwx0_3 : ∀ i : grid0.Coords, EltTy.bits .bf16 = 32 ∨ (Rect.block (s := S5x160x200) S5x160x200.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x200.size a ≤ S1x200.size a
  hwx0_4 : ∀ i : grid0.Coords, EltTy.bits .f32 = 32 ∨ (Rect.block (s := S1x200) S1x200.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x200.size a ≤ S1x200.size a
  hwx0_5 : ∀ i : grid0.Coords, EltTy.bits .f32 = 32 ∨ (Rect.block (s := S1x200) S1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S200x500.size a ≤ S200x500.size a
  hwx0_6 : ∀ i : grid0.Coords, EltTy.bits .bf16 = 32 ∨ (Rect.block (s := S200x500) S200x500.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x500.size a ≤ S1x500.size a
  hwx0_7 : ∀ i : grid0.Coords, EltTy.bits .f32 = 32 ∨ (Rect.block (s := S1x500) S1x500.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x500.size a ≤ S1x500.size a
  hwx0_8 : ∀ i : grid0.Coords, EltTy.bits .f32 = 32 ∨ (Rect.block (s := S1x500) S1x500.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S500x10.size a ≤ S500x10.size a
  hwx0_9 : ∀ i : grid0.Coords, EltTy.bits .bf16 = 32 ∨ (Rect.block (s := S500x10) S500x10.size (cc0_transform_9 i) (hinb0_9 i)).WholeWords (EltTy.packing .bf16)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S1x10.size a ≤ S1x10.size a
  hwx0_10 : ∀ i : grid0.Coords, EltTy.bits .f32 = 32 ∨ (Rect.block (s := S1x10) S1x10.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S256x10.size a ≤ S8192x10.size a
  hwx0_11 : ∀ i : grid0.Coords, EltTy.bits .f32 = 32 ∨ (Rect.block (s := S8192x10) S256x10.size (cc0_transform_11 i) (hinb0_11 i)).WholeWords (EltTy.packing .f32)

variable [Facts₀]

def gather_S5x5x20_S28x8x1_S5x28x8x20_03_1_n_n_1_2_5120 : GatherDims S5x5x20 S28x8x1 S5x28x8x20 where
  offsetDims := [0, 3]
  collapsedSliceDims := [1]
  operandBatchingDims := []
  startIndicesBatchingDims := []
  startIndexMap := [1]
  indexVectorDim := 2
  sliceSizes := ![5, 1, 20]
  wf := gather_S5x5x20_S28x8x1_S5x28x8x20_03_1_n_n_1_2_5120_wf
def gather_S5x5x20x50_S8x4x1_S5x8x4x20x50_034_1_n_n_1_2_512050 : GatherDims S5x5x20x50 S8x4x1 S5x8x4x20x50 where
  offsetDims := [0, 3, 4]
  collapsedSliceDims := [1]
  operandBatchingDims := []
  startIndicesBatchingDims := []
  startIndexMap := [1]
  indexVectorDim := 2
  sliceSizes := ![5, 1, 20, 50]
  wf := gather_S5x5x20x50_S8x4x1_S5x8x4x20x50_034_1_n_n_1_2_512050_wf
def dot_S6144x140_S140x160_S6144x160_1_0_0_1_n_n : DotDims S6144x140 S140x160 S6144x160 where
  lhsContracting := [1]
  rhsContracting := [0]
  lhsNonContracting := [0]
  rhsNonContracting := [1]
  lhsBatch := []
  rhsBatch := []
  wf := dot_S6144x140_S140x160_S6144x160_1_0_0_1_n_n_wf
def dot_S1024x160_S160x200_S1024x200_1_0_0_1_n_n : DotDims S1024x160 S160x200 S1024x200 where
  lhsContracting := [1]
  rhsContracting := [0]
  lhsNonContracting := [0]
  rhsNonContracting := [1]
  lhsBatch := []
  rhsBatch := []
  wf := dot_S1024x160_S160x200_S1024x200_1_0_0_1_n_n_wf
def dot_S256x200_S200x500_S256x500_1_0_0_1_n_n : DotDims S256x200 S200x500 S256x500 where
  lhsContracting := [1]
  rhsContracting := [0]
  lhsNonContracting := [0]
  rhsNonContracting := [1]
  lhsBatch := []
  rhsBatch := []
  wf := dot_S256x200_S200x500_S256x500_1_0_0_1_n_n_wf
def dot_S256x500_S500x10_S256x10_1_0_0_1_n_n : DotDims S256x500 S500x10 S256x10 where
  lhsContracting := [1]
  rhsContracting := [0]
  lhsNonContracting := [0]
  rhsNonContracting := [1]
  lhsBatch := []
  rhsBatch := []
  wf := dot_S256x500_S500x10_S256x10_1_0_0_1_n_n_wf

abbrev win0_0 : Pipeline.Window sig grid0 :=
  Pipeline.Window.ofSpec (Memref.whole main_v0) S256x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v81) S3x140x160.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v84) S1x160.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v109) S5x160x200.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v112) S1x200.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v115) S1x200.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S200x500.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1x500.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg9) S1x500.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_arg10) S500x10.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg11) S1x10.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v116) S256x10.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S8192x1x28x28 : Shape := ⟨4, ![8192, 1, 28, 28]⟩
abbrev S25x1x20 : Shape := ⟨3, ![25, 1, 20]⟩
abbrev S1x20 : Shape := ⟨2, ![1, 20]⟩
abbrev S25x20x50 : Shape := ⟨3, ![25, 20, 50]⟩
abbrev S1x50 : Shape := ⟨2, ![1, 50]⟩
abbrev S200x500 : Shape := ⟨2, ![200, 500]⟩
abbrev S1x500 : Shape := ⟨2, ![1, 500]⟩
abbrev S500x10 : Shape := ⟨2, ![500, 10]⟩
abbrev S1x10 : Shape := ⟨2, ![1, 10]⟩
abbrev S8192x28x28 : Shape := ⟨3, ![8192, 28, 28]⟩
abbrev S8192x8x8x20 : Shape := ⟨4, ![8192, 8, 8, 20]⟩
abbrev S8x28x28 : Shape := ⟨3, ![8, 28, 28]⟩
abbrev S8x8x8x20 : Shape := ⟨4, ![8, 8, 8, 20]⟩
abbrev S8x24x24x20 : Shape := ⟨4, ![8, 24, 24, 20]⟩
abbrev S8x24x24 : Shape := ⟨3, ![8, 24, 24]⟩
abbrev S1x1x20 : Shape := ⟨3, ![1, 1, 20]⟩
abbrev S20 : Shape := ⟨1, ![20]⟩
abbrev S8x24x24x1 : Shape := ⟨4, ![8, 24, 24, 1]⟩
abbrev S1x1x1x20 : Shape := ⟨4, ![1, 1, 1, 20]⟩
abbrev S64x3x24x20 : Shape := ⟨4, ![64, 3, 24, 20]⟩
abbrev S64x24x20 : Shape := ⟨3, ![64, 24, 20]⟩
abbrev S64x8x3x20 : Shape := ⟨4, ![64, 8, 3, 20]⟩
abbrev S64x8x20 : Shape := ⟨3, ![64, 8, 20]⟩
abbrev S8192x2x2x50 : Shape := ⟨4, ![8192, 2, 2, 50]⟩
abbrev S8x2x2x50 : Shape := ⟨4, ![8, 2, 2, 50]⟩
abbrev S128x50 : Shape := ⟨2, ![128, 50]⟩
abbrev S8x4x4x20 : Shape := ⟨4, ![8, 4, 4, 20]⟩
abbrev S128x20 : Shape := ⟨2, ![128, 20]⟩
abbrev S1x20x50 : Shape := ⟨3, ![1, 20, 50]⟩
abbrev S20x50 : Shape := ⟨2, ![20, 50]⟩
abbrev S8x4x4x50 : Shape := ⟨4, ![8, 4, 4, 50]⟩
abbrev S50 : Shape := ⟨1, ![50]⟩
abbrev S1x1x1x50 : Shape := ⟨4, ![1, 1, 1, 50]⟩
abbrev S16x2x4x50 : Shape := ⟨4, ![16, 2, 4, 50]⟩
abbrev S16x4x50 : Shape := ⟨3, ![16, 4, 50]⟩
abbrev S16x2x2x50 : Shape := ⟨4, ![16, 2, 2, 50]⟩
abbrev S16x2x50 : Shape := ⟨3, ![16, 2, 50]⟩
abbrev S8192x200 : Shape := ⟨2, ![8192, 200]⟩
abbrev S8192x10 : Shape := ⟨2, ![8192, 10]⟩
abbrev S8192x500 : Shape := ⟨2, ![8192, 500]⟩

abbrev nBuf : Space → Nat
  | .hbm => 17
  | .vmem => 21
  | .smem => 0
  | _ => 0

abbrev bufTy : (tb : Table) → Fin (tcTables nBuf tb) → BufTy
  | .hbm, ⟨0, _⟩ => ⟨S8192x1x28x28, .f32⟩
  | .hbm, ⟨1, _⟩ => ⟨S25x1x20, .f32⟩
  | .hbm, ⟨2, _⟩ => ⟨S1x20, .f32⟩
  | .hbm, ⟨3, _⟩ => ⟨S1x20, .f32⟩
  | .hbm, ⟨4, _⟩ => ⟨S25x20x50, .bf16⟩
  | .hbm, ⟨5, _⟩ => ⟨S1x50, .f32⟩
  | .hbm, ⟨6, _⟩ => ⟨S1x50, .f32⟩
  | .hbm, ⟨7, _⟩ => ⟨S200x500, .bf16⟩
  | .hbm, ⟨8, _⟩ => ⟨S1x500, .f32⟩
  | .hbm, ⟨9, _⟩ => ⟨S1x500, .f32⟩
  | .hbm, ⟨10, _⟩ => ⟨S500x10, .bf16⟩
  | .hbm, ⟨11, _⟩ => ⟨S1x10, .f32⟩
  | .hbm, ⟨12, _⟩ => ⟨S8192x28x28, .f32⟩
  | .hbm, ⟨13, _⟩ => ⟨S8192x8x8x20, .bf16⟩
  | .hbm, ⟨14, _⟩ => ⟨S8192x2x2x50, .bf16⟩
  | .hbm, ⟨15, _⟩ => ⟨S8192x200, .bf16⟩
  | .hbm, ⟨16, _⟩ => ⟨S8192x10, .f32⟩
  | .local _ .vmem, ⟨0, _⟩ => ⟨S8x28x28, .f32⟩
  | .local _ .vmem, ⟨1, _⟩ => ⟨S8x28x28, .f32⟩
  | .local _ .vmem, ⟨2, _⟩ => ⟨S25x1x20, .f32⟩
  | .local _ .vmem, ⟨3, _⟩ => ⟨S1x20, .f32⟩
  | .local _ .vmem, ⟨4, _⟩ => ⟨S1x20, .f32⟩
  | .local _ .vmem, ⟨5, _⟩ => ⟨S8x8x8x20, .bf16⟩
  | .local _ .vmem, ⟨6, _⟩ => ⟨S8x8x8x20, .bf16⟩
  | .local _ .vmem, ⟨7, _⟩ => ⟨S8x8x8x20, .bf16⟩
  | .local _ .vmem, ⟨8, _⟩ => ⟨S8x8x8x20, .bf16⟩
  | .local _ .vmem, ⟨9, _⟩ => ⟨S25x20x50, .bf16⟩
  | .local _ .vmem, ⟨10, _⟩ => ⟨S1x50, .f32⟩
  | .local _ .vmem, ⟨11, _⟩ => ⟨S1x50, .f32⟩
  | .local _ .vmem, ⟨12, _⟩ => ⟨S8x2x2x50, .bf16⟩
  | .local _ .vmem, ⟨13, _⟩ => ⟨S8x2x2x50, .bf16⟩
  | .local _ .vmem, ⟨14, _⟩ => ⟨S8192x200, .bf16⟩
  | .local _ .vmem, ⟨15, _⟩ => ⟨S200x500, .bf16⟩
  | .local _ .vmem, ⟨16, _⟩ => ⟨S1x500, .f32⟩
  | .local _ .vmem, ⟨17, _⟩ => ⟨S1x500, .f32⟩
  | .local _ .vmem, ⟨18, _⟩ => ⟨S500x10, .bf16⟩
  | .local _ .vmem, ⟨19, _⟩ => ⟨S1x10, .f32⟩
  | .local _ .vmem, ⟨20, _⟩ => ⟨S8192x10, .f32⟩
  | _, _ => ⟨S8192x1x28x28, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc2_stg0_0 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg4_0 : Ref sig .tc := ⟨.vmem, 18, rfl⟩
abbrev cc2_stg5_0 : Ref sig .tc := ⟨.vmem, 19, rfl⟩
abbrev cc2_stg6_0 : Ref sig .tc := ⟨.vmem, 20, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 7
abbrev cc1_sem0_1 : DmaSem sig := 8
abbrev cc1_sem1_0 : DmaSem sig := 9
abbrev cc1_sem2_0 : DmaSem sig := 10
abbrev cc1_sem3_0 : DmaSem sig := 11
abbrev cc1_sem4_0 : DmaSem sig := 12
abbrev cc1_sem4_1 : DmaSem sig := 13
abbrev cc2_sem0_0 : DmaSem sig := 14
abbrev cc2_sem1_0 : DmaSem sig := 15
abbrev cc2_sem2_0 : DmaSem sig := 16
abbrev cc2_sem3_0 : DmaSem sig := 17
abbrev cc2_sem4_0 : DmaSem sig := 18
abbrev cc2_sem5_0 : DmaSem sig := 19
abbrev cc2_sem6_0 : DmaSem sig := 20

abbrev nD : Nat := 1
abbrev τ : Topo := Topo.v7x

variable {F : FTy → Type} [FloatOps F]

abbrev grid0 : Pipeline.Grid := ⟨1, ![1024], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S8x28x28 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S25x1x20 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x20 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x20 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x8x8x20 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![1024], ![false]⟩

def cc1_transform_0 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage1_0 : Fin 2 → Memref sig .tc .vmem S8x8x8x20 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S25x20x50 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x50 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x50 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S8x2x2x50 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := .none

abbrev stage2_0 : Fin 1 → Memref sig .tc .vmem S8192x200 .bf16 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S200x500 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x500 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S1x500 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S500x10 .bf16 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev stage2_5 : Fin 1 → Memref sig .tc .vmem S1x10 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))

abbrev stage2_6 : Fin 1 → Memref sig .tc .vmem S8192x10 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))

class Facts₀ : Prop where
  shapeCasts_S8192x1x28x28_S8192x28x28 : S8192x1x28x28.ShapeCasts S8192x28x28
  inb_S8x28x28_S8x28x28_0_0_0 : ∀ a, (![0, 0, 0] : Fin 3 → Nat) a + S8x28x28.size a ≤ S8x28x28.size a
  h_S8x28x28 : 0 < S8x28x28.numel
  shapeCasts_S8x28x28_S8x28x28 : S8x28x28.ShapeCasts S8x28x28
  slices_S8x28x28_o0_0_0_S8x24x24 : S8x28x28.Slices ![0, 0, 0] S8x24x24
  inb_S25x1x20_S1x1x20_0_0_0 : ∀ a, (![0, 0, 0] : Fin 3 → Nat) a + S1x1x20.size a ≤ S25x1x20.size a
  h_S1x1x20 : 0 < S1x1x20.numel
  shapeCasts_S1x1x20_S1x20 : S1x1x20.ShapeCasts S1x20
  shapeCasts_S1x20_S20 : S1x20.ShapeCasts S20
  shapeCasts_S8x24x24_S8x24x24x1 : S8x24x24.ShapeCasts S8x24x24x1
  shapeCasts_S20_S1x1x1x20 : S20.ShapeCasts S1x1x1x20
  broadcasts_S8x24x24x1_S8x24x24x20 : S8x24x24x1.Broadcasts S8x24x24x20
  broadcasts_S1x1x1x20_S8x24x24x20 : S1x1x1x20.Broadcasts S8x24x24x20
  slices_S8x28x28_o0_0_1_S8x24x24 : S8x28x28.Slices ![0, 0, 1] S8x24x24
  inb_S25x1x20_S1x1x20_1_0_0 : ∀ a, (![1, 0, 0] : Fin 3 → Nat) a + S1x1x20.size a ≤ S25x1x20.size a
  slices_S8x28x28_o0_0_2_S8x24x24 : S8x28x28.Slices ![0, 0, 2] S8x24x24
  inb_S25x1x20_S1x1x20_2_0_0 : ∀ a, (![2, 0, 0] : Fin 3 → Nat) a + S1x1x20.size a ≤ S25x1x20.size a
  slices_S8x28x28_o0_0_3_S8x24x24 : S8x28x28.Slices ![0, 0, 3] S8x24x24
  inb_S25x1x20_S1x1x20_3_0_0 : ∀ a, (![3, 0, 0] : Fin 3 → Nat) a + S1x1x20.size a ≤ S25x1x20.size a
  slices_S8x28x28_o0_0_4_S8x24x24 : S8x28x28.Slices ![0, 0, 4] S8x24x24
  inb_S25x1x20_S1x1x20_4_0_0 : ∀ a, (![4, 0, 0] : Fin 3 → Nat) a + S1x1x20.size a ≤ S25x1x20.size a
  slices_S8x28x28_o0_1_0_S8x24x24 : S8x28x28.Slices ![0, 1, 0] S8x24x24
  inb_S25x1x20_S1x1x20_5_0_0 : ∀ a, (![5, 0, 0] : Fin 3 → Nat) a + S1x1x20.size a ≤ S25x1x20.size a
  slices_S8x28x28_o0_1_1_S8x24x24 : S8x28x28.Slices ![0, 1, 1] S8x24x24
  inb_S25x1x20_S1x1x20_6_0_0 : ∀ a, (![6, 0, 0] : Fin 3 → Nat) a + S1x1x20.size a ≤ S25x1x20.size a
  slices_S8x28x28_o0_1_2_S8x24x24 : S8x28x28.Slices ![0, 1, 2] S8x24x24
  inb_S25x1x20_S1x1x20_7_0_0 : ∀ a, (![7, 0, 0] : Fin 3 → Nat) a + S1x1x20.size a ≤ S25x1x20.size a
  slices_S8x28x28_o0_1_3_S8x24x24 : S8x28x28.Slices ![0, 1, 3] S8x24x24
  inb_S25x1x20_S1x1x20_8_0_0 : ∀ a, (![8, 0, 0] : Fin 3 → Nat) a + S1x1x20.size a ≤ S25x1x20.size a
  slices_S8x28x28_o0_1_4_S8x24x24 : S8x28x28.Slices ![0, 1, 4] S8x24x24
  inb_S25x1x20_S1x1x20_9_0_0 : ∀ a, (![9, 0, 0] : Fin 3 → Nat) a + S1x1x20.size a ≤ S25x1x20.size a
  slices_S8x28x28_o0_2_0_S8x24x24 : S8x28x28.Slices ![0, 2, 0] S8x24x24
  inb_S25x1x20_S1x1x20_10_0_0 : ∀ a, (![10, 0, 0] : Fin 3 → Nat) a + S1x1x20.size a ≤ S25x1x20.size a
  slices_S8x28x28_o0_2_1_S8x24x24 : S8x28x28.Slices ![0, 2, 1] S8x24x24
  inb_S25x1x20_S1x1x20_11_0_0 : ∀ a, (![11, 0, 0] : Fin 3 → Nat) a + S1x1x20.size a ≤ S25x1x20.size a
  slices_S8x28x28_o0_2_2_S8x24x24 : S8x28x28.Slices ![0, 2, 2] S8x24x24
  inb_S25x1x20_S1x1x20_12_0_0 : ∀ a, (![12, 0, 0] : Fin 3 → Nat) a + S1x1x20.size a ≤ S25x1x20.size a
  slices_S8x28x28_o0_2_3_S8x24x24 : S8x28x28.Slices ![0, 2, 3] S8x24x24
  inb_S25x1x20_S1x1x20_13_0_0 : ∀ a, (![13, 0, 0] : Fin 3 → Nat) a + S1x1x20.size a ≤ S25x1x20.size a
  slices_S8x28x28_o0_2_4_S8x24x24 : S8x28x28.Slices ![0, 2, 4] S8x24x24
  inb_S25x1x20_S1x1x20_14_0_0 : ∀ a, (![14, 0, 0] : Fin 3 → Nat) a + S1x1x20.size a ≤ S25x1x20.size a
  slices_S8x28x28_o0_3_0_S8x24x24 : S8x28x28.Slices ![0, 3, 0] S8x24x24
  inb_S25x1x20_S1x1x20_15_0_0 : ∀ a, (![15, 0, 0] : Fin 3 → Nat) a + S1x1x20.size a ≤ S25x1x20.size a
  slices_S8x28x28_o0_3_1_S8x24x24 : S8x28x28.Slices ![0, 3, 1] S8x24x24
  inb_S25x1x20_S1x1x20_16_0_0 : ∀ a, (![16, 0, 0] : Fin 3 → Nat) a + S1x1x20.size a ≤ S25x1x20.size a
  slices_S8x28x28_o0_3_2_S8x24x24 : S8x28x28.Slices ![0, 3, 2] S8x24x24
  inb_S25x1x20_S1x1x20_17_0_0 : ∀ a, (![17, 0, 0] : Fin 3 → Nat) a + S1x1x20.size a ≤ S25x1x20.size a
  slices_S8x28x28_o0_3_3_S8x24x24 : S8x28x28.Slices ![0, 3, 3] S8x24x24
  inb_S25x1x20_S1x1x20_18_0_0 : ∀ a, (![18, 0, 0] : Fin 3 → Nat) a + S1x1x20.size a ≤ S25x1x20.size a
  slices_S8x28x28_o0_3_4_S8x24x24 : S8x28x28.Slices ![0, 3, 4] S8x24x24
  inb_S25x1x20_S1x1x20_19_0_0 : ∀ a, (![19, 0, 0] : Fin 3 → Nat) a + S1x1x20.size a ≤ S25x1x20.size a
  slices_S8x28x28_o0_4_0_S8x24x24 : S8x28x28.Slices ![0, 4, 0] S8x24x24
  inb_S25x1x20_S1x1x20_20_0_0 : ∀ a, (![20, 0, 0] : Fin 3 → Nat) a + S1x1x20.size a ≤ S25x1x20.size a
  slices_S8x28x28_o0_4_1_S8x24x24 : S8x28x28.Slices ![0, 4, 1] S8x24x24
  inb_S25x1x20_S1x1x20_21_0_0 : ∀ a, (![21, 0, 0] : Fin 3 → Nat) a + S1x1x20.size a ≤ S25x1x20.size a
  slices_S8x28x28_o0_4_2_S8x24x24 : S8x28x28.Slices ![0, 4, 2] S8x24x24
  inb_S25x1x20_S1x1x20_22_0_0 : ∀ a, (![22, 0, 0] : Fin 3 → Nat) a + S1x1x20.size a ≤ S25x1x20.size a
  slices_S8x28x28_o0_4_3_S8x24x24 : S8x28x28.Slices ![0, 4, 3] S8x24x24
  inb_S25x1x20_S1x1x20_23_0_0 : ∀ a, (![23, 0, 0] : Fin 3 → Nat) a + S1x1x20.size a ≤ S25x1x20.size a
  slices_S8x28x28_o0_4_4_S8x24x24 : S8x28x28.Slices ![0, 4, 4] S8x24x24
  inb_S25x1x20_S1x1x20_24_0_0 : ∀ a, (![24, 0, 0] : Fin 3 → Nat) a + S1x1x20.size a ≤ S25x1x20.size a
  inb_S1x20_S1x20_0_0 : ∀ a, (![0, 0] : Fin 2 → Nat) a + S1x20.size a ≤ S1x20.size a
  h_S1x20 : 0 < S1x20.numel
  shapeCasts_S8x24x24x20_S64x3x24x20 : S8x24x24x20.ShapeCasts S64x3x24x20
  reduces_S64x3x24x20_S64x24x20 : S64x3x24x20.Reduces [1] S64x24x20
  shapeCasts_S64x24x20_S64x8x3x20 : S64x24x20.ShapeCasts S64x8x3x20
  reduces_S64x8x3x20_S64x8x20 : S64x8x3x20.Reduces [2] S64x8x20
  shapeCasts_S64x8x20_S8x8x8x20 : S64x8x20.ShapeCasts S8x8x8x20
  bitsLt_bf16_f32 : FTy.bits .bf16 < FTy.bits .f32
  inb_S8x8x8x20_S8x8x8x20_0_0_0_0 : ∀ a, (![0, 0, 0, 0] : Fin 4 → Nat) a + S8x8x8x20.size a ≤ S8x8x8x20.size a
  h_S8x8x8x20 : 0 < S8x8x8x20.numel
  packedbf16_S8x8x8x20_S8x8x8x20_0_0_0_0 : (Rect.unit (s := S8x8x8x20) ![0, 0, 0, 0] S8x8x8x20.size inb_S8x8x8x20_S8x8x8x20_0_0_0_0).PackedRows (EltTy.packing .bf16)
  shapeCasts_S8x8x8x20_S8x8x8x20 : S8x8x8x20.ShapeCasts S8x8x8x20
  slices_S8x8x8x20_o0_0_0_0_S8x4x4x20 : S8x8x8x20.Slices ![0, 0, 0, 0] S8x4x4x20
  shapeCasts_S8x4x4x20_S128x20 : S8x4x4x20.ShapeCasts S128x20
  inb_S25x20x50_S1x20x50_0_0_0 : ∀ a, (![0, 0, 0] : Fin 3 → Nat) a + S1x20x50.size a ≤ S25x20x50.size a
  h_S1x20x50 : 0 < S1x20x50.numel
  shapeCasts_S1x20x50_S20x50 : S1x20x50.ShapeCasts S20x50
  slices_S8x8x8x20_o0_0_1_0_S8x4x4x20 : S8x8x8x20.Slices ![0, 0, 1, 0] S8x4x4x20
  inb_S25x20x50_S1x20x50_1_0_0 : ∀ a, (![1, 0, 0] : Fin 3 → Nat) a + S1x20x50.size a ≤ S25x20x50.size a
  slices_S8x8x8x20_o0_0_2_0_S8x4x4x20 : S8x8x8x20.Slices ![0, 0, 2, 0] S8x4x4x20
  inb_S25x20x50_S1x20x50_2_0_0 : ∀ a, (![2, 0, 0] : Fin 3 → Nat) a + S1x20x50.size a ≤ S25x20x50.size a
  slices_S8x8x8x20_o0_0_3_0_S8x4x4x20 : S8x8x8x20.Slices ![0, 0, 3, 0] S8x4x4x20
  inb_S25x20x50_S1x20x50_3_0_0 : ∀ a, (![3, 0, 0] : Fin 3 → Nat) a + S1x20x50.size a ≤ S25x20x50.size a
  slices_S8x8x8x20_o0_0_4_0_S8x4x4x20 : S8x8x8x20.Slices ![0, 0, 4, 0] S8x4x4x20
  inb_S25x20x50_S1x20x50_4_0_0 : ∀ a, (![4, 0, 0] : Fin 3 → Nat) a + S1x20x50.size a ≤ S25x20x50.size a
  slices_S8x8x8x20_o0_1_0_0_S8x4x4x20 : S8x8x8x20.Slices ![0, 1, 0, 0] S8x4x4x20
  inb_S25x20x50_S1x20x50_5_0_0 : ∀ a, (![5, 0, 0] : Fin 3 → Nat) a + S1x20x50.size a ≤ S25x20x50.size a
  slices_S8x8x8x20_o0_1_1_0_S8x4x4x20 : S8x8x8x20.Slices ![0, 1, 1, 0] S8x4x4x20
  inb_S25x20x50_S1x20x50_6_0_0 : ∀ a, (![6, 0, 0] : Fin 3 → Nat) a + S1x20x50.size a ≤ S25x20x50.size a
  slices_S8x8x8x20_o0_1_2_0_S8x4x4x20 : S8x8x8x20.Slices ![0, 1, 2, 0] S8x4x4x20
  inb_S25x20x50_S1x20x50_7_0_0 : ∀ a, (![7, 0, 0] : Fin 3 → Nat) a + S1x20x50.size a ≤ S25x20x50.size a
  slices_S8x8x8x20_o0_1_3_0_S8x4x4x20 : S8x8x8x20.Slices ![0, 1, 3, 0] S8x4x4x20
  inb_S25x20x50_S1x20x50_8_0_0 : ∀ a, (![8, 0, 0] : Fin 3 → Nat) a + S1x20x50.size a ≤ S25x20x50.size a
  slices_S8x8x8x20_o0_1_4_0_S8x4x4x20 : S8x8x8x20.Slices ![0, 1, 4, 0] S8x4x4x20
  inb_S25x20x50_S1x20x50_9_0_0 : ∀ a, (![9, 0, 0] : Fin 3 → Nat) a + S1x20x50.size a ≤ S25x20x50.size a
  slices_S8x8x8x20_o0_2_0_0_S8x4x4x20 : S8x8x8x20.Slices ![0, 2, 0, 0] S8x4x4x20
  inb_S25x20x50_S1x20x50_10_0_0 : ∀ a, (![10, 0, 0] : Fin 3 → Nat) a + S1x20x50.size a ≤ S25x20x50.size a
  slices_S8x8x8x20_o0_2_1_0_S8x4x4x20 : S8x8x8x20.Slices ![0, 2, 1, 0] S8x4x4x20
  inb_S25x20x50_S1x20x50_11_0_0 : ∀ a, (![11, 0, 0] : Fin 3 → Nat) a + S1x20x50.size a ≤ S25x20x50.size a
  slices_S8x8x8x20_o0_2_2_0_S8x4x4x20 : S8x8x8x20.Slices ![0, 2, 2, 0] S8x4x4x20
  inb_S25x20x50_S1x20x50_12_0_0 : ∀ a, (![12, 0, 0] : Fin 3 → Nat) a + S1x20x50.size a ≤ S25x20x50.size a
  slices_S8x8x8x20_o0_2_3_0_S8x4x4x20 : S8x8x8x20.Slices ![0, 2, 3, 0] S8x4x4x20
  inb_S25x20x50_S1x20x50_13_0_0 : ∀ a, (![13, 0, 0] : Fin 3 → Nat) a + S1x20x50.size a ≤ S25x20x50.size a
  slices_S8x8x8x20_o0_2_4_0_S8x4x4x20 : S8x8x8x20.Slices ![0, 2, 4, 0] S8x4x4x20
  inb_S25x20x50_S1x20x50_14_0_0 : ∀ a, (![14, 0, 0] : Fin 3 → Nat) a + S1x20x50.size a ≤ S25x20x50.size a
  slices_S8x8x8x20_o0_3_0_0_S8x4x4x20 : S8x8x8x20.Slices ![0, 3, 0, 0] S8x4x4x20
  inb_S25x20x50_S1x20x50_15_0_0 : ∀ a, (![15, 0, 0] : Fin 3 → Nat) a + S1x20x50.size a ≤ S25x20x50.size a
  slices_S8x8x8x20_o0_3_1_0_S8x4x4x20 : S8x8x8x20.Slices ![0, 3, 1, 0] S8x4x4x20
  inb_S25x20x50_S1x20x50_16_0_0 : ∀ a, (![16, 0, 0] : Fin 3 → Nat) a + S1x20x50.size a ≤ S25x20x50.size a
  slices_S8x8x8x20_o0_3_2_0_S8x4x4x20 : S8x8x8x20.Slices ![0, 3, 2, 0] S8x4x4x20
  inb_S25x20x50_S1x20x50_17_0_0 : ∀ a, (![17, 0, 0] : Fin 3 → Nat) a + S1x20x50.size a ≤ S25x20x50.size a
  slices_S8x8x8x20_o0_3_3_0_S8x4x4x20 : S8x8x8x20.Slices ![0, 3, 3, 0] S8x4x4x20
  inb_S25x20x50_S1x20x50_18_0_0 : ∀ a, (![18, 0, 0] : Fin 3 → Nat) a + S1x20x50.size a ≤ S25x20x50.size a
  slices_S8x8x8x20_o0_3_4_0_S8x4x4x20 : S8x8x8x20.Slices ![0, 3, 4, 0] S8x4x4x20
  inb_S25x20x50_S1x20x50_19_0_0 : ∀ a, (![19, 0, 0] : Fin 3 → Nat) a + S1x20x50.size a ≤ S25x20x50.size a
  slices_S8x8x8x20_o0_4_0_0_S8x4x4x20 : S8x8x8x20.Slices ![0, 4, 0, 0] S8x4x4x20
  inb_S25x20x50_S1x20x50_20_0_0 : ∀ a, (![20, 0, 0] : Fin 3 → Nat) a + S1x20x50.size a ≤ S25x20x50.size a
  slices_S8x8x8x20_o0_4_1_0_S8x4x4x20 : S8x8x8x20.Slices ![0, 4, 1, 0] S8x4x4x20
  inb_S25x20x50_S1x20x50_21_0_0 : ∀ a, (![21, 0, 0] : Fin 3 → Nat) a + S1x20x50.size a ≤ S25x20x50.size a
  slices_S8x8x8x20_o0_4_2_0_S8x4x4x20 : S8x8x8x20.Slices ![0, 4, 2, 0] S8x4x4x20
  inb_S25x20x50_S1x20x50_22_0_0 : ∀ a, (![22, 0, 0] : Fin 3 → Nat) a + S1x20x50.size a ≤ S25x20x50.size a
  slices_S8x8x8x20_o0_4_3_0_S8x4x4x20 : S8x8x8x20.Slices ![0, 4, 3, 0] S8x4x4x20
  inb_S25x20x50_S1x20x50_23_0_0 : ∀ a, (![23, 0, 0] : Fin 3 → Nat) a + S1x20x50.size a ≤ S25x20x50.size a
  slices_S8x8x8x20_o0_4_4_0_S8x4x4x20 : S8x8x8x20.Slices ![0, 4, 4, 0] S8x4x4x20
  inb_S25x20x50_S1x20x50_24_0_0 : ∀ a, (![24, 0, 0] : Fin 3 → Nat) a + S1x20x50.size a ≤ S25x20x50.size a
  shapeCasts_S128x50_S8x4x4x50 : S128x50.ShapeCasts S8x4x4x50
  inb_S1x50_S1x50_0_0 : ∀ a, (![0, 0] : Fin 2 → Nat) a + S1x50.size a ≤ S1x50.size a
  h_S1x50 : 0 < S1x50.numel
  shapeCasts_S1x50_S50 : S1x50.ShapeCasts S50
  shapeCasts_S50_S1x1x1x50 : S50.ShapeCasts S1x1x1x50
  broadcasts_S1x1x1x50_S8x4x4x50 : S1x1x1x50.Broadcasts S8x4x4x50
  shapeCasts_S8x4x4x50_S16x2x4x50 : S8x4x4x50.ShapeCasts S16x2x4x50
  reduces_S16x2x4x50_S16x4x50 : S16x2x4x50.Reduces [1] S16x4x50
  shapeCasts_S16x4x50_S16x2x2x50 : S16x4x50.ShapeCasts S16x2x2x50
  reduces_S16x2x2x50_S16x2x50 : S16x2x2x50.Reduces [2] S16x2x50
  shapeCasts_S16x2x50_S8x2x2x50 : S16x2x50.ShapeCasts S8x2x2x50
  inb_S8x2x2x50_S8x2x2x50_0_0_0_0 : ∀ a, (![0, 0, 0, 0] : Fin 4 → Nat) a + S8x2x2x50.size a ≤ S8x2x2x50.size a
  h_S8x2x2x50 : 0 < S8x2x2x50.numel
  packedbf16_S8x2x2x50_S8x2x2x50_0_0_0_0 : (Rect.unit (s := S8x2x2x50) ![0, 0, 0, 0] S8x2x2x50.size inb_S8x2x2x50_S8x2x2x50_0_0_0_0).PackedRows (EltTy.packing .bf16)
  shapeCasts_S8192x2x2x50_S8192x200 : S8192x2x2x50.ShapeCasts S8192x200
  inb_S8192x200_S8192x200_0_0 : ∀ a, (![0, 0] : Fin 2 → Nat) a + S8192x200.size a ≤ S8192x200.size a
  h_S8192x200 : 0 < S8192x200.numel
  shapeCasts_S8192x200_S8192x200 : S8192x200.ShapeCasts S8192x200
  inb_S200x500_S200x500_0_0 : ∀ a, (![0, 0] : Fin 2 → Nat) a + S200x500.size a ≤ S200x500.size a
  h_S200x500 : 0 < S200x500.numel
  inb_S1x500_S1x500_0_0 : ∀ a, (![0, 0] : Fin 2 → Nat) a + S1x500.size a ≤ S1x500.size a
  h_S1x500 : 0 < S1x500.numel
  broadcasts_S1x500_S8192x500 : S1x500.Broadcasts S8192x500
  inb_S500x10_S500x10_0_0 : ∀ a, (![0, 0] : Fin 2 → Nat) a + S500x10.size a ≤ S500x10.size a
  h_S500x10 : 0 < S500x10.numel
  inb_S1x10_S1x10_0_0 : ∀ a, (![0, 0] : Fin 2 → Nat) a + S1x10.size a ≤ S1x10.size a
  h_S1x10 : 0 < S1x10.numel
  broadcasts_S1x10_S8192x10 : S1x10.Broadcasts S8192x10
  inb_S8192x10_S8192x10_0_0 : ∀ a, (![0, 0] : Fin 2 → Nat) a + S8192x10.size a ≤ S8192x10.size a
  h_S8192x10 : 0 < S8192x10.numel
  dot_S128x20_S20x50_S128x50_1_0_0_1_n_n_wf : DotDims.WF S128x20 S20x50 S128x50 [1] [0] [0] [1] [] []
  dot_S8192x200_S200x500_S8192x500_1_0_0_1_n_n_wf : DotDims.WF S8192x200 S200x500 S8192x500 [1] [0] [0] [1] [] []
  dot_S8192x500_S500x10_S8192x10_1_0_0_1_n_n_wf : DotDims.WF S8192x500 S500x10 S8192x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x28x28.size a ≤ S8192x28x28.size a
  hwx0_0 : ∀ i : grid0.Coords, EltTy.bits .f32 = 32 ∨ (Rect.block (s := S8192x28x28) S8x28x28.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S25x1x20.size a ≤ S25x1x20.size a
  hwx0_1 : ∀ i : grid0.Coords, EltTy.bits .f32 = 32 ∨ (Rect.block (s := S25x1x20) S25x1x20.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x20.size a ≤ S1x20.size a
  hwx0_2 : ∀ i : grid0.Coords, EltTy.bits .f32 = 32 ∨ (Rect.block (s := S1x20) S1x20.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x20.size a ≤ S1x20.size a
  hwx0_3 : ∀ i : grid0.Coords, EltTy.bits .f32 = 32 ∨ (Rect.block (s := S1x20) S1x20.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x8x8x20.size a ≤ S8192x8x8x20.size a
  hwx0_4 : ∀ i : grid0.Coords, EltTy.bits .bf16 = 32 ∨ (Rect.block (s := S8192x8x8x20) S8x8x8x20.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x8x8x20.size a ≤ S8192x8x8x20.size a
  hwx1_0 : ∀ i : grid1.Coords, EltTy.bits .bf16 = 32 ∨ (Rect.block (s := S8192x8x8x20) S8x8x8x20.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S25x20x50.size a ≤ S25x20x50.size a
  hwx1_1 : ∀ i : grid1.Coords, EltTy.bits .bf16 = 32 ∨ (Rect.block (s := S25x20x50) S25x20x50.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x50.size a ≤ S1x50.size a
  hwx1_2 : ∀ i : grid1.Coords, EltTy.bits .f32 = 32 ∨ (Rect.block (s := S1x50) S1x50.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x50.size a ≤ S1x50.size a
  hwx1_3 : ∀ i : grid1.Coords, EltTy.bits .f32 = 32 ∨ (Rect.block (s := S1x50) S1x50.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S8x2x2x50.size a ≤ S8192x2x2x50.size a
  hwx1_4 : ∀ i : grid1.Coords, EltTy.bits .bf16 = 32 ∨ (Rect.block (s := S8192x2x2x50) S8x2x2x50.size (cc1_transform_4 i) (hinb1_4 i)).WholeWords (EltTy.packing .bf16)
  hstage2_0 : ∀ j, (stage2_0 j).IsWhole
  hstage2_1 : ∀ j, (stage2_1 j).IsWhole
  hstage2_2 : ∀ j, (stage2_2 j).IsWhole
  hstage2_3 : ∀ j, (stage2_3 j).IsWhole
  hstage2_4 : ∀ j, (stage2_4 j).IsWhole
  hstage2_5 : ∀ j, (stage2_5 j).IsWhole
  hstage2_6 : ∀ j, (stage2_6 j).IsWhole

variable [Facts₀]

def dot_S128x20_S20x50_S128x50_1_0_0_1_n_n : DotDims S128x20 S20x50 S128x50 where
  lhsContracting := [1]
  rhsContracting := [0]
  lhsNonContracting := [0]
  rhsNonContracting := [1]
  lhsBatch := []
  rhsBatch := []
  wf := dot_S128x20_S20x50_S128x50_1_0_0_1_n_n_wf
def dot_S8192x200_S200x500_S8192x500_1_0_0_1_n_n : DotDims S8192x200 S200x500 S8192x500 where
  lhsContracting := [1]
  rhsContracting := [0]
  lhsNonContracting := [0]
  rhsNonContracting := [1]
  lhsBatch := []
  rhsBatch := []
  wf := dot_S8192x200_S200x500_S8192x500_1_0_0_1_n_n_wf
def dot_S8192x500_S500x10_S8192x10_1_0_0_1_n_n : DotDims S8192x500 S500x10 S8192x10 where
  lhsContracting := [1]
  rhsContracting := [0]
  lhsNonContracting := [0]
  rhsNonContracting := [1]
  lhsBatch := []
  rhsBatch := []
  wf := dot_S8192x500_S500x10_S8192x10_1_0_0_1_n_n_wf

abbrev win0_0 : Pipeline.Window sig grid0 :=
  Pipeline.Window.ofSpec (Memref.whole main_v0) S8x28x28.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S25x1x20.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1x20.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1x20.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S8x8x8x20.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v1) S8x8x8x20.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S25x20x50.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S1x50.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg6) S1x50.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v2) S8x2x2x50.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.whole (Memref.whole main_v3) false false (stage2_0 0) (sem2_0 0) (Memref.isWhole_whole _) (hstage2_0 0)

abbrev win2_1 : Pipeline.Window sig grid2 :=
  Pipeline.Window.whole (Memref.whole main_arg7) false false (stage2_1 0) (sem2_1 0) (Memref.isWhole_whole _) (hstage2_1 0)

abbrev win2_2 : Pipeline.Window sig grid2 :=
  Pipeline.Window.whole (Memref.whole main_arg8) false false (stage2_2 0) (sem2_2 0) (Memref.isWhole_whole _) (hstage2_2 0)

abbrev win2_3 : Pipeline.Window sig grid2 :=
  Pipeline.Window.whole (Memref.whole main_arg9) false false (stage2_3 0) (sem2_3 0) (Memref.isWhole_whole _) (hstage2_3 0)

abbrev win2_4 : Pipeline.Window sig grid2 :=
  Pipeline.Window.whole (Memref.whole main_arg10) false false (stage2_4 0) (sem2_4 0) (Memref.isWhole_whole _) (hstage2_4 0)

abbrev win2_5 : Pipeline.Window sig grid2 :=
  Pipeline.Window.whole (Memref.whole main_arg11) false false (stage2_5 0) (sem2_5 0) (Memref.isWhole_whole _) (hstage2_5 0)

abbrev win2_6 : Pipeline.Window sig grid2 :=
  Pipeline.Window.whole (Memref.whole main_v4) true false (stage2_6 0) (sem2_6 0) (Memref.isWhole_whole _) (hstage2_6 0)

abbrev win2 : Fin 7 → Pipeline.Window sig grid2 := fun | 0 => win2_0 | 1 => win2_1 | 2 => win2_2 | 3 => win2_3 | 4 => win2_4 | 5 => win2_5 | 6 => win2_6 | ⟨_ + 7, h⟩ => absurd h (Nat.not_lt.2 (Nat.le_add_left _ _))
abbrev spec2 : Fin 7 → Pipeline.WinSpec sig grid2.rank := fun w => (win2 w).toWinSpec

class Facts : Prop extends Facts₀ where

variable [Facts]
-- ==== Proof.KernelFrame.lean ====
/-
  The frame of the fused network program: @main computes its banded weight matrices and tiled
  scale and shift rows on the host, then runs ONE pipelined region over 32 batch tiles of 256 images.
  At every grid point the body reads its eleven input blocks, computes, and overwrites the whole
  256 x 10 output block; it keeps nothing between points and writes no input.  Hence: every weakly
  fair execution terminates without a fault, each output block of the final array is the body's
  value on the input blocks of its own grid point, and the twelve argument arrays end as launched.
  Stated once for any float instance.
-/
import proofs.«180094_g2000601136005399_pallasbulk_237_2_alg».proof.Proof.Gen.Kernel.Launch
import proofs.«180094_g2000601136005399_pallasbulk_237_2_alg».proof.Proof.Gen.Kernel.Skeleton
import proofs.«180094_g2000601136005399_pallasbulk_237_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Frm

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostStretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered: the launch memory after every host operation. -/
abbrev V (c : Dev nD) (b : Ref sig .tc) : Buf (Elt F) ((c : Thread nD τ).loc b) :=
  StableHlo.after (List.flatten (hostStretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether fetched there or kept
    from an earlier point (the index map of a kept window does not move). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that tracks the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).1 7).trans (((dats 0 c).arrAt_in 7 rfl _).trans ((hA c 7).trans (V_main_arg8 m c))),
      ((h c).1 8).trans (((dats 0 c).arrAt_in 8 rfl _).trans ((hA c 8).trans (V_main_arg9 m c))),
      ((h c).1 9).trans (((dats 0 c).arrAt_in 9 rfl _).trans ((hA c 9).trans (V_main_arg10 m c))),
      ((h c).1 10).trans (((dats 0 c).arrAt_in 10 rfl _).trans ((hA c 10).trans (V_main_arg11 m c)))⟩) h

/-! ## The body's accesses -/

abbrev rX : Rect S256x28x28 := Rect.unit (s := S256x28x28) ![0, 0, 0] S256x28x28.size inb_S256x28x28_S256x28x28_0_0_0
abbrev rT1 : Rect S1x160 := Rect.unit (s := S1x160) ![0, 0] S1x160.size inb_S1x160_S1x160_0_0
abbrev rW1_0 : Rect S3x140x160 := Rect.unit (s := S3x140x160) ![0, 0, 0] S1x140x160.size inb_S3x140x160_S1x140x160_0_0_0
abbrev rW1_1 : Rect S3x140x160 := Rect.unit (s := S3x140x160) ![1, 0, 0] S1x140x160.size inb_S3x140x160_S1x140x160_1_0_0
abbrev rW1_2 : Rect S3x140x160 := Rect.unit (s := S3x140x160) ![2, 0, 0] S1x140x160.size inb_S3x140x160_S1x140x160_2_0_0
abbrev rW2_0 : Rect S5x160x200 := Rect.unit (s := S5x160x200) ![0, 0, 0] S1x160x200.size inb_S5x160x200_S1x160x200_0_0_0
abbrev rW2_1 : Rect S5x160x200 := Rect.unit (s := S5x160x200) ![1, 0, 0] S1x160x200.size inb_S5x160x200_S1x160x200_1_0_0
abbrev rW2_2 : Rect S5x160x200 := Rect.unit (s := S5x160x200) ![2, 0, 0] S1x160x200.size inb_S5x160x200_S1x160x200_2_0_0
abbrev rW2_3 : Rect S5x160x200 := Rect.unit (s := S5x160x200) ![3, 0, 0] S1x160x200.size inb_S5x160x200_S1x160x200_3_0_0
abbrev rW2_4 : Rect S5x160x200 := Rect.unit (s := S5x160x200) ![4, 0, 0] S1x160x200.size inb_S5x160x200_S1x160x200_4_0_0
abbrev rRow200 : Rect S1x200 := Rect.unit (s := S1x200) ![0, 0] S1x200.size inb_S1x200_S1x200_0_0
abbrev rFw1 : Rect S200x500 := Rect.unit (s := S200x500) ![0, 0] S200x500.size inb_S200x500_S200x500_0_0
abbrev rRow500 : Rect S1x500 := Rect.unit (s := S1x500) ![0, 0] S1x500.size inb_S1x500_S1x500_0_0
abbrev rFw2 : Rect S500x10 := Rect.unit (s := S500x10) ![0, 0] S500x10.size inb_S500x10_S500x10_0_0
abbrev rRow10 : Rect S1x10 := Rect.unit (s := S1x10) ![0, 0] S1x10.size inb_S1x10_S1x10_0_0
abbrev rOut : Rect S256x10 := Rect.unit (s := S256x10) ![0, 0] S256x10.size inb_S256x10_S256x10_0_0

/-! ## What the body leaves in the output block -/

/-- The first layer's pooled activations of the tile, from the image block, the shift row and the three banded matrices. -/
def layer1 (x0 : Vec F S256x28x28 .f32) (x1 : Vec F S3x140x160 .f32) (x2 : Vec F S1x160 .f32) : FVec F S256x8x160 .bf16 :=
  k0_pay2 (View.ld x0 rX) (View.ld x2 rT1) (View.ld x1 rW1_0) (View.ld x1 rW1_1) (View.ld x1 rW1_2)

/-- The second layer's affine output before its rectifier and pooling. -/
def layer2 (x0 : Vec F S256x28x28 .f32) (x1 : Vec F S3x140x160 .f32) (x2 : Vec F S1x160 .f32) (x3 : Vec F S5x160x200 .bf16)
    (x4 : Vec F S1x200 .f32) (x5 : Vec F S1x200 .f32) : FVec F S1024x200 .f32 :=
  k0_pay5 (layer1 x0 x1 x2) (k0_pay3 (F := F)) (k0_pay4 (View.ld x0 rX) (View.ld x2 rT1) (View.ld x1 rW1_0) (View.ld x1 rW1_1) (View.ld x1 rW1_2))
    (View.ld x3 rW2_0) (View.ld x3 rW2_1) (View.ld x3 rW2_2) (View.ld x3 rW2_3) (View.ld x3 rW2_4) (View.ld x4 rRow200) (View.ld x5 rRow200)

/-- The logits of the tile: the one value the body stores. -/
def logits (x0 : Vec F S256x28x28 .f32) (x1 : Vec F S3x140x160 .f32) (x2 : Vec F S1x160 .f32) (x3 : Vec F S5x160x200 .bf16)
    (x4 : Vec F S1x200 .f32) (x5 : Vec F S1x200 .f32) (x6 : Vec F S200x500 .bf16) (x7 : Vec F S1x500 .f32) (x8 : Vec F S1x500 .f32)
    (x9 : Vec F S500x10 .bf16) (x10 : Vec F S1x10 .f32) : FVec F S256x10 .f32 :=
  k0_pay1 (layer2 x0 x1 x2 x3 x4 x5) (Scalar.ofBits .f32 0x00000000#32) (View.ld x6 rFw1) (View.ld x7 rRow500) (View.ld x8 rRow500) (View.ld x9 rFw2) (View.ld x10 rRow10)

/-- The output block after the body: its one whole-block store. -/
def outBlock (x0 : Vec F S256x28x28 .f32) (x1 : Vec F S3x140x160 .f32) (x2 : Vec F S1x160 .f32) (x3 : Vec F S5x160x200 .bf16)
    (x4 : Vec F S1x200 .f32) (x5 : Vec F S1x200 .f32) (x6 : Vec F S200x500 .bf16) (x7 : Vec F S1x500 .f32) (x8 : Vec F S1x500 .f32)
    (x9 : Vec F S500x10 .bf16) (x10 : Vec F S1x10 .f32) : Vec F S256x10 .f32 :=
  View.canon [⟨rOut, logits x0 x1 x2 x3 x4 x5 x6 x7 x8 x9 x10⟩]

/-- The store covers the block. -/
theorem coverOut (p0 : Vec F S256x10 .f32) (y : S256x10.Idx) :
    ∃ pc ∈ ([⟨rOut, p0⟩] : List (View.Piece (Elt F) S256x10 .f32)), y ∈ pc.1.set :=
  View.cover_of_tiled [⟨rOut, p0⟩] S256x10.size (by rfl) y

/-! ## The body's triple -/

set_option maxHeartbeats 4000000 in
/-- The body on whole staging buffers, the inputs' at contents `x0 … x10` and the output's at anything, returns
    with the inputs as they were and the output at `outBlock` of them. -/
theorem sound_kernel (c : Dev nD) (E : Set ℕ) (i : grid0.Coords) (arg1 : Memref sig .tc .vmem S256x28x28 .f32) (harg1 : arg1.IsWhole) (arg2 : Memref sig .tc .vmem S3x140x160 .f32) (harg2 : arg2.IsWhole) (arg3 : Memref sig .tc .vmem S1x160 .f32) (harg3 : arg3.IsWhole) (arg4 : Memref sig .tc .vmem S5x160x200 .bf16) (harg4 : arg4.IsWhole) (arg5 : Memref sig .tc .vmem S1x200 .f32) (harg5 : arg5.IsWhole) (arg6 : Memref sig .tc .vmem S1x200 .f32) (harg6 : arg6.IsWhole) (arg7 : Memref sig .tc .vmem S200x500 .bf16) (harg7 : arg7.IsWhole) (arg8 : Memref sig .tc .vmem S1x500 .f32) (harg8 : arg8.IsWhole) (arg9 : Memref sig .tc .vmem S1x500 .f32) (harg9 : arg9.IsWhole) (arg10 : Memref sig .tc .vmem S500x10 .bf16) (harg10 : arg10.IsWhole) (arg11 : Memref sig .tc .vmem S1x10 .f32) (harg11 : arg11.IsWhole) (arg12 : Memref sig .tc .vmem S256x10 .f32) (harg12 : arg12.IsWhole)
    (x0 : Vec F S256x28x28 .f32) (x1 : Vec F S3x140x160 .f32) (x2 : Vec F S1x160 .f32) (x3 : Vec F S5x160x200 .bf16) (x4 : Vec F S1x200 .f32) (x5 : Vec F S1x200 .f32) (x6 : Vec F S200x500 .bf16) (x7 : Vec F S1x500 .f32) (x8 : Vec F S1x500 .f32) (x9 : Vec F S500x10 .bf16) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__fused_net_kernel i arg1 harg1 arg2 harg2 arg3 harg3 arg4 harg4 arg5 harg5 arg6 harg6 arg7 harg7 arg8 harg8 arg9 harg9 arg10 harg10 arg11 harg11 arg12 harg12) K := by
  simp only [cc0__fused_net_kernel_eq_skeleton]; unfold cc0__fused_net_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (coverOut _)

/-! ## The pipeline's proof data -/

/-- After the body at point `t`: each input buffer still at its block, the output buffer at `outBlock` of the
    point's input blocks.  Nothing is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in every final state each array of the pipeline holds what the
    write-backs of the grid points leave (`Dat.arrAt`), and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.Kernel.Frm

end
-- ==== Proof.KernelIdealFrame.lean ====
/-
  The frame of the fused network program: @main computes its banded weight matrices and tiled
  scale and shift rows on the host, then runs ONE pipelined region over 32 batch tiles of 256 images.
  At every grid point the body reads its eleven input blocks, computes, and overwrites the whole
  256 x 10 output block; it keeps nothing between points and writes no input.  Hence: every weakly
  fair execution terminates without a fault, each output block of the final array is the body's
  value on the input blocks of its own grid point, and the twelve argument arrays end as launched.
  Stated once for any float instance.
-/
import proofs.«180094_g2000601136005399_pallasbulk_237_2_alg».proof.Proof.Gen.KernelIdeal.Launch
import proofs.«180094_g2000601136005399_pallasbulk_237_2_alg».proof.Proof.Gen.KernelIdeal.Skeleton
import proofs.«180094_g2000601136005399_pallasbulk_237_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Frm

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- The host operations before the region, stretch by stretch. -/
abbrev hostStretches : List (List (HloOp τ sig (Elt F))) := [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16]

/-- Core `c`'s buffers when the region is entered: the launch memory after every host operation. -/
abbrev V (c : Dev nD) (b : Ref sig .tc) : Buf (Elt F) ((c : Thread nD τ).loc b) :=
  StableHlo.after (List.flatten (hostStretches (F := F))) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor
theorem hostOps0_9_fresh : (hostOps0_9 : List (HloOp τ sig (Elt F))).Forall fun op => op.fresh = ∅ := by
  simp only [List.Forall]; repeat' constructor
theorem hostOps0_10_fresh : (hostOps0_10 : List (HloOp τ sig (Elt F))).Forall fun op => op.fresh = ∅ := by
  simp only [List.Forall]; repeat' constructor
theorem hostOps0_11_fresh : (hostOps0_11 : List (HloOp τ sig (Elt F))).Forall fun op => op.fresh = ∅ := by
  simp only [List.Forall]; repeat' constructor
theorem hostOps0_12_fresh : (hostOps0_12 : List (HloOp τ sig (Elt F))).Forall fun op => op.fresh = ∅ := by
  simp only [List.Forall]; repeat' constructor
theorem hostOps0_13_fresh : (hostOps0_13 : List (HloOp τ sig (Elt F))).Forall fun op => op.fresh = ∅ := by
  simp only [List.Forall]; repeat' constructor
theorem hostOps0_14_fresh : (hostOps0_14 : List (HloOp τ sig (Elt F))).Forall fun op => op.fresh = ∅ := by
  simp only [List.Forall]; repeat' constructor
theorem hostOps0_15_fresh : (hostOps0_15 : List (HloOp τ sig (Elt F))).Forall fun op => op.fresh = ∅ := by
  simp only [List.Forall]; repeat' constructor
theorem hostOps0_16_fresh : (hostOps0_16 : List (HloOp τ sig (Elt F))).Forall fun op => op.fresh = ∅ := by
  simp only [List.Forall]; repeat' constructor

/-- @main is the host operations followed by the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main (hostStretches (F := F)) (by simp only [List.Forall]; exact ⟨hostOps0_sub, hostOps0_1_sub, hostOps0_2_sub, hostOps0_3_sub, hostOps0_4_sub, hostOps0_5_sub, hostOps0_6_sub, hostOps0_7_sub, hostOps0_8_sub, hostOps0_9_sub, hostOps0_10_sub, hostOps0_11_sub, hostOps0_12_sub, hostOps0_13_sub, hostOps0_14_sub, hostOps0_15_sub, hostOps0_16_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh, hostOps0_9_fresh, hostOps0_10_fresh, hostOps0_11_fresh, hostOps0_12_fresh, hostOps0_13_fresh, hostOps0_14_fresh, hostOps0_15_fresh, hostOps0_16_fresh⟩) main_chain

/-! No host operation writes an argument array: the region finds each as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg9 (c : Dev nD) : V m c main_arg9 = m ((c : Thread nD τ).loc main_arg9) :=
  StableHlo.after_of_forall_not_mem (b := Proc.devRef .tc main_arg9) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg10 (c : Dev nD) : V m c main_arg10 = m ((c : Thread nD τ).loc main_arg10) :=
  StableHlo.after_of_forall_not_mem (b := Proc.devRef .tc main_arg10) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))
theorem V_main_arg11 (c : Dev nD) : V m c main_arg11 = m ((c : Thread nD τ).loc main_arg11) :=
  StableHlo.after_of_forall_not_mem (b := Proc.devRef .tc main_arg11) _ _ (List.forall_iff_forall_mem.mp (by
    simp only [hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
    repeat' apply And.intro
    all_goals exact StableHlo.devRef_ne_of_ne (by decide)))

/-! ## The windows' blocks -/

/-- Window `w`'s block at grid point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-! An input window's staging buffer holds its block at every point, whether fetched there or kept
    from an earlier point (the index map of a kept window does not move). -/
theorem before0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
theorem before7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
theorem before8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
theorem before9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)
theorem before10_of {c : Dev nD} (dat : Dat τ (Elt F) Unit ℕ (UR sig nD τ) ℕ cfg0 c) (hA : dat.A 10 = V m c (Pipeline.arrRef spec0 10))
    (hafter : ∀ t, dat.after 10 t = iblk m c 10 t) (t : Fin cfg0.N) (d) : dat.before 10 t d = iblk m c 10 t :=
  (dat.before_in_eq_fetched 10 rfl (fun _ => rfl) (fun _ _ _ => rfl) (fun t => by rw [hafter]; unfold Dat.blockOf iblk; rw [hA]; try rfl) t d).trans
    (by unfold Dat.fetched Dat.blockOf iblk; rw [hA]; try rfl)

/-! ## The frame claim from a run that tracks the arrays -/

theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats 0 c).arrAt_in 6 rfl _).trans ((hA c 6).trans (V_main_arg7 m c))),
      ((h c).1 7).trans (((dats 0 c).arrAt_in 7 rfl _).trans ((hA c 7).trans (V_main_arg8 m c))),
      ((h c).1 8).trans (((dats 0 c).arrAt_in 8 rfl _).trans ((hA c 8).trans (V_main_arg9 m c))),
      ((h c).1 9).trans (((dats 0 c).arrAt_in 9 rfl _).trans ((hA c 9).trans (V_main_arg10 m c))),
      ((h c).1 10).trans (((dats 0 c).arrAt_in 10 rfl _).trans ((hA c 10).trans (V_main_arg11 m c)))⟩) h

/-! ## The body's accesses -/

abbrev rX : Rect S256x28x28 := Rect.unit (s := S256x28x28) ![0, 0, 0] S256x28x28.size inb_S256x28x28_S256x28x28_0_0_0
abbrev rT1 : Rect S1x160 := Rect.unit (s := S1x160) ![0, 0] S1x160.size inb_S1x160_S1x160_0_0
abbrev rW1_0 : Rect S3x140x160 := Rect.unit (s := S3x140x160) ![0, 0, 0] S1x140x160.size inb_S3x140x160_S1x140x160_0_0_0
abbrev rW1_1 : Rect S3x140x160 := Rect.unit (s := S3x140x160) ![1, 0, 0] S1x140x160.size inb_S3x140x160_S1x140x160_1_0_0
abbrev rW1_2 : Rect S3x140x160 := Rect.unit (s := S3x140x160) ![2, 0, 0] S1x140x160.size inb_S3x140x160_S1x140x160_2_0_0
abbrev rW2_0 : Rect S5x160x200 := Rect.unit (s := S5x160x200) ![0, 0, 0] S1x160x200.size inb_S5x160x200_S1x160x200_0_0_0
abbrev rW2_1 : Rect S5x160x200 := Rect.unit (s := S5x160x200) ![1, 0, 0] S1x160x200.size inb_S5x160x200_S1x160x200_1_0_0
abbrev rW2_2 : Rect S5x160x200 := Rect.unit (s := S5x160x200) ![2, 0, 0] S1x160x200.size inb_S5x160x200_S1x160x200_2_0_0
abbrev rW2_3 : Rect S5x160x200 := Rect.unit (s := S5x160x200) ![3, 0, 0] S1x160x200.size inb_S5x160x200_S1x160x200_3_0_0
abbrev rW2_4 : Rect S5x160x200 := Rect.unit (s := S5x160x200) ![4, 0, 0] S1x160x200.size inb_S5x160x200_S1x160x200_4_0_0
abbrev rRow200 : Rect S1x200 := Rect.unit (s := S1x200) ![0, 0] S1x200.size inb_S1x200_S1x200_0_0
abbrev rFw1 : Rect S200x500 := Rect.unit (s := S200x500) ![0, 0] S200x500.size inb_S200x500_S200x500_0_0
abbrev rRow500 : Rect S1x500 := Rect.unit (s := S1x500) ![0, 0] S1x500.size inb_S1x500_S1x500_0_0
abbrev rFw2 : Rect S500x10 := Rect.unit (s := S500x10) ![0, 0] S500x10.size inb_S500x10_S500x10_0_0
abbrev rRow10 : Rect S1x10 := Rect.unit (s := S1x10) ![0, 0] S1x10.size inb_S1x10_S1x10_0_0
abbrev rOut : Rect S256x10 := Rect.unit (s := S256x10) ![0, 0] S256x10.size inb_S256x10_S256x10_0_0

/-! ## What the body leaves in the output block -/

/-- The first layer's pooled activations of the tile, from the image block, the shift row and the three banded matrices. -/
def layer1 (x0 : Vec F S256x28x28 .f32) (x1 : Vec F S3x140x160 .f32) (x2 : Vec F S1x160 .f32) : FVec F S256x8x160 .bf16 :=
  k0_pay2 (View.ld x0 rX) (View.ld x2 rT1) (View.ld x1 rW1_0) (View.ld x1 rW1_1) (View.ld x1 rW1_2)

/-- The second layer's affine output before its rectifier and pooling. -/
def layer2 (x0 : Vec F S256x28x28 .f32) (x1 : Vec F S3x140x160 .f32) (x2 : Vec F S1x160 .f32) (x3 : Vec F S5x160x200 .bf16)
    (x4 : Vec F S1x200 .f32) (x5 : Vec F S1x200 .f32) : FVec F S1024x200 .f32 :=
  k0_pay5 (layer1 x0 x1 x2) (k0_pay3 (F := F)) (k0_pay4 (View.ld x0 rX) (View.ld x2 rT1) (View.ld x1 rW1_0) (View.ld x1 rW1_1) (View.ld x1 rW1_2))
    (View.ld x3 rW2_0) (View.ld x3 rW2_1) (View.ld x3 rW2_2) (View.ld x3 rW2_3) (View.ld x3 rW2_4) (View.ld x4 rRow200) (View.ld x5 rRow200)

/-- The logits of the tile: the one value the body stores. -/
def logits (x0 : Vec F S256x28x28 .f32) (x1 : Vec F S3x140x160 .f32) (x2 : Vec F S1x160 .f32) (x3 : Vec F S5x160x200 .bf16)
    (x4 : Vec F S1x200 .f32) (x5 : Vec F S1x200 .f32) (x6 : Vec F S200x500 .bf16) (x7 : Vec F S1x500 .f32) (x8 : Vec F S1x500 .f32)
    (x9 : Vec F S500x10 .bf16) (x10 : Vec F S1x10 .f32) : FVec F S256x10 .f32 :=
  k0_pay1 (layer2 x0 x1 x2 x3 x4 x5) (Scalar.ofBits .f32 0x00000000#32) (View.ld x6 rFw1) (View.ld x7 rRow500) (View.ld x8 rRow500) (View.ld x9 rFw2) (View.ld x10 rRow10)

/-- The output block after the body: its one whole-block store. -/
def outBlock (x0 : Vec F S256x28x28 .f32) (x1 : Vec F S3x140x160 .f32) (x2 : Vec F S1x160 .f32) (x3 : Vec F S5x160x200 .bf16)
    (x4 : Vec F S1x200 .f32) (x5 : Vec F S1x200 .f32) (x6 : Vec F S200x500 .bf16) (x7 : Vec F S1x500 .f32) (x8 : Vec F S1x500 .f32)
    (x9 : Vec F S500x10 .bf16) (x10 : Vec F S1x10 .f32) : Vec F S256x10 .f32 :=
  View.canon [⟨rOut, logits x0 x1 x2 x3 x4 x5 x6 x7 x8 x9 x10⟩]

/-- The store covers the block. -/
theorem coverOut (p0 : Vec F S256x10 .f32) (y : S256x10.Idx) :
    ∃ pc ∈ ([⟨rOut, p0⟩] : List (View.Piece (Elt F) S256x10 .f32)), y ∈ pc.1.set :=
  View.cover_of_tiled [⟨rOut, p0⟩] S256x10.size (by rfl) y

/-! ## The body's triple -/

set_option maxHeartbeats 4000000 in
/-- The body on whole staging buffers, the inputs' at contents `x0 … x10` and the output's at anything, returns
    with the inputs as they were and the output at `outBlock` of them. -/
theorem sound_kernel (c : Dev nD) (E : Set ℕ) (i : grid0.Coords) (arg1 : Memref sig .tc .vmem S256x28x28 .f32) (harg1 : arg1.IsWhole) (arg2 : Memref sig .tc .vmem S3x140x160 .f32) (harg2 : arg2.IsWhole) (arg3 : Memref sig .tc .vmem S1x160 .f32) (harg3 : arg3.IsWhole) (arg4 : Memref sig .tc .vmem S5x160x200 .bf16) (harg4 : arg4.IsWhole) (arg5 : Memref sig .tc .vmem S1x200 .f32) (harg5 : arg5.IsWhole) (arg6 : Memref sig .tc .vmem S1x200 .f32) (harg6 : arg6.IsWhole) (arg7 : Memref sig .tc .vmem S200x500 .bf16) (harg7 : arg7.IsWhole) (arg8 : Memref sig .tc .vmem S1x500 .f32) (harg8 : arg8.IsWhole) (arg9 : Memref sig .tc .vmem S1x500 .f32) (harg9 : arg9.IsWhole) (arg10 : Memref sig .tc .vmem S500x10 .bf16) (harg10 : arg10.IsWhole) (arg11 : Memref sig .tc .vmem S1x10 .f32) (harg11 : arg11.IsWhole) (arg12 : Memref sig .tc .vmem S256x10 .f32) (harg12 : arg12.IsWhole)
    (x0 : Vec F S256x28x28 .f32) (x1 : Vec F S3x140x160 .f32) (x2 : Vec F S1x160 .f32) (x3 : Vec F S5x160x200 .bf16) (x4 : Vec F S1x200 .f32) (x5 : Vec F S1x200 .f32) (x6 : Vec F S200x500 .bf16) (x7 : Vec F S1x500 .f32) (x8 : Vec F S1x500 .f32) (x9 : Vec F S500x10 .bf16) (x10 : Vec F S1x10 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ (∃ d, owns (c : Thread nD τ) arg12 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare (outBlock x0 x1 x2 x3 x4 x5 x6 x7 x8 x9 x10)) -∗ K ⟨⟩))
      ⊢ wp frame (wpE (defs₀ (F := F)) Variants.none c none) E (cc0__fused_net_kernel i arg1 harg1 arg2 harg2 arg3 harg3 arg4 harg4 arg5 harg5 arg6 harg6 arg7 harg7 arg8 harg8 arg9 harg9 arg10 harg10 arg11 harg11 arg12 harg12) K := by
  simp only [cc0__fused_net_kernel_eq_skeleton]; unfold cc0__fused_net_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%d11, %f11, -, H11⟩, Hk⟩
  subst hf0 hf1 hf2 hf3 hf4 hf5 hf6 hf7 hf8 hf9 hf10
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  iexists _; isplitr
  swap; · iexact H11
  ipureintro
  exact View.read_writes_eq_canon _ _ _ (coverOut _)

/-! ## The pipeline's proof data -/

/-- After the body at point `t`: each input buffer still at its block, the output buffer at `outBlock` of the
    point's input blocks.  Nothing is carried between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => outBlock (iblk m c 0 t) (iblk m c 1 t) (iblk m c 2 t) (iblk m c 3 t) (iblk m c 4 t) (iblk m c 5 t) (iblk m c 6 t) (iblk m c 7 t) (iblk m c 8 t) (iblk m c 9 t) (iblk m c 10 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = iblk m c 8 t := by dsimp only [dats]
theorem after9 (c : Dev nD) (t : Fin cfg0.N) : (dats m 0 c).after 9 t = iblk m c 9 t := by dsimp only [dats]
theorem after10 (c : Dev nD) (t : Fin cfg0.N) : (dats m 0 c).after 10 t = iblk m c 10 t := by dsimp only [dats]
theorem after11 (c : Dev nD) (t : Fin cfg0.N) : (dats m 0 c).after 11 t = outBlock (iblk m c 0 t) (iblk m c 1 t) (iblk m c 2 t) (iblk m c 3 t) (iblk m c 4 t) (iblk m c 5 t) (iblk m c 6 t) (iblk m c 7 t) (iblk m c 8 t) (iblk m c 9 t) (iblk m c 10 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d
theorem before6 (c : Dev nD) (t : Fin cfg0.N) (d) : (dats m 0 c).before 6 t d = iblk m c 6 t :=
  before6_of m (dats m 0 c) (A_eq m c 6) (after6 m c) t d
theorem before7 (c : Dev nD) (t : Fin cfg0.N) (d) : (dats m 0 c).before 7 t d = iblk m c 7 t :=
  before7_of m (dats m 0 c) (A_eq m c 7) (after7 m c) t d
theorem before8 (c : Dev nD) (t : Fin cfg0.N) (d) : (dats m 0 c).before 8 t d = iblk m c 8 t :=
  before8_of m (dats m 0 c) (A_eq m c 8) (after8 m c) t d
theorem before9 (c : Dev nD) (t : Fin cfg0.N) (d) : (dats m 0 c).before 9 t d = iblk m c 9 t :=
  before9_of m (dats m 0 c) (A_eq m c 9) (after9 m c) t d
theorem before10 (c : Dev nD) (t : Fin cfg0.N) (d) : (dats m 0 c).before 10 t d = iblk m c 10 t :=
  before10_of m (dats m 0 c) (A_eq m c 10) (after10 m c) t d

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ d, owns (c : Thread nD τ) (st0_9 t) fullShare ((dats m 0 c).before 9 t d))
    ∗ (∃ d, owns (c : Thread nD τ) (st0_10 t) fullShare ((dats m 0 c).before 10 t d))
    ∗ (∃ d, owns (c : Thread nD τ) (st0_11 t) fullShare ((dats m 0 c).before 11 t d)))

def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ owns (c : Thread nD τ) (st0_9 t) fullShare ((dats m 0 c).after 9 t)
    ∗ owns (c : Thread nD τ) (st0_10 t) fullShare ((dats m 0 c).after 10 t)
    ∗ owns (c : Thread nD τ) (st0_11 t) fullShare ((dats m 0 c).after 11 t))

set_option maxHeartbeats 1000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7, before8, before9, before10]
  rw [show (dats m 0 c).Φ t.succ = (dats m 0 c).Φ t.castSucc from rfl,
    show (dats m 0 c).owesAt () t.succ = (dats m 0 c).owesAt () t.castSucc from rfl,
    after0, after1, after2, after3, after4, after5, after6, after7, after8, after9, after10, after11]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply (sound_kernel c Set.univ (grid0.coords t) _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexists _; iexact H11
  iintro ⟨H0, H1, H2, H3, H4, H5, H6, H7, H8, H9, H10, H11⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem body_obligation (c : Dev nD) : BodyObligation (dats (F := F) m 0 c) (defs₀ (F := F)) Variants.none () Set.univ := fun t => by
  rw [bigSep_W0, bigSep_W0]
  exact sound_body m c t

/-! ## The run and the frame -/

set_option backward.isDefEq.respectTransparency.types false in
/-- Every weakly fair execution of @main terminates; in every final state each array of the pipeline holds what the
    write-backs of the grid points leave (`Dat.arrAt`), and every other unscoped buffer what the region found. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame claim, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  frame_of m ρ (dats m) (A_eq m) (run_main m ρ)

end Cert.KernelIdeal.Frm

end
-- ==== Proof.KFinal.lean ====
/-
  THE FUSED KERNEL'S RESULT ARRAY AS ONE FUNCTION OF THE ARRAYS THE REGION FINDS.

  Grid point `t` reads images `256·t … 256·t + 255` and the whole of every other operand, and writes rows
  `256·t … 256·t + 255` of the result.  The 32 row blocks tile the result, so after the run row `n` of the result is
  the body's value on tile `n / 256` at local row `n % 256`.
-/
import proofs.«180094_g2000601136005399_pallasbulk_237_2_alg».proof.Proof.KernelIdealFrame
import Idealize.ShloMosaic.Lib.Pipeline.Value
import Idealize.ShloMosaic.Lib.ValueIdx

set_option maxRecDepth 16384

noncomputable section

namespace Cert.KernelIdeal.Net

open Cert.KernelIdeal Cert.KernelIdeal.Gen Cert.KernelIdeal.Frm Idealize.ShloMosaic Idealize.ShloMosaic.TcCoe Idealize.ShloMosaic.ValueIdx
open Idealize.SL.Sem
open Idealize.ShloMosaic.Pipeline (Dat Cfg Window)

variable (m : (ℓ : Loc nD τ sig) → Buf (Elt Ideal) ℓ) (ρ : Dev nD → PrngReg)

theorem hz2 : (![0, 0] : Fin 2 → Nat) = fun _ => 0 := funext fun a => by fin_cases a <;> rfl

/-- The printed index maps over the grid: only the image window and the result window move, by one block per point. -/
theorem idx_facts : ∀ t : Fin cfg0.N,
    win0_0.index t (0 : Fin 3) = t.val
    ∧ win0_0.index t (1 : Fin 3) = 0
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 3) = 0
    ∧ win0_3.index t (1 : Fin 3) = 0
    ∧ win0_3.index t (2 : Fin 3) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (0 : Fin 2) = 0
    ∧ win0_10.index t (1 : Fin 2) = 0
    ∧ win0_11.index t (0 : Fin 2) = t.val
    ∧ win0_11.index t (1 : Fin 2) = 0 :=
  (by decide +kernel : ∀ t : Fin grid0.N, _)

/-- Tile `t` of the images. -/
def tileOf (X0 : S8192x28x28.Idx → Elt Ideal .f32) (t : Fin 32) : Vec Ideal S256x28x28 .f32 :=
  fun y => X0 (ix3 (⟨t.val * 256 + (y 0).val, by have h1 := t.isLt; have h2 : (y 0).val < 256 := (y 0).isLt; omega⟩ : Fin 8192) (y 1) (y 2))

theorem blk0 (c : Dev nD) (t : Fin cfg0.N) : iblk m c 0 t = tileOf (V m c main_v0) (t.cast N_0) := by
  funext y
  show V m c main_v0 (((cfg0.win 0).blk t).view.emb y) = V m c main_v0 _
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_0.index t (0 : Fin 3) * 256 + 1 * (y 0).val = t.val * 256 + (y 0).val; omega
  | ⟨1, _⟩ => show win0_0.index t (1 : Fin 3) * 28 + 1 * (y 1).val = (y 1).val; omega
  | ⟨2, _⟩ => show win0_0.index t (2 : Fin 3) * 28 + 1 * (y 2).val = (y 2).val; omega

theorem blk1 (c : Dev nD) (t : Fin cfg0.N) : iblk m c 1 t = V m c main_v81 := by
  funext y
  show V m c main_v81 (((cfg0.win 1).blk t).view.emb y) = V m c main_v81 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_1.index t (0 : Fin 3) * 3 + 1 * (y 0).val = (y 0).val; omega
  | ⟨1, _⟩ => show win0_1.index t (1 : Fin 3) * 140 + 1 * (y 1).val = (y 1).val; omega
  | ⟨2, _⟩ => show win0_1.index t (2 : Fin 3) * 160 + 1 * (y 2).val = (y 2).val; omega

theorem blk2 (c : Dev nD) (t : Fin cfg0.N) : iblk m c 2 t = V m c main_v84 := by
  funext y
  show V m c main_v84 (((cfg0.win 2).blk t).view.emb y) = V m c main_v84 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_2.index t (0 : Fin 2) * 1 + 1 * (y 0).val = (y 0).val; omega
  | ⟨1, _⟩ => show win0_2.index t (1 : Fin 2) * 160 + 1 * (y 1).val = (y 1).val; omega

theorem blk3 (c : Dev nD) (t : Fin cfg0.N) : iblk m c 3 t = V m c main_v109 := by
  funext y
  show V m c main_v109 (((cfg0.win 3).blk t).view.emb y) = V m c main_v109 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_3.index t (0 : Fin 3) * 5 + 1 * (y 0).val = (y 0).val; omega
  | ⟨1, _⟩ => show win0_3.index t (1 : Fin 3) * 160 + 1 * (y 1).val = (y 1).val; omega
  | ⟨2, _⟩ => show win0_3.index t (2 : Fin 3) * 200 + 1 * (y 2).val = (y 2).val; omega

theorem blk4 (c : Dev nD) (t : Fin cfg0.N) : iblk m c 4 t = V m c main_v112 := by
  funext y
  show V m c main_v112 (((cfg0.win 4).blk t).view.emb y) = V m c main_v112 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_4.index t (0 : Fin 2) * 1 + 1 * (y 0).val = (y 0).val; omega
  | ⟨1, _⟩ => show win0_4.index t (1 : Fin 2) * 200 + 1 * (y 1).val = (y 1).val; omega

theorem blk5 (c : Dev nD) (t : Fin cfg0.N) : iblk m c 5 t = V m c main_v115 := by
  funext y
  show V m c main_v115 (((cfg0.win 5).blk t).view.emb y) = V m c main_v115 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_5.index t (0 : Fin 2) * 1 + 1 * (y 0).val = (y 0).val; omega
  | ⟨1, _⟩ => show win0_5.index t (1 : Fin 2) * 200 + 1 * (y 1).val = (y 1).val; omega

theorem blk6 (c : Dev nD) (t : Fin cfg0.N) : iblk m c 6 t = V m c main_arg7 := by
  funext y
  show V m c main_arg7 (((cfg0.win 6).blk t).view.emb y) = V m c main_arg7 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_6.index t (0 : Fin 2) * 200 + 1 * (y 0).val = (y 0).val; omega
  | ⟨1, _⟩ => show win0_6.index t (1 : Fin 2) * 500 + 1 * (y 1).val = (y 1).val; omega

theorem blk7 (c : Dev nD) (t : Fin cfg0.N) : iblk m c 7 t = V m c main_arg8 := by
  funext y
  show V m c main_arg8 (((cfg0.win 7).blk t).view.emb y) = V m c main_arg8 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_7.index t (0 : Fin 2) * 1 + 1 * (y 0).val = (y 0).val; omega
  | ⟨1, _⟩ => show win0_7.index t (1 : Fin 2) * 500 + 1 * (y 1).val = (y 1).val; omega

theorem blk8 (c : Dev nD) (t : Fin cfg0.N) : iblk m c 8 t = V m c main_arg9 := by
  funext y
  show V m c main_arg9 (((cfg0.win 8).blk t).view.emb y) = V m c main_arg9 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_8.index t (0 : Fin 2) * 1 + 1 * (y 0).val = (y 0).val; omega
  | ⟨1, _⟩ => show win0_8.index t (1 : Fin 2) * 500 + 1 * (y 1).val = (y 1).val; omega

theorem blk9 (c : Dev nD) (t : Fin cfg0.N) : iblk m c 9 t = V m c main_arg10 := by
  funext y
  show V m c main_arg10 (((cfg0.win 9).blk t).view.emb y) = V m c main_arg10 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_9.index t (0 : Fin 2) * 500 + 1 * (y 0).val = (y 0).val; omega
  | ⟨1, _⟩ => show win0_9.index t (1 : Fin 2) * 10 + 1 * (y 1).val = (y 1).val; omega

theorem blk10 (c : Dev nD) (t : Fin cfg0.N) : iblk m c 10 t = V m c main_arg11 := by
  funext y
  show V m c main_arg11 (((cfg0.win 10).blk t).view.emb y) = V m c main_arg11 y
  refine congrArg _ (funext fun a => Fin.ext ?_)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  match a with
  | ⟨0, _⟩ => show win0_10.index t (0 : Fin 2) * 1 + 1 * (y 0).val = (y 0).val; omega
  | ⟨1, _⟩ => show win0_10.index t (1 : Fin 2) * 10 + 1 * (y 1).val = (y 1).val; omega

/-- The result rows of tile `t`. -/
def tileOut (X0 : S8192x28x28.Idx → Elt Ideal .f32) (B1 : Vec Ideal S3x140x160 .f32) (T1 : Vec Ideal S1x160 .f32) (B2 : Vec Ideal S5x160x200 .bf16)
    (S2 T2 : Vec Ideal S1x200 .f32) (FW1 : Vec Ideal S200x500 .bf16) (S3 T3 : Vec Ideal S1x500 .f32) (FW2 : Vec Ideal S500x10 .bf16) (FB2 : Vec Ideal S1x10 .f32)
    (t : Fin 32) : FVec Ideal S256x10 .f32 :=
  logits (tileOf X0 t) B1 T1 B2 S2 T2 FW1 S3 T3 FW2 FB2

/-- The whole result. -/
def netOut (X0 : S8192x28x28.Idx → Elt Ideal .f32) (B1 : Vec Ideal S3x140x160 .f32) (T1 : Vec Ideal S1x160 .f32) (B2 : Vec Ideal S5x160x200 .bf16)
    (S2 T2 : Vec Ideal S1x200 .f32) (FW1 : Vec Ideal S200x500 .bf16) (S3 T3 : Vec Ideal S1x500 .f32) (FW2 : Vec Ideal S500x10 .bf16) (FB2 : Vec Ideal S1x10 .f32) :
    S8192x10.Idx → Elt Ideal .f32 :=
  fun i => tileOut X0 B1 T1 B2 S2 T2 FW1 S3 T3 FW2 FB2
    (⟨(i 0).val / 256, by have h : (i 0).val < 8192 := (i 0).isLt; omega⟩ : Fin 32)
    (ix2 (⟨(i 0).val % 256, Nat.mod_lt _ (by decide)⟩ : Fin 256) (i 1))

/-- What the region finds in its eleven input arrays, and the result of them. -/
abbrev outOf (c : Dev nD) : S8192x10.Idx → Elt Ideal .f32 :=
  netOut (V m c main_v0) (V m c main_v81) (V m c main_v84) (V m c main_v109) (V m c main_v112) (V m c main_v115) (V m c main_arg7) (V m c main_arg8) (V m c main_arg9) (V m c main_arg10) (V m c main_arg11)

theorem flushed_eq (c : Dev nD) (t : Fin cfg0.N) :
    (dats m 0 c).flushed 11 t = ((cfg0.win 11).blk t).view.read (Elt Ideal) (outOf m c) := by
  show (cfg0.win 11).cut (grid0.coords t) ((dats m 0 c).after 11 t) = _
  rw [after11]
  unfold outBlock
  rw [View.canon_unit_zero hz2]
  rw [blk0, blk1, blk2, blk3, blk4, blk5, blk6, blk7, blk8, blk9, blk10]
  funext y
  show logits (tileOf (V m c main_v0) (t.cast N_0)) (V m c main_v81) (V m c main_v84) (V m c main_v109) (V m c main_v112) (V m c main_v115) (V m c main_arg7) (V m c main_arg8) (V m c main_arg9) (V m c main_arg10) (V m c main_arg11) y = outOf m c (((cfg0.win 11).blk t).view.emb y)
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  have ht : t.val < 32 := lt_of_lt_of_eq t.isLt N_0
  have hy0 : (y 0).val < 256 := (y 0).isLt
  have q0 : ((((cfg0.win 11).blk t).view.emb y) 0).val = t.val * 256 + (y 0).val := by
    show win0_11.index t (0 : Fin 2) * 256 + 1 * (y 0).val = _; omega
  have q1 : ((((cfg0.win 11).blk t).view.emb y) 1).val = (y 1).val := by
    show win0_11.index t (1 : Fin 2) * 10 + 1 * (y 1).val = _; omega
  unfold outOf netOut tileOut
  have et : (⟨((((cfg0.win 11).blk t).view.emb y) 0).val / 256, by have h : ((((cfg0.win 11).blk t).view.emb y) 0).val < 8192 := ((((cfg0.win 11).blk t).view.emb y) 0).isLt; omega⟩ : Fin 32) = t.cast N_0 :=
    Fin.ext (by show ((((cfg0.win 11).blk t).view.emb y) 0).val / 256 = t.val; omega)
  have ey : (ix2 (⟨((((cfg0.win 11).blk t).view.emb y) 0).val % 256, Nat.mod_lt _ (by decide)⟩ : Fin 256) ((((cfg0.win 11).blk t).view.emb y) 1) : S256x10.Idx) = y := by
    funext a
    match a with
    | ⟨0, _⟩ => exact Fin.ext (by show ((((cfg0.win 11).blk t).view.emb y) 0).val % 256 = (y 0).val; omega)
    | ⟨1, _⟩ => exact Fin.ext q1
  rw [et, ey]

theorem mem_blk (t : Fin cfg0.N) (i : S8192x10.Idx) :
    i ∈ ((cfg0.win 11).blk t).view.set ↔ ∀ a : Fin 2, win0_11.index t a * S256x10.size a ≤ (i a).val ∧ (i a).val < win0_11.index t a * S256x10.size a + S256x10.size a := by
  show i ∈ ((View.whole main_v116).slice (win0_11.rect t)).set ↔ _
  rw [View.set_slice_whole, Rect.mem_set_unit]
  exact Iff.rfl

theorem cover (i : S8192x10.Idx) : ∃ t : Fin cfg0.N, (cfg0.win 11).flush t = true ∧ i ∈ ((cfg0.win 11).blk t).view.set := by
  have hi0 : (i 0).val < 8192 := (i 0).isLt
  have hi1 : (i 1).val < 10 := (i 1).isLt
  let t : Fin cfg0.N := (⟨(i 0).val / 256, by omega⟩ : Fin 32).cast N_0.symm
  refine ⟨t, flush0_11 t, ?_⟩
  rw [mem_blk]
  obtain ⟨e0_0, e0_1, e0_2, e1_0, e1_1, e1_2, e2_0, e2_1, e3_0, e3_1, e3_2, e4_0, e4_1, e5_0, e5_1, e6_0, e6_1, e7_0, e7_1, e8_0, e8_1, e9_0, e9_1, e10_0, e10_1, e11_0, e11_1⟩ := idx_facts t
  have tv : t.val = (i 0).val / 256 := rfl
  intro a
  match a with
  | ⟨0, _⟩ => show win0_11.index t (0 : Fin 2) * 256 ≤ (i 0).val ∧ (i 0).val < win0_11.index t (0 : Fin 2) * 256 + 256; omega
  | ⟨1, _⟩ => show win0_11.index t (1 : Fin 2) * 10 ≤ (i 1).val ∧ (i 1).val < win0_11.index t (1 : Fin 2) * 10 + 10; omega

/-- The result array after the run. -/
theorem final (c : Dev nD) : (dats m 0 c).arrAt 11 cfg0.N = outOf m c :=
  (dats m 0 c).arrAt_eq_of_cover 11 (outOf m c) (fun t _ => flushed_eq m c t) cover

/-- The run, with the result named and the arguments unchanged. -/
theorem run : θ_run defs (onTc (τ := τ) (main (F := Ideal))) ⟨m, fun _ => 0, ρ⟩ (fun r => ∀ c : Dev nD,
      r.2.mem ((c.tc : Thread nD τ).loc main_v116) = outOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c => ⟨((h c).1 11).trans (final m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).1 6).trans (((dats m 0 c).arrAt_in 6 rfl _).trans ((A_eq m c 6).trans (V_main_arg7 m c))),
      ((h c).1 7).trans (((dats m 0 c).arrAt_in 7 rfl _).trans ((A_eq m c 7).trans (V_main_arg8 m c))),
      ((h c).1 8).trans (((dats m 0 c).arrAt_in 8 rfl _).trans ((A_eq m c 8).trans (V_main_arg9 m c))),
      ((h c).1 9).trans (((dats m 0 c).arrAt_in 9 rfl _).trans ((A_eq m c 9).trans (V_main_arg10 m c))),
      ((h c).1 10).trans (((dats m 0 c).arrAt_in 10 rfl _).trans ((A_eq m c 10).trans (V_main_arg11 m c)))⟩)
    (run_main m ρ)

end Cert.KernelIdeal.Net

end
-- ==== Proof.LibLayoutOps.lean ====
/-
  RESHAPES THAT MERGE OR SPLIT THE LEADING AXIS, READ AT AN INDEX.

  A row-major array `[a, b, c]` viewed as `[a·b, c]` reads, at `(r, q)`, the entry `(r / b, r % b, q)`; the same
  array viewed the other way, `[a·b, c]` as `[a, b, c]`, reads at `(x, y, q)` the entry `(x·b + y, q)`.
  Likewise one axis more: `[a, b, c, d]` as `[a·b, c, d]` and back, and `[a, b, c, d]` as `[a·b·c, d]` and back.
  A middle unit axis dropped, `[a, 1, c] → [a, c]`, reads `(x, 0, q)`.
-/
import Idealize.ShloMosaic.Lib.ValueIdx
import Idealize.ShloMosaic.Lib.Pipeline.Value

noncomputable section

namespace Cert.LayoutOps

open Idealize.ShloMosaic Idealize.ShloMosaic.ValueIdx

variable {α : Type}

theorem mul_add_lt {a b x y : ℕ} (hx : x < a) (hy : y < b) : x * b + y < a * b :=
  Nat.lt_of_lt_of_le (Nat.add_lt_add_left hy _) (by rw [← Nat.succ_mul]; exact Nat.mul_le_mul_right _ hx)

theorem div_lt_of_lt_mul' {a b r : ℕ} (h : r < a * b) : r / b < a :=
  Nat.div_lt_of_lt_mul (by rw [Nat.mul_comm]; exact h)

theorem pos_of_lt_mul {a b r : ℕ} (h : r < a * b) : 0 < b := by
  rcases Nat.eq_zero_or_pos b with hb | hb
  · subst hb; simp at h
  · exact hb

/-- `[a, b, c]` read as `[a·b, c]`. -/
theorem merge3 {a b c N : ℕ} (hN : N = a * b) (X : (⟨3, ![a, b, c]⟩ : Shape).Idx → α)
    (h : (⟨3, ![a, b, c]⟩ : Shape).ShapeCasts ⟨2, ![N, c]⟩) (r : Fin N) (q : Fin c) :
    shapeCast ⟨2, ![N, c]⟩ X h (ix2 r q)
      = X (ix3 (⟨r.val / b, div_lt_of_lt_mul' (lt_of_lt_of_eq r.isLt hN)⟩ : Fin a) (⟨r.val % b, Nat.mod_lt _ (pos_of_lt_mul (lt_of_lt_of_eq r.isLt hN))⟩ : Fin b) q) :=
  shapeCast_apply X h _ _ (by
    rw [Shape.rowMajor_val_three, Shape.rowMajor_val_two]
    show (r.val / b * b + r.val % b) * c + q.val = r.val * c + q.val
    rw [Nat.div_add_mod'])

/-- `[a·b, c]` read as `[a, b, c]`. -/
theorem split3 {a b c N : ℕ} (hN : N = a * b) (X : (⟨2, ![N, c]⟩ : Shape).Idx → α)
    (h : (⟨2, ![N, c]⟩ : Shape).ShapeCasts ⟨3, ![a, b, c]⟩) (x : Fin a) (y : Fin b) (q : Fin c) :
    shapeCast ⟨3, ![a, b, c]⟩ X h (ix3 x y q) = X (ix2 (⟨x.val * b + y.val, lt_of_lt_of_eq (mul_add_lt x.isLt y.isLt) hN.symm⟩ : Fin N) q) :=
  shapeCast_apply X h _ _ (by
    rw [Shape.rowMajor_val_three, Shape.rowMajor_val_two]
    rfl)

/-- `[a, 1, c]` read as `[a, c]`. -/
theorem dropMid {a c : ℕ} (X : (⟨3, ![a, 1, c]⟩ : Shape).Idx → α)
    (h : (⟨3, ![a, 1, c]⟩ : Shape).ShapeCasts ⟨2, ![a, c]⟩) (x : Fin a) (q : Fin c) :
    shapeCast ⟨2, ![a, c]⟩ X h (ix2 x q) = X (ix3 x (0 : Fin 1) q) :=
  shapeCast_apply X h _ _ (by
    rw [Shape.rowMajor_val_three, Shape.rowMajor_val_two]
    show (x.val * 1 + 0) * c + q.val = x.val * c + q.val
    rw [Nat.mul_one, Nat.add_zero])

/-- `[a, b, c, d]` read as `[a·b, c, d]`. -/
theorem merge4 {a b c d N : ℕ} (hN : N = a * b) (X : (⟨4, ![a, b, c, d]⟩ : Shape).Idx → α)
    (h : (⟨4, ![a, b, c, d]⟩ : Shape).ShapeCasts ⟨3, ![N, c, d]⟩) (r : Fin N) (p : Fin c) (q : Fin d) :
    shapeCast ⟨3, ![N, c, d]⟩ X h (ix3 r p q)
      = X (ix4 (⟨r.val / b, div_lt_of_lt_mul' (lt_of_lt_of_eq r.isLt hN)⟩ : Fin a) (⟨r.val % b, Nat.mod_lt _ (pos_of_lt_mul (lt_of_lt_of_eq r.isLt hN))⟩ : Fin b) p q) :=
  shapeCast_apply X h _ _ (by
    rw [Shape.rowMajor_val_four, Shape.rowMajor_val_three]
    show ((r.val / b * b + r.val % b) * c + p.val) * d + q.val = (r.val * c + p.val) * d + q.val
    rw [Nat.div_add_mod'])

/-- `[a·b, c, d]` read as `[a, b, c, d]`. -/
theorem split4 {a b c d N : ℕ} (hN : N = a * b) (X : (⟨3, ![N, c, d]⟩ : Shape).Idx → α)
    (h : (⟨3, ![N, c, d]⟩ : Shape).ShapeCasts ⟨4, ![a, b, c, d]⟩) (x : Fin a) (y : Fin b) (p : Fin c) (q : Fin d) :
    shapeCast ⟨4, ![a, b, c, d]⟩ X h (ix4 x y p q) = X (ix3 (⟨x.val * b + y.val, lt_of_lt_of_eq (mul_add_lt x.isLt y.isLt) hN.symm⟩ : Fin N) p q) :=
  shapeCast_apply X h _ _ (by
    rw [Shape.rowMajor_val_four, Shape.rowMajor_val_three]
    rfl)

end Cert.LayoutOps

end
-- ==== Proof.LibPoolOps.lean ====
/-
  A MAXIMUM OVER THE MIDDLE AXIS, AND COLUMN BLOCKS LAID SIDE BY SIDE, READ AT AN INDEX.

  The running maximum of a `[P, I, C]` array over its middle axis is at `(p, c)` the fold of `max` over `i < I` of
  the entries `(p, i, c)`, started from the accumulator's value.  `N` matrices of `K` columns each, laid side by
  side, read at column `k` the matrix number `k / K` at its column `k % K`.
-/
import Idealize.ShloMosaic.PureOps.Ideal.Laws
import Idealize.ShloMosaic.Lib.ValueIdx
import Idealize.ShloMosaic.Lib.Pipeline.Value

noncomputable section

namespace Cert.PoolOps

open Idealize.ShloMosaic Idealize.ShloMosaic.ValueIdx

/-- The maximum over the middle axis of a rank-3 array. -/
theorem max_mid3 {P I C : ℕ} {φ : FTy} (src : FVec Ideal ⟨3, ![P, I, C]⟩ φ) (acc : BitVec φ.bits)
    (h : (⟨3, ![P, I, C]⟩ : Shape).Reduces [1] ⟨2, ![P, C]⟩) (hφ : FKind.Formats φ) (hacc : acc = FKind.maximumf.neutral φ hφ)
    (p : Fin P) (c : Fin C) :
    multiReduction .maximumf [1] ⟨2, ![P, C]⟩ src acc h hφ hacc (ix2 p c)
      = (Finset.univ : Finset (Fin I)).fold max (FloatOps.ofBits φ acc) (fun i => src (ix3 p i c)) := by
  refine (Ideal.multiReduction_maximumf_single src acc h hφ hacc (ix2 p c)).trans ?_
  refine congrArg (fun g => (Finset.univ : Finset (Fin I)).fold max (FloatOps.ofBits φ acc) g) (funext fun i => ?_)
  show src (h.lift (ix2 p c) i) = src (ix3 p i c)
  refine congrArg src (funext fun a => Fin.ext ?_)
  match a with
  | ⟨0, _⟩ => rfl
  | ⟨1, _⟩ => rfl
  | ⟨2, _⟩ => rfl

/-- The maximum over axis 1 of a rank-4 array. -/
theorem max_ax1_4 {P I B C : ℕ} {φ : FTy} (src : FVec Ideal ⟨4, ![P, I, B, C]⟩ φ) (acc : BitVec φ.bits)
    (h : (⟨4, ![P, I, B, C]⟩ : Shape).Reduces [1] ⟨3, ![P, B, C]⟩) (hφ : FKind.Formats φ) (hacc : acc = FKind.maximumf.neutral φ hφ)
    (p : Fin P) (b : Fin B) (c : Fin C) :
    multiReduction .maximumf [1] ⟨3, ![P, B, C]⟩ src acc h hφ hacc (ix3 p b c)
      = (Finset.univ : Finset (Fin I)).fold max (FloatOps.ofBits φ acc) (fun i => src (ix4 p i b c)) := by
  refine (Ideal.multiReduction_maximumf_single src acc h hφ hacc (ix3 p b c)).trans ?_
  refine congrArg (fun g => (Finset.univ : Finset (Fin I)).fold max (FloatOps.ofBits φ acc) g) (funext fun i => ?_)
  show src (h.lift (ix3 p b c) i) = src (ix4 p i b c)
  refine congrArg src (funext fun a => Fin.ext ?_)
  match a with
  | ⟨0, _⟩ => rfl
  | ⟨1, _⟩ => rfl
  | ⟨2, _⟩ => rfl
  | ⟨3, _⟩ => rfl

/-- The maximum over axis 2 of a rank-4 array. -/
theorem max_ax2_4 {P B I C : ℕ} {φ : FTy} (src : FVec Ideal ⟨4, ![P, B, I, C]⟩ φ) (acc : BitVec φ.bits)
    (h : (⟨4, ![P, B, I, C]⟩ : Shape).Reduces [2] ⟨3, ![P, B, C]⟩) (hφ : FKind.Formats φ) (hacc : acc = FKind.maximumf.neutral φ hφ)
    (p : Fin P) (b : Fin B) (c : Fin C) :
    multiReduction .maximumf [2] ⟨3, ![P, B, C]⟩ src acc h hφ hacc (ix3 p b c)
      = (Finset.univ : Finset (Fin I)).fold max (FloatOps.ofBits φ acc) (fun i => src (ix4 p b i c)) := by
  refine (Ideal.multiReduction_maximumf_single src acc h hφ hacc (ix3 p b c)).trans ?_
  refine congrArg (fun g => (Finset.univ : Finset (Fin I)).fold max (FloatOps.ofBits φ acc) g) (funext fun i => ?_)
  show src (h.lift (ix3 p b c) i) = src (ix4 p b i c)
  refine congrArg src (funext fun a => Fin.ext ?_)
  match a with
  | ⟨0, _⟩ => rfl
  | ⟨1, _⟩ => rfl
  | ⟨2, _⟩ => rfl
  | ⟨3, _⟩ => rfl

/-- `N` matrices of `K` columns laid side by side. -/
theorem cols_ofFn {α : Type} {M K N W : ℕ} (hW : W = N * K) (f : Fin N → ((⟨2, ![M, K]⟩ : Shape).Idx → α))
    (h : Shape.Concatenates ((List.ofFn fun n : Fin N => (⟨⟨2, ![M, K]⟩, f n⟩ : (s : Shape) × (s.Idx → α))).map (·.1)) ⟨2, ![M, W]⟩ 1)
    (r : Fin M) (k : Fin W) (hK : 0 < K) :
    concatenate ⟨2, ![M, W]⟩ 1 (List.ofFn fun n : Fin N => (⟨⟨2, ![M, K]⟩, f n⟩ : (s : Shape) × (s.Idx → α))) h (ix2 r k)
      = f ⟨k.val / K, Nat.div_lt_of_lt_mul (by rw [Nat.mul_comm]; exact lt_of_lt_of_eq k.isLt hW)⟩ (ix2 r ⟨k.val % K, Nat.mod_lt _ hK⟩) :=
  concatenate_ofFn_apply (t := ⟨2, ![M, W]⟩) (s₁ := ⟨2, ![M, K]⟩) 1 f h rfl K rfl (ix2 r k) _ rfl _ rfl
    (fun b hb => by
      match b with
      | ⟨0, _⟩ => rfl
      | ⟨1, _⟩ => exact absurd rfl hb)

end Cert.PoolOps

end
-- ==== Proof.LibMatOps.lean ====
/-
  A PLAIN MATRIX PRODUCT AND A COLUMN BROADCAST, READ AT AN INDEX.

  The product of an `[M, K]` by a `[K, C]` array with no batch axis, contracting the left operand's columns with the
  right operand's rows, is at `(p, q)` the sum over `k < K` of `l (p, k) · r (k, q)` — for the device's matrix unit
  accumulating into zeros and for the host's dot product alike, at the exact instance. A one-column array `[a, 1]`
  broadcast to `[a, b]` reads its row's only entry at every column.
-/
import Idealize.ShloMosaic.PureOps.Ideal.Laws
import Idealize.ShloMosaic.Lib.ValueIdx
import Idealize.ShloMosaic.Lib.Pipeline.Value

noncomputable section

open scoped BigOperators

namespace Cert.MatOps

open Idealize.ShloMosaic Idealize.ShloMosaic.ValueIdx

/-- The dimension numbers of the plain product `[M, K] × [K, C] → [M, C]`. -/
abbrev plainDot (M K C : Nat)
    (wf : DotDims.WF ⟨2, ![M, K]⟩ ⟨2, ![K, C]⟩ ⟨2, ![M, C]⟩ [1] [0] [0] [1] [] []) :
    DotDims ⟨2, ![M, K]⟩ ⟨2, ![K, C]⟩ ⟨2, ![M, C]⟩ where
  lhsContracting := [1]
  rhsContracting := [0]
  lhsNonContracting := [0]
  rhsNonContracting := [1]
  lhsBatch := []
  rhsBatch := []
  wf := wf

section
variable {M K C : Nat} (wf : DotDims.WF ⟨2, ![M, K]⟩ ⟨2, ![K, C]⟩ ⟨2, ![M, C]⟩ [1] [0] [0] [1] [] [])

/-- The contraction sum of the plain product, re-indexed by `k < K`. -/
theorem plainDot_sum (l : (⟨2, ![M, K]⟩ : Shape).Idx → EReal) (r : (⟨2, ![K, C]⟩ : Shape).Idx → EReal) (p : Fin M) (q : Fin C) :
    ∑ k : (plainDot M K C wf).contr.Idx, l ((plainDot M K C wf).lhsIdx (ix2 p q) k) * r ((plainDot M K C wf).rhsIdx (ix2 p q) k)
      = ∑ k : Fin K, l (ix2 p k) * r (ix2 k q) := by
  rw [← Equiv.sum_comp (contrEquiv1 (plainDot M K C wf) K rfl rfl).symm]
  refine Finset.sum_congr rfl fun k _ => ?_
  have hk := contrEquiv1_symm_val (plainDot M K C wf) K rfl rfl k
  have el : (plainDot M K C wf).lhsIdx (ix2 p q) ((contrEquiv1 (plainDot M K C wf) K rfl rfl).symm k) = ix2 p k :=
    funext fun a => Fin.ext (by
      match a with
      | ⟨0, _⟩ =>
        show ((plainDot M K C wf).lhsIdx (ix2 p q) _ 0).val = p.val
        unfold DotDims.lhsIdx
        rw [dif_neg (show ¬(0 : Fin 2) ∈ (plainDot M K C wf).lhsBatch from List.not_mem_nil),
          dif_pos (show (0 : Fin 2) ∈ (plainDot M K C wf).lhsNonContracting from List.mem_singleton.mpr rfl)]
        rfl
      | ⟨1, _⟩ => exact ((plainDot M K C wf).lhsIdx_val_of_single rfl _ _).trans hk)
  have er : (plainDot M K C wf).rhsIdx (ix2 p q) ((contrEquiv1 (plainDot M K C wf) K rfl rfl).symm k) = ix2 k q :=
    funext fun a => Fin.ext (by
      match a with
      | ⟨0, _⟩ => exact ((plainDot M K C wf).rhsIdx_val_of_single rfl _ _).trans hk
      | ⟨1, _⟩ =>
        show ((plainDot M K C wf).rhsIdx (ix2 p q) _ 1).val = q.val
        unfold DotDims.rhsIdx
        rw [dif_neg (show ¬(1 : Fin 2) ∈ (plainDot M K C wf).rhsBatch from List.not_mem_nil),
          dif_pos (show (1 : Fin 2) ∈ (plainDot M K C wf).rhsNonContracting from List.mem_singleton.mpr rfl)]
        rfl)
  rw [el, er]

/-- The device's matrix unit accumulating into zeros. -/
theorem matmul_plain_apply {φ₁ φ₂ : FTy} (prec : Option ContractPrecision) (l : FVec Ideal ⟨2, ![M, K]⟩ φ₁)
    (r : FVec Ideal ⟨2, ![K, C]⟩ φ₂) (p : Fin M) (q : Fin C) :
    FloatOps.matmul (plainDot M K C wf) prec l r (constant ⟨2, ![M, C]⟩ .f32 0x00000000#32) (ix2 p q)
      = ∑ k : Fin K, l (ix2 p k) * r (ix2 k q) := by
  rw [Ideal.matmul_constant_zero_apply]
  exact plainDot_sum wf l r p q

/-- The host's dot product. -/
theorem dotGeneral_plain_apply {φ₁ φ₂ : FTy} (prec : Option ContractPrecision) (sched : HostSchedule)
    (l : FVec Ideal ⟨2, ![M, K]⟩ φ₁) (r : FVec Ideal ⟨2, ![K, C]⟩ φ₂) (p : Fin M) (q : Fin C) :
    FloatOps.dotGeneral (plainDot M K C wf) prec sched l r (ix2 p q) = ∑ k : Fin K, l (ix2 p k) * r (ix2 k q) := by
  rw [Ideal.dotGeneral_apply]
  exact plainDot_sum wf l r p q

end

/-- An `[a, 1]` column broadcast to `[a, b]` reads, at `(p, c)`, the column's entry of row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.MatOps

end
-- ==== Proof.KLayer1.lean ====
/-
  THE FIRST LAYER OF THE FUSED KERNEL, READ AT AN INDEX.

  The body lays the five row-shifted copies of the image tile side by side: row `r = b·24 + ho` of the patch matrix
  holds, at column `k = ki·28 + wj`, the pixel `(b, ho + ki, wj)`.  It multiplies the patch matrix by each of the three
  banded matrices, adds the shift row, takes the maximum of the three products and of zero, and then the maximum over
  each triple of consecutive rows: the entry `(b, hp, c)` of the result is the fold of `max` over `i < 3` of that
  value at row `b·24 + 3·hp + i`.
-/
import proofs.«180094_g2000601136005399_pallasbulk_237_2_alg».proof.Proof.Gen.KernelIdeal.Skeleton
import proofs.«180094_g2000601136005399_pallasbulk_237_2_alg».proof.Proof.LibLayoutOps
import proofs.«180094_g2000601136005399_pallasbulk_237_2_alg».proof.Proof.LibPoolOps
import proofs.«180094_g2000601136005399_pallasbulk_237_2_alg».proof.Proof.LibMatOps
import Idealize.ShloMosaic.Lib.ValueLayout

noncomputable section

open scoped BigOperators

namespace Cert.KernelIdeal.Net

open Cert.KernelIdeal Cert.KernelIdeal.Gen Idealize.ShloMosaic Idealize.ShloMosaic.ValueIdx Cert.LayoutOps Cert.PoolOps

/-- The patch matrix's entry: row `r = b·24 + ho`, column `k = ki·28 + wj` is the pixel `(b, ki + ho, wj)`. -/
def patch (v0 : Vec Ideal S256x28x28 .f32) (r : Fin 6144) (k : Fin 140) : EReal :=
  v0 (ix3 (⟨r.val / 24, by have := r.isLt; omega⟩ : Fin 256)
    (⟨k.val / 28 + r.val % 24, by have := r.isLt; have := k.isLt; omega⟩ : Fin 28)
    (⟨k.val % 28, Nat.mod_lt _ (by decide)⟩ : Fin 28))

/-- One row-shifted copy of the tile, flattened to `[6144, 28]`. -/
theorem shifted_apply (ki : ℕ) (hki : ki + 24 ≤ 28) (v0 : Vec Ideal S256x28x28 .f32) (h0 : S256x28x28.ShapeCasts S256x28x28)
    (hs : S256x28x28.Slices ![0, ki, 0] S256x24x28) (hc : S256x24x28.ShapeCasts S6144x28) (r : Fin 6144) (q : Fin 28) :
    shapeCast S6144x28 (extractStridedSlice S256x24x28 ![0, ki, 0] (shapeCast S256x28x28 v0 h0) hs) hc (ix2 r q)
      = v0 (ix3 (⟨r.val / 24, by have := r.isLt; omega⟩ : Fin 256) (⟨ki + r.val % 24, by have := r.isLt; omega⟩ : Fin 28) q) := by
  rw [shapeCast_self]
  refine (merge3 (a := 256) (b := 24) (c := 28) (N := 6144) rfl _ hc r q).trans ?_
  exact slice3_axis1_apply ki v0 hs _ _ _ _ rfl

/-- The five row-shifted copies, in order. -/
abbrev shiftedCopies (v0 : Vec Ideal S256x28x28 .f32) : List ((s : Shape) × (s.Idx → EReal)) :=
  [⟨S6144x28, shapeCast S6144x28 (extractStridedSlice S256x24x28 ![0, 0, 0] (shapeCast S256x28x28 v0 shapeCasts_S256x28x28_S256x28x28) slices_S256x28x28_o0_0_0_S256x24x28) shapeCasts_S256x24x28_S6144x28⟩,
   ⟨S6144x28, shapeCast S6144x28 (extractStridedSlice S256x24x28 ![0, 1, 0] (shapeCast S256x28x28 v0 shapeCasts_S256x28x28_S256x28x28) slices_S256x28x28_o0_1_0_S256x24x28) shapeCasts_S256x24x28_S6144x28⟩,
   ⟨S6144x28, shapeCast S6144x28 (extractStridedSlice S256x24x28 ![0, 2, 0] (shapeCast S256x28x28 v0 shapeCasts_S256x28x28_S256x28x28) slices_S256x28x28_o0_2_0_S256x24x28) shapeCasts_S256x24x28_S6144x28⟩,
   ⟨S6144x28, shapeCast S6144x28 (extractStridedSlice S256x24x28 ![0, 3, 0] (shapeCast S256x28x28 v0 shapeCasts_S256x28x28_S256x28x28) slices_S256x28x28_o0_3_0_S256x24x28) shapeCasts_S256x24x28_S6144x28⟩,
   ⟨S6144x28, shapeCast S6144x28 (extractStridedSlice S256x24x28 ![0, 4, 0] (shapeCast S256x28x28 v0 shapeCasts_S256x28x28_S256x28x28) slices_S256x28x28_o0_4_0_S256x24x28) shapeCasts_S256x24x28_S6144x28⟩]

/-- The patch matrix as the body builds it. -/
def patchVec (v0 : Vec Ideal S256x28x28 .f32) : FVec Ideal S6144x140 .f32 :=
  concatenate S6144x140 1 (shiftedCopies v0) concatenates_S6144x28_S6144x28_S6144x28_S6144x28_S6144x28_S6144x140_d1

/-- Copy number `i` holds the columns `28·i … 28·i + 27`. -/
theorem patchVec_piece (v0 : Vec Ideal S256x28x28 .f32) (r : Fin 6144) (k : Fin 140) (i : ℕ) (hi : i < (shiftedCopies v0).length)
    (x₁ : S6144x28.Idx → EReal) (hx : (shiftedCopies v0)[i] = ⟨S6144x28, x₁⟩) (hpre : i * 28 + k.val % 28 = k.val) :
    patchVec v0 (ix2 r k) = x₁ (ix2 r (⟨k.val % 28, Nat.mod_lt _ (by decide)⟩ : Fin 28)) := by
  unfold patchVec
  refine concatenate_apply_piece (t := S6144x140) 1 (shiftedCopies v0) concatenates_S6144x28_S6144x28_S6144x28_S6144x28_S6144x28_S6144x140_d1 (ix2 r k)
    i hi S6144x28 x₁ hx rfl (i * 28) ?_ (ix2 r ⟨k.val % 28, Nat.mod_lt _ (by decide)⟩) ?_ hpre
  · have hi' : i < 5 := hi
    interval_cases i <;> rfl
  · intro b hb
    match b with
    | ⟨0, _⟩ => rfl
    | ⟨1, _⟩ => exact absurd rfl hb

theorem patchVec_at (v0 : Vec Ideal S256x28x28 .f32) (r : Fin 6144) (k : Fin 140) (i : ℕ) (hi : i < 5) (hpre : i * 28 + k.val % 28 = k.val) :
    patchVec v0 (ix2 r k) = v0 (ix3 (⟨r.val / 24, by have := r.isLt; omega⟩ : Fin 256)
      (⟨i + r.val % 24, by have := r.isLt; omega⟩ : Fin 28) (⟨k.val % 28, Nat.mod_lt _ (by decide)⟩ : Fin 28)) := by
  interval_cases i
  · exact (patchVec_piece v0 r k 0 (by show (0 : ℕ) < 5; decide) _ rfl hpre).trans (shifted_apply 0 (by decide) v0 _ _ _ r _)
  · exact (patchVec_piece v0 r k 1 (by show (1 : ℕ) < 5; decide) _ rfl hpre).trans (shifted_apply 1 (by decide) v0 _ _ _ r _)
  · exact (patchVec_piece v0 r k 2 (by show (2 : ℕ) < 5; decide) _ rfl hpre).trans (shifted_apply 2 (by decide) v0 _ _ _ r _)
  · exact (patchVec_piece v0 r k 3 (by show (3 : ℕ) < 5; decide) _ rfl hpre).trans (shifted_apply 3 (by decide) v0 _ _ _ r _)
  · exact (patchVec_piece v0 r k 4 (by show (4 : ℕ) < 5; decide) _ rfl hpre).trans (shifted_apply 4 (by decide) v0 _ _ _ r _)

theorem patchVec_apply (v0 : Vec Ideal S256x28x28 .f32) (r : Fin 6144) (k : Fin 140) :
    patchVec v0 (ix2 r k) = patch v0 r k :=
  patchVec_at v0 r k (k.val / 28) (by have := k.isLt; omega) (Nat.div_add_mod' _ _)

theorem dot1_eq : dot_S6144x140_S140x160_S6144x160_1_0_0_1_n_n
    = Cert.MatOps.plainDot 6144 140 160 dot_S6144x140_S140x160_S6144x160_1_0_0_1_n_n_wf := rfl

/-- The patch matrix times one banded matrix, plus the shift row. -/
def bandProd (v0 : Vec Ideal S256x28x28 .f32) (v13 : FVec Ideal S1x160 .f32) (w : FVec Ideal S1x140x160 .f32) : FVec Ideal S6144x160 .f32 :=
  addf (matmul dot_S6144x140_S140x160_S6144x160_1_0_0_1_n_n none (patchVec v0) (shapeCast S140x160 w shapeCasts_S1x140x160_S140x160 : FVec Ideal S140x160 .f32) (constant S6144x160 .f32 0x00000000#32))
    (broadcastTo S6144x160 v13 broadcasts_S1x160_S6144x160 : FVec Ideal S6144x160 .f32)

theorem bandProd_apply (v0 : Vec Ideal S256x28x28 .f32) (v13 : FVec Ideal S1x160 .f32) (w : FVec Ideal S1x140x160 .f32) (r : Fin 6144) (c : Fin 160) :
    bandProd v0 v13 w (ix2 r c) = (∑ k : Fin 140, patch v0 r k * w (ix3 (0 : Fin 1) k c)) + v13 (ix2 (0 : Fin 1) c) := by
  unfold bandProd
  rw [addf_apply, dot1_eq]
  refine congrArg₂ (· + ·) ?_ (broadcastTo_1b_ab_apply v13 _ r c)
  refine (Cert.MatOps.matmul_plain_apply _ none _ _ r c).trans ?_
  refine Finset.sum_congr rfl fun k _ => ?_
  rw [patchVec_apply, shapeCast_1ab_ab_apply]

/-- The value whose row-triples are pooled: the three band products and zero, under `max`. -/
def preact1 (v0 : Vec Ideal S256x28x28 .f32) (v13 : FVec Ideal S1x160 .f32) (v14 v19 v25 : FVec Ideal S1x140x160 .f32) (r : Fin 6144) (c : Fin 160) : EReal :=
  max (max (max (bandProd v0 v13 v14 (ix2 r c)) (bandProd v0 v13 v19 (ix2 r c))) (bandProd v0 v13 v25 (ix2 r c))) (Ideal.ofBits .f32 0x00000000#32)

theorem pay2_apply (v0 : Vec Ideal S256x28x28 .f32) (v13 : Vec Ideal S1x160 .f32) (v14 v19 v25 : Vec Ideal S1x140x160 .f32)
    (b : Fin 256) (hp : Fin 8) (c : Fin 160) :
    k0_pay2 v0 v13 v14 v19 v25 (ix3 b hp c)
      = (Finset.univ : Finset (Fin 3)).fold max (FloatOps.ofBits .bf16 0xFF80#16)
          (fun i => preact1 v0 v13 v14 v19 v25 (⟨(b.val * 8 + hp.val) * 3 + i.val, by have := b.isLt; have := hp.isLt; have := i.isLt; omega⟩ : Fin 6144) c) := by
  unfold k0_pay2
  dsimp only
  refine (split3 (a := 256) (b := 8) (c := 160) (N := 2048) rfl _ _ b hp c).trans ?_
  refine (max_mid3 _ _ _ _ _ _ c).trans ?_
  refine congrArg (fun g => (Finset.univ : Finset (Fin 3)).fold max (FloatOps.ofBits .bf16 0xFF80#16) g) (funext fun i => ?_)
  refine (split3 (a := 2048) (b := 3) (c := 160) (N := 6144) rfl _ _ _ i c).trans ?_
  unfold preact1 bandProd patchVec
  rfl

end Cert.KernelIdeal.Net

end
-- ==== Proof.KLayer2.lean ====
/-
  THE SECOND LAYER OF THE FUSED KERNEL, READ AT AN INDEX.

  Row `R = n·4 + ho` of the accumulator is the sum over the five kernel rows `ki` of the product of pooled row
  `(n, ki + ho)` of the first layer — its 160 lanes `(wj, ci)` — with banded matrix `ki`; the accumulator is then
  scaled and shifted lane by lane.
-/
import proofs.«180094_g2000601136005399_pallasbulk_237_2_alg».proof.Proof.Gen.KernelIdeal.Skeleton
import proofs.«180094_g2000601136005399_pallasbulk_237_2_alg».proof.Proof.LibLayoutOps
import proofs.«180094_g2000601136005399_pallasbulk_237_2_alg».proof.Proof.LibMatOps
import proofs.«180094_g2000601136005399_pallasbulk_237_2_alg».proof.Proof.LibPoolOps
import Idealize.ShloMosaic.Lib.ValueLayout

noncomputable section

open scoped BigOperators

namespace Cert.KernelIdeal.Net

open Cert.KernelIdeal Cert.KernelIdeal.Gen Idealize.ShloMosaic Idealize.ShloMosaic.ValueIdx Cert.LayoutOps Cert.PoolOps

theorem dot2_eq : dot_S1024x160_S160x200_S1024x200_1_0_0_1_n_n
    = Cert.MatOps.plainDot 1024 160 200 dot_S1024x160_S160x200_S1024x200_1_0_0_1_n_n_wf := rfl

/-- Four consecutive pooled rows of every image, flattened, times one banded matrix. -/
def rowProd (v : FVec Ideal S256x4x160 .bf16) (w : FVec Ideal S1x160x200 .bf16) : FVec Ideal S1024x200 .f32 :=
  matmul dot_S1024x160_S160x200_S1024x200_1_0_0_1_n_n none (shapeCast S1024x160 v shapeCasts_S256x4x160_S1024x160 : FVec Ideal S1024x160 .bf16)
    (shapeCast S160x200 w shapeCasts_S1x160x200_S160x200 : FVec Ideal S160x200 .bf16) (constant S1024x200 .f32 0x00000000#32)

theorem rowProd_apply (v : FVec Ideal S256x4x160 .bf16) (w : FVec Ideal S1x160x200 .bf16) (R : Fin 1024) (c : Fin 200) :
    rowProd v w (ix2 R c) = ∑ k : Fin 160, v (ix3 (⟨R.val / 4, by have := R.isLt; omega⟩ : Fin 256) (⟨R.val % 4, Nat.mod_lt _ (by decide)⟩ : Fin 4) k) * w (ix3 (0 : Fin 1) k c) := by
  unfold rowProd
  rw [dot2_eq]
  refine (Cert.MatOps.matmul_plain_apply _ none _ _ R c).trans ?_
  refine Finset.sum_congr rfl fun k _ => ?_
  rw [shapeCast_1ab_ab_apply]
  exact congrArg (· * _) (merge3 (a := 256) (b := 4) (c := 160) (N := 1024) rfl v _ R k)

/-- Rows `ki … ki + 3` of the eight pooled rows. -/
theorem rows_apply (ki : ℕ) (v36 : FVec Ideal S256x8x160 .bf16) (hs : S256x8x160.Slices ![0, ki, 0] S256x4x160)
    (n : Fin 256) (ho : Fin 4) (k : Fin 160) (hb : ki + ho.val < 8) :
    extractStridedSlice S256x4x160 ![0, ki, 0] v36 hs (ix3 n ho k) = v36 (ix3 n (⟨ki + ho.val, hb⟩ : Fin 8) k) :=
  slice3_axis1_apply ki v36 hs _ _ _ _ rfl

/-- The accumulator row sums, scaled and shifted. -/
def acc2 (v36 : FVec Ideal S256x8x160 .bf16) (v37 : FVec Ideal S1024x200 .f32) (v38 : FVec Ideal S256x4x160 .bf16)
    (w0 w1 w2 w3 w4 : FVec Ideal S1x160x200 .bf16) (R : Fin 1024) (c : Fin 200) : EReal :=
  ((((v37 (ix2 R c) + rowProd v38 w0 (ix2 R c))
    + rowProd (extractStridedSlice S256x4x160 ![0, 1, 0] v36 slices_S256x8x160_o0_1_0_S256x4x160) w1 (ix2 R c))
    + rowProd (extractStridedSlice S256x4x160 ![0, 2, 0] v36 slices_S256x8x160_o0_2_0_S256x4x160) w2 (ix2 R c))
    + rowProd (extractStridedSlice S256x4x160 ![0, 3, 0] v36 slices_S256x8x160_o0_3_0_S256x4x160) w3 (ix2 R c))
    + rowProd (extractStridedSlice S256x4x160 ![0, 4, 0] v36 slices_S256x8x160_o0_4_0_S256x4x160) w4 (ix2 R c)

theorem pay5_apply (v36 : FVec Ideal S256x8x160 .bf16) (v37 : FVec Ideal S1024x200 .f32) (v38 : FVec Ideal S256x4x160 .bf16)
    (w0 w1 w2 w3 w4 : FVec Ideal S1x160x200 .bf16) (v68 v71 : FVec Ideal S1x200 .f32) (R : Fin 1024) (c : Fin 200) :
    k0_pay5 v36 v37 v38 w0 w1 w2 w3 w4 v68 v71 (ix2 R c)
      = acc2 v36 v37 v38 w0 w1 w2 w3 w4 R c * v68 (ix2 (0 : Fin 1) c) + v71 (ix2 (0 : Fin 1) c) := by
  unfold k0_pay5
  rw [addf_apply, mulf_apply]
  refine congrArg₂ (· + ·) (congrArg₂ (· * ·) ?_ (broadcastTo_1b_ab_apply v68 _ R c)) (broadcastTo_1b_ab_apply v71 _ R c)
  unfold acc2 rowProd
  rfl

end Cert.KernelIdeal.Net

end
-- ==== Proof.KLayer3.lean ====
/-
  THE SECOND LAYER'S POOLING AND THE DENSE LAYERS OF THE FUSED KERNEL, READ AT AN INDEX.

  The 200 lanes of a row are `(wo, co)`, `wo < 4`, `co < 50`.  After the rectifier, lanes `(0, co)` and `(1, co)` are
  joined by `max`, and lanes `(2, co)`, `(3, co)`: 100 lanes `(wp, co)`.  Pairs of consecutive rows `(n, 2·hp + i)` are
  then joined by `max`, and the two pooled rows of an image laid side by side: 200 features `(hp, wp, co)`.  The features
  go through the first dense layer, its scale, shift and rectifier, and the second dense layer with its bias.
-/
import proofs.«180094_g2000601136005399_pallasbulk_237_2_alg».proof.Proof.Gen.KernelIdeal.Skeleton
import proofs.«180094_g2000601136005399_pallasbulk_237_2_alg».proof.Proof.LibLayoutOps
import proofs.«180094_g2000601136005399_pallasbulk_237_2_alg».proof.Proof.LibPoolOps
import proofs.«180094_g2000601136005399_pallasbulk_237_2_alg».proof.Proof.LibMatOps
import Idealize.ShloMosaic.Lib.ValueLayout

noncomputable section

open scoped BigOperators

namespace Cert.KernelIdeal.Net

open Cert.KernelIdeal Cert.KernelIdeal.Gen Idealize.ShloMosaic Idealize.ShloMosaic.ValueIdx Cert.LayoutOps Cert.PoolOps

theorem dot3_eq : dot_S256x200_S200x500_S256x500_1_0_0_1_n_n
    = Cert.MatOps.plainDot 256 200 500 dot_S256x200_S200x500_S256x500_1_0_0_1_n_n_wf := rfl
theorem dot4_eq : dot_S256x500_S500x10_S256x10_1_0_0_1_n_n
    = Cert.MatOps.plainDot 256 500 10 dot_S256x500_S500x10_S256x10_1_0_0_1_n_n_wf := rfl

/-- The rectified second-layer output. -/
def reluVec (v73 : FVec Ideal S1024x200 .f32) (cst : Ideal .f32) : FVec Ideal S1024x200 .f32 :=
  maximumf v73 (broadcast S1024x200 cst)

def relu2 (v73 : FVec Ideal S1024x200 .f32) (cst : Ideal .f32) (R : Fin 1024) (c : Fin 200) : EReal := max (v73 (ix2 R c)) cst

/-- Lane pairs joined. -/
def wpoolVec (v73 : FVec Ideal S1024x200 .f32) (cst : Ideal .f32) : FVec Ideal S1024x100 .f32 :=
  concatenate S1024x100 1
    [⟨S1024x50, maximumf (extractStridedSlice S1024x50 ![0, 0] (reluVec v73 cst) slices_S1024x200_o0_0_S1024x50)
        (extractStridedSlice S1024x50 ![0, 50] (reluVec v73 cst) slices_S1024x200_o0_50_S1024x50)⟩,
     ⟨S1024x50, maximumf (extractStridedSlice S1024x50 ![0, 100] (reluVec v73 cst) slices_S1024x200_o0_100_S1024x50)
        (extractStridedSlice S1024x50 ![0, 150] (reluVec v73 cst) slices_S1024x200_o0_150_S1024x50)⟩]
    concatenates_S1024x50_S1024x50_S1024x100_d1

def wpool (v73 : FVec Ideal S1024x200 .f32) (cst : Ideal .f32) (R : Fin 1024) (q : Fin 100) : EReal :=
  if h : q.val < 50 then max (relu2 v73 cst R ⟨q.val, by omega⟩) (relu2 v73 cst R ⟨50 + q.val, by omega⟩)
  else max (relu2 v73 cst R ⟨100 + (q.val - 50), by have := q.isLt; omega⟩) (relu2 v73 cst R ⟨150 + (q.val - 50), by have := q.isLt; omega⟩)

theorem wpoolVec_apply (v73 : FVec Ideal S1024x200 .f32) (cst : Ideal .f32) (R : Fin 1024) (q : Fin 100) :
    wpoolVec v73 cst (ix2 R q) = wpool v73 cst R q := by
  unfold wpoolVec wpool
  split
  · next h =>
    refine (concatenate_pair_apply_left (t := S1024x100) (s₁ := S1024x50) (s₂ := S1024x50) 1 _ _ _ (ix2 R q) rfl (ix2 R (⟨q.val, h⟩ : Fin 50))
      (fun b => by match b with | ⟨0, _⟩ => rfl | ⟨1, _⟩ => rfl)).trans ?_
    rw [maximumf_apply]
    refine congrArg₂ max ?_ ?_
    · exact slice2_axis1_apply 0 (reluVec v73 cst) _ R _ (⟨q.val, by omega⟩ : Fin 200) (by simp)
    · exact slice2_axis1_apply 50 (reluVec v73 cst) _ R _ (⟨50 + q.val, by omega⟩ : Fin 200) rfl
  · next h =>
    have hq := q.isLt
    refine (concatenate_pair_apply_right (t := S1024x100) (s₁ := S1024x50) (s₂ := S1024x50) 1 _ _ _ (ix2 R q) rfl rfl (ix2 R (⟨q.val - 50, by omega⟩ : Fin 50))
      (fun b hb => by match b with | ⟨0, _⟩ => rfl | ⟨1, _⟩ => exact absurd rfl hb) (by show q.val - 50 + 50 = q.val; omega)).trans ?_
    rw [maximumf_apply]
    refine congrArg₂ max ?_ ?_
    · exact slice2_axis1_apply 100 (reluVec v73 cst) _ R _ (⟨100 + (q.val - 50), by omega⟩ : Fin 200) rfl
    · exact slice2_axis1_apply 150 (reluVec v73 cst) _ R _ (⟨150 + (q.val - 50), by omega⟩ : Fin 200) rfl

/-- Row pairs joined, two pooled rows per image. -/
def hpoolVec (v73 : FVec Ideal S1024x200 .f32) (cst : Ideal .f32) : FVec Ideal S256x2x100 .f32 :=
  shapeCast S256x2x100 (multiReduction .maximumf [1] S512x100 (shapeCast S512x2x100 (wpoolVec v73 cst) shapeCasts_S1024x100_S512x2x100 : FVec Ideal S512x2x100 .f32)
    0xFF800000#32 reduces_S512x2x100_S512x100 (.inl rfl) rfl) shapeCasts_S512x100_S256x2x100

def hpool (v73 : FVec Ideal S1024x200 .f32) (cst : Ideal .f32) (n : Fin 256) (hp : Fin 2) (q : Fin 100) : EReal :=
  (Finset.univ : Finset (Fin 2)).fold max (FloatOps.ofBits (F := Ideal) .f32 0xFF800000#32)
    (fun i => wpool v73 cst (⟨(n.val * 2 + hp.val) * 2 + i.val, by have := n.isLt; have := hp.isLt; have := i.isLt; omega⟩ : Fin 1024) q)

theorem hpoolVec_apply (v73 : FVec Ideal S1024x200 .f32) (cst : Ideal .f32) (n : Fin 256) (hp : Fin 2) (q : Fin 100) :
    hpoolVec v73 cst (ix3 n hp q) = hpool v73 cst n hp q := by
  unfold hpoolVec hpool
  refine (split3 (a := 256) (b := 2) (c := 100) (N := 512) rfl _ _ n hp q).trans ?_
  refine (max_mid3 _ _ _ _ _ _ q).trans ?_
  refine congrArg (fun g => (Finset.univ : Finset (Fin 2)).fold max (FloatOps.ofBits (F := Ideal) .f32 0xFF800000#32) g) (funext fun i => ?_)
  refine (split3 (a := 512) (b := 2) (c := 100) (N := 1024) rfl _ _ _ i q).trans ?_
  exact wpoolVec_apply v73 cst _ q

/-- The 200 features of an image. -/
def flatVec (v73 : FVec Ideal S1024x200 .f32) (cst : Ideal .f32) : FVec Ideal S256x200 .f32 :=
  concatenate S256x200 1
    [⟨S256x100, shapeCast S256x100 (extractStridedSlice S256x1x100 ![0, 0, 0] (hpoolVec v73 cst) slices_S256x2x100_o0_0_0_S256x1x100) shapeCasts_S256x1x100_S256x100⟩,
     ⟨S256x100, shapeCast S256x100 (extractStridedSlice S256x1x100 ![0, 1, 0] (hpoolVec v73 cst) slices_S256x2x100_o0_1_0_S256x1x100) shapeCasts_S256x1x100_S256x100⟩]
    concatenates_S256x100_S256x100_S256x200_d1

def flatK (v73 : FVec Ideal S1024x200 .f32) (cst : Ideal .f32) (n : Fin 256) (j : Fin 200) : EReal :=
  if h : j.val < 100 then hpool v73 cst n (0 : Fin 2) ⟨j.val, h⟩ else hpool v73 cst n (1 : Fin 2) ⟨j.val - 100, by have := j.isLt; omega⟩

theorem flatVec_apply (v73 : FVec Ideal S1024x200 .f32) (cst : Ideal .f32) (n : Fin 256) (j : Fin 200) :
    flatVec v73 cst (ix2 n j) = flatK v73 cst n j := by
  unfold flatVec flatK
  split
  · next h =>
    refine (concatenate_pair_apply_left (t := S256x200) (s₁ := S256x100) (s₂ := S256x100) 1 _ _ _ (ix2 n j) rfl (ix2 n (⟨j.val, h⟩ : Fin 100))
      (fun b => by match b with | ⟨0, _⟩ => rfl | ⟨1, _⟩ => rfl)).trans ?_
    refine (dropMid _ _ n _).trans ?_
    refine (slice3_axis1_apply 0 (hpoolVec v73 cst) _ n (0 : Fin 1) _ (0 : Fin 2) rfl).trans ?_
    exact hpoolVec_apply v73 cst n 0 _
  · next h =>
    have hj := j.isLt
    refine (concatenate_pair_apply_right (t := S256x200) (s₁ := S256x100) (s₂ := S256x100) 1 _ _ _ (ix2 n j) rfl rfl (ix2 n (⟨j.val - 100, by omega⟩ : Fin 100))
      (fun b hb => by match b with | ⟨0, _⟩ => rfl | ⟨1, _⟩ => exact absurd rfl hb) (by show j.val - 100 + 100 = j.val; omega)).trans ?_
    refine (dropMid _ _ n _).trans ?_
    refine (slice3_axis1_apply 1 (hpoolVec v73 cst) _ n (0 : Fin 1) _ (1 : Fin 2) rfl).trans ?_
    exact hpoolVec_apply v73 cst n 1 _

/-- The hidden layer: the features through the first dense layer, scale, shift and rectifier. -/
def hidden (v73 : FVec Ideal S1024x200 .f32) (cst : Ideal .f32) (v92 : FVec Ideal S200x500 .bf16) (v94 v97 : FVec Ideal S1x500 .f32)
    (n : Fin 256) (k : Fin 500) : EReal :=
  max ((∑ j : Fin 200, flatK v73 cst n j * v92 (ix2 j k)) * v94 (ix2 (0 : Fin 1) k) + v97 (ix2 (0 : Fin 1) k)) (Ideal.ofBits .f32 0x00000000#32)

/-- The features times the first dense matrix. -/
def featProd (v73 : FVec Ideal S1024x200 .f32) (cst : Ideal .f32) (v92 : FVec Ideal S200x500 .bf16) : FVec Ideal S256x500 .f32 :=
  matmul dot_S256x200_S200x500_S256x500_1_0_0_1_n_n none (truncf .bf16 (flatVec v73 cst) bitsLt_bf16_f32 : FVec Ideal S256x200 .bf16) v92 (constant S256x500 .f32 0x00000000#32)

theorem featProd_apply (v73 : FVec Ideal S1024x200 .f32) (cst : Ideal .f32) (v92 : FVec Ideal S200x500 .bf16) (n : Fin 256) (k : Fin 500) :
    featProd v73 cst v92 (ix2 n k) = ∑ j : Fin 200, flatK v73 cst n j * v92 (ix2 j k) := by
  unfold featProd
  rw [dot3_eq]
  refine (Cert.MatOps.matmul_plain_apply _ none _ _ n k).trans ?_
  refine Finset.sum_congr rfl fun j _ => ?_
  rw [truncf_apply, flatVec_apply]

def hiddenVec (v73 : FVec Ideal S1024x200 .f32) (cst : Ideal .f32) (v92 : FVec Ideal S200x500 .bf16) (v94 v97 : FVec Ideal S1x500 .f32) : FVec Ideal S256x500 .bf16 :=
  truncf .bf16 (maximumf (addf (mulf (featProd v73 cst v92) (broadcastTo S256x500 v94 broadcasts_S1x500_S256x500 : FVec Ideal S256x500 .f32))
    (broadcastTo S256x500 v97 broadcasts_S1x500_S256x500 : FVec Ideal S256x500 .f32)) (broadcast S256x500 (Scalar.ofBits (F := Ideal) .f32 0x00000000#32))) bitsLt_bf16_f32

theorem hiddenVec_apply (v73 : FVec Ideal S1024x200 .f32) (cst : Ideal .f32) (v92 : FVec Ideal S200x500 .bf16) (v94 v97 : FVec Ideal S1x500 .f32)
    (n : Fin 256) (k : Fin 500) : hiddenVec v73 cst v92 v94 v97 (ix2 n k) = hidden v73 cst v92 v94 v97 n k := by
  unfold hiddenVec hidden
  rw [truncf_apply, maximumf_apply, addf_apply, mulf_apply, broadcast_apply, featProd_apply, broadcastTo_1b_ab_apply, broadcastTo_1b_ab_apply]
  rfl

theorem pay1_apply (v73 : FVec Ideal S1024x200 .f32) (cst : Ideal .f32) (v92 : FVec Ideal S200x500 .bf16) (v94 v97 : FVec Ideal S1x500 .f32)
    (v103 : FVec Ideal S500x10 .bf16) (v105 : FVec Ideal S1x10 .f32) (n : Fin 256) (o : Fin 10) :
    k0_pay1 v73 cst v92 v94 v97 v103 v105 (ix2 n o)
      = (∑ k : Fin 500, hidden v73 cst v92 v94 v97 n k * v103 (ix2 k o)) + v105 (ix2 (0 : Fin 1) o) := by
  unfold k0_pay1
  show (addf (matmul dot_S256x500_S500x10_S256x10_1_0_0_1_n_n none (hiddenVec v73 cst v92 v94 v97) v103 (constant S256x10 .f32 0x00000000#32))
    (broadcastTo S256x10 v105 broadcasts_S1x10_S256x10 : FVec Ideal S256x10 .f32)) (ix2 n o) = _
  rw [addf_apply, dot4_eq]
  refine congrArg₂ (· + ·) ?_ (broadcastTo_1b_ab_apply v105 _ n o)
  refine (Cert.MatOps.matmul_plain_apply _ none _ _ n o).trans ?_
  refine Finset.sum_congr rfl fun k _ => ?_
  rw [hiddenVec_apply]

end Cert.KernelIdeal.Net

end
-- ==== Proof.KCombine.lean ====
/-
  THE FUSED KERNEL, IMAGE BY IMAGE.

  Every row of the result depends on one image only.  For an image `img`, the banded matrices `B1`, `B2` and the
  rows `T1`, `S2`, `T2`, …:
    first layer   `K1 hp c  = max_{i<3} max (max_j (Σ_k img(k/28 + 3hp+i, k%28)·B1 j k c + T1 c)) 0`,
    second layer  `K2 ho c  = (Σ_ki Σ_k K1 (ki+ho) k · B2 ki k c) · S2 c + T2 c`,
    features      the rectified second layer pooled over lane pairs and row pairs,
    result        the two dense layers of the features.
  The tile's result at local row `b` is this function of image `b` of the tile.
-/
import proofs.«180094_g2000601136005399_pallasbulk_237_2_alg».proof.Proof.KLayer1
import proofs.«180094_g2000601136005399_pallasbulk_237_2_alg».proof.Proof.KLayer2
import proofs.«180094_g2000601136005399_pallasbulk_237_2_alg».proof.Proof.KLayer3
import proofs.«180094_g2000601136005399_pallasbulk_237_2_alg».proof.Proof.KFinal

noncomputable section

open scoped BigOperators

namespace Cert.KernelIdeal.Net

open Cert.KernelIdeal Cert.KernelIdeal.Gen Idealize.ShloMosaic Idealize.ShloMosaic.ValueIdx Cert.LayoutOps Cert.PoolOps Cert.KernelIdeal.Frm

/-- The accumulator values the reductions start from, and zero, as the programs spell them. -/
abbrev negInfB : EReal := FloatOps.ofBits (F := Ideal) .bf16 0xFF80#16
abbrev negInfF : EReal := FloatOps.ofBits (F := Ideal) .f32 0xFF800000#32
abbrev zeroF : EReal := Ideal.ofBits .f32 0x00000000#32

/-- One band product of an image row window, plus the shift. -/
def KD (img : Fin 28 → Fin 28 → EReal) (B1 : Fin 3 → Fin 140 → Fin 160 → EReal) (T1 : Fin 160 → EReal) (j : Fin 3) (ho : Fin 24) (c : Fin 160) : EReal :=
  (∑ k : Fin 140, img ⟨k.val / 28 + ho.val, by have := k.isLt; have := ho.isLt; omega⟩ ⟨k.val % 28, Nat.mod_lt _ (by decide)⟩ * B1 j k c) + T1 c

def K1 (img : Fin 28 → Fin 28 → EReal) (B1 : Fin 3 → Fin 140 → Fin 160 → EReal) (T1 : Fin 160 → EReal) (hp : Fin 8) (c : Fin 160) : EReal :=
  (Finset.univ : Finset (Fin 3)).fold max negInfB (fun i =>
    max (max (max (KD img B1 T1 0 ⟨hp.val * 3 + i.val, by have := hp.isLt; have := i.isLt; omega⟩ c)
      (KD img B1 T1 1 ⟨hp.val * 3 + i.val, by have := hp.isLt; have := i.isLt; omega⟩ c))
      (KD img B1 T1 2 ⟨hp.val * 3 + i.val, by have := hp.isLt; have := i.isLt; omega⟩ c)) zeroF)

theorem ld_row3 {A B C : ℕ} {e : EltTy} (x : (⟨3, ![A, B, C]⟩ : Shape).Idx → Elt Ideal e) (j : ℕ) (inb : ∀ a, (![j, 0, 0] : Fin 3 → ℕ) a + (⟨3, ![1, B, C]⟩ : Shape).size a ≤ (⟨3, ![A, B, C]⟩ : Shape).size a)
    (hj : j < A) (k : Fin B) (c : Fin C) :
    View.ld (Val := Elt Ideal) (e' := e) x (Rect.unit (s := ⟨3, ![A, B, C]⟩) ![j, 0, 0] (⟨3, ![1, B, C]⟩ : Shape).size inb) (ix3 (0 : Fin 1) k c) = x (ix3 (⟨j, hj⟩ : Fin A) k c) := by
  show x ((Rect.unit (s := ⟨3, ![A, B, C]⟩) ![j, 0, 0] (⟨3, ![1, B, C]⟩ : Shape).size inb).emb (ix3 (0 : Fin 1) k c)) = _
  refine congrArg x (funext fun a => Fin.ext ?_)
  match a with
  | ⟨0, _⟩ => show j + 1 * 0 = j; omega
  | ⟨1, _⟩ => show 0 + 1 * k.val = k.val; omega
  | ⟨2, _⟩ => show 0 + 1 * c.val = c.val; omega

theorem layer1_img (x0 : Vec Ideal S256x28x28 .f32) (x1 : Vec Ideal S3x140x160 .f32) (x2 : Vec Ideal S1x160 .f32) (b : Fin 256) (hp : Fin 8) (c : Fin 160) :
    layer1 x0 x1 x2 (ix3 b hp c)
      = K1 (fun h w => x0 (ix3 b h w)) (fun j k c => x1 (ix3 j k c)) (fun c => x2 (ix2 (0 : Fin 1) c)) hp c := by
  unfold layer1
  rw [pay2_apply]
  unfold K1
  refine congrArg (fun g => (Finset.univ : Finset (Fin 3)).fold max negInfB g) (funext fun i => ?_)
  unfold preact1
  have hb := b.isLt; have hhp := hp.isLt; have hi := i.isLt
  have key : ∀ (j : ℕ) (hj : j < 3) (inb), bandProd (View.ld x0 rX) (View.ld x2 rT1)
        (View.ld x1 (Rect.unit (s := S3x140x160) ![j, 0, 0] S1x140x160.size inb))
        (ix2 (⟨(b.val * 8 + hp.val) * 3 + i.val, by omega⟩ : Fin 6144) c)
      = KD (fun h w => x0 (ix3 b h w)) (fun j k c => x1 (ix3 j k c)) (fun c => x2 (ix2 (0 : Fin 1) c)) ⟨j, hj⟩
          ⟨hp.val * 3 + i.val, by omega⟩ c := by
    intro j hj inb
    rw [bandProd_apply]
    unfold KD
    refine congrArg₂ (· + ·) (Finset.sum_congr rfl fun k _ => congrArg₂ (· * ·) ?_ (ld_row3 x1 j inb hj k c)) ?_
    · unfold patch
      rw [View.ld_unit_zero (S := S256x28x28) (funext fun a => by fin_cases a <;> rfl)]
      refine congrArg x0 (funext fun a => Fin.ext ?_)
      have hk := k.isLt
      match a with
      | ⟨0, _⟩ => show ((b.val * 8 + hp.val) * 3 + i.val) / 24 = b.val; omega
      | ⟨1, _⟩ => show k.val / 28 + ((b.val * 8 + hp.val) * 3 + i.val) % 24 = k.val / 28 + (hp.val * 3 + i.val); omega
      | ⟨2, _⟩ => rfl
    · rw [View.ld_unit_zero (S := S1x160) (funext fun a => by fin_cases a <;> rfl)]
  exact congrArg₂ max (congrArg₂ max (congrArg₂ max (key 0 (by decide) _) (key 1 (by decide) _)) (key 2 (by decide) _)) rfl

/-- The second layer's affine output for one image. -/
def K2 (y1 : Fin 8 → Fin 160 → EReal) (B2 : Fin 5 → Fin 160 → Fin 200 → EReal) (S2 T2 : Fin 200 → EReal) (ho : Fin 4) (c : Fin 200) : EReal :=
  (((((zeroF + ∑ k : Fin 160, y1 ⟨0 + ho.val, by have := ho.isLt; omega⟩ k * B2 0 k c)
    + ∑ k : Fin 160, y1 ⟨1 + ho.val, by have := ho.isLt; omega⟩ k * B2 1 k c)
    + ∑ k : Fin 160, y1 ⟨2 + ho.val, by have := ho.isLt; omega⟩ k * B2 2 k c)
    + ∑ k : Fin 160, y1 ⟨3 + ho.val, by have := ho.isLt; omega⟩ k * B2 3 k c)
    + ∑ k : Fin 160, y1 ⟨4 + ho.val, by have := ho.isLt; omega⟩ k * B2 4 k c) * S2 c + T2 c

theorem layer2_img (x0 : Vec Ideal S256x28x28 .f32) (x1 : Vec Ideal S3x140x160 .f32) (x2 : Vec Ideal S1x160 .f32) (x3 : Vec Ideal S5x160x200 .bf16)
    (x4 x5 : Vec Ideal S1x200 .f32) (b : Fin 256) (ho : Fin 4) (c : Fin 200) :
    layer2 x0 x1 x2 x3 x4 x5 (ix2 (⟨b.val * 4 + ho.val, by have := b.isLt; have := ho.isLt; omega⟩ : Fin 1024) c)
      = K2 (fun hp k => layer1 x0 x1 x2 (ix3 b hp k)) (fun ki k c => x3 (ix3 ki k c)) (fun c => x4 (ix2 (0 : Fin 1) c)) (fun c => x5 (ix2 (0 : Fin 1) c)) ho c := by
  unfold layer2
  rw [pay5_apply]
  unfold K2 acc2
  have hb := b.isLt; have hho := ho.isLt
  have hdiv : (b.val * 4 + ho.val) / 4 = b.val := by omega
  have hmod : (b.val * 4 + ho.val) % 4 = ho.val := by omega
  have en : (⟨(b.val * 4 + ho.val) / 4, by omega⟩ : Fin 256) = b := Fin.ext hdiv
  have eh : (⟨(b.val * 4 + ho.val) % 4, Nat.mod_lt _ (by decide)⟩ : Fin 4) = ho := Fin.ext hmod
  rw [View.ld_unit_zero (S := S1x200) (funext fun a => by fin_cases a <;> rfl), View.ld_unit_zero (S := S1x200) (funext fun a => by fin_cases a <;> rfl)]
  refine congrArg₂ (· + ·) (congrArg₂ (· * ·) ?_ rfl) rfl
  simp only [rowProd_apply]
  rw [en, eh]
  have r0 : ∀ k : Fin 160, k0_pay4 (View.ld x0 rX) (View.ld x2 rT1) (View.ld x1 rW1_0) (View.ld x1 rW1_1) (View.ld x1 rW1_2) (ix3 b ho k)
      = layer1 x0 x1 x2 (ix3 b (⟨0 + ho.val, by omega⟩ : Fin 8) k) := fun k => by
    unfold k0_pay4 layer1
    exact rows_apply 0 _ _ b ho k (by omega)
  have rk : ∀ (ki : ℕ) (hs) (hki : ki + ho.val < 8) (k : Fin 160), extractStridedSlice S256x4x160 ![0, ki, 0] (layer1 x0 x1 x2) hs (ix3 b ho k)
      = layer1 x0 x1 x2 (ix3 b (⟨ki + ho.val, hki⟩ : Fin 8) k) := fun ki hs hki k => rows_apply ki _ hs b ho k hki
  have lw : ∀ (ki : ℕ) (hki : ki < 5) (inb) (k : Fin 160), View.ld x3 (Rect.unit (s := S5x160x200) ![ki, 0, 0] S1x160x200.size inb) (ix3 (0 : Fin 1) k c)
      = x3 (ix3 (⟨ki, hki⟩ : Fin 5) k c) := fun ki hki inb k => ld_row3 x3 ki inb hki k c
  simp only [r0, rk 1 _ (by omega), rk 2 _ (by omega), rk 3 _ (by omega), rk 4 _ (by omega), lw 0 (by decide), lw 1 (by decide), lw 2 (by decide), lw 3 (by decide), lw 4 (by decide)]
  rfl

end Cert.KernelIdeal.Net

end
-- ==== Proof.NetSpec.lean ====
/-
  THE NETWORK, IMAGE BY IMAGE, AS THE REFERENCE COMPUTES IT.

  For one image `img` (28 × 28) and the parameters:
    `conv1 ho wo co   = Σ_{ki, kj < 5} img (ki + ho) (kj + wo) · w1 (5·ki + kj) co`          (24 × 24 × 20),
    `R1 hp wp co      = max over the 3 × 3 window of  max (conv1 · s1 co + t1 co) 0`        (8 × 8 × 20),
    `conv2 ho wo co   = Σ_{ki, kj < 5} Σ_{ci < 20} y (ki + ho) (kj + wo) ci · w2 (5·ki + kj) ci co`   (4 × 4 × 50),
    `R2 hp wp co      = max over the 2 × 2 window of  max (conv2 · s2 co + t2 co) 0`        (2 × 2 × 50),
    the 200 features `(hp, wp, co)` in row-major order, and the two dense layers.
  The maxima are folds of `max` from the reductions' accumulator value, as the programs spell them.
-/
import Idealize.ShloMosaic.PureOps.Ideal
import Idealize.ShloMosaic.Lib.ValueIdx

noncomputable section

open scoped BigOperators

namespace Cert.NetSpec

open Idealize.ShloMosaic

/-- The accumulator values the reductions start from, and zero, as the programs spell them. -/
abbrev negInfB : EReal := FloatOps.ofBits (F := Ideal) .bf16 0xFF80#16
abbrev negInfF : EReal := FloatOps.ofBits (F := Ideal) .f32 0xFF800000#32
abbrev zeroF : EReal := Ideal.ofBits .f32 0x00000000#32

def conv1 (img : Fin 28 → Fin 28 → EReal) (w1 : Fin 25 → Fin 20 → EReal) (ho wo : Fin 24) (co : Fin 20) : EReal :=
  ∑ ki : Fin 5, ∑ kj : Fin 5, img ⟨ki.val + ho.val, by have := ki.isLt; have := ho.isLt; omega⟩ ⟨kj.val + wo.val, by have := kj.isLt; have := wo.isLt; omega⟩
    * w1 ⟨ki.val * 5 + kj.val, by have := ki.isLt; have := kj.isLt; omega⟩ co

def R1 (img : Fin 28 → Fin 28 → EReal) (w1 : Fin 25 → Fin 20 → EReal) (s1 t1 : Fin 20 → EReal) (hp wp : Fin 8) (co : Fin 20) : EReal :=
  (Finset.univ : Finset (Fin 3)).fold max negInfF (fun j =>
    (Finset.univ : Finset (Fin 3)).fold max negInfF (fun i =>
      max (conv1 img w1 ⟨hp.val * 3 + i.val, by have := hp.isLt; have := i.isLt; omega⟩ ⟨wp.val * 3 + j.val, by have := wp.isLt; have := j.isLt; omega⟩ co * s1 co + t1 co) zeroF))

def conv2 (y : Fin 8 → Fin 8 → Fin 20 → EReal) (w2 : Fin 25 → Fin 20 → Fin 50 → EReal) (ho wo : Fin 4) (co : Fin 50) : EReal :=
  ∑ ki : Fin 5, ∑ kj : Fin 5, ∑ ci : Fin 20,
    y ⟨ki.val + ho.val, by have := ki.isLt; have := ho.isLt; omega⟩ ⟨kj.val + wo.val, by have := kj.isLt; have := wo.isLt; omega⟩ ci
      * w2 ⟨ki.val * 5 + kj.val, by have := ki.isLt; have := kj.isLt; omega⟩ ci co

def R2 (y : Fin 8 → Fin 8 → Fin 20 → EReal) (w2 : Fin 25 → Fin 20 → Fin 50 → EReal) (s2 t2 : Fin 50 → EReal) (hp wp : Fin 2) (co : Fin 50) : EReal :=
  (Finset.univ : Finset (Fin 2)).fold max negInfF (fun j =>
    (Finset.univ : Finset (Fin 2)).fold max negInfF (fun i =>
      max (conv2 y w2 ⟨hp.val * 2 + i.val, by have := hp.isLt; have := i.isLt; omega⟩ ⟨wp.val * 2 + j.val, by have := wp.isLt; have := j.isLt; omega⟩ co * s2 co + t2 co) zeroF))

/-- The two dense layers of a feature vector. -/
def dense (flat : Fin 200 → EReal) (fw1 : Fin 200 → Fin 500 → EReal) (s3 t3 : Fin 500 → EReal) (fw2 : Fin 500 → Fin 10 → EReal) (fb2 : Fin 10 → EReal)
    (o : Fin 10) : EReal :=
  (∑ k : Fin 500, max ((∑ j : Fin 200, flat j * fw1 j k) * s3 k + t3 k) zeroF * fw2 k o) + fb2 o

end Cert.NetSpec

end
-- ==== Proof.KCombine2.lean ====
/-
  THE FUSED KERNEL, IMAGE BY IMAGE: POOLING OF THE SECOND LAYER AND THE DENSE LAYERS.

  For one image the rectified second-layer output `z ho c` (4 rows, 200 lanes `(wo, co)`) is pooled over lane pairs
  `wo ∈ {0,1}`, `{2,3}` and over row pairs `ho ∈ {2hp, 2hp+1}`; the 200 features `(hp, wp, co)` then go through the
  dense layers.  The tile's result row `b` is this function of image `b`.
-/
import proofs.«180094_g2000601136005399_pallasbulk_237_2_alg».proof.Proof.KCombine
import proofs.«180094_g2000601136005399_pallasbulk_237_2_alg».proof.Proof.NetSpec

noncomputable section

open scoped BigOperators

namespace Cert.KernelIdeal.Net

open Cert.KernelIdeal Cert.KernelIdeal.Gen Idealize.ShloMosaic Idealize.ShloMosaic.ValueIdx Cert.LayoutOps Cert.PoolOps Cert.KernelIdeal.Frm

def Kw (z : Fin 4 → Fin 200 → EReal) (ho : Fin 4) (q : Fin 100) : EReal :=
  if h : q.val < 50 then max (max (z ho ⟨q.val, by omega⟩) zeroF) (max (z ho ⟨50 + q.val, by omega⟩) zeroF)
  else max (max (z ho ⟨100 + (q.val - 50), by have := q.isLt; omega⟩) zeroF) (max (z ho ⟨150 + (q.val - 50), by have := q.isLt; omega⟩) zeroF)

def K3 (z : Fin 4 → Fin 200 → EReal) (hp : Fin 2) (q : Fin 100) : EReal :=
  (Finset.univ : Finset (Fin 2)).fold max negInfF (fun i => Kw z ⟨hp.val * 2 + i.val, by have := hp.isLt; have := i.isLt; omega⟩ q)

def Kflat (z : Fin 4 → Fin 200 → EReal) (j : Fin 200) : EReal :=
  if h : j.val < 100 then K3 z (0 : Fin 2) ⟨j.val, h⟩ else K3 z (1 : Fin 2) ⟨j.val - 100, by have := j.isLt; omega⟩

theorem flatK_img (x0 : Vec Ideal S256x28x28 .f32) (x1 : Vec Ideal S3x140x160 .f32) (x2 : Vec Ideal S1x160 .f32) (x3 : Vec Ideal S5x160x200 .bf16)
    (x4 x5 : Vec Ideal S1x200 .f32) (b : Fin 256) (j : Fin 200) :
    flatK (layer2 x0 x1 x2 x3 x4 x5) (Scalar.ofBits (F := Ideal) .f32 0x00000000#32) b j
      = Kflat (fun ho c => layer2 x0 x1 x2 x3 x4 x5 (ix2 (⟨b.val * 4 + ho.val, by have := b.isLt; have := ho.isLt; omega⟩ : Fin 1024) c)) j := by
  have hb := b.isLt
  have hw : ∀ (hp : Fin 2) (i : Fin 2) (q : Fin 100),
      wpool (layer2 x0 x1 x2 x3 x4 x5) (Scalar.ofBits (F := Ideal) .f32 0x00000000#32)
        (⟨(b.val * 2 + hp.val) * 2 + i.val, by have := hp.isLt; have := i.isLt; omega⟩ : Fin 1024) q
      = Kw (fun ho c => layer2 x0 x1 x2 x3 x4 x5 (ix2 (⟨b.val * 4 + ho.val, by have := ho.isLt; omega⟩ : Fin 1024) c))
          ⟨hp.val * 2 + i.val, by have := hp.isLt; have := i.isLt; omega⟩ q := by
    intro hp i q
    have hhp := hp.isLt; have hi := i.isLt
    have eR : (⟨(b.val * 2 + hp.val) * 2 + i.val, by omega⟩ : Fin 1024) = ⟨b.val * 4 + (hp.val * 2 + i.val), by omega⟩ := Fin.ext (by show (b.val * 2 + hp.val) * 2 + i.val = b.val * 4 + (hp.val * 2 + i.val); omega)
    rw [eR]
    unfold wpool Kw relu2
    rfl
  have hh : ∀ (hp : Fin 2) (q : Fin 100),
      hpool (layer2 x0 x1 x2 x3 x4 x5) (Scalar.ofBits (F := Ideal) .f32 0x00000000#32) b hp q
      = K3 (fun ho c => layer2 x0 x1 x2 x3 x4 x5 (ix2 (⟨b.val * 4 + ho.val, by have := ho.isLt; omega⟩ : Fin 1024) c)) hp q := by
    intro hp q
    unfold hpool K3
    exact congrArg (fun g => (Finset.univ : Finset (Fin 2)).fold max negInfF g) (funext fun i => hw hp i q)
  unfold flatK Kflat
  split
  · exact hh 0 _
  · exact hh 1 _

/-- The kernel's function of one image. -/
def netK (img : Fin 28 → Fin 28 → EReal) (B1 : Fin 3 → Fin 140 → Fin 160 → EReal) (T1 : Fin 160 → EReal) (B2 : Fin 5 → Fin 160 → Fin 200 → EReal)
    (S2 T2 : Fin 200 → EReal) (fw1 : Fin 200 → Fin 500 → EReal) (s3 t3 : Fin 500 → EReal) (fw2 : Fin 500 → Fin 10 → EReal) (fb2 : Fin 10 → EReal)
    (o : Fin 10) : EReal :=
  Cert.NetSpec.dense (Kflat (K2 (K1 img B1 T1) B2 S2 T2)) fw1 s3 t3 fw2 fb2 o

theorem logits_img (x0 : Vec Ideal S256x28x28 .f32) (x1 : Vec Ideal S3x140x160 .f32) (x2 : Vec Ideal S1x160 .f32) (x3 : Vec Ideal S5x160x200 .bf16)
    (x4 x5 : Vec Ideal S1x200 .f32) (x6 : Vec Ideal S200x500 .bf16) (x7 x8 : Vec Ideal S1x500 .f32) (x9 : Vec Ideal S500x10 .bf16) (x10 : Vec Ideal S1x10 .f32)
    (b : Fin 256) (o : Fin 10) :
    logits x0 x1 x2 x3 x4 x5 x6 x7 x8 x9 x10 (ix2 b o)
      = netK (fun h w => x0 (ix3 b h w)) (fun j k c => x1 (ix3 j k c)) (fun c => x2 (ix2 (0 : Fin 1) c)) (fun ki k c => x3 (ix3 ki k c))
          (fun c => x4 (ix2 (0 : Fin 1) c)) (fun c => x5 (ix2 (0 : Fin 1) c)) (fun j k => x6 (ix2 j k)) (fun k => x7 (ix2 (0 : Fin 1) k)) (fun k => x8 (ix2 (0 : Fin 1) k))
          (fun k o => x9 (ix2 k o)) (fun o => x10 (ix2 (0 : Fin 1) o)) o := by
  unfold logits
  rw [pay1_apply]
  rw [View.ld_unit_zero (S := S200x500) (funext fun a => by fin_cases a <;> rfl), View.ld_unit_zero (S := S1x500) (funext fun a => by fin_cases a <;> rfl),
    View.ld_unit_zero (S := S1x500) (funext fun a => by fin_cases a <;> rfl), View.ld_unit_zero (S := S500x10) (funext fun a => by fin_cases a <;> rfl),
    View.ld_unit_zero (S := S1x10) (funext fun a => by fin_cases a <;> rfl)]
  unfold netK Cert.NetSpec.dense hidden
  have hf : ∀ j : Fin 200, flatK (layer2 x0 x1 x2 x3 x4 x5) (Scalar.ofBits (F := Ideal) .f32 0x00000000#32) b j
      = Kflat (K2 (K1 (fun h w => x0 (ix3 b h w)) (fun j k c => x1 (ix3 j k c)) (fun c => x2 (ix2 (0 : Fin 1) c))) (fun ki k c => x3 (ix3 ki k c))
          (fun c => x4 (ix2 (0 : Fin 1) c)) (fun c => x5 (ix2 (0 : Fin 1) c))) j := by
    intro j
    rw [flatK_img]
    refine congrArg (fun z => Kflat z j) (funext fun ho => funext fun c => ?_)
    rw [layer2_img]
    exact congrArg (fun y => K2 y _ _ _ ho c) (funext fun hp => funext fun k => layer1_img x0 x1 x2 b hp k)
  simp only [hf]

end Cert.KernelIdeal.Net

end
-- ==== Proof.KHostB1.lean ====
/-
  THE FIRST LAYER'S BANDED MATRICES, AS THE HOST BUILDS THEM.

  Before the region runs, the host folds the scale row into the 5 x 5 x 20 first-layer weights, `w·s`, and lays three
  banded `[140, 160]` matrices side by side: for the pooling phase `j < 3`, row `ki·28 + wj` and column `wp·20 + co`
  hold `w[ki, d, co] · s[co]` at `d = wj − (3·wp + j)` when `0 ≤ d < 5`, and zero otherwise.  The host computes `d`,
  the test `0 ≤ d < 5` and the clipped `d` as 32-bit integer tables over `28 x 8`; these are closed terms, and their
  entries are decided.  The gather then reads the folded weights at the clipped `d`, the select keeps them where the
  test holds, a reshape merges `(ki, wj)` and `(wp, co)`, and a concatenation stacks the three phases.
-/
import proofs.«180094_g2000601136005399_pallasbulk_237_2_alg».proof.Proof.KernelIdealFrame
import Idealize.ShloMosaic.Lib.StableHlo.Run
import Idealize.ShloMosaic.PureOps.Ideal
import Idealize.ShloMosaic.PureOps.Ideal.Laws
import Idealize.ShloMosaic.Lib.Pipeline.Value
import Idealize.ShloMosaic.Lib.ValueIdx

set_option maxRecDepth 16384

noncomputable section

namespace Cert.KernelIdeal.Net

open Cert.KernelIdeal Cert.KernelIdeal.Gen Cert.KernelIdeal.Frm Idealize.ShloMosaic Idealize.ShloMosaic.TcCoe Idealize.ShloMosaic.ValueIdx

/-! ## The index arrays of one band: closed integer tables -/

/-- `d[wj, wp] = wj − (3·wp + j)` as 32-bit words. -/
def dArr (jc : BitVec 32) : IVec S28x8 32 :=
  subi (broadcastInDim S28x8 ![0, 1] bcast_S28x1_S28x8_0_1 (broadcastInDim S28x1 ![0] bcast_S28_S28x1_0 (iotaInDim S28 32 0)))
    (broadcastInDim S28x8 ![0, 1] bcast_S1x8_S28x8_0_1
      (addi (muli (broadcastInDim S1x8 ![] bcast_S_S1x8 (constantI S_ 32 3#32)) (broadcastInDim S1x8 ![1] bcast_S8_S1x8_1 (iotaInDim S8 32 0)))
        (broadcastInDim S1x8 ![] bcast_S_S1x8 (constantI S_ 32 jc))))

/-- `0 ≤ d < 5`, as a bit. -/
def validArr (jc : BitVec 32) : IVec S28x8 1 :=
  andi (cmpi .sge (dArr jc) (broadcastInDim S28x8 ![] bcast_S_S28x8 (constantI S_ 32 0#32)))
    (cmpi .slt (dArr jc) (broadcastInDim S28x8 ![] bcast_S_S28x8 (constantI S_ 32 5#32)))

/-- `d` clipped into `[0, 4]`. -/
def clipArr (jc : BitVec 32) : IVec S28x8 32 :=
  minsi (broadcastInDim S28x8 ![] bcast_S_S28x8 (constantI S_ 32 4#32))
    (maxsi (broadcastInDim S28x8 ![] bcast_S_S28x8 (constantI S_ 32 0#32)) (dArr jc))

/-- The start indices the gather reads: the clipped `d`, a negative one wrapped by 5 (none is). -/
def idxArr (jc : BitVec 32) : IVec S28x8x1 32 :=
  broadcastInDim S28x8x1 ![0, 1] bcast_S28x8_S28x8x1_0_1
    (select (cmpi .slt (clipArr jc) (broadcastInDim S28x8 ![] bcast_S_S28x8 (constantI S_ 32 0#32)))
      (addi (clipArr jc) (broadcastInDim S28x8 ![] bcast_S_S28x8 (constantI S_ 32 5#32))) (clipArr jc))

theorem valid_table : ∀ (j : Fin 3) (wj : Fin 28) (wp : Fin 8), validArr (BitVec.ofNat 32 j.val) (ix2 wj wp) = if 3 * wp.val + j.val ≤ wj.val ∧ wj.val < 3 * wp.val + j.val + 5 then 1#1 else 0#1 := by
  decide +kernel
theorem idx_table : ∀ (j : Fin 3) (wj : Fin 28) (wp : Fin 8), 3 * wp.val + j.val ≤ wj.val ∧ wj.val < 3 * wp.val + j.val + 5 →
    min (idxArr (BitVec.ofNat 32 j.val) (ix3 wj wp (0 : Fin 1))).toInt.toNat 4 = wj.val - (3 * wp.val + j.val) := by
  decide +kernel

/-! ## The gather of one band read at an index -/

/-- The gather's dimension numbers: operand `[5, 5, 20]`, start indices `[28, 8, 1]` on operand axis 1, result `[5, 28, 8, 20]`. -/
abbrev G := gather_S5x5x20_S28x8x1_S5x28x8x20_03_1_n_n_1_2_5120

/-- The start-indices index the result index `(ki, wj, wp, co)` reads: `(wj, wp, 0)`. -/
theorem G_siIdx (ki : Fin 5) (wj : Fin 28) (wp : Fin 8) (co : Fin 20) :
    G.siIdx (ix4 ki wj wp co) ⟨0, by decide⟩ = ix3 wj wp (0 : Fin 1) := by
  funext b
  refine Fin.ext ?_
  match b with
  | ⟨0, _⟩ => rfl
  | ⟨1, _⟩ => rfl
  | ⟨2, _⟩ => rfl

/-- The gather at `(ki, wj, wp, co)`: the operand at `(ki, start, co)`, the start index read signed and clamped to `[0, 4]`. -/
theorem gather_band_apply {α : Type} (x : S5x5x20.Idx → α) (idx : IVec S28x8x1 32) (ki : Fin 5) (wj : Fin 28) (wp : Fin 8) (co : Fin 20) :
    Host.gather G x idx (ix4 ki wj wp co)
      = x (ix3 ki (⟨min (idx (ix3 wj wp (0 : Fin 1))).toInt.toNat 4, Nat.lt_succ_of_le (Nat.min_le_right _ 4)⟩ : Fin 5) co) := by
  unfold Host.gather
  refine congrArg x (funext fun a => Fin.ext ?_)
  match a with
  | ⟨0, _⟩ => exact (show _ = 0 + 0 + ki.val from rfl).trans (Nat.zero_add _)
  | ⟨1, _⟩ =>
    refine (show _ = min (idx (G.siIdx (ix4 ki wj wp co) ⟨0, by decide⟩)).toInt.toNat 4 from rfl).trans ?_
    rw [G_siIdx]
  | ⟨2, _⟩ => exact (show _ = 0 + 0 + co.val from rfl).trans (Nat.zero_add _)

/-! ## One band, as the host computes it -/

/-- The folded weights `w1[ki, d, co] · s1[co]`. -/
def foldedW (A1 : FVec Ideal S25x1x20 .f32) (A2 : FVec Ideal S1x20 .f32) : FVec Ideal S5x5x20 .f32 :=
  mulf (shapeCast S5x5x20 A1 shapeCasts_S25x1x20_S5x5x20)
    (broadcastInDim S5x5x20 ![0, 1, 2] bcast_S1x1x20_S5x5x20_0_1_2 (shapeCast S1x1x20 A2 shapeCasts_S1x20_S1x1x20))

theorem foldedW_apply (A1 : FVec Ideal S25x1x20 .f32) (A2 : FVec Ideal S1x20 .f32) (ki d : Fin 5) (co : Fin 20) :
    foldedW A1 A2 (ix3 ki d co)
      = A1 (ix3 (⟨ki.val * 5 + d.val, by have := ki.isLt; have := d.isLt; omega⟩ : Fin 25) (0 : Fin 1) co) * A2 (ix2 (0 : Fin 1) co) := by
  unfold foldedW
  rw [mulf_apply]
  refine congrArg₂ (· * ·) ?_ ?_
  · refine shapeCast_apply A1 _ _ _ ?_
    rw [Shape.rowMajor_val_three, Shape.rowMajor_val_three]
    show ((ki.val * 5 + d.val) * 1 + 0) * 20 + co.val = (ki.val * 5 + d.val) * 20 + co.val
    omega
  · refine (broadcastInDim_apply _ _ _ (ix3 ki d co) (ix3 (0 : Fin 1) (0 : Fin 1) co) ?_).trans ?_
    · intro a
      match a with
      | ⟨0, _⟩ => rfl
      | ⟨1, _⟩ => rfl
      | ⟨2, _⟩ => rfl
    · refine shapeCast_apply A2 _ _ _ ?_
      rw [Shape.rowMajor_val_two, Shape.rowMajor_val_three]
      show 0 * 20 + co.val = (0 * 1 + 0) * 20 + co.val
      omega

/-- The band before the final reshape: the gathered folded weights where `0 ≤ d < 5`, zero elsewhere. -/
def band4 (jc : BitVec 32) (A1 : FVec Ideal S25x1x20 .f32) (A2 : FVec Ideal S1x20 .f32) : FVec Ideal S5x28x8x20 .f32 :=
  select (broadcastInDim S5x28x8x20 ![0, 1, 2, 3] bcast_S1x28x8x1_S5x28x8x20_0_1_2_3 (broadcastInDim S1x28x8x1 ![1, 2] bcast_S28x8_S1x28x8x1_1_2 (validArr jc)))
    (Host.gather G (foldedW A1 A2) (idxArr jc))
    (broadcastInDim S5x28x8x20 ![] bcast_S_S5x28x8x20 (constant (F := Ideal) S_ .f32 0x00000000#32))

/-- The band as a `[140, 160]` matrix. -/
def band (jc : BitVec 32) (A1 : FVec Ideal S25x1x20 .f32) (A2 : FVec Ideal S1x20 .f32) : FVec Ideal S140x160 .f32 :=
  shapeCast S140x160 (band4 jc A1 A2) shapeCasts_S5x28x8x20_S140x160

theorem band4_apply (j : Fin 3) (A1 : FVec Ideal S25x1x20 .f32) (A2 : FVec Ideal S1x20 .f32) (ki : Fin 5) (wj : Fin 28) (wp : Fin 8) (co : Fin 20) :
    band4 (BitVec.ofNat 32 j.val) A1 A2 (ix4 ki wj wp co)
      = if h : 3 * wp.val + j.val ≤ wj.val ∧ wj.val < 3 * wp.val + j.val + 5 then
          A1 (ix3 (⟨ki.val * 5 + (wj.val - (3 * wp.val + j.val)), by have := ki.isLt; omega⟩ : Fin 25) (0 : Fin 1) co) * A2 (ix2 (0 : Fin 1) co)
        else 0 := by
  unfold band4
  rw [select_apply]
  have hc : broadcastInDim S5x28x8x20 ![0, 1, 2, 3] bcast_S1x28x8x1_S5x28x8x20_0_1_2_3 (broadcastInDim S1x28x8x1 ![1, 2] bcast_S28x8_S1x28x8x1_1_2 (validArr (BitVec.ofNat 32 j.val))) (ix4 ki wj wp co)
      = validArr (BitVec.ofNat 32 j.val) (ix2 wj wp) := by
    refine (broadcastInDim_apply _ _ _ (ix4 ki wj wp co) (ix4 (0 : Fin 1) wj wp (0 : Fin 1)) ?_).trans ?_
    · intro a
      match a with
      | ⟨0, _⟩ => rfl
      | ⟨1, _⟩ => rfl
      | ⟨2, _⟩ => rfl
      | ⟨3, _⟩ => rfl
    · refine broadcastInDim_apply _ _ _ _ (ix2 wj wp) ?_
      intro a
      match a with
      | ⟨0, _⟩ => rfl
      | ⟨1, _⟩ => rfl
  rw [hc, valid_table j wj wp]
  by_cases h : 3 * wp.val + j.val ≤ wj.val ∧ wj.val < 3 * wp.val + j.val + 5
  · rw [if_pos h, dif_pos h, select_one, gather_band_apply]
    have hd := idx_table j wj wp h
    have e : (⟨min (idxArr (BitVec.ofNat 32 j.val) (ix3 wj wp (0 : Fin 1))).toInt.toNat 4, Nat.lt_succ_of_le (Nat.min_le_right _ 4)⟩ : Fin 5)
        = ⟨wj.val - (3 * wp.val + j.val), by omega⟩ := Fin.ext hd
    rw [e, foldedW_apply]
  · rw [if_neg h, dif_neg h, select_zero]
    exact Ideal.ofBits_zero_f32

theorem band_apply (j : Fin 3) (A1 : FVec Ideal S25x1x20 .f32) (A2 : FVec Ideal S1x20 .f32) (ki : Fin 5) (wj : Fin 28) (wp : Fin 8) (co : Fin 20) :
    band (BitVec.ofNat 32 j.val) A1 A2 (ix2 (⟨ki.val * 28 + wj.val, by have := ki.isLt; have := wj.isLt; omega⟩ : Fin 140) (⟨wp.val * 20 + co.val, by have := wp.isLt; have := co.isLt; omega⟩ : Fin 160))
      = if h : 3 * wp.val + j.val ≤ wj.val ∧ wj.val < 3 * wp.val + j.val + 5 then
          A1 (ix3 (⟨ki.val * 5 + (wj.val - (3 * wp.val + j.val)), by have := ki.isLt; omega⟩ : Fin 25) (0 : Fin 1) co) * A2 (ix2 (0 : Fin 1) co)
        else 0 := by
  unfold band
  refine (shapeCast_apply _ _ _ (ix4 ki wj wp co) ?_).trans (band4_apply j A1 A2 ki wj wp co)
  rw [Shape.rowMajor_val_four, Shape.rowMajor_val_two]
  show ((ki.val * 28 + wj.val) * 8 + wp.val) * 20 + co.val = (ki.val * 28 + wj.val) * 160 + (wp.val * 20 + co.val)
  omega

variable (m : (ℓ : Loc nD τ sig) → Buf (Elt Ideal) ℓ)

/-! ## The bands off the host's fold -/

/-- The host operations through the third band's select. -/
abbrev preOps : List (HloOp τ sig (Elt Ideal)) :=
  List.flatten [hostOps0, hostOps0_1, hostOps0_2, hostOps0_3, hostOps0_4, hostOps0_5, hostOps0_6, hostOps0_7, hostOps0_8, hostOps0_9, hostOps0_10, hostOps0_11]
/-- The host operations after the stretch that concatenates the bands. -/
abbrev postOps : List (HloOp τ sig (Elt Ideal)) := List.flatten [hostOps0_13, hostOps0_14, hostOps0_15, hostOps0_16]

theorem stretches_split : List.flatten (hostStretches (F := Ideal)) = preOps ++ (hostOps0_12 ++ postOps) := by
  simp only [hostStretches, preOps, postOps, List.flatten_cons, List.flatten_nil, List.append_nil, List.append_assoc]

theorem V_split (c : Dev nD) (r : Ref sig .tc) :
    V m c r = StableHlo.after (hostOps0_12 ++ postOps) (StableHlo.after preOps (fun b => m (c, b))) (Proc.devRef .tc r) := by
  show StableHlo.after (List.flatten (hostStretches (F := Ideal))) (fun b => m (c, b)) (Proc.devRef .tc r) = _
  rw [stretches_split, StableHlo.after_append]

/-- The concatenation's stretch and the later ones, from any contents: the three bands, each with a leading unit axis, stacked. -/
theorem tail_v81 (W : Valuation τ sig (Elt Ideal)) :
    (StableHlo.after (hostOps0_12 ++ postOps) W (Proc.devRef .tc main_v81) : S3x140x160.Idx → EReal)
      = concatenate S3x140x160 0
          [⟨S1x140x160, broadcastInDim S1x140x160 ![1, 2] bcast_S140x160_S1x140x160_1_2 (W (Proc.devRef .tc main_v31) : S140x160.Idx → EReal)⟩,
           ⟨S1x140x160, broadcastInDim S1x140x160 ![1, 2] bcast_S140x160_S1x140x160_1_2 (W (Proc.devRef .tc main_v54) : S140x160.Idx → EReal)⟩,
           ⟨S1x140x160, broadcastInDim S1x140x160 ![1, 2] bcast_S140x160_S1x140x160_1_2
              (shapeCast S140x160 (W (Proc.devRef .tc main_v76) : S5x28x8x20.Idx → EReal) shapeCasts_S5x28x8x20_S140x160)⟩]
          concatenates_S1x140x160_S1x140x160_S1x140x160_S3x140x160_d0 := by
  simp only [postOps, hostOps0_12, hostOps0_13, hostOps0_14, hostOps0_15, hostOps0_16, List.flatten_cons, List.flatten_nil, List.append_nil, List.cons_append, List.nil_append]
  after_results
  dsimp only [Matrix.cons_val_zero, Matrix.cons_val_one, Matrix.cons_val_two, Matrix.head_cons, Matrix.tail_cons]
  repeat (first
    | rw [StableHlo.unary_result] | rw [StableHlo.reshape_result]
    | (rw [StableHlo.unary_result_ne]; rotate_left; decide)
    | (rw [StableHlo.reshape_result_ne]; rotate_left; decide))
  rfl

set_option maxHeartbeats 4000000 in
theorem pre_v31 (c : Dev nD) :
    (StableHlo.after preOps (fun b => m (c, b)) (Proc.devRef .tc main_v31) : S140x160.Idx → EReal)
      = band 0#32 (m ((c : Thread nD τ).loc main_arg1)) (m ((c : Thread nD τ).loc main_arg2)) := by
  simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
theorem pre_v54 (c : Dev nD) :
    (StableHlo.after preOps (fun b => m (c, b)) (Proc.devRef .tc main_v54) : S140x160.Idx → EReal)
      = band 1#32 (m ((c : Thread nD τ).loc main_arg1)) (m ((c : Thread nD τ).loc main_arg2)) := by
  simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

set_option maxHeartbeats 4000000 in
theorem pre_v76 (c : Dev nD) :
    (StableHlo.after preOps (fun b => m (c, b)) (Proc.devRef .tc main_v76) : S5x28x8x20.Idx → EReal)
      = band4 2#32 (m ((c : Thread nD τ).loc main_arg1)) (m ((c : Thread nD τ).loc main_arg2)) := by
  simp only [preOps, hostOps0, hostOps0_1, hostOps0_2, hostOps0_3, hostOps0_4, hostOps0_5, hostOps0_6, hostOps0_7, hostOps0_8, hostOps0_9, hostOps0_10, hostOps0_11, List.flatten_cons, List.flatten_nil, List.append_nil, List.cons_append, List.nil_append]
  after_results_simp
  rfl

/-- The three bands as the region finds them. -/
theorem V_v81 (c : Dev nD) :
    (V m c main_v81 : S3x140x160.Idx → EReal)
      = concatenate S3x140x160 0
          [⟨S1x140x160, broadcastInDim S1x140x160 ![1, 2] bcast_S140x160_S1x140x160_1_2 (band 0#32 (m ((c : Thread nD τ).loc main_arg1)) (m ((c : Thread nD τ).loc main_arg2)))⟩,
           ⟨S1x140x160, broadcastInDim S1x140x160 ![1, 2] bcast_S140x160_S1x140x160_1_2 (band 1#32 (m ((c : Thread nD τ).loc main_arg1)) (m ((c : Thread nD τ).loc main_arg2)))⟩,
           ⟨S1x140x160, broadcastInDim S1x140x160 ![1, 2] bcast_S140x160_S1x140x160_1_2 (band 2#32 (m ((c : Thread nD τ).loc main_arg1)) (m ((c : Thread nD τ).loc main_arg2)))⟩]
          concatenates_S1x140x160_S1x140x160_S1x140x160_S3x140x160_d0 := by
  refine (V_split m c main_v81).trans ?_
  refine (tail_v81 _).trans ?_
  rw [pre_v31, pre_v54, pre_v76]
  rfl

/-- A band with a leading unit axis, read at `(0, r, q)`. -/
theorem lead_apply (X : FVec Ideal S140x160 .f32) (r : Fin 140) (q : Fin 160) :
    broadcastInDim S1x140x160 ![1, 2] bcast_S140x160_S1x140x160_1_2 X (ix3 (0 : Fin 1) r q) = X (ix2 r q) := by
  refine broadcastInDim_apply _ _ _ _ (ix2 r q) ?_
  intro a
  match a with
  | ⟨0, _⟩ => rfl
  | ⟨1, _⟩ => rfl

/-- **The first layer's banded matrices**, the two argument arrays named: entry `(j, ki·28 + wj, wp·20 + co)` is the
    folded weight `w[ki·5 + d, 0, co] · s[0, co]` at `d = wj − (3·wp + j)` when `0 ≤ d < 5`, and zero otherwise. -/
theorem band1_apply_of (c : Dev nD) (A1 : FVec Ideal S25x1x20 .f32) (A2 : FVec Ideal S1x20 .f32)
    (h1 : A1 = m ((c : Thread nD τ).loc main_arg1)) (h2 : A2 = m ((c : Thread nD τ).loc main_arg2))
    (j : Fin 3) (ki : Fin 5) (wj : Fin 28) (wp : Fin 8) (co : Fin 20) :
    (V m c main_v81 : S3x140x160.Idx → EReal) (ix3 j (⟨ki.val * 28 + wj.val, by have := ki.isLt; have := wj.isLt; omega⟩ : Fin 140) (⟨wp.val * 20 + co.val, by have := wp.isLt; have := co.isLt; omega⟩ : Fin 160))
      = if h : 3 * wp.val + j.val ≤ wj.val ∧ wj.val < 3 * wp.val + j.val + 5 then
          A1 (ix3 (⟨ki.val * 5 + (wj.val - (3 * wp.val + j.val)), by have := ki.isLt; omega⟩ : Fin 25) (0 : Fin 1) co) * A2 (ix2 (0 : Fin 1) co)
        else 0 := by
  subst h1 h2
  rw [V_v81]
  have hi : ∀ (j' : Fin 3) (r : Fin 140) (q : Fin 160) (b : Fin S1x140x160.rank), b.cast (rfl : S1x140x160.rank = S3x140x160.rank) ≠ (0 : Fin S3x140x160.rank) →
      ((ix3 (0 : Fin 1) r q) b).val = ((ix3 j' r q) (b.cast rfl)).val := by
    intro j' r q b hb
    match b with
    | ⟨0, _⟩ => exact absurd rfl hb
    | ⟨1, _⟩ => rfl
    | ⟨2, _⟩ => rfl
  match j with
  | ⟨0, hj⟩ =>
    refine (concatenate_apply_piece (t := S3x140x160) 0 _ _ _ 0 (by show (0 : ℕ) < 3; decide) S1x140x160 _ rfl rfl 0 rfl
      (ix3 (0 : Fin 1) _ _) (hi _ _ _) rfl).trans ?_
    exact (lead_apply _ _ _).trans (band_apply ⟨0, hj⟩ _ _ ki wj wp co)
  | ⟨1, hj⟩ =>
    refine (concatenate_apply_piece (t := S3x140x160) 0 _ _ _ 1 (by show (1 : ℕ) < 3; decide) S1x140x160 _ rfl rfl 1 rfl
      (ix3 (0 : Fin 1) _ _) (hi _ _ _) rfl).trans ?_
    exact (lead_apply _ _ _).trans (band_apply ⟨1, hj⟩ _ _ ki wj wp co)
  | ⟨2, hj⟩ =>
    refine (concatenate_apply_piece (t := S3x140x160) 0 _ _ _ 2 (by show (2 : ℕ) < 3; decide) S1x140x160 _ rfl rfl 2 rfl
      (ix3 (0 : Fin 1) _ _) (hi _ _ _) rfl).trans ?_
    exact (lead_apply _ _ _).trans (band_apply ⟨2, hj⟩ _ _ ki wj wp co)

/-- **The first layer's banded matrices**, over the launch memory itself (the product is the extended reals'). -/
theorem band1_apply (c : Dev nD) (j : Fin 3) (ki : Fin 5) (wj : Fin 28) (wp : Fin 8) (co : Fin 20) :
    (V m c main_v81 : S3x140x160.Idx → EReal) (ix3 j (⟨ki.val * 28 + wj.val, by have := ki.isLt; have := wj.isLt; omega⟩ : Fin 140) (⟨wp.val * 20 + co.val, by have := wp.isLt; have := co.isLt; omega⟩ : Fin 160))
      = if h : 3 * wp.val + j.val ≤ wj.val ∧ wj.val < 3 * wp.val + j.val + 5 then
          @HMul.hMul EReal EReal EReal instHMul
            ((m ((c : Thread nD τ).loc main_arg1) : S25x1x20.Idx → EReal) (ix3 (⟨ki.val * 5 + (wj.val - (3 * wp.val + j.val)), by have := ki.isLt; omega⟩ : Fin 25) (0 : Fin 1) co))
            ((m ((c : Thread nD τ).loc main_arg2) : S1x20.Idx → EReal) (ix2 (0 : Fin 1) co))
        else (0 : EReal) :=
  band1_apply_of m c _ _ rfl rfl j ki wj wp co

end Cert.KernelIdeal.Net

end
-- ==== Proof.KHostB2.lean ====
/-
  THE ARRAYS THE HOST PREPARES FOR THE FUSED KERNEL, READ AT AN INDEX (second part).

  Before the kernel runs, the host reshapes the image batch `[8192, 1, 28, 28]` to `[8192, 28, 28]`, tiles the
  layer-1 shift row `[1, 20]` eight times to `[1, 160]` and the layer-2 scale and shift rows `[1, 50]` four times to
  `[1, 200]`, and lays the layer-2 weights `[25, 20, 50]` out as five banded matrices `[5, 160, 200]`: for a kernel
  row `ki`, the entry at row `wj·20 + ci` and column `wo·50 + co` is the weight `(ki·5 + (wj − wo), ci, co)` when
  `0 ≤ wj − wo < 5`, and zero otherwise.  Each lemma reads one of these arrays at an index.
-/
import proofs.«180094_g2000601136005399_pallasbulk_237_2_alg».proof.Proof.KernelIdealFrame
import Idealize.ShloMosaic.Lib.StableHlo.Run
import Idealize.ShloMosaic.PureOps.Ideal
import Idealize.ShloMosaic.Lib.Pipeline.Value
import Idealize.ShloMosaic.Lib.ValueIdx
import Idealize.ShloMosaic.Lib.IdealHost

set_option maxRecDepth 16384

noncomputable section

namespace Cert.KernelIdeal.Net

open Cert.KernelIdeal Cert.KernelIdeal.Gen Cert.KernelIdeal.Frm Idealize.ShloMosaic Idealize.ShloMosaic.TcCoe Idealize.ShloMosaic.ValueIdx

variable (m : (ℓ : Loc nD τ sig) → Buf (Elt Ideal) ℓ)

set_option maxHeartbeats 4000000 in
/-- The layer-1 shift row as the host builds it: the row viewed as `[1, 1, 1, 20]`, repeated along the third axis, flattened. -/
theorem V_t1t (c : Dev nD) : (V m c main_v84 : S1x160.Idx → EReal)
    = shapeCast S1x160 (broadcastInDim S1x1x8x20 ![0, 1, 2, 3] bcast_S1x1x1x20_S1x1x8x20_0_1_2_3
        (shapeCast S1x1x1x20 (m ((c : Thread nD τ).loc main_arg3) : S1x20.Idx → EReal) shapeCasts_S1x20_S1x1x1x20)) shapeCasts_S1x1x8x20_S1x160 := by
  dsimp only [Frm.V]
  simp only [hostStretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The layer-2 scale row as the host builds it. -/
theorem V_s2t (c : Dev nD) : (V m c main_v112 : S1x200.Idx → EReal)
    = shapeCast S1x200 (broadcastInDim S1x1x4x50 ![0, 1, 2, 3] bcast_S1x1x1x50_S1x1x4x50_0_1_2_3
        (shapeCast S1x1x1x50 (m ((c : Thread nD τ).loc main_arg5) : S1x50.Idx → EReal) shapeCasts_S1x50_S1x1x1x50)) shapeCasts_S1x1x4x50_S1x200 := by
  dsimp only [Frm.V]
  simp only [hostStretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The layer-2 shift row as the host builds it. -/
theorem V_t2t (c : Dev nD) : (V m c main_v115 : S1x200.Idx → EReal)
    = shapeCast S1x200 (broadcastInDim S1x1x4x50 ![0, 1, 2, 3] bcast_S1x1x1x50_S1x1x4x50_0_1_2_3
        (shapeCast S1x1x1x50 (m ((c : Thread nD τ).loc main_arg6) : S1x50.Idx → EReal) shapeCasts_S1x50_S1x1x1x50)) shapeCasts_S1x1x4x50_S1x200 := by
  dsimp only [Frm.V]
  simp only [hostStretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

set_option maxHeartbeats 4000000 in
/-- The image batch as the host passes it: the unit channel axis dropped. -/
theorem V_x0 (c : Dev nD) : (V m c main_v0 : S8192x28x28.Idx → EReal)
    = shapeCast S8192x28x28 (m ((c : Thread nD τ).loc main_arg0) : S8192x1x28x28.Idx → EReal) shapeCasts_S8192x1x28x28_S8192x28x28 := by
  dsimp only [Frm.V]
  simp only [hostStretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

/-- A row `[1, d]` tiled `k` times along its axis: entry `w·d + q` is the row's entry `q`. -/
theorem hostTileRow {k d N : ℕ} (hN : N = k * d) (X : (⟨2, ![1, d]⟩ : Shape).Idx → EReal)
    (h1 : (⟨2, ![1, d]⟩ : Shape).ShapeCasts ⟨4, ![1, 1, 1, d]⟩)
    (hb : (⟨4, ![1, 1, 1, d]⟩ : Shape).BroadcastsInDim ⟨4, ![1, 1, k, d]⟩ ![0, 1, 2, 3])
    (h2 : (⟨4, ![1, 1, k, d]⟩ : Shape).ShapeCasts ⟨2, ![1, N]⟩) (w : Fin k) (q : Fin d) (hlt : w.val * d + q.val < N) :
    shapeCast ⟨2, ![1, N]⟩ (broadcastInDim ⟨4, ![1, 1, k, d]⟩ ![0, 1, 2, 3] hb (shapeCast ⟨4, ![1, 1, 1, d]⟩ X h1)) h2
        (ix2 (0 : Fin 1) (⟨w.val * d + q.val, hlt⟩ : Fin N))
      = X (ix2 (0 : Fin 1) q) := by
  refine (shapeCast_apply _ h2 _ (ix4 (0 : Fin 1) (0 : Fin 1) w q) ?_).trans ?_
  · rw [Shape.rowMajor_val_four, Shape.rowMajor_val_two]
    show ((0 * 1 + 0) * k + w.val) * d + q.val = 0 * N + (w.val * d + q.val)
    simp only [Nat.zero_mul, Nat.zero_add, Nat.add_zero]
  refine (broadcastInDim_apply _ hb _ (ix4 (0 : Fin 1) (0 : Fin 1) w q) (ix4 (0 : Fin 1) (0 : Fin 1) (0 : Fin 1) q) ?_).trans ?_
  · intro a
    match a with
    | ⟨0, _⟩ => rfl
    | ⟨1, _⟩ => rfl
    | ⟨2, _⟩ => rfl
    | ⟨3, _⟩ =>
      show q.val = if d = 1 then 0 else q.val
      split
      · have := q.isLt; omega
      · rfl
  refine shapeCast_apply _ h1 _ (ix2 (0 : Fin 1) q) ?_
  rw [Shape.rowMajor_val_four, Shape.rowMajor_val_two]
  show 0 * d + q.val = ((0 * 1 + 0) * 1 + 0) * d + q.val
  omega

theorem t1t_apply (c : Dev nD) (wp : Fin 8) (co : Fin 20) :
    (V m c main_v84 : S1x160.Idx → EReal) (ix2 (0 : Fin 1) (⟨wp.val * 20 + co.val, by have := wp.isLt; have := co.isLt; omega⟩ : Fin 160)) = (m ((c : Thread nD τ).loc main_arg3) : S1x20.Idx → EReal) (ix2 (0 : Fin 1) co) := by
  rw [V_t1t]
  exact hostTileRow (k := 8) (d := 20) (N := 160) rfl _ _ _ _ wp co _

theorem s2t_apply (c : Dev nD) (wo : Fin 4) (co : Fin 50) :
    (V m c main_v112 : S1x200.Idx → EReal) (ix2 (0 : Fin 1) (⟨wo.val * 50 + co.val, by have := wo.isLt; have := co.isLt; omega⟩ : Fin 200)) = (m ((c : Thread nD τ).loc main_arg5) : S1x50.Idx → EReal) (ix2 (0 : Fin 1) co) := by
  rw [V_s2t]
  exact hostTileRow (k := 4) (d := 50) (N := 200) rfl _ _ _ _ wo co _

theorem t2t_apply (c : Dev nD) (wo : Fin 4) (co : Fin 50) :
    (V m c main_v115 : S1x200.Idx → EReal) (ix2 (0 : Fin 1) (⟨wo.val * 50 + co.val, by have := wo.isLt; have := co.isLt; omega⟩ : Fin 200)) = (m ((c : Thread nD τ).loc main_arg6) : S1x50.Idx → EReal) (ix2 (0 : Fin 1) co) := by
  rw [V_t2t]
  exact hostTileRow (k := 4) (d := 50) (N := 200) rfl _ _ _ _ wo co _

theorem x0_apply (c : Dev nD) (n : Fin 8192) (h w : Fin 28) :
    (V m c main_v0 : S8192x28x28.Idx → EReal) (ix3 n h w) = (m ((c : Thread nD τ).loc main_arg0) : S8192x1x28x28.Idx → EReal) (ix4 n (0 : Fin 1) h w) := by
  rw [V_x0]
  refine shapeCast_apply _ _ _ (ix4 n (0 : Fin 1) h w) ?_
  rw [Shape.rowMajor_val_four, Shape.rowMajor_val_three]
  show ((n.val * 1 + 0) * 28 + h.val) * 28 + w.val = (n.val * 28 + h.val) * 28 + w.val
  omega

/-! ## The banded layer-2 weights -/

/-- The difference `wj − wo` of the row block and the column block, as 32-bit words over `[8, 4]`. -/
def band2Diff : IVec S8x4 32 :=
  subi (broadcastInDim S8x4 ![0, 1] bcast_S8x1_S8x4_0_1 (broadcastInDim S8x1 ![0] bcast_S8_S8x1_0 (iotaInDim S8 32 0)))
    (broadcastInDim S8x4 ![0, 1] bcast_S1x4_S8x4_0_1 (broadcastInDim S1x4 ![1] bcast_S4_S1x4_1 (iotaInDim S4 32 0)))

/-- The band: `0 ≤ wj − wo < 5`, as a bit. -/
def band2Valid : IVec S8x4 1 :=
  andi (cmpi .sge band2Diff (broadcastInDim S8x4 ![] bcast_S_S8x4 (constantI S_ 32 0#32)))
    (cmpi .slt band2Diff (broadcastInDim S8x4 ![] bcast_S_S8x4 (constantI S_ 32 5#32)))

/-- The difference clipped into `[0, 4]`. -/
def band2Clip : IVec S8x4 32 :=
  minsi (broadcastInDim S8x4 ![] bcast_S_S8x4 (id (constantI S_ 32 4#32)))
    (maxsi (broadcastInDim S8x4 ![] bcast_S_S8x4 (id (constantI S_ 32 0#32))) band2Diff)

/-- The clipped difference with a negative value wrapped by 5 (never taken: the clipped value is not negative). -/
def band2Start : IVec S8x4 32 :=
  select (cmpi .slt band2Clip (broadcastInDim S8x4 ![] bcast_S_S8x4 (constantI S_ 32 0#32)))
    (addi band2Clip (broadcastInDim S8x4 ![] bcast_S_S8x4 (constantI S_ 32 5#32))) band2Clip

/-- The banded matrices as the host builds them from the weights `w : [25, 20, 50]`. -/
def band2Vec (w : FVec Ideal S25x20x50 .bf16) : FVec Ideal S5x160x200 .bf16 :=
  shapeCast S5x160x200
    (transpose S5x8x20x4x50 [0, 1, 3, 2, 4]
      (select (broadcastInDim S5x8x4x20x50 ![0, 1, 2, 3, 4] bcast_S1x8x4x1x1_S5x8x4x20x50_0_1_2_3_4
          (broadcastInDim S1x8x4x1x1 ![1, 2] bcast_S8x4_S1x8x4x1x1_1_2 band2Valid))
        (Host.gather gather_S5x5x20x50_S8x4x1_S5x8x4x20x50_034_1_n_n_1_2_512050
          (shapeCast S5x5x20x50 w shapeCasts_S25x20x50_S5x5x20x50)
          (broadcastInDim S8x4x1 ![0, 1] bcast_S8x4_S8x4x1_0_1 band2Start))
        (broadcastInDim S5x8x4x20x50 ![] bcast_S_S5x8x4x20x50 (constant S_ .bf16 0x0000#16)))
      transposes_S5x8x4x20x50_S5x8x20x4x50_0_1_3_2_4)
    shapeCasts_S5x8x20x4x50_S5x160x200

/-- The band bit at `(wj, wo)`. -/
theorem band2Valid_eq : ∀ (wj : Fin 8) (wo : Fin 4),
    band2Valid (ix2 wj wo) = if wo.val ≤ wj.val ∧ wj.val < wo.val + 5 then 1#1 else 0#1 := by
  decide

/-- Inside the band the start index, read signed and clamped into `[0, 4]`, is `wj − wo`. -/
theorem band2Start_eq : ∀ (wj : Fin 8) (wo : Fin 4), wo.val ≤ wj.val ∧ wj.val < wo.val + 5 →
    min (band2Start (ix2 wj wo)).toInt.toNat (5 - 1) = wj.val - wo.val := by
  decide

/-- The gather read at `(ki, wj, wo, ci, co)`: the operand at `(ki, s, ci, co)`, `s` the start index at `(wj, wo)` read
    signed and clamped into `[0, 4]`. -/
theorem band2Gather_apply (x : S5x5x20x50.Idx → EReal) (idx : IVec S8x4x1 32)
    (ki : Fin 5) (wj : Fin 8) (wo : Fin 4) (ci : Fin 20) (co : Fin 50) :
    Host.gather gather_S5x5x20x50_S8x4x1_S5x8x4x20x50_034_1_n_n_1_2_512050 x idx (ix5 ki wj wo ci co)
      = x (ix4 ki (⟨min (idx (ix3 wj wo (0 : Fin 1))).toInt.toNat (5 - 1), by omega⟩ : Fin 5) ci co) := by
  unfold Host.gather
  congr 1
  funext a
  refine Fin.ext ?_
  match a with
  | ⟨0, h0⟩ =>
    show gather_S5x5x20x50_S8x4x1_S5x8x4x20x50_034_1_n_n_1_2_512050.start (ix5 ki wj wo ci co) idx ⟨0, h0⟩
      + gather_S5x5x20x50_S8x4x1_S5x8x4x20x50_034_1_n_n_1_2_512050.batchCoord (ix5 ki wj wo ci co) ⟨0, h0⟩
      + gather_S5x5x20x50_S8x4x1_S5x8x4x20x50_034_1_n_n_1_2_512050.offCoord (ix5 ki wj wo ci co) ⟨0, h0⟩ = ki.val
    rw [GatherDims.batchCoord_eq_zero _ _ _ List.not_mem_nil]
    have hs : gather_S5x5x20x50_S8x4x1_S5x8x4x20x50_034_1_n_n_1_2_512050.start (ix5 ki wj wo ci co) idx ⟨0, h0⟩ = 0 := by
      unfold GatherDims.start
      exact dif_neg (show (0 : Fin S5x5x20x50.rank) ∉ gather_S5x5x20x50_S8x4x1_S5x8x4x20x50_034_1_n_n_1_2_512050.startIndexMap by decide)
    have ho : gather_S5x5x20x50_S8x4x1_S5x8x4x20x50_034_1_n_n_1_2_512050.offCoord (ix5 ki wj wo ci co) ⟨0, h0⟩ = ki.val := by
      unfold GatherDims.offCoord
      exact (dif_pos (show (0 : Fin S5x5x20x50.rank) ∈ gather_S5x5x20x50_S8x4x1_S5x8x4x20x50_034_1_n_n_1_2_512050.sKept by decide)).trans rfl
    rw [hs, ho]
    omega
  | ⟨1, h1⟩ =>
    show gather_S5x5x20x50_S8x4x1_S5x8x4x20x50_034_1_n_n_1_2_512050.start (ix5 ki wj wo ci co) idx ⟨1, h1⟩
      + gather_S5x5x20x50_S8x4x1_S5x8x4x20x50_034_1_n_n_1_2_512050.batchCoord (ix5 ki wj wo ci co) ⟨1, h1⟩
      + gather_S5x5x20x50_S8x4x1_S5x8x4x20x50_034_1_n_n_1_2_512050.offCoord (ix5 ki wj wo ci co) ⟨1, h1⟩
        = min (idx (ix3 wj wo (0 : Fin 1))).toInt.toNat (5 - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (⟨1, h1⟩ : Fin S5x5x20x50.rank) ∈ gather_S5x5x20x50_S8x4x1_S5x8x4x20x50_034_1_n_n_1_2_512050.startIndexMap
      from List.mem_singleton.mpr rfl)]
    have hsi : gather_S5x5x20x50_S8x4x1_S5x8x4x20x50_034_1_n_n_1_2_512050.siIdx (ix5 ki wj wo ci co)
        ⟨List.idxOf (⟨1, h1⟩ : Fin S5x5x20x50.rank) gather_S5x5x20x50_S8x4x1_S5x8x4x20x50_034_1_n_n_1_2_512050.startIndexMap,
          List.idxOf_lt_length_iff.2 (List.mem_singleton.mpr rfl)⟩ = ix3 wj wo (0 : Fin 1) := by
      funext b; refine Fin.ext ?_
      match b with
      | ⟨0, _⟩ => rfl
      | ⟨1, _⟩ => rfl
      | ⟨2, _⟩ => rfl
    rw [hsi]
    rfl
  | ⟨2, h2⟩ =>
    show gather_S5x5x20x50_S8x4x1_S5x8x4x20x50_034_1_n_n_1_2_512050.start (ix5 ki wj wo ci co) idx ⟨2, h2⟩
      + gather_S5x5x20x50_S8x4x1_S5x8x4x20x50_034_1_n_n_1_2_512050.batchCoord (ix5 ki wj wo ci co) ⟨2, h2⟩
      + gather_S5x5x20x50_S8x4x1_S5x8x4x20x50_034_1_n_n_1_2_512050.offCoord (ix5 ki wj wo ci co) ⟨2, h2⟩ = ci.val
    rw [GatherDims.batchCoord_eq_zero _ _ _ List.not_mem_nil]
    have hs : gather_S5x5x20x50_S8x4x1_S5x8x4x20x50_034_1_n_n_1_2_512050.start (ix5 ki wj wo ci co) idx ⟨2, h2⟩ = 0 := by
      unfold GatherDims.start
      exact dif_neg (show (2 : Fin S5x5x20x50.rank) ∉ gather_S5x5x20x50_S8x4x1_S5x8x4x20x50_034_1_n_n_1_2_512050.startIndexMap by decide)
    have ho : gather_S5x5x20x50_S8x4x1_S5x8x4x20x50_034_1_n_n_1_2_512050.offCoord (ix5 ki wj wo ci co) ⟨2, h2⟩ = ci.val := by
      unfold GatherDims.offCoord
      exact (dif_pos (show (2 : Fin S5x5x20x50.rank) ∈ gather_S5x5x20x50_S8x4x1_S5x8x4x20x50_034_1_n_n_1_2_512050.sKept by decide)).trans rfl
    rw [hs, ho]
    omega
  | ⟨3, h3⟩ =>
    show gather_S5x5x20x50_S8x4x1_S5x8x4x20x50_034_1_n_n_1_2_512050.start (ix5 ki wj wo ci co) idx ⟨3, h3⟩
      + gather_S5x5x20x50_S8x4x1_S5x8x4x20x50_034_1_n_n_1_2_512050.batchCoord (ix5 ki wj wo ci co) ⟨3, h3⟩
      + gather_S5x5x20x50_S8x4x1_S5x8x4x20x50_034_1_n_n_1_2_512050.offCoord (ix5 ki wj wo ci co) ⟨3, h3⟩ = co.val
    rw [GatherDims.batchCoord_eq_zero _ _ _ List.not_mem_nil]
    have hs : gather_S5x5x20x50_S8x4x1_S5x8x4x20x50_034_1_n_n_1_2_512050.start (ix5 ki wj wo ci co) idx ⟨3, h3⟩ = 0 := by
      unfold GatherDims.start
      exact dif_neg (show (3 : Fin S5x5x20x50.rank) ∉ gather_S5x5x20x50_S8x4x1_S5x8x4x20x50_034_1_n_n_1_2_512050.startIndexMap by decide)
    have ho : gather_S5x5x20x50_S8x4x1_S5x8x4x20x50_034_1_n_n_1_2_512050.offCoord (ix5 ki wj wo ci co) ⟨3, h3⟩ = co.val := by
      unfold GatherDims.offCoord
      exact (dif_pos (show (3 : Fin S5x5x20x50.rank) ∈ gather_S5x5x20x50_S8x4x1_S5x8x4x20x50_034_1_n_n_1_2_512050.sKept by decide)).trans rfl
    rw [hs, ho]
    omega

/-- THE BANDED MATRICES AT AN INDEX: row `wj·20 + ci`, column `wo·50 + co` of matrix `ki` is the weight
    `(ki·5 + (wj − wo), ci, co)` inside the band `wo ≤ wj < wo + 5`, and zero outside. -/
theorem band2Vec_apply (w : FVec Ideal S25x20x50 .bf16) (ki : Fin 5) (wj : Fin 8) (ci : Fin 20) (wo : Fin 4) (co : Fin 50) :
    band2Vec w (ix3 ki (⟨wj.val * 20 + ci.val, by have := wj.isLt; have := ci.isLt; omega⟩ : Fin 160) (⟨wo.val * 50 + co.val, by have := wo.isLt; have := co.isLt; omega⟩ : Fin 200))
      = if h : wo.val ≤ wj.val ∧ wj.val < wo.val + 5 then
          w (ix3 (⟨ki.val * 5 + (wj.val - wo.val), by have := ki.isLt; omega⟩ : Fin 25) ci co)
        else 0 := by
  unfold band2Vec
  refine (shapeCast_apply _ _ _ (ix5 ki wj ci wo co) ?_).trans ?_
  · rw [Shape.rowMajor_val_five, Shape.rowMajor_val_three]
    show (((ki.val * 8 + wj.val) * 20 + ci.val) * 4 + wo.val) * 50 + co.val = (ki.val * 160 + (wj.val * 20 + ci.val)) * 200 + (wo.val * 50 + co.val)
    omega
  refine (transpose_apply _ _ _ (ix5 ki wj ci wo co) (ix5 ki wj wo ci co) ?_).trans ?_
  · intro b
    match b with
    | ⟨0, _⟩ => rfl
    | ⟨1, _⟩ => rfl
    | ⟨2, _⟩ => rfl
    | ⟨3, _⟩ => rfl
    | ⟨4, _⟩ => rfl
  rw [select_apply]
  have hc : broadcastInDim S5x8x4x20x50 ![0, 1, 2, 3, 4] bcast_S1x8x4x1x1_S5x8x4x20x50_0_1_2_3_4
      (broadcastInDim S1x8x4x1x1 ![1, 2] bcast_S8x4_S1x8x4x1x1_1_2 band2Valid) (ix5 ki wj wo ci co) = band2Valid (ix2 wj wo) := by
    refine (broadcastInDim_apply _ _ _ (ix5 ki wj wo ci co) (ix5 (0 : Fin 1) wj wo (0 : Fin 1) (0 : Fin 1)) ?_).trans ?_
    · intro a
      match a with
      | ⟨0, _⟩ => rfl
      | ⟨1, _⟩ => rfl
      | ⟨2, _⟩ => rfl
      | ⟨3, _⟩ => rfl
      | ⟨4, _⟩ => rfl
    refine broadcastInDim_apply _ _ _ (ix5 (0 : Fin 1) wj wo (0 : Fin 1) (0 : Fin 1)) (ix2 wj wo) ?_
    intro a
    match a with
    | ⟨0, _⟩ => rfl
    | ⟨1, _⟩ => rfl
  rw [hc, band2Valid_eq wj wo]
  by_cases hb : wo.val ≤ wj.val ∧ wj.val < wo.val + 5
  · rw [if_pos hb, dif_pos hb, select_one, band2Gather_apply]
    have hi : broadcastInDim S8x4x1 ![0, 1] bcast_S8x4_S8x4x1_0_1 band2Start (ix3 wj wo (0 : Fin 1)) = band2Start (ix2 wj wo) := by
      refine broadcastInDim_apply _ _ _ (ix3 wj wo (0 : Fin 1)) (ix2 wj wo) ?_
      intro a
      match a with
      | ⟨0, _⟩ => rfl
      | ⟨1, _⟩ => rfl
    have hst := band2Start_eq wj wo hb
    refine (shapeCast_apply w _ _ (ix3 (⟨ki.val * 5 + (wj.val - wo.val), by have := ki.isLt; omega⟩ : Fin 25) ci co) ?_)
    rw [Shape.rowMajor_val_three, Shape.rowMajor_val_four]
    show ((ki.val * 5 + (wj.val - wo.val)) * 20 + ci.val) * 50 + co.val
      = ((ki.val * 5 + min (broadcastInDim S8x4x1 ![0, 1] bcast_S8x4_S8x4x1_0_1 band2Start (ix3 wj wo (0 : Fin 1))).toInt.toNat (5 - 1)) * 20 + ci.val) * 50 + co.val
    rw [hi, hst]
  · rw [if_neg hb, dif_neg hb, select_zero, broadcastInDim_scalar_apply]
    exact Ideal.ofBits_zero_bf16

set_option maxHeartbeats 4000000 in
/-- The banded matrices the kernel reads are the host's construction applied to the weights. -/
theorem V_band2 (c : Dev nD) : (V m c main_v109 : S5x160x200.Idx → EReal)
    = band2Vec (m ((c : Thread nD τ).loc main_arg4) : S25x20x50.Idx → EReal) := by
  dsimp only [Frm.V]
  simp only [hostStretches, hostOps0, hostOps0_1, hostOps0_2, hostOps0_3, hostOps0_4, hostOps0_5, hostOps0_6, hostOps0_7, hostOps0_8, hostOps0_9, hostOps0_10, hostOps0_11, hostOps0_12, hostOps0_13, hostOps0_14, hostOps0_15, hostOps0_16, List.flatten_cons, List.flatten_nil, List.append_nil, List.cons_append, List.nil_append]
  after_results_simp
  rfl

theorem band2_apply (c : Dev nD) (ki : Fin 5) (wj : Fin 8) (ci : Fin 20) (wo : Fin 4) (co : Fin 50) :
    ((V m c main_v109 : S5x160x200.Idx → EReal) (ix3 ki (⟨wj.val * 20 + ci.val, by have := wj.isLt; have := ci.isLt; omega⟩ : Fin 160) (⟨wo.val * 50 + co.val, by have := wo.isLt; have := co.isLt; omega⟩ : Fin 200)) : EReal)
      = if h : wo.val ≤ wj.val ∧ wj.val < wo.val + 5 then
          ((m ((c : Thread nD τ).loc main_arg4) : S25x20x50.Idx → EReal) (ix3 (⟨ki.val * 5 + (wj.val - wo.val), by have := ki.isLt; omega⟩ : Fin 25) ci co) : EReal)
        else (0 : EReal) := by
  rw [V_band2]
  exact band2Vec_apply _ ki wj ci wo co

end Cert.KernelIdeal.Net

end
-- ==== Proof.RRun.lean ====
/-
  THE REFERENCE'S RUN WITH ITS RESULT NAMED.

  @main is a reshape, the first convolution kernel, the second convolution kernel, a reshape and the dense kernel.
  Every weakly fair execution terminates; the result buffer ends at what the fold of these five steps over the
  launch memory leaves in it, and the arguments end as launched.
-/
import proofs.«180094_g2000601136005399_pallasbulk_237_2_alg».proof.Proof.Gen.ReferenceIdeal.Frame

set_option maxRecDepth 16384

noncomputable section

namespace Cert.ReferenceIdeal.Net

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_value : θ_run defs (onTc (τ := τ) (main (F := F))) ⟨m, fun _ => 0, ρ⟩ (fun r => ∀ c : Dev nD,
      r.2.mem ((c.tc : Thread nD τ).loc main_v4) = W5 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v4 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.ReferenceIdeal.Net

end
-- ==== Proof.RFinal0.lean ====
/-
  REGION 0 OF THE REFERENCE: ITS RESULT ARRAY AS ONE FUNCTION OF THE ARRAYS IT FINDS.

  Grid point `t` reads block `t` of its first operand (8 images) and the whole of the others, and writes block `t` of the
  result; the 1024 blocks tile the result.
-/
import proofs.«180094_g2000601136005399_pallasbulk_237_2_alg».proof.Proof.Gen.ReferenceIdeal.Frame
import Idealize.ShloMosaic.Lib.Pipeline.Value
import Idealize.ShloMosaic.Lib.ValueIdx

set_option maxRecDepth 16384

noncomputable section

namespace Cert.ReferenceIdeal.Net

open Cert.ReferenceIdeal Cert.ReferenceIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz0 : (![0, 0, 0, 0] : Fin 4 → Nat) = fun _ => 0 := funext fun a => by fin_cases a <;> rfl

theorem idx_facts0 : ∀ t : Fin cfg0.N,
    win0_0.index t (0 : Fin 3) = t.val
    ∧ win0_0.index t (1 : Fin 3) = 0
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 4) = t.val
    ∧ win0_4.index t (1 : Fin 4) = 0
    ∧ win0_4.index t (2 : Fin 4) = 0
    ∧ win0_4.index t (3 : Fin 4) = 0 :=
  (by decide +kernel : ∀ t : Fin grid0.N, _)

/-- The body's value on its operands' blocks. -/
def pay0 (x0 : Vec Ideal S8x28x28 .f32) (x1 : Vec Ideal S25x1x20 .f32) (x2 : Vec Ideal S1x20 .f32) (x3 : Vec Ideal S1x20 .f32) : FVec Ideal S8x8x8x20 .bf16 :=
  k0_pay14 (k0_pay1 (View.ld x0 r0_0)) (k0_pay11 (k0_pay1 (View.ld x0 r0_0)) (k0_pay8 (k0_pay1 (View.ld x0 r0_0)) (k0_pay6 (k0_pay1 (View.ld x0 r0_0)) (k0_pay3 (k0_pay1 (View.ld x0 r0_0)) (k0_pay2 (View.ld x0 r0_0) (View.ld x1 r0_1) (View.ld x1 r0_2) (View.ld x1 r0_3) (View.ld x1 r0_4)) (View.ld x1 r0_5) (View.ld x1 r0_6) (View.ld x1 r0_7) (View.ld x1 r0_8)) (k0_pay4 (View.ld x1 r0_9)) (k0_pay5 (k0_pay1 (View.ld x0 r0_0))) (View.ld x1 r0_10) (View.ld x1 r0_11) (View.ld x1 r0_12) (View.ld x1 r0_13)) (k0_pay7 (k0_pay1 (View.ld x0 r0_0))) (View.ld x1 r0_14) (View.ld x1 r0_15) (View.ld x1 r0_16) (View.ld x1 r0_17)) (k0_pay9 (k0_pay1 (View.ld x0 r0_0))) (k0_pay10 (View.ld x1 r0_18)) (View.ld x1 r0_19) (View.ld x1 r0_20) (View.ld x1 r0_21) (View.ld x1 r0_22)) (k0_pay12 (k0_pay1 (View.ld x0 r0_0))) (k0_pay13 (View.ld x1 r0_23)) (View.ld x1 r0_24) (View.ld x1 r0_25) (View.ld x2 r0_26) (View.ld x3 r0_26)

/-- Block `T` of the first operand. -/
def tile0 (X : S8192x28x28.Idx → Elt Ideal .f32) (T : Fin 1024) : Vec Ideal S8x28x28 .f32 :=
  fun y => X (ix3 (⟨T.val * 8 + (y 0).val, by have h1 := T.isLt; have h2 : (y 0).val < 8 := (y 0).isLt; omega⟩ : Fin 8192) (y 1) (y 2))

theorem rblk0_0 (c : Dev nD) (t : Fin cfg0.N) : iblk0 V c 0 t = tile0 (V c main_v0) (t.cast N_0) := by
  funext y
  show V c main_v0 (((cfg0.win 0).blk t).view.emb y) = V c main_v0 _
  refine congrArg _ (funext fun a => Fin.ext ?_)
  obtain ⟨e0_0, e0_1, e0_2, e1_0, e1_1, e1_2, e2_0, e2_1, e3_0, e3_1, e4_0, e4_1, e4_2, e4_3⟩ := idx_facts0 t
  match a with
  | ⟨0, _⟩ => show win0_0.index t (0 : Fin 3) * 8 + 1 * (y 0).val = t.val * 8 + (y 0).val; omega
  | ⟨1, _⟩ => show win0_0.index t (1 : Fin 3) * 28 + 1 * (y 1).val = (y 1).val; omega
  | ⟨2, _⟩ => show win0_0.index t (2 : Fin 3) * 28 + 1 * (y 2).val = (y 2).val; omega

theorem rblk0_1 (c : Dev nD) (t : Fin cfg0.N) : iblk0 V c 1 t = V c main_arg1 := by
  funext y
  show V c main_arg1 (((cfg0.win 1).blk t).view.emb y) = V c main_arg1 y
  refine congrArg _ (funext fun a => Fin.ext ?_)
  obtain ⟨e0_0, e0_1, e0_2, e1_0, e1_1, e1_2, e2_0, e2_1, e3_0, e3_1, e4_0, e4_1, e4_2, e4_3⟩ := idx_facts0 t
  match a with
  | ⟨0, _⟩ => show win0_1.index t (0 : Fin 3) * 25 + 1 * (y 0).val = (y 0).val; omega
  | ⟨1, _⟩ => show win0_1.index t (1 : Fin 3) * 1 + 1 * (y 1).val = (y 1).val; omega
  | ⟨2, _⟩ => show win0_1.index t (2 : Fin 3) * 20 + 1 * (y 2).val = (y 2).val; omega

theorem rblk0_2 (c : Dev nD) (t : Fin cfg0.N) : iblk0 V c 2 t = V c main_arg2 := by
  funext y
  show V c main_arg2 (((cfg0.win 2).blk t).view.emb y) = V c main_arg2 y
  refine congrArg _ (funext fun a => Fin.ext ?_)
  obtain ⟨e0_0, e0_1, e0_2, e1_0, e1_1, e1_2, e2_0, e2_1, e3_0, e3_1, e4_0, e4_1, e4_2, e4_3⟩ := idx_facts0 t
  match a with
  | ⟨0, _⟩ => show win0_2.index t (0 : Fin 2) * 1 + 1 * (y 0).val = (y 0).val; omega
  | ⟨1, _⟩ => show win0_2.index t (1 : Fin 2) * 20 + 1 * (y 1).val = (y 1).val; omega

theorem rblk0_3 (c : Dev nD) (t : Fin cfg0.N) : iblk0 V c 3 t = V c main_arg3 := by
  funext y
  show V c main_arg3 (((cfg0.win 3).blk t).view.emb y) = V c main_arg3 y
  refine congrArg _ (funext fun a => Fin.ext ?_)
  obtain ⟨e0_0, e0_1, e0_2, e1_0, e1_1, e1_2, e2_0, e2_1, e3_0, e3_1, e4_0, e4_1, e4_2, e4_3⟩ := idx_facts0 t
  match a with
  | ⟨0, _⟩ => show win0_3.index t (0 : Fin 2) * 1 + 1 * (y 0).val = (y 0).val; omega
  | ⟨1, _⟩ => show win0_3.index t (1 : Fin 2) * 20 + 1 * (y 1).val = (y 1).val; omega

/-- The whole result of the region. -/
def regOut0 (c : Dev nD) : S8192x8x8x20.Idx → Elt Ideal .bf16 :=
  fun i => (fun T : Fin 1024 => pay0 (tile0 (V c main_v0) T) (V c main_arg1) (V c main_arg2) (V c main_arg3)) (⟨(i 0).val / 8, by have h : (i 0).val < 8192 := (i 0).isLt; omega⟩ : Fin 1024)
    (ix4 (⟨(i 0).val % 8, Nat.mod_lt _ (by decide)⟩ : Fin 8) (i 1) (i 2) (i 3))

theorem flushed_eq0 (c : Dev nD) (t : Fin cfg0.N) :
    (dat0 V c).flushed 4 t = ((cfg0.win 4).blk t).view.read (Elt Ideal) (regOut0 V c) := by
  show (cfg0.win 4).cut (grid0.coords t) ((dat0 V c).after 4 t) = _
  rw [after0_4]
  unfold out0_4
  rw [View.canon_unit_zero hz0]
  rw [rblk0_0, rblk0_1, rblk0_2, rblk0_3]
  funext y
  obtain ⟨e0_0, e0_1, e0_2, e1_0, e1_1, e1_2, e2_0, e2_1, e3_0, e3_1, e4_0, e4_1, e4_2, e4_3⟩ := idx_facts0 t
  have ht : t.val < 1024 := lt_of_lt_of_eq t.isLt N_0
  have hy0 : (y 0).val < 8 := (y 0).isLt
  have q0 : ((((cfg0.win 4).blk t).view.emb y) 0).val = t.val * 8 + (y 0).val := by
    show win0_4.index t (0 : Fin 4) * 8 + 1 * (y 0).val = _; omega
  have q1 : ((((cfg0.win 4).blk t).view.emb y) 1).val = (y 1).val := by
    show win0_4.index t (1 : Fin 4) * 8 + 1 * (y 1).val = _; omega
  have q2 : ((((cfg0.win 4).blk t).view.emb y) 2).val = (y 2).val := by
    show win0_4.index t (2 : Fin 4) * 8 + 1 * (y 2).val = _; omega
  have q3 : ((((cfg0.win 4).blk t).view.emb y) 3).val = (y 3).val := by
    show win0_4.index t (3 : Fin 4) * 20 + 1 * (y 3).val = _; omega
  show pay0 (tile0 (V c main_v0) (t.cast N_0)) (V c main_arg1) (V c main_arg2) (V c main_arg3) y = regOut0 V c (((cfg0.win 4).blk t).view.emb y)
  unfold regOut0
  have et : (⟨((((cfg0.win 4).blk t).view.emb y) 0).val / 8, by have h : ((((cfg0.win 4).blk t).view.emb y) 0).val < 8192 := ((((cfg0.win 4).blk t).view.emb y) 0).isLt; omega⟩ : Fin 1024) = t.cast N_0 :=
    Fin.ext (by show ((((cfg0.win 4).blk t).view.emb y) 0).val / 8 = t.val; omega)
  have ey : (ix4 (⟨((((cfg0.win 4).blk t).view.emb y) 0).val % 8, Nat.mod_lt _ (by decide)⟩ : Fin 8) ((((cfg0.win 4).blk t).view.emb y) 1) ((((cfg0.win 4).blk t).view.emb y) 2) ((((cfg0.win 4).blk t).view.emb y) 3) : S8x8x8x20.Idx) = y := by
    funext a
    match a with
    | ⟨0, _⟩ => exact Fin.ext (by show ((((cfg0.win 4).blk t).view.emb y) 0).val % 8 = (y 0).val; omega)
    | ⟨1, _⟩ => exact Fin.ext q1
    | ⟨2, _⟩ => exact Fin.ext q2
    | ⟨3, _⟩ => exact Fin.ext q3
  dsimp only
  rw [et, ey]

theorem mem_blk0 (t : Fin cfg0.N) (i : S8192x8x8x20.Idx) :
    i ∈ ((cfg0.win 4).blk t).view.set ↔ ∀ a : Fin 4, win0_4.index t a * S8x8x8x20.size a ≤ (i a).val ∧ (i a).val < win0_4.index t a * S8x8x8x20.size a + S8x8x8x20.size a := by
  show i ∈ ((View.whole main_v1).slice (win0_4.rect t)).set ↔ _
  rw [View.set_slice_whole, Rect.mem_set_unit]
  exact Iff.rfl

theorem cover0 (i : S8192x8x8x20.Idx) : ∃ t : Fin cfg0.N, (cfg0.win 4).flush t = true ∧ i ∈ ((cfg0.win 4).blk t).view.set := by
  have hi0 : (i 0).val < 8192 := (i 0).isLt
  have hi1 : (i 1).val < 8 := (i 1).isLt
  have hi2 : (i 2).val < 8 := (i 2).isLt
  have hi3 : (i 3).val < 20 := (i 3).isLt
  let t : Fin cfg0.N := (⟨(i 0).val / 8, by omega⟩ : Fin 1024).cast N_0.symm
  refine ⟨t, flush0_4 t, ?_⟩
  rw [mem_blk0]
  obtain ⟨e0_0, e0_1, e0_2, e1_0, e1_1, e1_2, e2_0, e2_1, e3_0, e3_1, e4_0, e4_1, e4_2, e4_3⟩ := idx_facts0 t
  have tv : t.val = (i 0).val / 8 := rfl
  intro a
  match a with
  | ⟨0, _⟩ => show win0_4.index t (0 : Fin 4) * 8 ≤ (i 0).val ∧ (i 0).val < win0_4.index t (0 : Fin 4) * 8 + 8; omega
  | ⟨1, _⟩ => show win0_4.index t (1 : Fin 4) * 8 ≤ (i 1).val ∧ (i 1).val < win0_4.index t (1 : Fin 4) * 8 + 8; omega
  | ⟨2, _⟩ => show win0_4.index t (2 : Fin 4) * 8 ≤ (i 2).val ∧ (i 2).val < win0_4.index t (2 : Fin 4) * 8 + 8; omega
  | ⟨3, _⟩ => show win0_4.index t (3 : Fin 4) * 20 ≤ (i 3).val ∧ (i 3).val < win0_4.index t (3 : Fin 4) * 20 + 20; omega

/-- The region's result array after its run. -/
theorem final0 (c : Dev nD) : (dat0 V c).arrAt 4 cfg0.N = regOut0 V c :=
  (dat0 V c).arrAt_eq_of_cover 4 (regOut0 V c) (fun t _ => flushed_eq0 V c t) cover0

end Cert.ReferenceIdeal.Net

end
-- ==== Proof.RFinal1.lean ====
/-
  REGION 1 OF THE REFERENCE: ITS RESULT ARRAY AS ONE FUNCTION OF THE ARRAYS IT FINDS.

  Grid point `t` reads block `t` of its first operand (8 images) and the whole of the others, and writes block `t` of the
  result; the 1024 blocks tile the result.
-/
import proofs.«180094_g2000601136005399_pallasbulk_237_2_alg».proof.Proof.Gen.ReferenceIdeal.Frame
import Idealize.ShloMosaic.Lib.Pipeline.Value
import Idealize.ShloMosaic.Lib.ValueIdx

set_option maxRecDepth 16384

noncomputable section

namespace Cert.ReferenceIdeal.Net

open Cert.ReferenceIdeal Cert.ReferenceIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz1 : (![0, 0, 0, 0] : Fin 4 → Nat) = fun _ => 0 := funext fun a => by fin_cases a <;> rfl

theorem idx_facts1 : ∀ t : Fin cfg1.N,
    win1_0.index t (0 : Fin 4) = t.val
    ∧ win1_0.index t (1 : Fin 4) = 0
    ∧ win1_0.index t (2 : Fin 4) = 0
    ∧ win1_0.index t (3 : Fin 4) = 0
    ∧ win1_1.index t (0 : Fin 3) = 0
    ∧ win1_1.index t (1 : Fin 3) = 0
    ∧ win1_1.index t (2 : Fin 3) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 4) = t.val
    ∧ win1_4.index t (1 : Fin 4) = 0
    ∧ win1_4.index t (2 : Fin 4) = 0
    ∧ win1_4.index t (3 : Fin 4) = 0 :=
  (by decide +kernel : ∀ t : Fin grid1.N, _)

/-- The body's value on its operands' blocks. -/
def pay1 (x0 : Vec Ideal S8x8x8x20 .bf16) (x1 : Vec Ideal S25x20x50 .bf16) (x2 : Vec Ideal S1x50 .f32) (x3 : Vec Ideal S1x50 .f32) : FVec Ideal S8x2x2x50 .bf16 :=
  k1_pay1 (k1_pay2 (View.ld x0 r1_0)) (k1_pay9 (k1_pay2 (View.ld x0 r1_0)) (k1_pay7 (k1_pay2 (View.ld x0 r1_0)) (k1_pay5 (k1_pay2 (View.ld x0 r1_0)) (k1_pay3 (View.ld x0 r1_0) (View.ld x1 r1_1) (View.ld x1 r1_2) (View.ld x1 r1_3) (View.ld x1 r1_4) (View.ld x1 r1_5)) (k1_pay4 (View.ld x0 r1_0)) (View.ld x1 r1_6) (View.ld x1 r1_7) (View.ld x1 r1_8) (View.ld x1 r1_9) (View.ld x1 r1_10) (View.ld x1 r1_11)) (k1_pay6 (k1_pay2 (View.ld x0 r1_0))) (View.ld x1 r1_12) (View.ld x1 r1_13) (View.ld x1 r1_14) (View.ld x1 r1_15) (View.ld x1 r1_16) (View.ld x1 r1_17)) (k1_pay8 (k1_pay2 (View.ld x0 r1_0))) (View.ld x1 r1_18) (View.ld x1 r1_19) (View.ld x1 r1_20) (View.ld x1 r1_21) (View.ld x1 r1_22) (View.ld x1 r1_23)) (k1_pay10 (k1_pay2 (View.ld x0 r1_0))) (View.ld x1 r1_24) (View.ld x1 r1_25) (View.ld x2 r1_26) (View.ld x3 r1_26)

/-- Block `T` of the first operand. -/
def tile1 (X : S8192x8x8x20.Idx → Elt Ideal .bf16) (T : Fin 1024) : Vec Ideal S8x8x8x20 .bf16 :=
  fun y => X (ix4 (⟨T.val * 8 + (y 0).val, by have h1 := T.isLt; have h2 : (y 0).val < 8 := (y 0).isLt; omega⟩ : Fin 8192) (y 1) (y 2) (y 3))

theorem rblk1_0 (c : Dev nD) (t : Fin cfg1.N) : iblk1 V c 0 t = tile1 (V c main_v1) (t.cast N_1) := by
  funext y
  show V c main_v1 (((cfg1.win 0).blk t).view.emb y) = V c main_v1 _
  refine congrArg _ (funext fun a => Fin.ext ?_)
  obtain ⟨e0_0, e0_1, e0_2, e0_3, e1_0, e1_1, e1_2, e2_0, e2_1, e3_0, e3_1, e4_0, e4_1, e4_2, e4_3⟩ := idx_facts1 t
  match a with
  | ⟨0, _⟩ => show win1_0.index t (0 : Fin 4) * 8 + 1 * (y 0).val = t.val * 8 + (y 0).val; omega
  | ⟨1, _⟩ => show win1_0.index t (1 : Fin 4) * 8 + 1 * (y 1).val = (y 1).val; omega
  | ⟨2, _⟩ => show win1_0.index t (2 : Fin 4) * 8 + 1 * (y 2).val = (y 2).val; omega
  | ⟨3, _⟩ => show win1_0.index t (3 : Fin 4) * 20 + 1 * (y 3).val = (y 3).val; omega

theorem rblk1_1 (c : Dev nD) (t : Fin cfg1.N) : iblk1 V c 1 t = V c main_arg4 := by
  funext y
  show V c main_arg4 (((cfg1.win 1).blk t).view.emb y) = V c main_arg4 y
  refine congrArg _ (funext fun a => Fin.ext ?_)
  obtain ⟨e0_0, e0_1, e0_2, e0_3, e1_0, e1_1, e1_2, e2_0, e2_1, e3_0, e3_1, e4_0, e4_1, e4_2, e4_3⟩ := idx_facts1 t
  match a with
  | ⟨0, _⟩ => show win1_1.index t (0 : Fin 3) * 25 + 1 * (y 0).val = (y 0).val; omega
  | ⟨1, _⟩ => show win1_1.index t (1 : Fin 3) * 20 + 1 * (y 1).val = (y 1).val; omega
  | ⟨2, _⟩ => show win1_1.index t (2 : Fin 3) * 50 + 1 * (y 2).val = (y 2).val; omega

theorem rblk1_2 (c : Dev nD) (t : Fin cfg1.N) : iblk1 V c 2 t = V c main_arg5 := by
  funext y
  show V c main_arg5 (((cfg1.win 2).blk t).view.emb y) = V c main_arg5 y
  refine congrArg _ (funext fun a => Fin.ext ?_)
  obtain ⟨e0_0, e0_1, e0_2, e0_3, e1_0, e1_1, e1_2, e2_0, e2_1, e3_0, e3_1, e4_0, e4_1, e4_2, e4_3⟩ := idx_facts1 t
  match a with
  | ⟨0, _⟩ => show win1_2.index t (0 : Fin 2) * 1 + 1 * (y 0).val = (y 0).val; omega
  | ⟨1, _⟩ => show win1_2.index t (1 : Fin 2) * 50 + 1 * (y 1).val = (y 1).val; omega

theorem rblk1_3 (c : Dev nD) (t : Fin cfg1.N) : iblk1 V c 3 t = V c main_arg6 := by
  funext y
  show V c main_arg6 (((cfg1.win 3).blk t).view.emb y) = V c main_arg6 y
  refine congrArg _ (funext fun a => Fin.ext ?_)
  obtain ⟨e0_0, e0_1, e0_2, e0_3, e1_0, e1_1, e1_2, e2_0, e2_1, e3_0, e3_1, e4_0, e4_1, e4_2, e4_3⟩ := idx_facts1 t
  match a with
  | ⟨0, _⟩ => show win1_3.index t (0 : Fin 2) * 1 + 1 * (y 0).val = (y 0).val; omega
  | ⟨1, _⟩ => show win1_3.index t (1 : Fin 2) * 50 + 1 * (y 1).val = (y 1).val; omega

/-- The whole result of the region. -/
def regOut1 (c : Dev nD) : S8192x2x2x50.Idx → Elt Ideal .bf16 :=
  fun i => (fun T : Fin 1024 => pay1 (tile1 (V c main_v1) T) (V c main_arg4) (V c main_arg5) (V c main_arg6)) (⟨(i 0).val / 8, by have h : (i 0).val < 8192 := (i 0).isLt; omega⟩ : Fin 1024)
    (ix4 (⟨(i 0).val % 8, Nat.mod_lt _ (by decide)⟩ : Fin 8) (i 1) (i 2) (i 3))

theorem flushed_eq1 (c : Dev nD) (t : Fin cfg1.N) :
    (dat1 V c).flushed 4 t = ((cfg1.win 4).blk t).view.read (Elt Ideal) (regOut1 V c) := by
  show (cfg1.win 4).cut (grid1.coords t) ((dat1 V c).after 4 t) = _
  rw [after1_4]
  unfold out1_4
  rw [View.canon_unit_zero hz1]
  rw [rblk1_0, rblk1_1, rblk1_2, rblk1_3]
  funext y
  obtain ⟨e0_0, e0_1, e0_2, e0_3, e1_0, e1_1, e1_2, e2_0, e2_1, e3_0, e3_1, e4_0, e4_1, e4_2, e4_3⟩ := idx_facts1 t
  have ht : t.val < 1024 := lt_of_lt_of_eq t.isLt N_1
  have hy0 : (y 0).val < 8 := (y 0).isLt
  have q0 : ((((cfg1.win 4).blk t).view.emb y) 0).val = t.val * 8 + (y 0).val := by
    show win1_4.index t (0 : Fin 4) * 8 + 1 * (y 0).val = _; omega
  have q1 : ((((cfg1.win 4).blk t).view.emb y) 1).val = (y 1).val := by
    show win1_4.index t (1 : Fin 4) * 2 + 1 * (y 1).val = _; omega
  have q2 : ((((cfg1.win 4).blk t).view.emb y) 2).val = (y 2).val := by
    show win1_4.index t (2 : Fin 4) * 2 + 1 * (y 2).val = _; omega
  have q3 : ((((cfg1.win 4).blk t).view.emb y) 3).val = (y 3).val := by
    show win1_4.index t (3 : Fin 4) * 50 + 1 * (y 3).val = _; omega
  show pay1 (tile1 (V c main_v1) (t.cast N_1)) (V c main_arg4) (V c main_arg5) (V c main_arg6) y = regOut1 V c (((cfg1.win 4).blk t).view.emb y)
  unfold regOut1
  have et : (⟨((((cfg1.win 4).blk t).view.emb y) 0).val / 8, by have h : ((((cfg1.win 4).blk t).view.emb y) 0).val < 8192 := ((((cfg1.win 4).blk t).view.emb y) 0).isLt; omega⟩ : Fin 1024) = t.cast N_1 :=
    Fin.ext (by show ((((cfg1.win 4).blk t).view.emb y) 0).val / 8 = t.val; omega)
  have ey : (ix4 (⟨((((cfg1.win 4).blk t).view.emb y) 0).val % 8, Nat.mod_lt _ (by decide)⟩ : Fin 8) ((((cfg1.win 4).blk t).view.emb y) 1) ((((cfg1.win 4).blk t).view.emb y) 2) ((((cfg1.win 4).blk t).view.emb y) 3) : S8x2x2x50.Idx) = y := by
    funext a
    match a with
    | ⟨0, _⟩ => exact Fin.ext (by show ((((cfg1.win 4).blk t).view.emb y) 0).val % 8 = (y 0).val; omega)
    | ⟨1, _⟩ => exact Fin.ext q1
    | ⟨2, _⟩ => exact Fin.ext q2
    | ⟨3, _⟩ => exact Fin.ext q3
  dsimp only
  rw [et, ey]

theorem mem_blk1 (t : Fin cfg1.N) (i : S8192x2x2x50.Idx) :
    i ∈ ((cfg1.win 4).blk t).view.set ↔ ∀ a : Fin 4, win1_4.index t a * S8x2x2x50.size a ≤ (i a).val ∧ (i a).val < win1_4.index t a * S8x2x2x50.size a + S8x2x2x50.size a := by
  show i ∈ ((View.whole main_v2).slice (win1_4.rect t)).set ↔ _
  rw [View.set_slice_whole, Rect.mem_set_unit]
  exact Iff.rfl

theorem cover1 (i : S8192x2x2x50.Idx) : ∃ t : Fin cfg1.N, (cfg1.win 4).flush t = true ∧ i ∈ ((cfg1.win 4).blk t).view.set := by
  have hi0 : (i 0).val < 8192 := (i 0).isLt
  have hi1 : (i 1).val < 2 := (i 1).isLt
  have hi2 : (i 2).val < 2 := (i 2).isLt
  have hi3 : (i 3).val < 50 := (i 3).isLt
  let t : Fin cfg1.N := (⟨(i 0).val / 8, by omega⟩ : Fin 1024).cast N_1.symm
  refine ⟨t, flush1_4 t, ?_⟩
  rw [mem_blk1]
  obtain ⟨e0_0, e0_1, e0_2, e0_3, e1_0, e1_1, e1_2, e2_0, e2_1, e3_0, e3_1, e4_0, e4_1, e4_2, e4_3⟩ := idx_facts1 t
  have tv : t.val = (i 0).val / 8 := rfl
  intro a
  match a with
  | ⟨0, _⟩ => show win1_4.index t (0 : Fin 4) * 8 ≤ (i 0).val ∧ (i 0).val < win1_4.index t (0 : Fin 4) * 8 + 8; omega
  | ⟨1, _⟩ => show win1_4.index t (1 : Fin 4) * 2 ≤ (i 1).val ∧ (i 1).val < win1_4.index t (1 : Fin 4) * 2 + 2; omega
  | ⟨2, _⟩ => show win1_4.index t (2 : Fin 4) * 2 ≤ (i 2).val ∧ (i 2).val < win1_4.index t (2 : Fin 4) * 2 + 2; omega
  | ⟨3, _⟩ => show win1_4.index t (3 : Fin 4) * 50 ≤ (i 3).val ∧ (i 3).val < win1_4.index t (3 : Fin 4) * 50 + 50; omega

/-- The region's result array after its run. -/
theorem final1 (c : Dev nD) : (dat1 V c).arrAt 4 cfg1.N = regOut1 V c :=
  (dat1 V c).arrAt_eq_of_cover 4 (regOut1 V c) (fun t _ => flushed_eq1 V c t) cover1

end Cert.ReferenceIdeal.Net

end
-- ==== Proof.RFinal2.lean ====
/-
  REGION 2 OF THE REFERENCE: ITS RESULT ARRAY AS ONE FUNCTION OF THE ARRAYS IT FINDS.

  The one grid point reads every operand whole and writes the whole result.
-/
import proofs.«180094_g2000601136005399_pallasbulk_237_2_alg».proof.Proof.Gen.ReferenceIdeal.Frame
import Idealize.ShloMosaic.Lib.Pipeline.Value
import Idealize.ShloMosaic.Lib.ValueIdx

set_option maxRecDepth 16384

noncomputable section

namespace Cert.ReferenceIdeal.Net

open Cert.ReferenceIdeal Cert.ReferenceIdeal.Gen Idealize.ShloMosaic Idealize.ShloMosaic.TcCoe Idealize.ShloMosaic.ValueIdx
open Idealize.SL.Sem
open Idealize.ShloMosaic.Pipeline (Dat Cfg Window)

variable (V : (c : Dev nD) → (b : Ref sig .tc) → Buf (Elt Ideal) ((c : Thread nD τ).loc b))

theorem hz2 : (![0, 0] : Fin 2 → Nat) = fun _ => 0 := funext fun a => by fin_cases a <;> rfl

theorem idx_facts2 : ∀ t : Fin cfg2.N,
    win2_0.index t (0 : Fin 2) = 0
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0 :=
  (by decide +kernel : ∀ t : Fin grid2.N, _)

/-- The body's value on its operands' blocks. -/
def pay2 (x0 : Vec Ideal S8192x200 .bf16) (x1 : Vec Ideal S200x500 .bf16) (x2 : Vec Ideal S1x500 .f32) (x3 : Vec Ideal S1x500 .f32) (x4 : Vec Ideal S500x10 .bf16) (x5 : Vec Ideal S1x10 .f32) : FVec Ideal S8192x10 .f32 :=
  k2_pay1 (View.ld x0 r2_0) (View.ld x1 r2_1) (View.ld x2 r2_2) (View.ld x3 r2_2) (View.ld x4 r2_3) (View.ld x5 r2_4)

theorem rblk2_0 (c : Dev nD) (t : Fin cfg2.N) : iblk2 V c 0 t = V c main_v3 := by
  funext y
  show V c main_v3 (((cfg2.win 0).blk t).view.emb y) = V c main_v3 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_0.index t (0 : Fin 2) * 8192 + 1 * (y 0).val = (y 0).val; omega
  | ⟨1, _⟩ => show win2_0.index t (1 : Fin 2) * 200 + 1 * (y 1).val = (y 1).val; omega

theorem rblk2_1 (c : Dev nD) (t : Fin cfg2.N) : iblk2 V c 1 t = V c main_arg7 := by
  funext y
  show V c main_arg7 (((cfg2.win 1).blk t).view.emb y) = V c main_arg7 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_1.index t (0 : Fin 2) * 200 + 1 * (y 0).val = (y 0).val; omega
  | ⟨1, _⟩ => show win2_1.index t (1 : Fin 2) * 500 + 1 * (y 1).val = (y 1).val; omega

theorem rblk2_2 (c : Dev nD) (t : Fin cfg2.N) : iblk2 V c 2 t = V c main_arg8 := by
  funext y
  show V c main_arg8 (((cfg2.win 2).blk t).view.emb y) = V c main_arg8 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_2.index t (0 : Fin 2) * 1 + 1 * (y 0).val = (y 0).val; omega
  | ⟨1, _⟩ => show win2_2.index t (1 : Fin 2) * 500 + 1 * (y 1).val = (y 1).val; omega

theorem rblk2_3 (c : Dev nD) (t : Fin cfg2.N) : iblk2 V c 3 t = V c main_arg9 := by
  funext y
  show V c main_arg9 (((cfg2.win 3).blk t).view.emb y) = V c main_arg9 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_3.index t (0 : Fin 2) * 1 + 1 * (y 0).val = (y 0).val; omega
  | ⟨1, _⟩ => show win2_3.index t (1 : Fin 2) * 500 + 1 * (y 1).val = (y 1).val; omega

theorem rblk2_4 (c : Dev nD) (t : Fin cfg2.N) : iblk2 V c 4 t = V c main_arg10 := by
  funext y
  show V c main_arg10 (((cfg2.win 4).blk t).view.emb y) = V c main_arg10 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_4.index t (0 : Fin 2) * 500 + 1 * (y 0).val = (y 0).val; omega
  | ⟨1, _⟩ => show win2_4.index t (1 : Fin 2) * 10 + 1 * (y 1).val = (y 1).val; omega

theorem rblk2_5 (c : Dev nD) (t : Fin cfg2.N) : iblk2 V c 5 t = V c main_arg11 := by
  funext y
  show V c main_arg11 (((cfg2.win 5).blk t).view.emb y) = V c main_arg11 y
  refine congrArg _ (funext fun a => Fin.ext ?_)
  obtain ⟨e0_0, e0_1, e1_0, e1_1, e2_0, e2_1, e3_0, e3_1, e4_0, e4_1, e5_0, e5_1, e6_0, e6_1⟩ := idx_facts2 t
  match a with
  | ⟨0, _⟩ => show win2_5.index t (0 : Fin 2) * 1 + 1 * (y 0).val = (y 0).val; omega
  | ⟨1, _⟩ => show win2_5.index t (1 : Fin 2) * 10 + 1 * (y 1).val = (y 1).val; omega

/-- The whole result of the region. -/
def regOut2 (c : Dev nD) : S8192x10.Idx → Elt Ideal .f32 :=
  fun i => pay2 (V c main_v3) (V c main_arg7) (V c main_arg8) (V c main_arg9) (V c main_arg10) (V c main_arg11) i

theorem flushed_eq2 (c : Dev nD) (t : Fin cfg2.N) :
    (dat2 V c).flushed 6 t = ((cfg2.win 6).blk t).view.read (Elt Ideal) (regOut2 V c) := by
  show (cfg2.win 6).cut (grid2.coords t) ((dat2 V c).after 6 t) = _
  rw [after2_6]
  unfold out2_6
  rw [View.canon_unit_zero hz2]
  rw [rblk2_0, rblk2_1, rblk2_2, rblk2_3, rblk2_4, rblk2_5]
  funext y
  obtain ⟨e0_0, e0_1, e1_0, e1_1, e2_0, e2_1, e3_0, e3_1, e4_0, e4_1, e5_0, e5_1, e6_0, e6_1⟩ := idx_facts2 t
  have ht : t.val < 1 := lt_of_lt_of_eq t.isLt N_2
  show pay2 (V c main_v3) (V c main_arg7) (V c main_arg8) (V c main_arg9) (V c main_arg10) (V c main_arg11) y = regOut2 V c (((cfg2.win 6).blk t).view.emb y)
  unfold regOut2
  refine congrArg _ (funext fun a => Fin.ext ?_)
  match a with
  | ⟨0, _⟩ => show (y 0).val = win2_6.index t (0 : Fin 2) * 8192 + 1 * (y 0).val; omega
  | ⟨1, _⟩ => show (y 1).val = win2_6.index t (1 : Fin 2) * 10 + 1 * (y 1).val; omega

theorem mem_blk2 (t : Fin cfg2.N) (i : S8192x10.Idx) :
    i ∈ ((cfg2.win 6).blk t).view.set ↔ ∀ a : Fin 2, win2_6.index t a * S8192x10.size a ≤ (i a).val ∧ (i a).val < win2_6.index t a * S8192x10.size a + S8192x10.size a := by
  show i ∈ ((View.whole main_v4).slice (win2_6.rect t)).set ↔ _
  rw [View.set_slice_whole, Rect.mem_set_unit]
  exact Iff.rfl

theorem cover2 (i : S8192x10.Idx) : ∃ t : Fin cfg2.N, (cfg2.win 6).flush t = true ∧ i ∈ ((cfg2.win 6).blk t).view.set := by
  have hi0 : (i 0).val < 8192 := (i 0).isLt
  have hi1 : (i 1).val < 10 := (i 1).isLt
  let t : Fin cfg2.N := (⟨(i 0).val / 8192, by omega⟩ : Fin 1).cast N_2.symm
  refine ⟨t, flush2_6 t, ?_⟩
  rw [mem_blk2]
  obtain ⟨e0_0, e0_1, e1_0, e1_1, e2_0, e2_1, e3_0, e3_1, e4_0, e4_1, e5_0, e5_1, e6_0, e6_1⟩ := idx_facts2 t
  have tv : t.val = (i 0).val / 8192 := rfl
  intro a
  match a with
  | ⟨0, _⟩ => show win2_6.index t (0 : Fin 2) * 8192 ≤ (i 0).val ∧ (i 0).val < win2_6.index t (0 : Fin 2) * 8192 + 8192; omega
  | ⟨1, _⟩ => show win2_6.index t (1 : Fin 2) * 10 ≤ (i 1).val ∧ (i 1).val < win2_6.index t (1 : Fin 2) * 10 + 10; omega

/-- The region's result array after its run. -/
theorem final2 (c : Dev nD) : (dat2 V c).arrAt 6 cfg2.N = regOut2 V c :=
  (dat2 V c).arrAt_eq_of_cover 6 (regOut2 V c) (fun t _ => flushed_eq2 V c t) cover2

end Cert.ReferenceIdeal.Net

end
-- ==== Proof.RLayer3.lean ====
/-
  THE REFERENCE'S DENSE KERNEL, READ AT AN INDEX.

  Row `n` of the result is the second dense layer, with its bias, of the rectified, scaled and shifted first dense
  layer of row `n` of the features.
-/
import proofs.«180094_g2000601136005399_pallasbulk_237_2_alg».proof.Proof.RFinal2
import proofs.«180094_g2000601136005399_pallasbulk_237_2_alg».proof.Proof.LibLayoutOps
import proofs.«180094_g2000601136005399_pallasbulk_237_2_alg».proof.Proof.LibPoolOps
import proofs.«180094_g2000601136005399_pallasbulk_237_2_alg».proof.Proof.LibMatOps
import Idealize.ShloMosaic.Lib.ValueLayout

noncomputable section

open scoped BigOperators

namespace Cert.ReferenceIdeal.Net

open Cert.ReferenceIdeal Cert.ReferenceIdeal.Gen Idealize.ShloMosaic Idealize.ShloMosaic.ValueIdx Cert.LayoutOps Cert.PoolOps

theorem rdot3_eq : dot_S8192x200_S200x500_S8192x500_1_0_0_1_n_n
    = Cert.MatOps.plainDot 8192 200 500 dot_S8192x200_S200x500_S8192x500_1_0_0_1_n_n_wf := rfl
theorem rdot4_eq : dot_S8192x500_S500x10_S8192x10_1_0_0_1_n_n
    = Cert.MatOps.plainDot 8192 500 10 dot_S8192x500_S500x10_S8192x10_1_0_0_1_n_n_wf := rfl

abbrev zeroR : EReal := Ideal.ofBits .f32 0x00000000#32

def featProdR (v0 : FVec Ideal S8192x200 .bf16) (v2 : FVec Ideal S200x500 .bf16) : FVec Ideal S8192x500 .f32 :=
  matmul dot_S8192x200_S200x500_S8192x500_1_0_0_1_n_n none (shapeCast S8192x200 v0 shapeCasts_S8192x200_S8192x200 : FVec Ideal S8192x200 .bf16) v2 (constant S8192x500 .f32 0x00000000#32)

theorem featProdR_apply (v0 : FVec Ideal S8192x200 .bf16) (v2 : FVec Ideal S200x500 .bf16) (n : Fin 8192) (k : Fin 500) :
    featProdR v0 v2 (ix2 n k) = ∑ j : Fin 200, v0 (ix2 n j) * v2 (ix2 j k) := by
  unfold featProdR
  rw [rdot3_eq, shapeCast_self]
  exact Cert.MatOps.matmul_plain_apply _ none _ _ n k

def hiddenR (v0 : FVec Ideal S8192x200 .bf16) (v2 : FVec Ideal S200x500 .bf16) (v4 v7 : FVec Ideal S1x500 .f32) (n : Fin 8192) (k : Fin 500) : EReal :=
  max ((∑ j : Fin 200, v0 (ix2 n j) * v2 (ix2 j k)) * v4 (ix2 (0 : Fin 1) k) + v7 (ix2 (0 : Fin 1) k)) zeroR

def hiddenVecR (v0 : FVec Ideal S8192x200 .bf16) (v2 : FVec Ideal S200x500 .bf16) (v4 v7 : FVec Ideal S1x500 .f32) : FVec Ideal S8192x500 .bf16 :=
  truncf .bf16 (maximumf (addf (mulf (featProdR v0 v2) (broadcastTo S8192x500 v4 broadcasts_S1x500_S8192x500 : FVec Ideal S8192x500 .f32))
    (broadcastTo S8192x500 v7 broadcasts_S1x500_S8192x500 : FVec Ideal S8192x500 .f32)) (broadcast S8192x500 (Scalar.ofBits (F := Ideal) .f32 0x00000000#32))) bitsLt_bf16_f32

theorem hiddenVecR_apply (v0 : FVec Ideal S8192x200 .bf16) (v2 : FVec Ideal S200x500 .bf16) (v4 v7 : FVec Ideal S1x500 .f32) (n : Fin 8192) (k : Fin 500) :
    hiddenVecR v0 v2 v4 v7 (ix2 n k) = hiddenR v0 v2 v4 v7 n k := by
  unfold hiddenVecR hiddenR
  rw [truncf_apply, maximumf_apply, addf_apply, mulf_apply, broadcast_apply, featProdR_apply, broadcastTo_1b_ab_apply, broadcastTo_1b_ab_apply]
  rfl

theorem k2_apply (v0 : FVec Ideal S8192x200 .bf16) (v2 : FVec Ideal S200x500 .bf16) (v4 v7 : FVec Ideal S1x500 .f32)
    (v13 : FVec Ideal S500x10 .bf16) (v15 : FVec Ideal S1x10 .f32) (n : Fin 8192) (o : Fin 10) :
    k2_pay1 (F := Ideal) v0 v2 v4 v7 v13 v15 (ix2 n o) = (∑ k : Fin 500, hiddenR v0 v2 v4 v7 n k * v13 (ix2 k o)) + v15 (ix2 (0 : Fin 1) o) := by
  unfold k2_pay1
  show (addf (matmul dot_S8192x500_S500x10_S8192x10_1_0_0_1_n_n none (hiddenVecR v0 v2 v4 v7) v13 (constant S8192x10 .f32 0x00000000#32))
    (broadcastTo S8192x10 v15 broadcasts_S1x10_S8192x10 : FVec Ideal S8192x10 .f32)) (ix2 n o) = _
  rw [addf_apply, rdot4_eq]
  refine congrArg₂ (· + ·) ?_ (broadcastTo_1b_ab_apply v15 _ n o)
  refine (Cert.MatOps.matmul_plain_apply _ none _ _ n o).trans ?_
  refine Finset.sum_congr rfl fun k _ => ?_
  rw [hiddenVecR_apply]

theorem pay2_apply (x0 : Vec Ideal S8192x200 .bf16) (x1 : Vec Ideal S200x500 .bf16) (x2 x3 : Vec Ideal S1x500 .f32) (x4 : Vec Ideal S500x10 .bf16) (x5 : Vec Ideal S1x10 .f32)
    (n : Fin 8192) (o : Fin 10) :
    pay2 x0 x1 x2 x3 x4 x5 (ix2 n o) = (∑ k : Fin 500, hiddenR x0 x1 x2 x3 n k * x4 (ix2 k o)) + x5 (ix2 (0 : Fin 1) o) := by
  unfold pay2
  rw [View.ld_unit_zero (S := S8192x200) (funext fun a => by fin_cases a <;> rfl), View.ld_unit_zero (S := S200x500) (funext fun a => by fin_cases a <;> rfl),
    View.ld_unit_zero (S := S1x500) (funext fun a => by fin_cases a <;> rfl), View.ld_unit_zero (S := S1x500) (funext fun a => by fin_cases a <;> rfl),
    View.ld_unit_zero (S := S500x10) (funext fun a => by fin_cases a <;> rfl), View.ld_unit_zero (S := S1x10) (funext fun a => by fin_cases a <;> rfl)]
  exact k2_apply x0 x1 x2 x3 x4 x5 n o

end Cert.ReferenceIdeal.Net

end
-- ==== Proof.RChain.lean ====
/-
  THE REFERENCE'S RESULT, IMAGE BY IMAGE.

  The result buffer after the run is the dense kernel's output on the reshaped output of the second convolution
  kernel, itself computed from the output of the first, itself from the reshaped images.  Every kernel works on one
  image at a time, so row `n` of the result is the network's function (Proof/NetSpec.lean) of image `n`.
-/
import proofs.«180094_g2000601136005399_pallasbulk_237_2_alg».proof.Proof.RFinal0
import proofs.«180094_g2000601136005399_pallasbulk_237_2_alg».proof.Proof.RFinal1
import proofs.«180094_g2000601136005399_pallasbulk_237_2_alg».proof.Proof.RLayer3
import proofs.«180094_g2000601136005399_pallasbulk_237_2_alg».proof.Proof.NetSpec
import Idealize.ShloMosaic.Lib.StableHlo.Run

noncomputable section

open scoped BigOperators

namespace Cert.ReferenceIdeal.Net

open Cert.ReferenceIdeal Cert.ReferenceIdeal.Gen Idealize.ShloMosaic Idealize.ShloMosaic.ValueIdx Cert.LayoutOps Cert.PoolOps Cert.NetSpec Idealize.ShloMosaic.TcCoe

variable (m : (ℓ : Loc nD τ sig) → Buf (Elt Ideal) ℓ) (ρ : Dev nD → PrngReg)

/-- The features in row-major order `(hp, wp, co)`. -/
def flatR (p2 : Fin 2 → Fin 2 → Fin 50 → EReal) (j : Fin 200) : EReal :=
  p2 ⟨j.val / 100, by have := j.isLt; omega⟩ ⟨j.val / 50 % 2, Nat.mod_lt _ (by decide)⟩ ⟨j.val % 50, Nat.mod_lt _ (by decide)⟩

/-- The network's function of one image. -/
def netR (img : Fin 28 → Fin 28 → EReal) (w1 : Fin 25 → Fin 20 → EReal) (s1 t1 : Fin 20 → EReal) (w2 : Fin 25 → Fin 20 → Fin 50 → EReal) (s2 t2 : Fin 50 → EReal)
    (fw1 : Fin 200 → Fin 500 → EReal) (s3 t3 : Fin 500 → EReal) (fw2 : Fin 500 → Fin 10 → EReal) (fb2 : Fin 10 → EReal) (o : Fin 10) : EReal :=
  dense (flatR (R2 (R1 img w1 s1 t1) w2 s2 t2)) fw1 s3 t3 fw2 fb2 o

/-- `[a, b, c, d]` read as `[a, b·c·d]`. -/
theorem mergeTail4 {α : Type} {a b c d N : ℕ} (hN : N = b * c * d) (hc : 0 < c) (hd : 0 < d) (X : (⟨4, ![a, b, c, d]⟩ : Shape).Idx → α)
    (h : (⟨4, ![a, b, c, d]⟩ : Shape).ShapeCasts ⟨2, ![a, N]⟩) (x : Fin a) (j : Fin N) :
    shapeCast ⟨2, ![a, N]⟩ X h (ix2 x j)
      = X (ix4 x (⟨j.val / (c * d), Nat.div_lt_of_lt_mul (by have h1 := j.isLt; have h2 : N = c * d * b := (by rw [hN, Nat.mul_assoc, Nat.mul_comm]); omega)⟩ : Fin b)
          (⟨j.val / d % c, Nat.mod_lt _ hc⟩ : Fin c) (⟨j.val % d, Nat.mod_lt _ hd⟩ : Fin d)) :=
  shapeCast_apply X h _ _ (by
    rw [Shape.rowMajor_val_four, Shape.rowMajor_val_two]
    show ((x.val * b + j.val / (c * d)) * c + j.val / d % c) * d + j.val % d = x.val * N + j.val
    have e1 : j.val / (c * d) = j.val / d / c := by rw [Nat.mul_comm, Nat.div_div_eq_div_mul]
    have e2 : j.val / d / c * c + j.val / d % c = j.val / d := Nat.div_add_mod' _ _
    have e3 : j.val / d * d + j.val % d = j.val := Nat.div_add_mod' _ _
    subst hN
    rw [e1]
    calc ((x.val * b + j.val / d / c) * c + j.val / d % c) * d + j.val % d
        = x.val * (b * c * d) + ((j.val / d / c * c + j.val / d % c) * d + j.val % d) := by ring
      _ = x.val * (b * c * d) + j.val := by rw [e2, e3])

/-! What each region finds in the buffers no earlier step writes: the launch contents. -/
theorem notWritten0 (c : Dev nD) (b : Ref sig .tc) (hb : b ≠ main_v0) : W1 m ρ c (Proc.devRef .tc b) = m ((c : Thread nD τ).loc b) :=
  StableHlo.after_of_forall_not_mem (b := Proc.devRef .tc b) _ _ (List.forall_iff_forall_mem.mp (by
    simp only [hostOps0, List.Forall, StableHlo.reshape_writes, Finset.mem_singleton]
    exact StableHlo.devRef_ne_of_ne hb))

theorem notWritten2 (c : Dev nD) (b : Ref sig .tc) (hb : b ≠ main_v3) : W4 m ρ c (Proc.devRef .tc b) = W3 m ρ c (Proc.devRef .tc b) :=
  StableHlo.after_of_forall_not_mem (b := Proc.devRef .tc b) _ _ (List.forall_iff_forall_mem.mp (by
    simp only [hostOps2, List.Forall, StableHlo.reshape_writes, Finset.mem_singleton]
    exact StableHlo.devRef_ne_of_ne hb))

theorem V1_arg (c : Dev nD) (b : Ref sig .tc) (hb : b ≠ main_v0) : V1 m ρ c b = m ((c : Thread nD τ).loc b) := notWritten0 m ρ c b hb

theorem V2_arg (c : Dev nD) (b : Ref sig .tc) (hb : b ≠ main_v0) (h0 : ∀ w, Pipeline.arrRef spec0 w ≠ b) : V2 m ρ c b = m ((c : Thread nD τ).loc b) :=
  (W2_of_ne m ρ c b h0).trans (notWritten0 m ρ c b hb)

theorem V4_arg (c : Dev nD) (b : Ref sig .tc) (hb : b ≠ main_v0) (hb3 : b ≠ main_v3) (h0 : ∀ w, Pipeline.arrRef spec0 w ≠ b) (h1 : ∀ w, Pipeline.arrRef spec1 w ≠ b) :
    V4 m ρ c b = m ((c : Thread nD τ).loc b) :=
  (notWritten2 m ρ c b hb3).trans ((W3_of_ne m ρ c b h1).trans ((W2_of_ne m ρ c b h0).trans (notWritten0 m ρ c b hb)))

/-- The images as the first kernel finds them: the reshape of the first argument. -/
theorem V1_images (c : Dev nD) (n : Fin 8192) (h w : Fin 28) :
    (V1 m ρ c main_v0 : S8192x28x28.Idx → EReal) (ix3 n h w) = (m ((c : Thread nD τ).loc main_arg0) : S8192x1x28x28.Idx → EReal) (ix4 n (0 : Fin 1) h w) := by
  have e : (V1 m ρ c main_v0 : S8192x28x28.Idx → EReal) = shapeCast S8192x28x28 (m ((c : Thread nD τ).loc main_arg0) : S8192x1x28x28.Idx → EReal) shapeCasts_S8192x1x28x28_S8192x28x28 := by
    dsimp only [V1, W1, W0, hostOps0]
    after_results
    rfl
  rw [e]
  refine shapeCast_apply (s := S8192x1x28x28) (t := S8192x28x28) _ _ (ix3 n h w) (ix4 n (0 : Fin 1) h w) ?_
  show (S8192x1x28x28.rowMajor (ix4 n (0 : Fin 1) h w)).val = (S8192x28x28.rowMajor (ix3 n h w)).val
  rw [Shape.rowMajor_val_four, Shape.rowMajor_val_three]
  show ((n.val * 1 + 0) * 28 + h.val) * 28 + w.val = (n.val * 28 + h.val) * 28 + w.val
  rw [Nat.mul_one, Nat.add_zero]

/-- The features as the dense kernel finds them: the reshape of the second kernel's result. -/
theorem V4_features (c : Dev nD) (n : Fin 8192) (j : Fin 200) :
    (V4 m ρ c main_v3 : S8192x200.Idx → EReal) (ix2 n j)
      = (W3 m ρ c (Proc.devRef .tc main_v2) : S8192x2x2x50.Idx → EReal) (ix4 n (⟨j.val / 100, by have := j.isLt; omega⟩ : Fin 2) (⟨j.val / 50 % 2, Nat.mod_lt _ (by decide)⟩ : Fin 2) (⟨j.val % 50, Nat.mod_lt _ (by decide)⟩ : Fin 50)) := by
  have e : (V4 m ρ c main_v3 : S8192x200.Idx → EReal) = shapeCast S8192x200 (W3 m ρ c (Proc.devRef .tc main_v2) : S8192x2x2x50.Idx → EReal) shapeCasts_S8192x2x2x50_S8192x200 := by
    dsimp only [V4, W4, hostOps2]
    after_results
    rfl
  rw [e]
  exact mergeTail4 (a := 8192) (b := 2) (c := 2) (d := 50) (N := 200) rfl (by decide) (by decide) _ _ n j

end Cert.ReferenceIdeal.Net

end
-- ==== Proof.LibLayoutOps2.lean ====
/-
  MORE RESHAPES, SLICES AND BROADCASTS OF RANK-3 AND RANK-4 ARRAYS, READ AT AN INDEX.

  Row-major reshapes keep the flat position: three leading axes merged, `[a, b, c, d] → [a·b·c, d]`, read
  `(R / (b·c), R / c % b, R % c, q)` at `(R, q)`, and back; an axis `M = b·c` regrouped with its left neighbour,
  `[a, M, d, e] → [a·b, c, d, e]`, reads `(p / b, (p % b)·c + i, u, v)`; a middle axis split, `[a, M, d] → [a, b, c, d]`,
  reads `(x, y·c + z, q)`; a trailing unit axis added reads the same entry.  A slice shifts by its offsets; a
  broadcast along the last axis, or of a row over all leading axes, repeats the entry.
-/
import Idealize.ShloMosaic.Lib.ValueIdx
import Idealize.ShloMosaic.Lib.Pipeline.Value
import proofs.«180094_g2000601136005399_pallasbulk_237_2_alg».proof.Proof.LibLayoutOps

noncomputable section

namespace Cert.LayoutOps

open Idealize.ShloMosaic Idealize.ShloMosaic.ValueIdx

variable {α : Type}

theorem merge4to2 {a b c d N : ℕ} (hN : N = a * b * c) (hb : 0 < b) (hc : 0 < c) (X : (⟨4, ![a, b, c, d]⟩ : Shape).Idx → α)
    (h : (⟨4, ![a, b, c, d]⟩ : Shape).ShapeCasts ⟨2, ![N, d]⟩) (R : Fin N) (q : Fin d) :
    shapeCast ⟨2, ![N, d]⟩ X h (ix2 R q)
      = X (ix4 (⟨R.val / (b * c), Nat.div_lt_of_lt_mul (by have h1 := R.isLt; have h2 : N = b * c * a := (by rw [hN, Nat.mul_assoc, Nat.mul_comm]); omega)⟩ : Fin a)
          (⟨R.val / c % b, Nat.mod_lt _ hb⟩ : Fin b) (⟨R.val % c, Nat.mod_lt _ hc⟩ : Fin c) q) :=
  shapeCast_apply X h _ _ (by
    rw [Shape.rowMajor_val_four, Shape.rowMajor_val_two]
    show ((R.val / (b * c) * b + R.val / c % b) * c + R.val % c) * d + q.val = R.val * d + q.val
    have e1 : R.val / (b * c) = R.val / c / b := by rw [Nat.mul_comm, Nat.div_div_eq_div_mul]
    rw [e1, Nat.div_add_mod', Nat.div_add_mod'])

theorem split2to4 {a b c d N : ℕ} (hN : N = a * b * c) (X : (⟨2, ![N, d]⟩ : Shape).Idx → α)
    (h : (⟨2, ![N, d]⟩ : Shape).ShapeCasts ⟨4, ![a, b, c, d]⟩) (x : Fin a) (y : Fin b) (z : Fin c) (q : Fin d) :
    shapeCast ⟨4, ![a, b, c, d]⟩ X h (ix4 x y z q)
      = X (ix2 (⟨(x.val * b + y.val) * c + z.val, by rw [hN]; exact mul_add_lt (mul_add_lt x.isLt y.isLt) z.isLt⟩ : Fin N) q) :=
  shapeCast_apply X h _ _ (by
    rw [Shape.rowMajor_val_four, Shape.rowMajor_val_two]
    rfl)

/-- `[a, b·c, d, e]` read as `[a·b, c, d, e]`. -/
theorem regroup4 {a b c d e M N : ℕ} (hM : M = b * c) (hN : N = a * b) (hb : 0 < b) (X : (⟨4, ![a, M, d, e]⟩ : Shape).Idx → α)
    (h : (⟨4, ![a, M, d, e]⟩ : Shape).ShapeCasts ⟨4, ![N, c, d, e]⟩) (p : Fin N) (i : Fin c) (u : Fin d) (v : Fin e) :
    shapeCast ⟨4, ![N, c, d, e]⟩ X h (ix4 p i u v)
      = X (ix4 (⟨p.val / b, div_lt_of_lt_mul' (lt_of_lt_of_eq p.isLt hN)⟩ : Fin a)
          (⟨p.val % b * c + i.val, by rw [hM]; exact mul_add_lt (Nat.mod_lt _ hb) i.isLt⟩ : Fin M) u v) :=
  shapeCast_apply X h _ _ (by
    rw [Shape.rowMajor_val_four, Shape.rowMajor_val_four]
    show ((p.val / b * M + (p.val % b * c + i.val)) * d + u.val) * e + v.val = ((p.val * c + i.val) * d + u.val) * e + v.val
    have : p.val / b * M + (p.val % b * c + i.val) = p.val * c + i.val := by
      rw [hM, ← Nat.add_assoc, ← Nat.mul_assoc, ← Nat.add_mul, Nat.div_add_mod']
    rw [this])

/-- `[a, b·c, d]` read as `[a, b, c, d]`. -/
theorem splitMid {a b c d M : ℕ} (hM : M = b * c) (X : (⟨3, ![a, M, d]⟩ : Shape).Idx → α)
    (h : (⟨3, ![a, M, d]⟩ : Shape).ShapeCasts ⟨4, ![a, b, c, d]⟩) (x : Fin a) (y : Fin b) (z : Fin c) (q : Fin d) :
    shapeCast ⟨4, ![a, b, c, d]⟩ X h (ix4 x y z q)
      = X (ix3 x (⟨y.val * c + z.val, by rw [hM]; exact mul_add_lt y.isLt z.isLt⟩ : Fin M) q) :=
  shapeCast_apply X h _ _ (by
    rw [Shape.rowMajor_val_four, Shape.rowMajor_val_three]
    show (x.val * M + (y.val * c + z.val)) * d + q.val = ((x.val * b + y.val) * c + z.val) * d + q.val
    rw [hM, ← Nat.add_assoc, ← Nat.mul_assoc, ← Nat.add_mul])

/-- A trailing unit axis added. -/
theorem addLast {a b c : ℕ} (X : (⟨3, ![a, b, c]⟩ : Shape).Idx → α)
    (h : (⟨3, ![a, b, c]⟩ : Shape).ShapeCasts ⟨4, ![a, b, c, 1]⟩) (x : Fin a) (y : Fin b) (z : Fin c) (u : Fin 1) :
    shapeCast ⟨4, ![a, b, c, 1]⟩ X h (ix4 x y z u) = X (ix3 x y z) :=
  shapeCast_apply X h _ _ (by
    rw [Shape.rowMajor_val_four, Shape.rowMajor_val_three]
    show (x.val * b + y.val) * c + z.val = ((x.val * b + y.val) * c + z.val) * 1 + u.val
    have := u.isLt
    omega)

/-- A vector read as `[1, 1, 1, a]`. -/
theorem vecTo111a {a : ℕ} (X : (⟨1, ![a]⟩ : Shape).Idx → α)
    (h : (⟨1, ![a]⟩ : Shape).ShapeCasts ⟨4, ![1, 1, 1, a]⟩) (u v w : Fin 1) (q : Fin a) :
    shapeCast ⟨4, ![1, 1, 1, a]⟩ X h (ix4 u v w q) = X (ix1 q) :=
  shapeCast_apply X h _ _ (by
    rw [Shape.rowMajor_val_four, Shape.rowMajor_val_one]
    show q.val = ((u.val * 1 + v.val) * 1 + w.val) * a + q.val
    have := u.isLt; have := v.isLt; have := w.isLt
    have e : (u.val * 1 + v.val) * 1 + w.val = 0 := by omega
    rw [e, Nat.zero_mul, Nat.zero_add])

/-- A rank-3 slice shifted on its last two axes. -/
theorem slice3_12 {n0 n1 n2 m1 m2 : ℕ} (o1 o2 : ℕ) (X : (⟨3, ![n0, n1, n2]⟩ : Shape).Idx → α)
    (h : (⟨3, ![n0, n1, n2]⟩ : Shape).Slices ![0, o1, o2] ⟨3, ![n0, m1, m2]⟩)
    (x : Fin n0) (y : Fin m1) (z : Fin m2) (h1 : o1 + y.val < n1) (h2 : o2 + z.val < n2) :
    extractStridedSlice ⟨3, ![n0, m1, m2]⟩ ![0, o1, o2] X h (ix3 x y z) = X (ix3 x (⟨o1 + y.val, h1⟩ : Fin n1) (⟨o2 + z.val, h2⟩ : Fin n2)) :=
  extractStridedSlice_apply _ _ _ _ _ (fun ax => by
    match ax with
    | ⟨0, _⟩ => exact (Nat.zero_add _).symm
    | ⟨1, _⟩ => rfl
    | ⟨2, _⟩ => rfl)

/-- A rank-4 slice shifted on its two middle axes. -/
theorem slice4_12 {n0 n1 n2 n3 m1 m2 : ℕ} (o1 o2 : ℕ) (X : (⟨4, ![n0, n1, n2, n3]⟩ : Shape).Idx → α)
    (h : (⟨4, ![n0, n1, n2, n3]⟩ : Shape).Slices ![0, o1, o2, 0] ⟨4, ![n0, m1, m2, n3]⟩)
    (x : Fin n0) (y : Fin m1) (z : Fin m2) (q : Fin n3) (h1 : o1 + y.val < n1) (h2 : o2 + z.val < n2) :
    extractStridedSlice ⟨4, ![n0, m1, m2, n3]⟩ ![0, o1, o2, 0] X h (ix4 x y z q)
      = X (ix4 x (⟨o1 + y.val, h1⟩ : Fin n1) (⟨o2 + z.val, h2⟩ : Fin n2) q) :=
  extractStridedSlice_apply _ _ _ _ _ (fun ax => by
    match ax with
    | ⟨0, _⟩ => exact (Nat.zero_add _).symm
    | ⟨1, _⟩ => rfl
    | ⟨2, _⟩ => rfl
    | ⟨3, _⟩ => exact (Nat.zero_add _).symm)

/-- `[a, b, c, 1]` repeated along the last axis. -/
theorem bcastLast {a b c d : ℕ} (hd : d ≠ 1 ∨ True) (X : (⟨4, ![a, b, c, 1]⟩ : Shape).Idx → α)
    (h : (⟨4, ![a, b, c, 1]⟩ : Shape).Broadcasts ⟨4, ![a, b, c, d]⟩) (x : Fin a) (y : Fin b) (z : Fin c) (q : Fin d) :
    broadcastTo ⟨4, ![a, b, c, d]⟩ X h (ix4 x y z q) = X (ix4 x y z (0 : Fin 1)) := by
  refine broadcastTo_apply X h (ix4 x y z q) (ix4 x y z (0 : Fin 1)) fun ax => ?_
  match ax with
  | ⟨0, _⟩ =>
    show x.val = if a = 1 then 0 else x.val
    split
    · have := x.isLt; omega
    · rfl
  | ⟨1, _⟩ =>
    show y.val = if b = 1 then 0 else y.val
    split
    · have := y.isLt; omega
    · rfl
  | ⟨2, _⟩ =>
    show z.val = if c = 1 then 0 else z.val
    split
    · have := z.isLt; omega
    · rfl
  | ⟨3, _⟩ => rfl

/-- A row `[1, 1, 1, d]` repeated over all leading axes. -/
theorem bcastRow4 {a b c d : ℕ} (X : (⟨4, ![1, 1, 1, d]⟩ : Shape).Idx → α)
    (h : (⟨4, ![1, 1, 1, d]⟩ : Shape).Broadcasts ⟨4, ![a, b, c, d]⟩) (x : Fin a) (y : Fin b) (z : Fin c) (q : Fin d) :
    broadcastTo ⟨4, ![a, b, c, d]⟩ X h (ix4 x y z q) = X (ix4 (0 : Fin 1) (0 : Fin 1) (0 : Fin 1) q) := by
  refine broadcastTo_apply X h (ix4 x y z q) (ix4 (0 : Fin 1) (0 : Fin 1) (0 : Fin 1) q) fun ax => ?_
  match ax with
  | ⟨0, _⟩ => rfl
  | ⟨1, _⟩ => rfl
  | ⟨2, _⟩ => rfl
  | ⟨3, _⟩ =>
    show q.val = if d = 1 then 0 else q.val
    split
    · have := q.isLt; omega
    · rfl

end Cert.LayoutOps

end
-- ==== Proof.RLayer1.lean ====
/-
  THE REFERENCE'S FIRST CONVOLUTION, NORMALISATION, RECTIFIER AND 3 × 3 MAXIMUM, READ AT AN INDEX.

  The body accumulates, from the zero array, the 25 products `win(ki, kj)[b, ho, wo] · w[5·ki + kj][co]` of the shifted
  24 × 24 windows of each image with the weight rows, in the order `(ki, kj)` lexicographic; at `(b, ho, wo, co)` the
  sum is `Σ_{ki, kj < 5} img b (ki + ho) (kj + wo) · w (5·ki + kj) co`.  It multiplies by the scale row, adds the shift
  row, takes the maximum with zero, and then the running maximum over each triple of consecutive rows and, after
  that, over each triple of consecutive columns: the entry `(b, hp, wp, co)` of the result is the fold of `max` over
  `j < 3` of the fold over `i < 3` of that value at `(b, 3·hp + i, 3·wp + j, co)`.
-/
import proofs.«180094_g2000601136005399_pallasbulk_237_2_alg».proof.Proof.RFinal0
import proofs.«180094_g2000601136005399_pallasbulk_237_2_alg».proof.Proof.LibLayoutOps
import proofs.«180094_g2000601136005399_pallasbulk_237_2_alg».proof.Proof.LibLayoutOps2
import proofs.«180094_g2000601136005399_pallasbulk_237_2_alg».proof.Proof.LibPoolOps
import proofs.«180094_g2000601136005399_pallasbulk_237_2_alg».proof.Proof.LibMatOps
import proofs.«180094_g2000601136005399_pallasbulk_237_2_alg».proof.Proof.NetSpec
import Idealize.ShloMosaic.Lib.ValueLayout

set_option maxRecDepth 16384

noncomputable section

open scoped BigOperators

namespace Cert.ReferenceIdeal.Net

open Cert.ReferenceIdeal Cert.ReferenceIdeal.Gen Idealize.ShloMosaic Idealize.ShloMosaic.ValueIdx Cert.LayoutOps Cert.PoolOps

/-- A row `[1, a]` read as a vector. -/
theorem rowToVec {α : Type} {a : ℕ} (X : (⟨2, ![1, a]⟩ : Shape).Idx → α) (h : (⟨2, ![1, a]⟩ : Shape).ShapeCasts ⟨1, ![a]⟩) (q : Fin a) :
    shapeCast ⟨1, ![a]⟩ X h (ix1 q) = X (ix2 (0 : Fin 1) q) :=
  shapeCast_apply X h _ _ (by
    rw [Shape.rowMajor_val_two, Shape.rowMajor_val_one]
    show 0 * a + q.val = q.val
    rw [Nat.zero_mul, Nat.zero_add])

/-- A window repeated along a new last axis. -/
theorem winB_apply (s : FVec Ideal S8x24x24 .f32) (hc : S8x24x24.ShapeCasts S8x24x24x1) (hb : S8x24x24x1.Broadcasts S8x24x24x20)
    (b : Fin 8) (ho wo : Fin 24) (co : Fin 20) :
    broadcastTo S8x24x24x20 (shapeCast S8x24x24x1 s hc) hb (ix4 b ho wo co) = s (ix3 b ho wo) :=
  (bcastLast (Or.inr trivial) _ hb b ho wo co).trans (addLast s hc b ho wo 0)

/-- A vector of 20 repeated over the three leading axes. -/
theorem rowB20_apply (r : FVec Ideal S20 .f32) (hc : S20.ShapeCasts S1x1x1x20) (hb : S1x1x1x20.Broadcasts S8x24x24x20)
    (b : Fin 8) (ho wo : Fin 24) (co : Fin 20) :
    broadcastTo S8x24x24x20 (shapeCast S1x1x1x20 r hc) hb (ix4 b ho wo co) = r (ix1 co) :=
  (bcastRow4 _ hb b ho wo co).trans (vecTo111a r hc 0 0 0 co)

/-- A `[1, 20]` row repeated over the three leading axes. -/
theorem rowB2_apply (r : FVec Ideal S1x20 .f32) (h2 : S1x20.ShapeCasts S20) (hc : S20.ShapeCasts S1x1x1x20) (hb : S1x1x1x20.Broadcasts S8x24x24x20)
    (b : Fin 8) (ho wo : Fin 24) (co : Fin 20) :
    broadcastTo S8x24x24x20 (shapeCast S1x1x1x20 (shapeCast S20 r h2) hc) hb (ix4 b ho wo co) = r (ix2 (0 : Fin 1) co) :=
  (rowB20_apply _ hc hb b ho wo co).trans (rowToVec r h2 co)

/-- A `[1, 1, 20]` row repeated over the three leading axes. -/
theorem rowB3_apply (w : FVec Ideal S1x1x20 .f32) (h1 : S1x1x20.ShapeCasts S1x20) (h2 : S1x20.ShapeCasts S20) (hc : S20.ShapeCasts S1x1x1x20)
    (hb : S1x1x1x20.Broadcasts S8x24x24x20) (b : Fin 8) (ho wo : Fin 24) (co : Fin 20) :
    broadcastTo S8x24x24x20 (shapeCast S1x1x1x20 (shapeCast S20 (shapeCast S1x20 w h1) h2) hc) hb (ix4 b ho wo co) = w (ix3 (0 : Fin 1) (0 : Fin 1) co) :=
  (rowB2_apply _ h2 hc hb b ho wo co).trans (dropMid w h1 (0 : Fin 1) co)

theorem inbRow (p : Fin 25) : ∀ a, (![p.val, 0, 0] : Fin 3 → ℕ) a + S1x1x20.size a ≤ S25x1x20.size a := fun a => by
  have := p.isLt
  match a with
  | ⟨0, _⟩ => show p.val + 1 ≤ 25; omega
  | ⟨1, _⟩ => show 0 + 1 ≤ 1; omega
  | ⟨2, _⟩ => show 0 + 20 ≤ 20; omega

/-- Row `p` of the weights, as the body loads it. -/
def wrow (x1 : Vec Ideal S25x1x20 .f32) (p : Fin 25) : Vec Ideal S1x1x20 .f32 :=
  View.ld x1 (Rect.unit (s := S25x1x20) ![p.val, 0, 0] S1x1x20.size (inbRow p))

theorem wrow_apply (x1 : Vec Ideal S25x1x20 .f32) (p : Fin 25) (co : Fin 20) :
    wrow x1 p (ix3 (0 : Fin 1) (0 : Fin 1) co) = x1 (ix3 p (0 : Fin 1) co) := by
  show x1 ((Rect.unit (s := S25x1x20) ![p.val, 0, 0] S1x1x20.size (inbRow p)).emb (ix3 (0 : Fin 1) (0 : Fin 1) co)) = _
  refine congrArg x1 (funext fun a => Fin.ext ?_)
  match a with
  | ⟨0, _⟩ => show p.val + 1 * 0 = p.val; omega
  | ⟨1, _⟩ => show 0 + 1 * 0 = 0; omega
  | ⟨2, _⟩ => show 0 + 1 * co.val = co.val; omega

/-- One product of the accumulation: the window shifted by `(ki, kj)`, repeated along the channel axis, times weight row
    `5·ki + kj`, repeated over images, rows and columns. -/
def term (ki kj : Fin 5) (img : FVec Ideal S8x28x28 .f32) (x1 : Vec Ideal S25x1x20 .f32) (hs : S8x28x28.Slices ![0, ki.val, kj.val] S8x24x24) :
    FVec Ideal S8x24x24x20 .f32 :=
  mulf (broadcastTo S8x24x24x20 (shapeCast S8x24x24x1 (extractStridedSlice S8x24x24 ![0, ki.val, kj.val] img hs : FVec Ideal S8x24x24 .f32) shapeCasts_S8x24x24_S8x24x24x1 : FVec Ideal S8x24x24x1 .f32) broadcasts_S8x24x24x1_S8x24x24x20 : FVec Ideal S8x24x24x20 .f32)
    (broadcastTo S8x24x24x20 (shapeCast S1x1x1x20 (shapeCast S20 (shapeCast S1x20 (wrow x1 ⟨ki.val * 5 + kj.val, by have := ki.isLt; have := kj.isLt; omega⟩) shapeCasts_S1x1x20_S1x20 : FVec Ideal S1x20 .f32) shapeCasts_S1x20_S20 : FVec Ideal S20 .f32) shapeCasts_S20_S1x1x1x20 : FVec Ideal S1x1x1x20 .f32) broadcasts_S1x1x1x20_S8x24x24x20 : FVec Ideal S8x24x24x20 .f32)

theorem term_apply (ki kj : Fin 5) (img : FVec Ideal S8x28x28 .f32) (x1 : Vec Ideal S25x1x20 .f32) (hs : S8x28x28.Slices ![0, ki.val, kj.val] S8x24x24)
    (b : Fin 8) (ho wo : Fin 24) (co : Fin 20) :
    term ki kj img x1 hs (ix4 b ho wo co)
      = img (ix3 b (⟨ki.val + ho.val, by have := ki.isLt; have := ho.isLt; omega⟩ : Fin 28) (⟨kj.val + wo.val, by have := kj.isLt; have := wo.isLt; omega⟩ : Fin 28))
        * x1 (ix3 (⟨ki.val * 5 + kj.val, by have := ki.isLt; have := kj.isLt; omega⟩ : Fin 25) (0 : Fin 1) co) := by
  unfold term
  rw [mulf_apply]
  refine congrArg₂ (· * ·) ((winB_apply _ _ _ b ho wo co).trans ?_) ((rowB3_apply _ _ _ _ _ b ho wo co).trans (wrow_apply x1 _ co))
  exact slice3_12 ki.val kj.val img hs b ho wo _ _

/-- Scale, shift and rectifier. -/
def act (A : FVec Ideal S8x24x24x20 .f32) (s t : Vec Ideal S1x20 .f32) : FVec Ideal S8x24x24x20 .f32 :=
  maximumf (addf (mulf A (broadcastTo S8x24x24x20 (shapeCast S1x1x1x20 (shapeCast S20 s shapeCasts_S1x20_S20 : FVec Ideal S20 .f32) shapeCasts_S20_S1x1x1x20 : FVec Ideal S1x1x1x20 .f32) broadcasts_S1x1x1x20_S8x24x24x20 : FVec Ideal S8x24x24x20 .f32))
      (broadcastTo S8x24x24x20 (shapeCast S1x1x1x20 (shapeCast S20 t shapeCasts_S1x20_S20 : FVec Ideal S20 .f32) shapeCasts_S20_S1x1x1x20 : FVec Ideal S1x1x1x20 .f32) broadcasts_S1x1x1x20_S8x24x24x20 : FVec Ideal S8x24x24x20 .f32))
    (broadcast S8x24x24x20 (Scalar.ofBits (F := Ideal) .f32 0x00000000#32))

theorem act_apply (A : FVec Ideal S8x24x24x20 .f32) (s t : Vec Ideal S1x20 .f32) (b : Fin 8) (ho wo : Fin 24) (co : Fin 20) :
    act A s t (ix4 b ho wo co) = max (A (ix4 b ho wo co) * s (ix2 (0 : Fin 1) co) + t (ix2 (0 : Fin 1) co)) Cert.NetSpec.zeroF := by
  unfold act
  rw [maximumf_apply, addf_apply, mulf_apply, rowB2_apply, rowB2_apply, broadcast_apply]
  rfl

/-- The maximum over row triples, then over column triples. -/
def pool (A : FVec Ideal S8x24x24x20 .f32) : FVec Ideal S8x8x8x20 .bf16 :=
  truncf .bf16 (shapeCast S8x8x8x20 (multiReduction .maximumf [2] S64x8x20 (shapeCast S64x8x3x20 (multiReduction .maximumf [1] S64x24x20 (shapeCast S64x3x24x20 A shapeCasts_S8x24x24x20_S64x3x24x20 : FVec Ideal S64x3x24x20 .f32) 0xFF800000#32 reduces_S64x3x24x20_S64x24x20 (.inl rfl) rfl : FVec Ideal S64x24x20 .f32) shapeCasts_S64x24x20_S64x8x3x20 : FVec Ideal S64x8x3x20 .f32) 0xFF800000#32 reduces_S64x8x3x20_S64x8x20 (.inl rfl) rfl : FVec Ideal S64x8x20 .f32) shapeCasts_S64x8x20_S8x8x8x20 : FVec Ideal S8x8x8x20 .f32) bitsLt_bf16_f32

theorem pool_apply (A : FVec Ideal S8x24x24x20 .f32) (b hp wp : Fin 8) (co : Fin 20) :
    pool A (ix4 b hp wp co)
      = (Finset.univ : Finset (Fin 3)).fold max Cert.NetSpec.negInfF (fun j =>
          (Finset.univ : Finset (Fin 3)).fold max Cert.NetSpec.negInfF (fun i =>
            A (ix4 b (⟨hp.val * 3 + i.val, by have := hp.isLt; have := i.isLt; omega⟩ : Fin 24) (⟨wp.val * 3 + j.val, by have := wp.isLt; have := j.isLt; omega⟩ : Fin 24) co))) := by
  unfold pool
  rw [truncf_apply]
  refine (split4 (a := 8) (b := 8) (c := 8) (d := 20) (N := 64) rfl _ _ b hp wp co).trans ?_
  refine (max_ax2_4 _ _ _ _ _ _ wp co).trans ?_
  refine congrArg (fun g => (Finset.univ : Finset (Fin 3)).fold max Cert.NetSpec.negInfF g) (funext fun j => ?_)
  refine (splitMid (a := 64) (b := 8) (c := 3) (d := 20) (M := 24) rfl _ _ _ wp j co).trans ?_
  refine (max_ax1_4 _ _ _ _ _ _ _ co).trans ?_
  refine congrArg (fun g => (Finset.univ : Finset (Fin 3)).fold max Cert.NetSpec.negInfF g) (funext fun i => ?_)
  refine (regroup4 (a := 8) (b := 8) (c := 3) (d := 24) (e := 20) (M := 24) (N := 64) rfl rfl (by decide) _ _ _ i _ co).trans ?_
  have hb := b.isLt; have hhp := hp.isLt; have hi := i.isLt
  refine congrArg A (funext fun a => Fin.ext ?_)
  match a with
  | ⟨0, _⟩ => show (b.val * 8 + hp.val) / 8 = b.val; omega
  | ⟨1, _⟩ => show (b.val * 8 + hp.val) % 8 * 3 + i.val = hp.val * 3 + i.val; omega
  | ⟨2, _⟩ => rfl
  | ⟨3, _⟩ => rfl

/-- The 25 products accumulated from the zero array, in the order `(ki, kj)` lexicographic. -/
def accAll (v1 : FVec Ideal S8x28x28 .f32) (x1 : Vec Ideal S25x1x20 .f32) : FVec Ideal S8x24x24x20 .f32 :=
  addf (addf (addf (addf (addf (addf (addf (addf (addf (addf (addf (addf (addf (addf (addf (addf (addf (addf (addf (addf (addf (addf (addf (addf (addf (broadcast S8x24x24x20 (Scalar.ofBits (F := Ideal) .f32 0x00000000#32) : FVec Ideal S8x24x24x20 .f32)
    (term 0 0 v1 x1 slices_S8x28x28_o0_0_0_S8x24x24))
    (term 0 1 v1 x1 slices_S8x28x28_o0_0_1_S8x24x24))
    (term 0 2 v1 x1 slices_S8x28x28_o0_0_2_S8x24x24))
    (term 0 3 v1 x1 slices_S8x28x28_o0_0_3_S8x24x24))
    (term 0 4 v1 x1 slices_S8x28x28_o0_0_4_S8x24x24))
    (term 1 0 v1 x1 slices_S8x28x28_o0_1_0_S8x24x24))
    (term 1 1 v1 x1 slices_S8x28x28_o0_1_1_S8x24x24))
    (term 1 2 v1 x1 slices_S8x28x28_o0_1_2_S8x24x24))
    (term 1 3 v1 x1 slices_S8x28x28_o0_1_3_S8x24x24))
    (term 1 4 v1 x1 slices_S8x28x28_o0_1_4_S8x24x24))
    (term 2 0 v1 x1 slices_S8x28x28_o0_2_0_S8x24x24))
    (term 2 1 v1 x1 slices_S8x28x28_o0_2_1_S8x24x24))
    (term 2 2 v1 x1 slices_S8x28x28_o0_2_2_S8x24x24))
    (term 2 3 v1 x1 slices_S8x28x28_o0_2_3_S8x24x24))
    (term 2 4 v1 x1 slices_S8x28x28_o0_2_4_S8x24x24))
    (term 3 0 v1 x1 slices_S8x28x28_o0_3_0_S8x24x24))
    (term 3 1 v1 x1 slices_S8x28x28_o0_3_1_S8x24x24))
    (term 3 2 v1 x1 slices_S8x28x28_o0_3_2_S8x24x24))
    (term 3 3 v1 x1 slices_S8x28x28_o0_3_3_S8x24x24))
    (term 3 4 v1 x1 slices_S8x28x28_o0_3_4_S8x24x24))
    (term 4 0 v1 x1 slices_S8x28x28_o0_4_0_S8x24x24))
    (term 4 1 v1 x1 slices_S8x28x28_o0_4_1_S8x24x24))
    (term 4 2 v1 x1 slices_S8x28x28_o0_4_2_S8x24x24))
    (term 4 3 v1 x1 slices_S8x28x28_o0_4_3_S8x24x24))
    (term 4 4 v1 x1 slices_S8x28x28_o0_4_4_S8x24x24)

/-- A double sum over `5 × 5` written as the left-nested sum from zero, row by row. -/
theorem sum25 {M : Type} [AddCommMonoid M] (T : Fin 5 → Fin 5 → M) :
    ∑ ki : Fin 5, ∑ kj : Fin 5, T ki kj
      = (0 : M) + T 0 0 + T 0 1 + T 0 2 + T 0 3 + T 0 4 + T 1 0 + T 1 1 + T 1 2 + T 1 3 + T 1 4 + T 2 0 + T 2 1 + T 2 2 + T 2 3 + T 2 4 + T 3 0 + T 3 1 + T 3 2 + T 3 3 + T 3 4 + T 4 0 + T 4 1 + T 4 2 + T 4 3 + T 4 4 := by
  simp only [Fin.sum_univ_five, zero_add, add_assoc]

theorem accAll_apply (v1 : FVec Ideal S8x28x28 .f32) (x1 : Vec Ideal S25x1x20 .f32) (b : Fin 8) (ho wo : Fin 24) (co : Fin 20) :
    accAll v1 x1 (ix4 b ho wo co)
      = ∑ ki : Fin 5, ∑ kj : Fin 5,
          v1 (ix3 b (⟨ki.val + ho.val, by have := ki.isLt; have := ho.isLt; omega⟩ : Fin 28) (⟨kj.val + wo.val, by have := kj.isLt; have := wo.isLt; omega⟩ : Fin 28))
            * x1 (ix3 (⟨ki.val * 5 + kj.val, by have := ki.isLt; have := kj.isLt; omega⟩ : Fin 25) (0 : Fin 1) co) := by
  rw [sum25]
  unfold accAll
  simp only [addf_apply, term_apply, broadcast_apply]
  have hz : (Scalar.ofBits (F := Ideal) .f32 0x00000000#32 : EReal) = 0 := Ideal.ofBits_zero_f32
  rw [hz]

/-- The body's value is the pooled, rectified, normalised accumulation. -/
theorem pay0_eq (x0 : Vec Ideal S8x28x28 .f32) (x1 : Vec Ideal S25x1x20 .f32) (x2 x3 : Vec Ideal S1x20 .f32) :
    pay0 x0 x1 x2 x3 = pool (act (accAll (k0_pay1 (View.ld x0 r0_0)) x1) (View.ld x2 r0_26) (View.ld x3 r0_26)) := rfl

theorem pay1_ld (x0 : Vec Ideal S8x28x28 .f32) : k0_pay1 (View.ld x0 r0_0) = x0 := by
  unfold k0_pay1
  dsimp only
  rw [shapeCast_self, View.ld_unit_zero (S := S8x28x28) (funext fun a => by fin_cases a <;> rfl)]

/-- The first convolution layer of the reference, image by image. -/
theorem pay0_apply (x0 : Vec Ideal S8x28x28 .f32) (x1 : Vec Ideal S25x1x20 .f32) (x2 x3 : Vec Ideal S1x20 .f32) (b hp wp : Fin 8) (co : Fin 20) :
    pay0 x0 x1 x2 x3 (ix4 b hp wp co)
      = Cert.NetSpec.R1 (fun h w => x0 (ix3 b h w)) (fun p co => x1 (ix3 p (0 : Fin 1) co)) (fun co => x2 (ix2 (0 : Fin 1) co)) (fun co => x3 (ix2 (0 : Fin 1) co)) hp wp co := by
  rw [pay0_eq, pool_apply]
  unfold Cert.NetSpec.R1
  refine congrArg (fun g => (Finset.univ : Finset (Fin 3)).fold max Cert.NetSpec.negInfF g) (funext fun j => ?_)
  refine congrArg (fun g => (Finset.univ : Finset (Fin 3)).fold max Cert.NetSpec.negInfF g) (funext fun i => ?_)
  rw [act_apply, accAll_apply, pay1_ld, View.ld_unit_zero (S := S1x20) (funext fun a => by fin_cases a <;> rfl),
    View.ld_unit_zero (S := S1x20) (funext fun a => by fin_cases a <;> rfl)]
  rfl

end Cert.ReferenceIdeal.Net

end
-- ==== Proof.RLayer2.lean ====
/-
  THE REFERENCE'S SECOND CONVOLUTION KERNEL, READ AT AN INDEX.

  The body reads a tile of 8 feature maps `x (b, h, w, ci)` (8 × 8 × 20 each).  For every kernel position `(ki, kj)`,
  `ki, kj < 5`, it cuts the window `x (b, ki + ho, kj + wo, ci)`, `ho, wo < 4`, flattens it to the 128 rows
  `R = (b·4 + ho)·4 + wo`, multiplies it by weight slab `5·ki + kj` (20 × 50) and adds the product to an accumulator
  that starts from zero; the 25 products are added in the order of `(ki, kj)`.  The accumulator, read back at
  `(b, ho, wo, co)`, is scaled and shifted channel by channel and rectified; pairs of rows `(2·hp + i)` and then pairs of
  columns `(2·wp + j)` are joined by `max`.  Entry `(b, hp, wp, co)` of the result is therefore the pooled, rectified
  second convolution of image `b` of the tile.
-/
import proofs.«180094_g2000601136005399_pallasbulk_237_2_alg».proof.Proof.RFinal1
import proofs.«180094_g2000601136005399_pallasbulk_237_2_alg».proof.Proof.LibLayoutOps
import proofs.«180094_g2000601136005399_pallasbulk_237_2_alg».proof.Proof.LibLayoutOps2
import proofs.«180094_g2000601136005399_pallasbulk_237_2_alg».proof.Proof.LibPoolOps
import proofs.«180094_g2000601136005399_pallasbulk_237_2_alg».proof.Proof.LibMatOps
import proofs.«180094_g2000601136005399_pallasbulk_237_2_alg».proof.Proof.NetSpec
import Idealize.ShloMosaic.Lib.ValueLayout

set_option maxRecDepth 16384

noncomputable section

open scoped BigOperators

namespace Cert.ReferenceIdeal.Net

open Cert.ReferenceIdeal Cert.ReferenceIdeal.Gen Idealize.ShloMosaic Idealize.ShloMosaic.ValueIdx Cert.LayoutOps Cert.PoolOps

theorem rdot2_eq : dot_S128x20_S20x50_S128x50_1_0_0_1_n_n
    = Cert.MatOps.plainDot 128 20 50 dot_S128x20_S20x50_S128x50_1_0_0_1_n_n_wf := rfl

/-- A window of the tile, flattened to 128 rows, times one weight slab. -/
def winProd2 (win : FVec Ideal S8x4x4x20 .bf16) (w : FVec Ideal S1x20x50 .bf16) : FVec Ideal S128x50 .f32 :=
  matmul dot_S128x20_S20x50_S128x50_1_0_0_1_n_n none (shapeCast S128x20 win shapeCasts_S8x4x4x20_S128x20 : FVec Ideal S128x20 .bf16)
    (shapeCast S20x50 w shapeCasts_S1x20x50_S20x50 : FVec Ideal S20x50 .bf16) (constant S128x50 .f32 0x00000000#32)

theorem winProd2_apply (win : FVec Ideal S8x4x4x20 .bf16) (w : FVec Ideal S1x20x50 .bf16) (R : Fin 128) (co : Fin 50) :
    winProd2 win w (ix2 R co)
      = ∑ ci : Fin 20, win (ix4 (⟨R.val / 16, by have := R.isLt; omega⟩ : Fin 8) (⟨R.val / 4 % 4, Nat.mod_lt _ (by decide)⟩ : Fin 4)
          (⟨R.val % 4, Nat.mod_lt _ (by decide)⟩ : Fin 4) ci) * w (ix3 (0 : Fin 1) ci co) := by
  unfold winProd2
  rw [rdot2_eq]
  refine (Cert.MatOps.matmul_plain_apply _ none _ _ R co).trans ?_
  refine Finset.sum_congr rfl fun ci _ => ?_
  rw [shapeCast_1ab_ab_apply]
  exact congrArg (· * _) (merge4to2 (a := 8) (b := 4) (c := 4) (d := 20) (N := 128) rfl (by decide) (by decide) win _ R ci)

/-- The product of window `(ki, kj)` with a slab, at row `R` and channel `co`. -/
def winSum2 (x : FVec Ideal S8x8x8x20 .bf16) (w : FVec Ideal S1x20x50 .bf16) (ki kj : ℕ) (hki : ki + 4 ≤ 8) (hkj : kj + 4 ≤ 8)
    (R : Fin 128) (co : Fin 50) : EReal :=
  ∑ ci : Fin 20, x (ix4 (⟨R.val / 16, by have := R.isLt; omega⟩ : Fin 8) (⟨ki + R.val / 4 % 4, by omega⟩ : Fin 8)
    (⟨kj + R.val % 4, by omega⟩ : Fin 8) ci) * w (ix3 (0 : Fin 1) ci co)

theorem winProd2_slice (ki kj : ℕ) (x : FVec Ideal S8x8x8x20 .bf16) (hs : S8x8x8x20.Slices ![0, ki, kj, 0] S8x4x4x20)
    (w : FVec Ideal S1x20x50 .bf16) (R : Fin 128) (co : Fin 50) :
    winProd2 (extractStridedSlice S8x4x4x20 ![0, ki, kj, 0] x hs) w (ix2 R co)
      = winSum2 x w ki kj (show ki + 4 ≤ 8 from hs.2 1) (show kj + 4 ≤ 8 from hs.2 2) R co := by
  rw [winProd2_apply]
  unfold winSum2
  refine Finset.sum_congr rfl fun ci _ => congrArg (· * _) ?_
  exact slice4_12 ki kj x hs _ _ _ ci _ _

/-- A load of one slab of a rank-3 array. -/
theorem ld_slab_r2 {A B C : ℕ} {e : EltTy} (x : (⟨3, ![A, B, C]⟩ : Shape).Idx → Elt Ideal e) (j : ℕ)
    (inb : ∀ a, (![j, 0, 0] : Fin 3 → ℕ) a + (⟨3, ![1, B, C]⟩ : Shape).size a ≤ (⟨3, ![A, B, C]⟩ : Shape).size a)
    (hj : j < A) (k : Fin B) (c : Fin C) :
    View.ld (Val := Elt Ideal) (e' := e) x (Rect.unit (s := ⟨3, ![A, B, C]⟩) ![j, 0, 0] (⟨3, ![1, B, C]⟩ : Shape).size inb) (ix3 (0 : Fin 1) k c)
      = x (ix3 (⟨j, hj⟩ : Fin A) k c) := by
  show x ((Rect.unit (s := ⟨3, ![A, B, C]⟩) ![j, 0, 0] (⟨3, ![1, B, C]⟩ : Shape).size inb).emb (ix3 (0 : Fin 1) k c)) = _
  refine congrArg x (funext fun a => Fin.ext ?_)
  match a with
  | ⟨0, _⟩ => show j + 1 * 0 = j; omega
  | ⟨1, _⟩ => show 0 + 1 * k.val = k.val; omega
  | ⟨2, _⟩ => show 0 + 1 * c.val = c.val; omega

/-- The accumulator read back as `[8, 4, 4, 50]`, scaled, shifted and rectified. -/
def act2 (acc : FVec Ideal S128x50 .f32) (s t : FVec Ideal S1x50 .f32) : FVec Ideal S8x4x4x50 .f32 :=
  maximumf (addf (mulf (shapeCast S8x4x4x50 acc shapeCasts_S128x50_S8x4x4x50 : FVec Ideal S8x4x4x50 .f32)
      (broadcastTo S8x4x4x50 (shapeCast S1x1x1x50 (shapeCast S50 s shapeCasts_S1x50_S50 : FVec Ideal S50 .f32) shapeCasts_S50_S1x1x1x50 : FVec Ideal S1x1x1x50 .f32) broadcasts_S1x1x1x50_S8x4x4x50 : FVec Ideal S8x4x4x50 .f32))
    (broadcastTo S8x4x4x50 (shapeCast S1x1x1x50 (shapeCast S50 t shapeCasts_S1x50_S50 : FVec Ideal S50 .f32) shapeCasts_S50_S1x1x1x50 : FVec Ideal S1x1x1x50 .f32) broadcasts_S1x1x1x50_S8x4x4x50 : FVec Ideal S8x4x4x50 .f32))
    (broadcast S8x4x4x50 (Scalar.ofBits (F := Ideal) .f32 0x00000000#32))

theorem row2_apply (s : FVec Ideal S1x50 .f32) (b : Fin 8) (ho wo : Fin 4) (co : Fin 50) :
    (broadcastTo S8x4x4x50 (shapeCast S1x1x1x50 (shapeCast S50 s shapeCasts_S1x50_S50 : FVec Ideal S50 .f32) shapeCasts_S50_S1x1x1x50 : FVec Ideal S1x1x1x50 .f32) broadcasts_S1x1x1x50_S8x4x4x50 : FVec Ideal S8x4x4x50 .f32)
      (ix4 b ho wo co) = s (ix2 (0 : Fin 1) co) := by
  refine (bcastRow4 _ _ b ho wo co).trans ?_
  refine (vecTo111a _ _ _ _ _ co).trans ?_
  exact shapeCast_1a_a_apply s _ co

theorem act2_apply (acc : FVec Ideal S128x50 .f32) (s t : FVec Ideal S1x50 .f32) (b : Fin 8) (ho wo : Fin 4) (co : Fin 50) :
    act2 acc s t (ix4 b ho wo co)
      = max (acc (ix2 (⟨(b.val * 4 + ho.val) * 4 + wo.val, by have := b.isLt; have := ho.isLt; have := wo.isLt; omega⟩ : Fin 128) co)
          * s (ix2 (0 : Fin 1) co) + t (ix2 (0 : Fin 1) co)) (Ideal.ofBits .f32 0x00000000#32) := by
  unfold act2
  rw [maximumf_apply, addf_apply, mulf_apply, broadcast_apply, row2_apply, row2_apply]
  refine congrArg₂ max (congrArg₂ (· + ·) (congrArg₂ (· * ·) ?_ rfl) rfl) rfl
  exact split2to4 (a := 8) (b := 4) (c := 4) (d := 50) (N := 128) rfl acc _ b ho wo co

/-- The rectified output pooled over row pairs and column pairs, narrowed. -/
def post2 (acc : FVec Ideal S128x50 .f32) (s t : FVec Ideal S1x50 .f32) : FVec Ideal S8x2x2x50 .bf16 :=
  truncf .bf16 (shapeCast S8x2x2x50 (multiReduction .maximumf [2] S16x2x50
    (shapeCast S16x2x2x50 (multiReduction .maximumf [1] S16x4x50 (shapeCast S16x2x4x50 (act2 acc s t) shapeCasts_S8x4x4x50_S16x2x4x50 : FVec Ideal S16x2x4x50 .f32)
      0xFF800000#32 reduces_S16x2x4x50_S16x4x50 (.inl rfl) rfl : FVec Ideal S16x4x50 .f32) shapeCasts_S16x4x50_S16x2x2x50 : FVec Ideal S16x2x2x50 .f32)
    0xFF800000#32 reduces_S16x2x2x50_S16x2x50 (.inl rfl) rfl : FVec Ideal S16x2x50 .f32) shapeCasts_S16x2x50_S8x2x2x50 : FVec Ideal S8x2x2x50 .f32) bitsLt_bf16_f32

theorem post2_apply (acc : FVec Ideal S128x50 .f32) (s t : FVec Ideal S1x50 .f32) (b : Fin 8) (hp wp : Fin 2) (co : Fin 50) :
    post2 acc s t (ix4 b hp wp co)
      = (Finset.univ : Finset (Fin 2)).fold max (FloatOps.ofBits (F := Ideal) .f32 0xFF800000#32) (fun j =>
          (Finset.univ : Finset (Fin 2)).fold max (FloatOps.ofBits (F := Ideal) .f32 0xFF800000#32) (fun i =>
            act2 acc s t (ix4 b (⟨hp.val * 2 + i.val, by have := hp.isLt; have := i.isLt; omega⟩ : Fin 4)
              (⟨wp.val * 2 + j.val, by have := wp.isLt; have := j.isLt; omega⟩ : Fin 4) co))) := by
  unfold post2
  rw [truncf_apply]
  refine (split4 (a := 8) (b := 2) (c := 2) (d := 50) (N := 16) rfl _ _ b hp wp co).trans ?_
  refine (max_ax2_4 _ _ _ _ _ _ wp co).trans ?_
  refine congrArg (fun g => (Finset.univ : Finset (Fin 2)).fold max (FloatOps.ofBits (F := Ideal) .f32 0xFF800000#32) g) (funext fun j => ?_)
  refine (splitMid (a := 16) (b := 2) (c := 2) (d := 50) (M := 4) rfl _ _ _ wp j co).trans ?_
  refine (max_ax1_4 _ _ _ _ _ _ _ co).trans ?_
  refine congrArg (fun g => (Finset.univ : Finset (Fin 2)).fold max (FloatOps.ofBits (F := Ideal) .f32 0xFF800000#32) g) (funext fun i => ?_)
  refine (regroup4 (a := 8) (b := 2) (c := 2) (d := 4) (e := 50) (M := 4) (N := 16) rfl rfl (by decide) _ _ _ i _ co).trans ?_
  refine congrArg (act2 acc s t) (funext fun a => Fin.ext ?_)
  have hb := b.isLt; have hhp := hp.isLt; have hi := i.isLt
  match a with
  | ⟨0, _⟩ => show (b.val * 2 + hp.val) / 2 = b.val; omega
  | ⟨1, _⟩ => show (b.val * 2 + hp.val) % 2 * 2 + i.val = hp.val * 2 + i.val; omega
  | ⟨2, _⟩ => rfl
  | ⟨3, _⟩ => rfl

theorem k1pay2_eq (v0 : Vec Ideal S8x8x8x20 .bf16) : k1_pay2 v0 = v0 := shapeCast_self _ _

theorem k1pay4_eq (v0 : Vec Ideal S8x8x8x20 .bf16) : k1_pay4 v0 = (extractStridedSlice S8x4x4x20 ![0, 1, 0, 0] (k1_pay2 v0) slices_S8x8x8x20_o0_1_0_0_S8x4x4x20) := rfl
theorem k1pay6_eq (v1 : FVec Ideal S8x8x8x20 .bf16) : k1_pay6 v1 = (extractStridedSlice S8x4x4x20 ![0, 2, 1, 0] v1 slices_S8x8x8x20_o0_2_1_0_S8x4x4x20) := rfl
theorem k1pay8_eq (v1 : FVec Ideal S8x8x8x20 .bf16) : k1_pay8 v1 = (extractStridedSlice S8x4x4x20 ![0, 3, 2, 0] v1 slices_S8x8x8x20_o0_3_2_0_S8x4x4x20) := rfl
theorem k1pay10_eq (v1 : FVec Ideal S8x8x8x20 .bf16) : k1_pay10 v1 = (extractStridedSlice S8x4x4x20 ![0, 4, 3, 0] v1 slices_S8x8x8x20_o0_4_3_0_S8x4x4x20) := rfl

theorem k1pay3_eq (v0 : Vec Ideal S8x8x8x20 .bf16) (w0 w1 w2 w3 w4 : Vec Ideal S1x20x50 .bf16) :
    k1_pay3 v0 w0 w1 w2 w3 w4
      = addf (addf (addf (addf (addf ((broadcast S128x50 (Scalar.ofBits (F := Ideal) .f32 0x00000000#32) : FVec Ideal S128x50 .f32)) (winProd2 (extractStridedSlice S8x4x4x20 ![0, 0, 0, 0] (k1_pay2 v0) slices_S8x8x8x20_o0_0_0_0_S8x4x4x20) w0)) (winProd2 (extractStridedSlice S8x4x4x20 ![0, 0, 1, 0] (k1_pay2 v0) slices_S8x8x8x20_o0_0_1_0_S8x4x4x20) w1)) (winProd2 (extractStridedSlice S8x4x4x20 ![0, 0, 2, 0] (k1_pay2 v0) slices_S8x8x8x20_o0_0_2_0_S8x4x4x20) w2)) (winProd2 (extractStridedSlice S8x4x4x20 ![0, 0, 3, 0] (k1_pay2 v0) slices_S8x8x8x20_o0_0_3_0_S8x4x4x20) w3)) (winProd2 (extractStridedSlice S8x4x4x20 ![0, 0, 4, 0] (k1_pay2 v0) slices_S8x8x8x20_o0_0_4_0_S8x4x4x20) w4) := rfl

theorem k1pay5_eq (v1 : FVec Ideal S8x8x8x20 .bf16) (v32 : FVec Ideal S128x50 .f32) (v33 : FVec Ideal S8x4x4x20 .bf16) (w0 w1 w2 w3 w4 w5 : Vec Ideal S1x20x50 .bf16) :
    k1_pay5 v1 v32 v33 w0 w1 w2 w3 w4 w5
      = addf (addf (addf (addf (addf (addf (v32) (winProd2 v33 w0)) (winProd2 (extractStridedSlice S8x4x4x20 ![0, 1, 1, 0] v1 slices_S8x8x8x20_o0_1_1_0_S8x4x4x20) w1)) (winProd2 (extractStridedSlice S8x4x4x20 ![0, 1, 2, 0] v1 slices_S8x8x8x20_o0_1_2_0_S8x4x4x20) w2)) (winProd2 (extractStridedSlice S8x4x4x20 ![0, 1, 3, 0] v1 slices_S8x8x8x20_o0_1_3_0_S8x4x4x20) w3)) (winProd2 (extractStridedSlice S8x4x4x20 ![0, 1, 4, 0] v1 slices_S8x8x8x20_o0_1_4_0_S8x4x4x20) w4)) (winProd2 (extractStridedSlice S8x4x4x20 ![0, 2, 0, 0] v1 slices_S8x8x8x20_o0_2_0_0_S8x4x4x20) w5) := rfl

theorem k1pay7_eq (v1 : FVec Ideal S8x8x8x20 .bf16) (v68 : FVec Ideal S128x50 .f32) (v69 : FVec Ideal S8x4x4x20 .bf16) (w0 w1 w2 w3 w4 w5 : Vec Ideal S1x20x50 .bf16) :
    k1_pay7 v1 v68 v69 w0 w1 w2 w3 w4 w5
      = addf (addf (addf (addf (addf (addf (v68) (winProd2 v69 w0)) (winProd2 (extractStridedSlice S8x4x4x20 ![0, 2, 2, 0] v1 slices_S8x8x8x20_o0_2_2_0_S8x4x4x20) w1)) (winProd2 (extractStridedSlice S8x4x4x20 ![0, 2, 3, 0] v1 slices_S8x8x8x20_o0_2_3_0_S8x4x4x20) w2)) (winProd2 (extractStridedSlice S8x4x4x20 ![0, 2, 4, 0] v1 slices_S8x8x8x20_o0_2_4_0_S8x4x4x20) w3)) (winProd2 (extractStridedSlice S8x4x4x20 ![0, 3, 0, 0] v1 slices_S8x8x8x20_o0_3_0_0_S8x4x4x20) w4)) (winProd2 (extractStridedSlice S8x4x4x20 ![0, 3, 1, 0] v1 slices_S8x8x8x20_o0_3_1_0_S8x4x4x20) w5) := rfl

theorem k1pay9_eq (v1 : FVec Ideal S8x8x8x20 .bf16) (v104 : FVec Ideal S128x50 .f32) (v105 : FVec Ideal S8x4x4x20 .bf16) (w0 w1 w2 w3 w4 w5 : Vec Ideal S1x20x50 .bf16) :
    k1_pay9 v1 v104 v105 w0 w1 w2 w3 w4 w5
      = addf (addf (addf (addf (addf (addf (v104) (winProd2 v105 w0)) (winProd2 (extractStridedSlice S8x4x4x20 ![0, 3, 3, 0] v1 slices_S8x8x8x20_o0_3_3_0_S8x4x4x20) w1)) (winProd2 (extractStridedSlice S8x4x4x20 ![0, 3, 4, 0] v1 slices_S8x8x8x20_o0_3_4_0_S8x4x4x20) w2)) (winProd2 (extractStridedSlice S8x4x4x20 ![0, 4, 0, 0] v1 slices_S8x8x8x20_o0_4_0_0_S8x4x4x20) w3)) (winProd2 (extractStridedSlice S8x4x4x20 ![0, 4, 1, 0] v1 slices_S8x8x8x20_o0_4_1_0_S8x4x4x20) w4)) (winProd2 (extractStridedSlice S8x4x4x20 ![0, 4, 2, 0] v1 slices_S8x8x8x20_o0_4_2_0_S8x4x4x20) w5) := rfl

theorem k1pay1_post (v1 : FVec Ideal S8x8x8x20 .bf16) (v140 : FVec Ideal S128x50 .f32) (v141 : FVec Ideal S8x4x4x20 .bf16) (w0 w1 : Vec Ideal S1x20x50 .bf16) (s t : Vec Ideal S1x50 .f32) :
    k1_pay1 v1 v140 v141 w0 w1 s t = post2 (addf (addf (v140) (winProd2 v141 w0)) (winProd2 (extractStridedSlice S8x4x4x20 ![0, 4, 4, 0] v1 slices_S8x8x8x20_o0_4_4_0_S8x4x4x20) w1)) s t := rfl

/-- The accumulator: the 25 window products added to zero in the order of the kernel positions. -/
def acc2V (x0 : FVec Ideal S8x8x8x20 .bf16) (x1 : Vec Ideal S25x20x50 .bf16) : FVec Ideal S128x50 .f32 :=
  addf (addf (addf (addf (addf (addf (addf (addf (addf (addf (addf (addf (addf (addf (addf (addf (addf (addf (addf (addf (addf (addf (addf (addf (addf ((broadcast S128x50 (Scalar.ofBits (F := Ideal) .f32 0x00000000#32) : FVec Ideal S128x50 .f32)) (winProd2 (extractStridedSlice S8x4x4x20 ![0, 0, 0, 0] x0 slices_S8x8x8x20_o0_0_0_0_S8x4x4x20) (View.ld x1 r1_1))) (winProd2 (extractStridedSlice S8x4x4x20 ![0, 0, 1, 0] x0 slices_S8x8x8x20_o0_0_1_0_S8x4x4x20) (View.ld x1 r1_2))) (winProd2 (extractStridedSlice S8x4x4x20 ![0, 0, 2, 0] x0 slices_S8x8x8x20_o0_0_2_0_S8x4x4x20) (View.ld x1 r1_3))) (winProd2 (extractStridedSlice S8x4x4x20 ![0, 0, 3, 0] x0 slices_S8x8x8x20_o0_0_3_0_S8x4x4x20) (View.ld x1 r1_4))) (winProd2 (extractStridedSlice S8x4x4x20 ![0, 0, 4, 0] x0 slices_S8x8x8x20_o0_0_4_0_S8x4x4x20) (View.ld x1 r1_5))) (winProd2 (extractStridedSlice S8x4x4x20 ![0, 1, 0, 0] x0 slices_S8x8x8x20_o0_1_0_0_S8x4x4x20) (View.ld x1 r1_6))) (winProd2 (extractStridedSlice S8x4x4x20 ![0, 1, 1, 0] x0 slices_S8x8x8x20_o0_1_1_0_S8x4x4x20) (View.ld x1 r1_7))) (winProd2 (extractStridedSlice S8x4x4x20 ![0, 1, 2, 0] x0 slices_S8x8x8x20_o0_1_2_0_S8x4x4x20) (View.ld x1 r1_8))) (winProd2 (extractStridedSlice S8x4x4x20 ![0, 1, 3, 0] x0 slices_S8x8x8x20_o0_1_3_0_S8x4x4x20) (View.ld x1 r1_9))) (winProd2 (extractStridedSlice S8x4x4x20 ![0, 1, 4, 0] x0 slices_S8x8x8x20_o0_1_4_0_S8x4x4x20) (View.ld x1 r1_10))) (winProd2 (extractStridedSlice S8x4x4x20 ![0, 2, 0, 0] x0 slices_S8x8x8x20_o0_2_0_0_S8x4x4x20) (View.ld x1 r1_11))) (winProd2 (extractStridedSlice S8x4x4x20 ![0, 2, 1, 0] x0 slices_S8x8x8x20_o0_2_1_0_S8x4x4x20) (View.ld x1 r1_12))) (winProd2 (extractStridedSlice S8x4x4x20 ![0, 2, 2, 0] x0 slices_S8x8x8x20_o0_2_2_0_S8x4x4x20) (View.ld x1 r1_13))) (winProd2 (extractStridedSlice S8x4x4x20 ![0, 2, 3, 0] x0 slices_S8x8x8x20_o0_2_3_0_S8x4x4x20) (View.ld x1 r1_14))) (winProd2 (extractStridedSlice S8x4x4x20 ![0, 2, 4, 0] x0 slices_S8x8x8x20_o0_2_4_0_S8x4x4x20) (View.ld x1 r1_15))) (winProd2 (extractStridedSlice S8x4x4x20 ![0, 3, 0, 0] x0 slices_S8x8x8x20_o0_3_0_0_S8x4x4x20) (View.ld x1 r1_16))) (winProd2 (extractStridedSlice S8x4x4x20 ![0, 3, 1, 0] x0 slices_S8x8x8x20_o0_3_1_0_S8x4x4x20) (View.ld x1 r1_17))) (winProd2 (extractStridedSlice S8x4x4x20 ![0, 3, 2, 0] x0 slices_S8x8x8x20_o0_3_2_0_S8x4x4x20) (View.ld x1 r1_18))) (winProd2 (extractStridedSlice S8x4x4x20 ![0, 3, 3, 0] x0 slices_S8x8x8x20_o0_3_3_0_S8x4x4x20) (View.ld x1 r1_19))) (winProd2 (extractStridedSlice S8x4x4x20 ![0, 3, 4, 0] x0 slices_S8x8x8x20_o0_3_4_0_S8x4x4x20) (View.ld x1 r1_20))) (winProd2 (extractStridedSlice S8x4x4x20 ![0, 4, 0, 0] x0 slices_S8x8x8x20_o0_4_0_0_S8x4x4x20) (View.ld x1 r1_21))) (winProd2 (extractStridedSlice S8x4x4x20 ![0, 4, 1, 0] x0 slices_S8x8x8x20_o0_4_1_0_S8x4x4x20) (View.ld x1 r1_22))) (winProd2 (extractStridedSlice S8x4x4x20 ![0, 4, 2, 0] x0 slices_S8x8x8x20_o0_4_2_0_S8x4x4x20) (View.ld x1 r1_23))) (winProd2 (extractStridedSlice S8x4x4x20 ![0, 4, 3, 0] x0 slices_S8x8x8x20_o0_4_3_0_S8x4x4x20) (View.ld x1 r1_24))) (winProd2 (extractStridedSlice S8x4x4x20 ![0, 4, 4, 0] x0 slices_S8x8x8x20_o0_4_4_0_S8x4x4x20) (View.ld x1 r1_25))

theorem pay1_eq_post2 (x0 : Vec Ideal S8x8x8x20 .bf16) (x1 : Vec Ideal S25x20x50 .bf16) (x2 x3 : Vec Ideal S1x50 .f32) :
    pay1 x0 x1 x2 x3 = post2 (acc2V x0 x1) x2 x3 := by
  unfold pay1
  rw [k1pay1_post, k1pay9_eq, k1pay7_eq, k1pay5_eq, k1pay3_eq, k1pay4_eq, k1pay6_eq, k1pay8_eq, k1pay10_eq, k1pay2_eq,
    View.ld_unit_zero (S := S8x8x8x20) (funext fun a => by fin_cases a <;> rfl), View.ld_unit_zero (S := S1x50) (funext fun a => by fin_cases a <;> rfl), View.ld_unit_zero (S := S1x50) (funext fun a => by fin_cases a <;> rfl)]
  unfold acc2V
  rfl

theorem acc2V_apply (x0 : FVec Ideal S8x8x8x20 .bf16) (x1 : Vec Ideal S25x20x50 .bf16) (R : Fin 128) (co : Fin 50) :
    acc2V x0 x1 (ix2 R co)
      = ((((((((((((((((((((((((((Scalar.ofBits (F := Ideal) .f32 0x00000000#32 : EReal) + winSum2 x0 (View.ld x1 r1_1) 0 0 (show 0 + 4 ≤ 8 from slices_S8x8x8x20_o0_0_0_0_S8x4x4x20.2 1) (show 0 + 4 ≤ 8 from slices_S8x8x8x20_o0_0_0_0_S8x4x4x20.2 2) R co) + winSum2 x0 (View.ld x1 r1_2) 0 1 (show 0 + 4 ≤ 8 from slices_S8x8x8x20_o0_0_1_0_S8x4x4x20.2 1) (show 1 + 4 ≤ 8 from slices_S8x8x8x20_o0_0_1_0_S8x4x4x20.2 2) R co) + winSum2 x0 (View.ld x1 r1_3) 0 2 (show 0 + 4 ≤ 8 from slices_S8x8x8x20_o0_0_2_0_S8x4x4x20.2 1) (show 2 + 4 ≤ 8 from slices_S8x8x8x20_o0_0_2_0_S8x4x4x20.2 2) R co) + winSum2 x0 (View.ld x1 r1_4) 0 3 (show 0 + 4 ≤ 8 from slices_S8x8x8x20_o0_0_3_0_S8x4x4x20.2 1) (show 3 + 4 ≤ 8 from slices_S8x8x8x20_o0_0_3_0_S8x4x4x20.2 2) R co) + winSum2 x0 (View.ld x1 r1_5) 0 4 (show 0 + 4 ≤ 8 from slices_S8x8x8x20_o0_0_4_0_S8x4x4x20.2 1) (show 4 + 4 ≤ 8 from slices_S8x8x8x20_o0_0_4_0_S8x4x4x20.2 2) R co) + winSum2 x0 (View.ld x1 r1_6) 1 0 (show 1 + 4 ≤ 8 from slices_S8x8x8x20_o0_1_0_0_S8x4x4x20.2 1) (show 0 + 4 ≤ 8 from slices_S8x8x8x20_o0_1_0_0_S8x4x4x20.2 2) R co) + winSum2 x0 (View.ld x1 r1_7) 1 1 (show 1 + 4 ≤ 8 from slices_S8x8x8x20_o0_1_1_0_S8x4x4x20.2 1) (show 1 + 4 ≤ 8 from slices_S8x8x8x20_o0_1_1_0_S8x4x4x20.2 2) R co) + winSum2 x0 (View.ld x1 r1_8) 1 2 (show 1 + 4 ≤ 8 from slices_S8x8x8x20_o0_1_2_0_S8x4x4x20.2 1) (show 2 + 4 ≤ 8 from slices_S8x8x8x20_o0_1_2_0_S8x4x4x20.2 2) R co) + winSum2 x0 (View.ld x1 r1_9) 1 3 (show 1 + 4 ≤ 8 from slices_S8x8x8x20_o0_1_3_0_S8x4x4x20.2 1) (show 3 + 4 ≤ 8 from slices_S8x8x8x20_o0_1_3_0_S8x4x4x20.2 2) R co) + winSum2 x0 (View.ld x1 r1_10) 1 4 (show 1 + 4 ≤ 8 from slices_S8x8x8x20_o0_1_4_0_S8x4x4x20.2 1) (show 4 + 4 ≤ 8 from slices_S8x8x8x20_o0_1_4_0_S8x4x4x20.2 2) R co) + winSum2 x0 (View.ld x1 r1_11) 2 0 (show 2 + 4 ≤ 8 from slices_S8x8x8x20_o0_2_0_0_S8x4x4x20.2 1) (show 0 + 4 ≤ 8 from slices_S8x8x8x20_o0_2_0_0_S8x4x4x20.2 2) R co) + winSum2 x0 (View.ld x1 r1_12) 2 1 (show 2 + 4 ≤ 8 from slices_S8x8x8x20_o0_2_1_0_S8x4x4x20.2 1) (show 1 + 4 ≤ 8 from slices_S8x8x8x20_o0_2_1_0_S8x4x4x20.2 2) R co) + winSum2 x0 (View.ld x1 r1_13) 2 2 (show 2 + 4 ≤ 8 from slices_S8x8x8x20_o0_2_2_0_S8x4x4x20.2 1) (show 2 + 4 ≤ 8 from slices_S8x8x8x20_o0_2_2_0_S8x4x4x20.2 2) R co) + winSum2 x0 (View.ld x1 r1_14) 2 3 (show 2 + 4 ≤ 8 from slices_S8x8x8x20_o0_2_3_0_S8x4x4x20.2 1) (show 3 + 4 ≤ 8 from slices_S8x8x8x20_o0_2_3_0_S8x4x4x20.2 2) R co) + winSum2 x0 (View.ld x1 r1_15) 2 4 (show 2 + 4 ≤ 8 from slices_S8x8x8x20_o0_2_4_0_S8x4x4x20.2 1) (show 4 + 4 ≤ 8 from slices_S8x8x8x20_o0_2_4_0_S8x4x4x20.2 2) R co) + winSum2 x0 (View.ld x1 r1_16) 3 0 (show 3 + 4 ≤ 8 from slices_S8x8x8x20_o0_3_0_0_S8x4x4x20.2 1) (show 0 + 4 ≤ 8 from slices_S8x8x8x20_o0_3_0_0_S8x4x4x20.2 2) R co) + winSum2 x0 (View.ld x1 r1_17) 3 1 (show 3 + 4 ≤ 8 from slices_S8x8x8x20_o0_3_1_0_S8x4x4x20.2 1) (show 1 + 4 ≤ 8 from slices_S8x8x8x20_o0_3_1_0_S8x4x4x20.2 2) R co) + winSum2 x0 (View.ld x1 r1_18) 3 2 (show 3 + 4 ≤ 8 from slices_S8x8x8x20_o0_3_2_0_S8x4x4x20.2 1) (show 2 + 4 ≤ 8 from slices_S8x8x8x20_o0_3_2_0_S8x4x4x20.2 2) R co) + winSum2 x0 (View.ld x1 r1_19) 3 3 (show 3 + 4 ≤ 8 from slices_S8x8x8x20_o0_3_3_0_S8x4x4x20.2 1) (show 3 + 4 ≤ 8 from slices_S8x8x8x20_o0_3_3_0_S8x4x4x20.2 2) R co) + winSum2 x0 (View.ld x1 r1_20) 3 4 (show 3 + 4 ≤ 8 from slices_S8x8x8x20_o0_3_4_0_S8x4x4x20.2 1) (show 4 + 4 ≤ 8 from slices_S8x8x8x20_o0_3_4_0_S8x4x4x20.2 2) R co) + winSum2 x0 (View.ld x1 r1_21) 4 0 (show 4 + 4 ≤ 8 from slices_S8x8x8x20_o0_4_0_0_S8x4x4x20.2 1) (show 0 + 4 ≤ 8 from slices_S8x8x8x20_o0_4_0_0_S8x4x4x20.2 2) R co) + winSum2 x0 (View.ld x1 r1_22) 4 1 (show 4 + 4 ≤ 8 from slices_S8x8x8x20_o0_4_1_0_S8x4x4x20.2 1) (show 1 + 4 ≤ 8 from slices_S8x8x8x20_o0_4_1_0_S8x4x4x20.2 2) R co) + winSum2 x0 (View.ld x1 r1_23) 4 2 (show 4 + 4 ≤ 8 from slices_S8x8x8x20_o0_4_2_0_S8x4x4x20.2 1) (show 2 + 4 ≤ 8 from slices_S8x8x8x20_o0_4_2_0_S8x4x4x20.2 2) R co) + winSum2 x0 (View.ld x1 r1_24) 4 3 (show 4 + 4 ≤ 8 from slices_S8x8x8x20_o0_4_3_0_S8x4x4x20.2 1) (show 3 + 4 ≤ 8 from slices_S8x8x8x20_o0_4_3_0_S8x4x4x20.2 2) R co) + winSum2 x0 (View.ld x1 r1_25) 4 4 (show 4 + 4 ≤ 8 from slices_S8x8x8x20_o0_4_4_0_S8x4x4x20.2 1) (show 4 + 4 ≤ 8 from slices_S8x8x8x20_o0_4_4_0_S8x4x4x20.2 2) R co) := by
  unfold acc2V
  simp only [addf_apply, broadcast_apply, winProd2_slice]

/-- One kernel position's share of the convolution sum. -/
def convShare2 (y : Fin 8 → Fin 8 → Fin 20 → EReal) (w2 : Fin 25 → Fin 20 → Fin 50 → EReal) (ho wo : Fin 4) (co : Fin 50)
    (ki kj : ℕ) (hki : ki + 4 ≤ 8) (hkj : kj + 4 ≤ 8) : EReal :=
  ∑ ci : Fin 20, y ⟨ki + ho.val, by have := ho.isLt; omega⟩ ⟨kj + wo.val, by have := wo.isLt; omega⟩ ci * w2 ⟨ki * 5 + kj, by omega⟩ ci co

/-- The convolution sum, its 25 shares added to zero in the order of the kernel positions. -/
theorem conv2_split (y : Fin 8 → Fin 8 → Fin 20 → EReal) (w2 : Fin 25 → Fin 20 → Fin 50 → EReal) (ho wo : Fin 4) (co : Fin 50) :
    Cert.NetSpec.conv2 y w2 ho wo co
      = ((((((((((((((((((((((((((Ideal.ofBits .f32 0x00000000#32 : EReal) + convShare2 y w2 ho wo co 0 0 (by decide) (by decide)) + convShare2 y w2 ho wo co 0 1 (by decide) (by decide)) + convShare2 y w2 ho wo co 0 2 (by decide) (by decide)) + convShare2 y w2 ho wo co 0 3 (by decide) (by decide)) + convShare2 y w2 ho wo co 0 4 (by decide) (by decide)) + convShare2 y w2 ho wo co 1 0 (by decide) (by decide)) + convShare2 y w2 ho wo co 1 1 (by decide) (by decide)) + convShare2 y w2 ho wo co 1 2 (by decide) (by decide)) + convShare2 y w2 ho wo co 1 3 (by decide) (by decide)) + convShare2 y w2 ho wo co 1 4 (by decide) (by decide)) + convShare2 y w2 ho wo co 2 0 (by decide) (by decide)) + convShare2 y w2 ho wo co 2 1 (by decide) (by decide)) + convShare2 y w2 ho wo co 2 2 (by decide) (by decide)) + convShare2 y w2 ho wo co 2 3 (by decide) (by decide)) + convShare2 y w2 ho wo co 2 4 (by decide) (by decide)) + convShare2 y w2 ho wo co 3 0 (by decide) (by decide)) + convShare2 y w2 ho wo co 3 1 (by decide) (by decide)) + convShare2 y w2 ho wo co 3 2 (by decide) (by decide)) + convShare2 y w2 ho wo co 3 3 (by decide) (by decide)) + convShare2 y w2 ho wo co 3 4 (by decide) (by decide)) + convShare2 y w2 ho wo co 4 0 (by decide) (by decide)) + convShare2 y w2 ho wo co 4 1 (by decide) (by decide)) + convShare2 y w2 ho wo co 4 2 (by decide) (by decide)) + convShare2 y w2 ho wo co 4 3 (by decide) (by decide)) + convShare2 y w2 ho wo co 4 4 (by decide) (by decide)) := by
  have h : Cert.NetSpec.conv2 y w2 ho wo co
      = ∑ ki : Fin 5, ∑ kj : Fin 5, convShare2 y w2 ho wo co ki.val kj.val (by have := ki.isLt; omega) (by have := kj.isLt; omega) := rfl
  rw [h, Ideal.ofBits_zero_f32]
  simp only [Fin.sum_univ_five, zero_add, add_assoc]
  rfl

theorem winSum2_share (x0 : FVec Ideal S8x8x8x20 .bf16) (x1 : Vec Ideal S25x20x50 .bf16) (ki kj p : ℕ) (hp : p = ki * 5 + kj)
    (inb : ∀ a, (![p, 0, 0] : Fin 3 → ℕ) a + S1x20x50.size a ≤ S25x20x50.size a) (hki : ki + 4 ≤ 8) (hkj : kj + 4 ≤ 8)
    (b : Fin 8) (ho wo : Fin 4) (co : Fin 50) (hR : (b.val * 4 + ho.val) * 4 + wo.val < 128) :
    winSum2 x0 (View.ld x1 (Rect.unit (s := S25x20x50) ![p, 0, 0] S1x20x50.size inb)) ki kj hki hkj (⟨(b.val * 4 + ho.val) * 4 + wo.val, hR⟩ : Fin 128) co
      = convShare2 (fun h w ci => x0 (ix4 b h w ci)) (fun p ci co => x1 (ix3 p ci co)) ho wo co ki kj hki hkj := by
  subst hp
  unfold winSum2 convShare2
  have hb := b.isLt; have hho := ho.isLt; have hwo := wo.isLt
  refine Finset.sum_congr rfl fun ci _ => congrArg₂ (· * ·) ?_ (ld_slab_r2 x1 _ inb (by omega) ci co)
  refine congrArg x0 (funext fun a => Fin.ext ?_)
  match a with
  | ⟨0, _⟩ => show ((b.val * 4 + ho.val) * 4 + wo.val) / 16 = b.val; omega
  | ⟨1, _⟩ => show ki + ((b.val * 4 + ho.val) * 4 + wo.val) / 4 % 4 = ki + ho.val; omega
  | ⟨2, _⟩ => show kj + ((b.val * 4 + ho.val) * 4 + wo.val) % 4 = kj + wo.val; omega
  | ⟨3, _⟩ => rfl

/-- The accumulator at row `(b·4 + ho)·4 + wo` is the second convolution of image `b` at `(ho, wo)`. -/
theorem acc2V_conv (x0 : FVec Ideal S8x8x8x20 .bf16) (x1 : Vec Ideal S25x20x50 .bf16) (b : Fin 8) (ho wo : Fin 4) (co : Fin 50)
    (hR : (b.val * 4 + ho.val) * 4 + wo.val < 128) :
    acc2V x0 x1 (ix2 (⟨(b.val * 4 + ho.val) * 4 + wo.val, hR⟩ : Fin 128) co)
      = Cert.NetSpec.conv2 (fun h w ci => x0 (ix4 b h w ci)) (fun p ci co => x1 (ix3 p ci co)) ho wo co := by
  rw [acc2V_apply, conv2_split]
  exact congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (congrArg₂ (· + ·) (rfl) (winSum2_share x0 x1 0 0 0 rfl _ _ _ b ho wo co _)) (winSum2_share x0 x1 0 1 1 rfl _ _ _ b ho wo co _)) (winSum2_share x0 x1 0 2 2 rfl _ _ _ b ho wo co _)) (winSum2_share x0 x1 0 3 3 rfl _ _ _ b ho wo co _)) (winSum2_share x0 x1 0 4 4 rfl _ _ _ b ho wo co _)) (winSum2_share x0 x1 1 0 5 rfl _ _ _ b ho wo co _)) (winSum2_share x0 x1 1 1 6 rfl _ _ _ b ho wo co _)) (winSum2_share x0 x1 1 2 7 rfl _ _ _ b ho wo co _)) (winSum2_share x0 x1 1 3 8 rfl _ _ _ b ho wo co _)) (winSum2_share x0 x1 1 4 9 rfl _ _ _ b ho wo co _)) (winSum2_share x0 x1 2 0 10 rfl _ _ _ b ho wo co _)) (winSum2_share x0 x1 2 1 11 rfl _ _ _ b ho wo co _)) (winSum2_share x0 x1 2 2 12 rfl _ _ _ b ho wo co _)) (winSum2_share x0 x1 2 3 13 rfl _ _ _ b ho wo co _)) (winSum2_share x0 x1 2 4 14 rfl _ _ _ b ho wo co _)) (winSum2_share x0 x1 3 0 15 rfl _ _ _ b ho wo co _)) (winSum2_share x0 x1 3 1 16 rfl _ _ _ b ho wo co _)) (winSum2_share x0 x1 3 2 17 rfl _ _ _ b ho wo co _)) (winSum2_share x0 x1 3 3 18 rfl _ _ _ b ho wo co _)) (winSum2_share x0 x1 3 4 19 rfl _ _ _ b ho wo co _)) (winSum2_share x0 x1 4 0 20 rfl _ _ _ b ho wo co _)) (winSum2_share x0 x1 4 1 21 rfl _ _ _ b ho wo co _)) (winSum2_share x0 x1 4 2 22 rfl _ _ _ b ho wo co _)) (winSum2_share x0 x1 4 3 23 rfl _ _ _ b ho wo co _)) (winSum2_share x0 x1 4 4 24 rfl _ _ _ b ho wo co _)

theorem pay1_apply (x0 : Vec Ideal S8x8x8x20 .bf16) (x1 : Vec Ideal S25x20x50 .bf16) (x2 x3 : Vec Ideal S1x50 .f32) (b : Fin 8) (hp wp : Fin 2) (co : Fin 50) :
    pay1 x0 x1 x2 x3 (ix4 b hp wp co)
      = Cert.NetSpec.R2 (fun h w ci => x0 (ix4 b h w ci)) (fun p ci co => x1 (ix3 p ci co)) (fun co => x2 (ix2 (0 : Fin 1) co)) (fun co => x3 (ix2 (0 : Fin 1) co)) hp wp co := by
  rw [pay1_eq_post2, post2_apply]
  unfold Cert.NetSpec.R2
  refine congrArg (fun g => (Finset.univ : Finset (Fin 2)).fold max (FloatOps.ofBits (F := Ideal) .f32 0xFF800000#32) g) (funext fun j => ?_)
  refine congrArg (fun g => (Finset.univ : Finset (Fin 2)).fold max (FloatOps.ofBits (F := Ideal) .f32 0xFF800000#32) g) (funext fun i => ?_)
  rw [act2_apply, acc2V_conv]

end Cert.ReferenceIdeal.Net

end
-- ==== Proof.RChain2.lean ====
/-
  THE REFERENCE'S RESULT, IMAGE BY IMAGE: the chain of the three kernels.
-/
import proofs.«180094_g2000601136005399_pallasbulk_237_2_alg».proof.Proof.RChain
import proofs.«180094_g2000601136005399_pallasbulk_237_2_alg».proof.Proof.RLayer1
import proofs.«180094_g2000601136005399_pallasbulk_237_2_alg».proof.Proof.RLayer2

noncomputable section

open scoped BigOperators

namespace Cert.ReferenceIdeal.Net

open Cert.ReferenceIdeal Cert.ReferenceIdeal.Gen Idealize.ShloMosaic Idealize.ShloMosaic.ValueIdx Cert.LayoutOps Cert.PoolOps Cert.NetSpec Idealize.ShloMosaic.TcCoe

variable (m : (ℓ : Loc nD τ sig) → Buf (Elt Ideal) ℓ) (ρ : Dev nD → PrngReg)

/-- The launch arrays as functions of plain coordinates. -/
abbrev aImg (c : Dev nD) (n : Fin 8192) : Fin 28 → Fin 28 → EReal := fun h w => (m ((c : Thread nD τ).loc main_arg0) : S8192x1x28x28.Idx → EReal) (ix4 n (0 : Fin 1) h w)
abbrev aW1 (c : Dev nD) : Fin 25 → Fin 20 → EReal := fun p co => (m ((c : Thread nD τ).loc main_arg1) : S25x1x20.Idx → EReal) (ix3 p (0 : Fin 1) co)
abbrev aS1 (c : Dev nD) : Fin 20 → EReal := fun co => (m ((c : Thread nD τ).loc main_arg2) : S1x20.Idx → EReal) (ix2 (0 : Fin 1) co)
abbrev aT1 (c : Dev nD) : Fin 20 → EReal := fun co => (m ((c : Thread nD τ).loc main_arg3) : S1x20.Idx → EReal) (ix2 (0 : Fin 1) co)
abbrev aW2 (c : Dev nD) : Fin 25 → Fin 20 → Fin 50 → EReal := fun p ci co => (m ((c : Thread nD τ).loc main_arg4) : S25x20x50.Idx → EReal) (ix3 p ci co)
abbrev aS2 (c : Dev nD) : Fin 50 → EReal := fun co => (m ((c : Thread nD τ).loc main_arg5) : S1x50.Idx → EReal) (ix2 (0 : Fin 1) co)
abbrev aT2 (c : Dev nD) : Fin 50 → EReal := fun co => (m ((c : Thread nD τ).loc main_arg6) : S1x50.Idx → EReal) (ix2 (0 : Fin 1) co)
abbrev aFw1 (c : Dev nD) : Fin 200 → Fin 500 → EReal := fun j k => (m ((c : Thread nD τ).loc main_arg7) : S200x500.Idx → EReal) (ix2 j k)
abbrev aS3 (c : Dev nD) : Fin 500 → EReal := fun k => (m ((c : Thread nD τ).loc main_arg8) : S1x500.Idx → EReal) (ix2 (0 : Fin 1) k)
abbrev aT3 (c : Dev nD) : Fin 500 → EReal := fun k => (m ((c : Thread nD τ).loc main_arg9) : S1x500.Idx → EReal) (ix2 (0 : Fin 1) k)
abbrev aFw2 (c : Dev nD) : Fin 500 → Fin 10 → EReal := fun k o => (m ((c : Thread nD τ).loc main_arg10) : S500x10.Idx → EReal) (ix2 k o)
abbrev aFb2 (c : Dev nD) : Fin 10 → EReal := fun o => (m ((c : Thread nD τ).loc main_arg11) : S1x10.Idx → EReal) (ix2 (0 : Fin 1) o)

/-- The first kernel's result at image `n`. -/
theorem stage1 (c : Dev nD) (n : Fin 8192) (hp wp : Fin 8) (co : Fin 20) :
    (V2 m ρ c main_v1 : S8192x8x8x20.Idx → EReal) (ix4 n hp wp co) = R1 (aImg m c n) (aW1 m c) (aS1 m c) (aT1 m c) hp wp co := by
  have hn := n.isLt
  have e : (V2 m ρ c main_v1 : S8192x8x8x20.Idx → EReal) = regOut0 (V1 m ρ) c := (W2_arr m ρ c 4).trans (final0 (V1 m ρ) c)
  rw [e]
  unfold regOut0
  show pay0 (tile0 (V1 m ρ c main_v0) ⟨n.val / 8, by omega⟩) (V1 m ρ c main_arg1) (V1 m ρ c main_arg2) (V1 m ρ c main_arg3) (ix4 (⟨n.val % 8, Nat.mod_lt _ (by decide)⟩ : Fin 8) hp wp co) = _
  rw [pay0_apply, V1_arg m ρ c main_arg1 (by decide), V1_arg m ρ c main_arg2 (by decide), V1_arg m ρ c main_arg3 (by decide)]
  refine congrArg (fun im => R1 im (aW1 m c) (aS1 m c) (aT1 m c) hp wp co) (funext fun h => funext fun w => ?_)
  unfold tile0
  have en : (⟨n.val / 8 * 8 + n.val % 8, by omega⟩ : Fin 8192) = n := Fin.ext (by show n.val / 8 * 8 + n.val % 8 = n.val; omega)
  show (V1 m ρ c main_v0 : S8192x28x28.Idx → EReal) (ix3 (⟨n.val / 8 * 8 + n.val % 8, by omega⟩ : Fin 8192) h w) = _
  rw [en]
  exact V1_images m ρ c n h w

/-- The second kernel's result at image `n`. -/
theorem stage2 (c : Dev nD) (n : Fin 8192) (hp wp : Fin 2) (co : Fin 50) :
    (W3 m ρ c (Proc.devRef .tc main_v2) : S8192x2x2x50.Idx → EReal) (ix4 n hp wp co)
      = R2 (R1 (aImg m c n) (aW1 m c) (aS1 m c) (aT1 m c)) (aW2 m c) (aS2 m c) (aT2 m c) hp wp co := by
  have hn := n.isLt
  have e : (W3 m ρ c (Proc.devRef .tc main_v2) : S8192x2x2x50.Idx → EReal) = regOut1 (V2 m ρ) c := (W3_arr m ρ c 4).trans (final1 (V2 m ρ) c)
  rw [e]
  unfold regOut1
  show pay1 (tile1 (V2 m ρ c main_v1) ⟨n.val / 8, by omega⟩) (V2 m ρ c main_arg4) (V2 m ρ c main_arg5) (V2 m ρ c main_arg6) (ix4 (⟨n.val % 8, Nat.mod_lt _ (by decide)⟩ : Fin 8) hp wp co) = _
  rw [pay1_apply, V2_arg m ρ c main_arg4 (by decide) (by decide), V2_arg m ρ c main_arg5 (by decide) (by decide), V2_arg m ρ c main_arg6 (by decide) (by decide)]
  refine congrArg (fun y => R2 y (aW2 m c) (aS2 m c) (aT2 m c) hp wp co) (funext fun h => funext fun w => funext fun ci => ?_)
  unfold tile1
  have en : (⟨n.val / 8 * 8 + n.val % 8, by omega⟩ : Fin 8192) = n := Fin.ext (by show n.val / 8 * 8 + n.val % 8 = n.val; omega)
  show (V2 m ρ c main_v1 : S8192x8x8x20.Idx → EReal) (ix4 (⟨n.val / 8 * 8 + n.val % 8, by omega⟩ : Fin 8192) h w ci) = _
  rw [en]
  exact stage1 m ρ c n h w ci

/-- The reference's result at image `n`. -/
theorem refOut_apply (c : Dev nD) (n : Fin 8192) (o : Fin 10) :
    (W5 m ρ c (Proc.devRef .tc main_v4) : S8192x10.Idx → EReal) (ix2 n o)
      = netR (aImg m c n) (aW1 m c) (aS1 m c) (aT1 m c) (aW2 m c) (aS2 m c) (aT2 m c) (aFw1 m c) (aS3 m c) (aT3 m c) (aFw2 m c) (aFb2 m c) o := by
  have e : (W5 m ρ c (Proc.devRef .tc main_v4) : S8192x10.Idx → EReal) = regOut2 (V4 m ρ) c := (W5_arr m ρ c 6).trans (final2 (V4 m ρ) c)
  rw [e]
  unfold regOut2
  rw [pay2_apply, V4_arg m ρ c main_arg7 (by decide) (by decide) (by decide) (by decide), V4_arg m ρ c main_arg8 (by decide) (by decide) (by decide) (by decide),
    V4_arg m ρ c main_arg9 (by decide) (by decide) (by decide) (by decide), V4_arg m ρ c main_arg10 (by decide) (by decide) (by decide) (by decide),
    V4_arg m ρ c main_arg11 (by decide) (by decide) (by decide) (by decide)]
  unfold netR dense hiddenR
  have hf : ∀ j : Fin 200, (V4 m ρ c main_v3 : S8192x200.Idx → EReal) (ix2 n j)
      = flatR (R2 (R1 (aImg m c n) (aW1 m c) (aS1 m c) (aT1 m c)) (aW2 m c) (aS2 m c) (aT2 m c)) j := by
    intro j
    rw [V4_features]
    unfold flatR
    exact stage2 m ρ c n _ _ _
  simp only [hf]

end Cert.ReferenceIdeal.Net

end
-- ==== Proof.NetMath1.lean ====
/-
  THE BANDED PRODUCTS ARE THE CONVOLUTIONS (first layer).

  A row window of the image times a banded matrix: the 140 columns are `(ki, wj)`; in column block `ki` the band
  holds `w1 (5·ki + (wj − base)) · s1` for `base ≤ wj < base + 5` and zero elsewhere, `base = 3·wp + j`.  So the product
  is `Σ_ki Σ_kj img (ki + ho) (base + kj) · (w1 (5·ki + kj) · s1)`, and over the reals the scale comes out of the sum:
  it is the convolution at `(ho, 3·wp + j)` times `s1`.  The maximum over the three pool phases `j` and zero, then over
  three rows, is the maximum over the 3 × 3 window of the rectified values.
-/
import proofs.«180094_g2000601136005399_pallasbulk_237_2_alg».proof.Proof.NetSpec
import Idealize.ShloMosaic.PureOps.Ideal.Laws

noncomputable section

open scoped BigOperators

namespace Cert.NetMath

open Idealize.ShloMosaic

theorem negInfF_eq : Cert.NetSpec.negInfF = ⊥ := by
  show Ideal.ofBits .f32 0xFF800000#32 = ⊥
  simp [Ideal.ofBits, Ideal.ieee]

theorem negInfB_eq : Cert.NetSpec.negInfB = ⊥ := by
  show Ideal.ofBits .bf16 0xFF80#16 = ⊥
  simp [Ideal.ofBits, Ideal.ieee, -EReal.coe_mul]

theorem zeroF_eq : Cert.NetSpec.zeroF = 0 := Ideal.ofBits_zero_f32

theorem fold3 (b : EReal) (f : Fin 3 → EReal) :
    (Finset.univ : Finset (Fin 3)).fold max b f = max (f 0) (max (f 1) (max (f 2) b)) := by
  have e : (Finset.univ : Finset (Fin 3)) = {0, 1, 2} := by decide
  rw [e, Finset.fold_insert (by decide), Finset.fold_insert (by decide), Finset.fold_singleton]

theorem fold2 (b : EReal) (f : Fin 2 → EReal) :
    (Finset.univ : Finset (Fin 2)).fold max b f = max (f 0) (max (f 1) b) := by
  have e : (Finset.univ : Finset (Fin 2)) = {0, 1} := by decide
  rw [e, Finset.fold_insert (by decide), Finset.fold_singleton]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem sum140 {M : Type} [AddCommMonoid M] (f : Fin 140 → M) :
    ∑ k, f k = ∑ ki : Fin 5, ∑ wj : Fin 28, f ⟨wj.val + 28 * ki.val, by have := ki.isLt; have := wj.isLt; omega⟩ := by
  rw [← (finProdFinEquiv (m := 5) (n := 28)).sum_comp (f : Fin (5 * 28) → M), Fintype.sum_prod_type]
  rfl

theorem sum160 {M : Type} [AddCommMonoid M] (f : Fin 160 → M) :
    ∑ k, f k = ∑ wj : Fin 8, ∑ ci : Fin 20, f ⟨ci.val + 20 * wj.val, by have := ci.isLt; have := wj.isLt; omega⟩ := by
  rw [← (finProdFinEquiv (m := 8) (n := 20)).sum_comp (f : Fin (8 * 20) → M), Fintype.sum_prod_type]
  rfl

/-- A row times a band of width five starting at `base`. -/
theorem band_sum {n : ℕ} (x : Fin n → EReal) (W : Fin 5 → EReal) (base : ℕ) (hb : base + 5 ≤ n) :
    ∑ wj : Fin n, x wj * (if h : base ≤ wj.val ∧ wj.val < base + 5 then W ⟨wj.val - base, by omega⟩ else 0)
      = ∑ kj : Fin 5, x ⟨base + kj.val, by have := kj.isLt; omega⟩ * W kj := by
  classical
  let g : Fin 5 → Fin n := fun kj => ⟨base + kj.val, by have := kj.isLt; omega⟩
  have hg : Function.Injective g := fun a b h => Fin.ext (by have := congrArg Fin.val h; simp only [g] at this; omega)
  refine (Finset.sum_subset (Finset.subset_univ (Finset.univ.image g)) ?_).symm.trans ?_
  · intro wj _ hn
    rw [dif_neg, mul_zero]
    rintro ⟨h1, h2⟩
    exact hn (Finset.mem_image.mpr ⟨⟨wj.val - base, by omega⟩, Finset.mem_univ _, Fin.ext (by simp only [g]; omega)⟩)
  · rw [Finset.sum_image (fun a _ b _ h => hg h)]
    refine Finset.sum_congr rfl fun kj _ => ?_
    have hk := kj.isLt
    have hc : base ≤ (g kj).val ∧ (g kj).val < base + 5 := ⟨by simp only [g]; omega, by simp only [g]; omega⟩
    rw [dif_pos hc]
    refine congrArg (fun z => x (g kj) * W z) (Fin.ext ?_)
    simp only [g]; omega

end Cert.NetMath

end
-- ==== Proof.NetMath2.lean ====
/-
  THE FUSED KERNEL'S FIRST LAYER IS THE REFERENCE'S (per image, over real inputs).
-/
import proofs.«180094_g2000601136005399_pallasbulk_237_2_alg».proof.Proof.KCombine2
import proofs.«180094_g2000601136005399_pallasbulk_237_2_alg».proof.Proof.NetMath1

noncomputable section

open scoped BigOperators

namespace Cert.NetMath

open Idealize.ShloMosaic Cert.NetSpec
open Cert.KernelIdeal.Net (KD K1 K2 Kw K3 Kflat netK)

/-- The band, with the window's offset added on the right. -/
theorem band_sum' {n : ℕ} (x : Fin n → EReal) (W : Fin 5 → EReal) (base : ℕ) (hb : base + 5 ≤ n) :
    ∑ wj : Fin n, x wj * (if h : base ≤ wj.val ∧ wj.val < base + 5 then W ⟨wj.val - base, by omega⟩ else 0)
      = ∑ kj : Fin 5, x ⟨kj.val + base, by have := kj.isLt; omega⟩ * W kj :=
  (band_sum x W base hb).trans (Finset.sum_congr rfl fun kj _ => congrArg (fun z => x z * W kj) (Fin.ext (Nat.add_comm _ _)))

/-- Nine values and a floor: the maximum by rows first or by columns first. -/
theorem pool9 (a00 a01 a02 a10 a11 a12 a20 a21 a22 z : EReal) :
    max (max (max (max a00 a01) a02) z) (max (max (max (max a10 a11) a12) z) (max (max (max (max a20 a21) a22) z) ⊥))
      = max (max (max a00 z) (max (max a10 z) (max (max a20 z) ⊥)))
          (max (max (max a01 z) (max (max a11 z) (max (max a21 z) ⊥))) (max (max (max a02 z) (max (max a12 z) (max (max a22 z) ⊥))) ⊥)) := by
  apply le_antisymm <;>
    (simp only [max_le_iff]; simp only [le_max_iff, le_refl, true_or, or_true, and_self, and_true, true_and, bot_le])

section Layer1
variable (img : Fin 28 → Fin 28 → ℝ) (w1 : Fin 25 → Fin 20 → ℝ) (s1 : Fin 20 → ℝ) (t1 : Fin 20 → EReal)
  (B1 : Fin 3 → Fin 140 → Fin 160 → EReal) (T1 : Fin 160 → EReal)
  (hB1 : ∀ (j : Fin 3) (ki : Fin 5) (wj : Fin 28) (wp : Fin 8) (co : Fin 20),
    B1 j ⟨ki.val * 28 + wj.val, by have := ki.isLt; have := wj.isLt; omega⟩ ⟨wp.val * 20 + co.val, by have := wp.isLt; have := co.isLt; omega⟩
      = if h : 3 * wp.val + j.val ≤ wj.val ∧ wj.val < 3 * wp.val + j.val + 5 then
          ((w1 ⟨ki.val * 5 + (wj.val - (3 * wp.val + j.val)), by have := ki.isLt; omega⟩ co : ℝ) : EReal) * ((s1 co : ℝ) : EReal)
        else 0)
  (hT1 : ∀ (wp : Fin 8) (co : Fin 20), T1 ⟨wp.val * 20 + co.val, by have := wp.isLt; have := co.isLt; omega⟩ = t1 co)

include hB1 hT1

theorem KD_eq (j : Fin 3) (ho : Fin 24) (wp : Fin 8) (co : Fin 20) :
    KD (fun h w => ((img h w : ℝ) : EReal)) B1 T1 j ho ⟨wp.val * 20 + co.val, by have := wp.isLt; have := co.isLt; omega⟩
      = conv1 (fun h w => ((img h w : ℝ) : EReal)) (fun p c => ((w1 p c : ℝ) : EReal)) ho
          ⟨wp.val * 3 + j.val, by have := wp.isLt; have := j.isLt; omega⟩ co * ((s1 co : ℝ) : EReal) + t1 co := by
  have hwp := wp.isLt; have hj := j.isLt; have hho := ho.isLt; have hco := co.isLt
  unfold KD conv1
  rw [hT1 wp co]
  refine congrArg (· + t1 co) ?_
  rw [sum140]
  have step : ∀ ki : Fin 5,
      (∑ wj : Fin 28, ((img ⟨(wj.val + 28 * ki.val) / 28 + ho.val, by have := ki.isLt; have := wj.isLt; omega⟩ ⟨(wj.val + 28 * ki.val) % 28, Nat.mod_lt _ (by decide)⟩ : ℝ) : EReal)
          * B1 j ⟨wj.val + 28 * ki.val, by have := ki.isLt; have := wj.isLt; omega⟩ ⟨wp.val * 20 + co.val, by omega⟩)
        = ∑ kj : Fin 5, ((img ⟨ki.val + ho.val, by have := ki.isLt; omega⟩ ⟨kj.val + (wp.val * 3 + j.val), by have := kj.isLt; omega⟩ : ℝ) : EReal)
            * (((w1 ⟨ki.val * 5 + kj.val, by have := ki.isLt; have := kj.isLt; omega⟩ co : ℝ) : EReal) * ((s1 co : ℝ) : EReal)) := by
    intro ki
    have hki := ki.isLt
    rw [← band_sum' (n := 28) (fun wj => ((img ⟨ki.val + ho.val, by omega⟩ wj : ℝ) : EReal))
      (fun kj => ((w1 ⟨ki.val * 5 + kj.val, by have := kj.isLt; omega⟩ co : ℝ) : EReal) * ((s1 co : ℝ) : EReal)) (wp.val * 3 + j.val) (by omega)]
    refine Finset.sum_congr rfl fun wj _ => ?_
    have hwj := wj.isLt
    have e1 : (⟨wj.val + 28 * ki.val, by omega⟩ : Fin 140) = ⟨ki.val * 28 + wj.val, by omega⟩ := Fin.ext (by show wj.val + 28 * ki.val = ki.val * 28 + wj.val; omega)
    have e2 : (⟨(wj.val + 28 * ki.val) / 28 + ho.val, by omega⟩ : Fin 28) = ⟨ki.val + ho.val, by omega⟩ := Fin.ext (by show (wj.val + 28 * ki.val) / 28 + ho.val = ki.val + ho.val; omega)
    have e3 : (⟨(wj.val + 28 * ki.val) % 28, Nat.mod_lt _ (by decide)⟩ : Fin 28) = wj := Fin.ext (by show (wj.val + 28 * ki.val) % 28 = wj.val; omega)
    rw [e1, e2, e3, hB1 j ki wj wp co]
    refine congrArg (fun z => ((img ⟨ki.val + ho.val, by omega⟩ wj : ℝ) : EReal) * z) ?_
    by_cases hc : 3 * wp.val + j.val ≤ wj.val ∧ wj.val < 3 * wp.val + j.val + 5
    · have hc' : wp.val * 3 + j.val ≤ wj.val ∧ wj.val < wp.val * 3 + j.val + 5 := by omega
      rw [dif_pos hc, dif_pos hc']
      refine congrArg (fun z => ((w1 z co : ℝ) : EReal) * ((s1 co : ℝ) : EReal)) (Fin.ext ?_)
      show ki.val * 5 + (wj.val - (3 * wp.val + j.val)) = ki.val * 5 + (wj.val - (wp.val * 3 + j.val))
      omega
    · have hc' : ¬ (wp.val * 3 + j.val ≤ wj.val ∧ wj.val < wp.val * 3 + j.val + 5) := by omega
      rw [dif_neg hc, dif_neg hc']
  simp only [step]
  -- the scale leaves the sum: everything is a real
  have hL : (∑ ki : Fin 5, ∑ kj : Fin 5, ((img ⟨ki.val + ho.val, by have := ki.isLt; omega⟩ ⟨kj.val + (wp.val * 3 + j.val), by have := kj.isLt; omega⟩ : ℝ) : EReal)
        * (((w1 ⟨ki.val * 5 + kj.val, by have := ki.isLt; have := kj.isLt; omega⟩ co : ℝ) : EReal) * ((s1 co : ℝ) : EReal)))
      = ((∑ ki : Fin 5, ∑ kj : Fin 5, img ⟨ki.val + ho.val, by have := ki.isLt; omega⟩ ⟨kj.val + (wp.val * 3 + j.val), by have := kj.isLt; omega⟩
          * (w1 ⟨ki.val * 5 + kj.val, by have := ki.isLt; have := kj.isLt; omega⟩ co * s1 co) : ℝ) : EReal) := by
    simp only [coe_sum, EReal.coe_mul]
  have hR : (∑ ki : Fin 5, ∑ kj : Fin 5, ((img ⟨ki.val + ho.val, by have := ki.isLt; omega⟩ ⟨kj.val + (wp.val * 3 + j.val), by have := kj.isLt; omega⟩ : ℝ) : EReal)
        * ((w1 ⟨ki.val * 5 + kj.val, by have := ki.isLt; have := kj.isLt; omega⟩ co : ℝ) : EReal)) * ((s1 co : ℝ) : EReal)
      = (((∑ ki : Fin 5, ∑ kj : Fin 5, img ⟨ki.val + ho.val, by have := ki.isLt; omega⟩ ⟨kj.val + (wp.val * 3 + j.val), by have := kj.isLt; omega⟩
          * w1 ⟨ki.val * 5 + kj.val, by have := ki.isLt; have := kj.isLt; omega⟩ co) * s1 co : ℝ) : EReal) := by
    simp only [coe_sum, EReal.coe_mul]
  rw [hL]
  refine Eq.trans ?_ hR.symm
  refine congrArg (fun z : ℝ => (z : EReal)) ?_
  simp only [Finset.sum_mul, mul_assoc]

theorem K1_eq (hp wp : Fin 8) (co : Fin 20) :
    K1 (fun h w => ((img h w : ℝ) : EReal)) B1 T1 hp ⟨wp.val * 20 + co.val, by have := wp.isLt; have := co.isLt; omega⟩
      = R1 (fun h w => ((img h w : ℝ) : EReal)) (fun p c => ((w1 p c : ℝ) : EReal)) (fun c => ((s1 c : ℝ) : EReal)) t1 hp wp co := by
  unfold K1 R1
  simp only [KD_eq img w1 s1 t1 B1 T1 hB1 hT1]
  simp only [fold3]
  have hb : Cert.KernelIdeal.Net.negInfB = (⊥ : EReal) := negInfB_eq
  have hf : Cert.NetSpec.negInfF = (⊥ : EReal) := negInfF_eq
  have z1 : Cert.KernelIdeal.Net.zeroF = (0 : EReal) := Ideal.ofBits_zero_f32
  have z2 : Cert.NetSpec.zeroF = (0 : EReal) := Ideal.ofBits_zero_f32
  rw [hb, hf, z1, z2]
  exact pool9 _ _ _ _ _ _ _ _ _ _

end Layer1

end Cert.NetMath

end
-- ==== Proof.NetMath3.lean ====
/-
  THE FUSED KERNEL'S SECOND LAYER IS THE REFERENCE'S (per image).

  The 160 lanes of a pooled first-layer row are `(wj, ci)`; banded matrix `ki` holds `w2 (5·ki + (wj − wo)) ci co` for
  `wo ≤ wj < wo + 5` and zero elsewhere.  Summing over the lanes and the five matrices gives the convolution; no
  distributive law is used, only that the sums may be re-ordered and that a zero factor gives a zero term.
-/
import proofs.«180094_g2000601136005399_pallasbulk_237_2_alg».proof.Proof.KCombine2
import proofs.«180094_g2000601136005399_pallasbulk_237_2_alg».proof.Proof.NetMath1

noncomputable section

open scoped BigOperators

namespace Cert.NetMath

open Idealize.ShloMosaic Cert.NetSpec
open Cert.KernelIdeal.Net (KD K1 K2 Kw K3 Kflat netK)

theorem band_sum'' {n : ℕ} (x : Fin n → EReal) (W : Fin 5 → EReal) (base : ℕ) (hb : base + 5 ≤ n) :
    ∑ wj : Fin n, x wj * (if h : base ≤ wj.val ∧ wj.val < base + 5 then W ⟨wj.val - base, by omega⟩ else 0)
      = ∑ kj : Fin 5, x ⟨kj.val + base, by have := kj.isLt; omega⟩ * W kj :=
  (band_sum x W base hb).trans (Finset.sum_congr rfl fun kj _ => congrArg (fun z => x z * W kj) (Fin.ext (Nat.add_comm _ _)))

section Layer2
variable (y : Fin 8 → Fin 8 → Fin 20 → EReal) (w2 : Fin 25 → Fin 20 → Fin 50 → EReal) (s2 t2 : Fin 50 → EReal)
  (y1 : Fin 8 → Fin 160 → EReal) (B2 : Fin 5 → Fin 160 → Fin 200 → EReal) (S2 T2 : Fin 200 → EReal)
  (hy1 : ∀ (hp wj : Fin 8) (ci : Fin 20), y1 hp ⟨wj.val * 20 + ci.val, by have := wj.isLt; have := ci.isLt; omega⟩ = y hp wj ci)
  (hB2 : ∀ (ki : Fin 5) (wj : Fin 8) (ci : Fin 20) (wo : Fin 4) (co : Fin 50),
    B2 ki ⟨wj.val * 20 + ci.val, by have := wj.isLt; have := ci.isLt; omega⟩ ⟨wo.val * 50 + co.val, by have := wo.isLt; have := co.isLt; omega⟩
      = if h : wo.val ≤ wj.val ∧ wj.val < wo.val + 5 then w2 ⟨ki.val * 5 + (wj.val - wo.val), by have := ki.isLt; omega⟩ ci co else 0)
  (hS2 : ∀ (wo : Fin 4) (co : Fin 50), S2 ⟨wo.val * 50 + co.val, by have := wo.isLt; have := co.isLt; omega⟩ = s2 co)
  (hT2 : ∀ (wo : Fin 4) (co : Fin 50), T2 ⟨wo.val * 50 + co.val, by have := wo.isLt; have := co.isLt; omega⟩ = t2 co)

include hy1 hB2 in
theorem rowBand (ki : Fin 5) (ho wo : Fin 4) (co : Fin 50) :
    (∑ k : Fin 160, y1 ⟨ki.val + ho.val, by have := ki.isLt; have := ho.isLt; omega⟩ k * B2 ki k ⟨wo.val * 50 + co.val, by have := wo.isLt; have := co.isLt; omega⟩)
      = ∑ kj : Fin 5, ∑ ci : Fin 20, y ⟨ki.val + ho.val, by have := ki.isLt; have := ho.isLt; omega⟩ ⟨kj.val + wo.val, by have := kj.isLt; have := wo.isLt; omega⟩ ci
          * w2 ⟨ki.val * 5 + kj.val, by have := ki.isLt; have := kj.isLt; omega⟩ ci co := by
  have hki := ki.isLt; have hho := ho.isLt; have hwo := wo.isLt; have hco := co.isLt
  rw [sum160, Finset.sum_comm]
  rw [Finset.sum_comm (s := (Finset.univ : Finset (Fin 5)))]
  refine Finset.sum_congr rfl fun ci _ => ?_
  have hci := ci.isLt
  rw [← band_sum'' (n := 8) (fun wj => y ⟨ki.val + ho.val, by omega⟩ wj ci) (fun kj => w2 ⟨ki.val * 5 + kj.val, by have := kj.isLt; omega⟩ ci co) wo.val (by omega)]
  refine Finset.sum_congr rfl fun wj _ => ?_
  have hwj := wj.isLt
  have e1 : (⟨ci.val + 20 * wj.val, by omega⟩ : Fin 160) = ⟨wj.val * 20 + ci.val, by omega⟩ := Fin.ext (by show ci.val + 20 * wj.val = wj.val * 20 + ci.val; omega)
  rw [e1, hy1, hB2 ki wj ci wo co]

include hy1 hB2 hS2 hT2 in
theorem K2_eq (ho wo : Fin 4) (co : Fin 50) :
    K2 y1 B2 S2 T2 ho ⟨wo.val * 50 + co.val, by have := wo.isLt; have := co.isLt; omega⟩ = conv2 y w2 ho wo co * s2 co + t2 co := by
  have hho := ho.isLt
  unfold K2 conv2
  rw [hS2 wo co, hT2 wo co]
  refine congrArg (fun z => z * s2 co + t2 co) ?_
  rw [Fin.sum_univ_five]
  have r := rowBand y w2 y1 B2 hy1 hB2
  have z0 : Cert.KernelIdeal.Net.zeroF = (0 : EReal) := Ideal.ofBits_zero_f32
  rw [z0, zero_add]
  exact congrArg₂ (· + ·) (congrArg₂ (· + ·) (congrArg₂ (· + ·) (congrArg₂ (· + ·) (r 0 ho wo co) (r 1 ho wo co)) (r 2 ho wo co)) (r 3 ho wo co)) (r 4 ho wo co)

end Layer2

end Cert.NetMath

end
-- ==== Proof.NetMath4.lean ====
/-
  POOLING OF THE SECOND LAYER, AND THE WHOLE NETWORK: THE FUSED KERNEL'S FUNCTION OF AN IMAGE IS THE REFERENCE'S.

  The 200 lanes `(wo, co)` of the rectified second-layer rows are pooled by the kernel over lane pairs first and row
  pairs second, by the reference over rows first and columns second: the maximum of the same four rectified values.
  The kernel's feature `hp·100 + wp·50 + co` is the reference's feature `(hp, wp, co)` in row-major order.
-/
import proofs.«180094_g2000601136005399_pallasbulk_237_2_alg».proof.Proof.KCombine2
import proofs.«180094_g2000601136005399_pallasbulk_237_2_alg».proof.Proof.NetMath1

noncomputable section

open scoped BigOperators

namespace Cert.NetMath

open Idealize.ShloMosaic Cert.NetSpec
open Cert.KernelIdeal.Net (KD K1 K2 Kw K3 Kflat netK)

theorem pool4 (a00 a01 a10 a11 z : EReal) :
    max (max (max a00 z) (max a01 z)) (max (max (max a10 z) (max a11 z)) ⊥)
      = max (max (max a00 z) (max (max a10 z) ⊥)) (max (max (max a01 z) (max (max a11 z) ⊥)) ⊥) := by
  apply le_antisymm <;>
    (simp only [max_le_iff]; simp only [le_max_iff, le_refl, true_or, or_true, and_self, and_true, true_and, bot_le])

theorem Kw_lo (z : Fin 4 → Fin 200 → EReal) (ho : Fin 4) (q : Fin 100) (h : q.val < 50) :
    Kw z ho q = max (max (z ho ⟨q.val, by omega⟩) Cert.KernelIdeal.Net.zeroF) (max (z ho ⟨50 + q.val, by omega⟩) Cert.KernelIdeal.Net.zeroF) := dif_pos h

theorem Kw_hi (z : Fin 4 → Fin 200 → EReal) (ho : Fin 4) (q : Fin 100) (h : ¬ q.val < 50) :
    Kw z ho q = max (max (z ho ⟨100 + (q.val - 50), by have := q.isLt; omega⟩) Cert.KernelIdeal.Net.zeroF)
      (max (z ho ⟨150 + (q.val - 50), by have := q.isLt; omega⟩) Cert.KernelIdeal.Net.zeroF) := dif_neg h

theorem Kflat_lo (z : Fin 4 → Fin 200 → EReal) (j : Fin 200) (h : j.val < 100) : Kflat z j = K3 z (0 : Fin 2) ⟨j.val, h⟩ := dif_pos h
theorem Kflat_hi (z : Fin 4 → Fin 200 → EReal) (j : Fin 200) (h : ¬ j.val < 100) :
    Kflat z j = K3 z (1 : Fin 2) ⟨j.val - 100, by have := j.isLt; omega⟩ := dif_neg h

/-- The pooled value of the window `(hp, wp)`, rows first. -/
def pooled (a : Fin 4 → Fin 4 → Fin 50 → EReal) (hp wp : Fin 2) (co : Fin 50) : EReal :=
  (Finset.univ : Finset (Fin 2)).fold max negInfF (fun j =>
    (Finset.univ : Finset (Fin 2)).fold max negInfF (fun i =>
      max (a ⟨hp.val * 2 + i.val, by have := hp.isLt; have := i.isLt; omega⟩ ⟨wp.val * 2 + j.val, by have := wp.isLt; have := j.isLt; omega⟩ co) zeroF))

theorem K3_eq (z : Fin 4 → Fin 200 → EReal) (a : Fin 4 → Fin 4 → Fin 50 → EReal)
    (hz : ∀ (ho wo : Fin 4) (co : Fin 50), z ho ⟨wo.val * 50 + co.val, by have := wo.isLt; have := co.isLt; omega⟩ = a ho wo co)
    (hp wp : Fin 2) (co : Fin 50) (q : Fin 100) (hq : q.val = wp.val * 50 + co.val) :
    K3 z hp q = pooled a hp wp co := by
  have hz' : ∀ (ho : Fin 4) (k : Fin 200) (wo : Fin 4), k.val = wo.val * 50 + co.val → z ho k = a ho wo co := by
    intro ho k wo hk
    rw [← hz ho wo co]
    exact congrArg (z ho) (Fin.ext hk)
  have hco := co.isLt; have hwp := wp.isLt; have hhp := hp.isLt
  have z1 : Cert.KernelIdeal.Net.zeroF = (0 : EReal) := Ideal.ofBits_zero_f32
  have z2 : Cert.NetSpec.zeroF = (0 : EReal) := Ideal.ofBits_zero_f32
  have nf1 : Cert.KernelIdeal.Net.negInfF = (⊥ : EReal) := negInfF_eq
  have nf2 : Cert.NetSpec.negInfF = (⊥ : EReal) := negInfF_eq
  unfold K3 pooled
  simp only [fold2]
  rcases Nat.lt_or_ge wp.val 1 with hw | hw
  · have hw0 : wp.val = 0 := by omega
    have hlt : q.val < 50 := by omega
    rw [Kw_lo z _ q hlt, Kw_lo z _ q hlt]
    rw [hz' _ ⟨q.val, by omega⟩ ⟨wp.val * 2 + (0 : Fin 2).val, by omega⟩ (by show q.val = (wp.val * 2 + 0) * 50 + co.val; omega),
      hz' _ ⟨50 + q.val, by omega⟩ ⟨wp.val * 2 + (1 : Fin 2).val, by omega⟩ (by show 50 + q.val = (wp.val * 2 + 1) * 50 + co.val; omega),
      hz' _ ⟨q.val, by omega⟩ ⟨wp.val * 2 + (0 : Fin 2).val, by omega⟩ (by show q.val = (wp.val * 2 + 0) * 50 + co.val; omega),
      hz' _ ⟨50 + q.val, by omega⟩ ⟨wp.val * 2 + (1 : Fin 2).val, by omega⟩ (by show 50 + q.val = (wp.val * 2 + 1) * 50 + co.val; omega)]
    rw [z1, z2, nf1, nf2]
    exact pool4 _ _ _ _ _
  · have hw1 : wp.val = 1 := by omega
    have hge : ¬ q.val < 50 := by omega
    rw [Kw_hi z _ q hge, Kw_hi z _ q hge]
    rw [hz' _ ⟨100 + (q.val - 50), by omega⟩ ⟨wp.val * 2 + (0 : Fin 2).val, by omega⟩ (by show 100 + (q.val - 50) = (wp.val * 2 + 0) * 50 + co.val; omega),
      hz' _ ⟨150 + (q.val - 50), by omega⟩ ⟨wp.val * 2 + (1 : Fin 2).val, by omega⟩ (by show 150 + (q.val - 50) = (wp.val * 2 + 1) * 50 + co.val; omega),
      hz' _ ⟨100 + (q.val - 50), by omega⟩ ⟨wp.val * 2 + (0 : Fin 2).val, by omega⟩ (by show 100 + (q.val - 50) = (wp.val * 2 + 0) * 50 + co.val; omega),
      hz' _ ⟨150 + (q.val - 50), by omega⟩ ⟨wp.val * 2 + (1 : Fin 2).val, by omega⟩ (by show 150 + (q.val - 50) = (wp.val * 2 + 1) * 50 + co.val; omega)]
    rw [z1, z2, nf1, nf2]
    exact pool4 _ _ _ _ _

theorem Kflat_eq (z : Fin 4 → Fin 200 → EReal) (a : Fin 4 → Fin 4 → Fin 50 → EReal)
    (hz : ∀ (ho wo : Fin 4) (co : Fin 50), z ho ⟨wo.val * 50 + co.val, by have := wo.isLt; have := co.isLt; omega⟩ = a ho wo co)
    (j : Fin 200) :
    Kflat z j = pooled a ⟨j.val / 100, by have := j.isLt; omega⟩ ⟨j.val / 50 % 2, Nat.mod_lt _ (by decide)⟩ ⟨j.val % 50, Nat.mod_lt _ (by decide)⟩ := by
  have hj := j.isLt
  rcases Nat.lt_or_ge j.val 100 with h | h
  · rw [Kflat_lo z j h]
    have e : (⟨j.val / 100, by omega⟩ : Fin 2) = 0 := Fin.ext (by show j.val / 100 = 0; omega)
    rw [e]
    exact K3_eq z a hz 0 _ _ ⟨j.val, h⟩ (by show j.val = j.val / 50 % 2 * 50 + j.val % 50; omega)
  · rw [Kflat_hi z j (by omega)]
    have e : (⟨j.val / 100, by omega⟩ : Fin 2) = 1 := Fin.ext (by show j.val / 100 = 1; omega)
    rw [e]
    exact K3_eq z a hz 1 _ _ ⟨j.val - 100, by omega⟩ (by show j.val - 100 = j.val / 50 % 2 * 50 + j.val % 50; omega)

end Cert.NetMath

end
-- ==== Proof.NetMath5.lean ====
/-
  THE FUSED KERNEL'S FUNCTION OF AN IMAGE IS THE REFERENCE'S.
-/
import proofs.«180094_g2000601136005399_pallasbulk_237_2_alg».proof.Proof.NetMath2
import proofs.«180094_g2000601136005399_pallasbulk_237_2_alg».proof.Proof.NetMath3
import proofs.«180094_g2000601136005399_pallasbulk_237_2_alg».proof.Proof.NetMath4
import proofs.«180094_g2000601136005399_pallasbulk_237_2_alg».proof.Proof.RChain

noncomputable section

open scoped BigOperators

namespace Cert.NetMath

open Idealize.ShloMosaic Cert.NetSpec
open Cert.KernelIdeal.Net (KD K1 K2 Kw K3 Kflat netK)
open Cert.ReferenceIdeal.Net (netR flatR)

theorem netK_eq_netR (img : Fin 28 → Fin 28 → ℝ) (w1 : Fin 25 → Fin 20 → ℝ) (s1 : Fin 20 → ℝ) (t1 : Fin 20 → EReal)
    (w2 : Fin 25 → Fin 20 → Fin 50 → EReal) (s2 t2 : Fin 50 → EReal)
    (fw1 : Fin 200 → Fin 500 → EReal) (s3 t3 : Fin 500 → EReal) (fw2 : Fin 500 → Fin 10 → EReal) (fb2 : Fin 10 → EReal)
    (B1 : Fin 3 → Fin 140 → Fin 160 → EReal) (T1 : Fin 160 → EReal) (B2 : Fin 5 → Fin 160 → Fin 200 → EReal) (S2 T2 : Fin 200 → EReal)
    (hB1 : ∀ (j : Fin 3) (ki : Fin 5) (wj : Fin 28) (wp : Fin 8) (co : Fin 20),
      B1 j ⟨ki.val * 28 + wj.val, by have := ki.isLt; have := wj.isLt; omega⟩ ⟨wp.val * 20 + co.val, by have := wp.isLt; have := co.isLt; omega⟩
        = if h : 3 * wp.val + j.val ≤ wj.val ∧ wj.val < 3 * wp.val + j.val + 5 then
            ((w1 ⟨ki.val * 5 + (wj.val - (3 * wp.val + j.val)), by have := ki.isLt; omega⟩ co : ℝ) : EReal) * ((s1 co : ℝ) : EReal)
          else 0)
    (hT1 : ∀ (wp : Fin 8) (co : Fin 20), T1 ⟨wp.val * 20 + co.val, by have := wp.isLt; have := co.isLt; omega⟩ = t1 co)
    (hB2 : ∀ (ki : Fin 5) (wj : Fin 8) (ci : Fin 20) (wo : Fin 4) (co : Fin 50),
      B2 ki ⟨wj.val * 20 + ci.val, by have := wj.isLt; have := ci.isLt; omega⟩ ⟨wo.val * 50 + co.val, by have := wo.isLt; have := co.isLt; omega⟩
        = if h : wo.val ≤ wj.val ∧ wj.val < wo.val + 5 then w2 ⟨ki.val * 5 + (wj.val - wo.val), by have := ki.isLt; omega⟩ ci co else 0)
    (hS2 : ∀ (wo : Fin 4) (co : Fin 50), S2 ⟨wo.val * 50 + co.val, by have := wo.isLt; have := co.isLt; omega⟩ = s2 co)
    (hT2 : ∀ (wo : Fin 4) (co : Fin 50), T2 ⟨wo.val * 50 + co.val, by have := wo.isLt; have := co.isLt; omega⟩ = t2 co)
    (o : Fin 10) :
    netK (fun h w => ((img h w : ℝ) : EReal)) B1 T1 B2 S2 T2 fw1 s3 t3 fw2 fb2 o
      = netR (fun h w => ((img h w : ℝ) : EReal)) (fun p c => ((w1 p c : ℝ) : EReal)) (fun c => ((s1 c : ℝ) : EReal)) t1 w2 s2 t2 fw1 s3 t3 fw2 fb2 o := by
  unfold netK netR
  refine congrArg (fun fl => dense fl fw1 s3 t3 fw2 fb2 o) (funext fun j => ?_)
  have hy1 := K1_eq img w1 s1 t1 B1 T1 hB1 hT1
  have hz := K2_eq (R1 (fun h w => ((img h w : ℝ) : EReal)) (fun p c => ((w1 p c : ℝ) : EReal)) (fun c => ((s1 c : ℝ) : EReal)) t1) w2 s2 t2
    (K1 (fun h w => ((img h w : ℝ) : EReal)) B1 T1) B2 S2 T2 hy1 hB2 hS2 hT2
  rw [Kflat_eq _ (fun ho wo co => conv2 (R1 (fun h w => ((img h w : ℝ) : EReal)) (fun p c => ((w1 p c : ℝ) : EReal)) (fun c => ((s1 c : ℝ) : EReal)) t1) w2 ho wo co * s2 co + t2 co) hz j]
  rfl

end Cert.NetMath

end
-- ==== Proof.Finite.lean ====
/-
  THE PRECONDITION MAKES THE IMAGES, THE FIRST LAYER'S WEIGHTS AND ITS SCALE REAL NUMBERS.

  `finite_inputs` is the conjunction, input by input, of "every entry's absolute value is below +∞"; an extended real
  whose absolute value is below +∞ is a real number.
-/
import proofs.«180094_g2000601136005399_pallasbulk_237_2_alg».proof.Pre_finite_inputs
import proofs.«180094_g2000601136005399_pallasbulk_237_2_alg».proof.Proof.Gen.Pre_finite_inputs
import Idealize.ShloMosaic.PureOps.Ideal.Laws
import Idealize.ShloMosaic.Lib.ReduceAll
import Idealize.ShloMosaic.Lib.Affine
import Idealize.ShloMosaic.Lib.ValueIdx

noncomputable section

namespace Cert.NetMath

open Idealize.ShloMosaic Cert.Pre_finite_inputs

instance subsingleton_scalar_idx : Subsingleton S_.Idx := ⟨fun a b => funext fun d => d.elim0⟩

theorem real_of_abs_lt (x : EReal) (h : Ideal.cmp .olt (max x (-x)) (Ideal.ofBits .f32 0x7F800000#32) = 1#1) : ∃ r : ℝ, x = (r : EReal) := by
  have hinf : Ideal.ofBits .f32 0x7F800000#32 = ⊤ := by simp [Ideal.ofBits, Ideal.ieee]
  rw [hinf] at h
  induction x using EReal.rec with
  | bot => exfalso; simp [Ideal.cmp] at h
  | top => exfalso; simp [Ideal.cmp] at h
  | coe r => exact ⟨r, rfl⟩

/-- One input's conjunct gives every entry real. -/
theorem real_of_all {s : Shape} (a : FVec Ideal s .f32) (hb : S_.BroadcastsInDim s (![] : Fin 0 → Fin s.rank)) {axes : List (Fin s.rank)} (hr : s.ReducesTo axes S_) (hu : 0 < S_.numel)
    (e : Host.reduce IntOp.andi (cmpf .olt (Host.absf a) (broadcastInDim s ![] hb (constant (F := Ideal) S_ .f32 0x7F800000#32))) (constantI S_ 1 1#1) hr hu ValueIdx.ix0 = 1#1)
    (i : s.Idx) : ∃ r : ℝ, a i = (r : EReal) := by
  have h1 := Host.reduce_andi_all _ _ hr hu ValueIdx.ix0 e i
  exact real_of_abs_lt (a i) h1

theorem finite_three (a0 : FVec Ideal S8192x1x28x28 .f32) (a1 : FVec Ideal S25x1x20 .f32) (a2 a3 : FVec Ideal S1x20 .f32) (a4 : FVec Ideal S25x20x50 .bf16)
    (a5 a6 : FVec Ideal S1x50 .f32) (a7 : FVec Ideal S200x500 .bf16) (a8 a9 : FVec Ideal S1x500 .f32) (a10 : FVec Ideal S500x10 .bf16) (a11 : FVec Ideal S1x10 .f32)
    (h : fn (F := Ideal) a0 a1 a2 a3 a4 a5 a6 a7 a8 a9 a10 a11 = fun _ => 1#1) :
    (∀ i, ∃ r : ℝ, a0 i = (r : EReal)) ∧ (∀ i, ∃ r : ℝ, a1 i = (r : EReal)) ∧ (∀ i, ∃ r : ℝ, a2 i = (r : EReal)) := by
  have h0 := congrFun h ValueIdx.ix0
  unfold fn fn_part1 fn_part2 fn_part3 at h0
  dsimp only at h0
  simp only [andi, IntOp.andi_eq_one] at h0
  obtain ⟨⟨⟨⟨⟨⟨⟨⟨⟨⟨⟨r0, r1⟩, r2⟩, _⟩, _⟩, _⟩, _⟩, _⟩, _⟩, _⟩, _⟩, _⟩ := h0
  exact ⟨fun i => real_of_all a0 _ _ _ r0 i, fun i => real_of_all a1 _ _ _ r1 i, fun i => real_of_all a2 _ _ _ r2 i⟩

end Cert.NetMath

end
-- ==== Proof.Algebraic.lean ====
/-
  THE TWO IDEALIZED PROGRAMS COMPUTE THE SAME LOGITS.

  Row `n` of either result depends on image `n` alone.  The fused kernel's row is its function `netK` of the image,
  the banded matrices and the tiled rows its host code builds (Proof/KCombine2.lean); the reference's row is the
  network's function `netR` of the image and the parameters (Proof/RChain2.lean).  The banded matrices are what
  kernel.py says they are (Proof/KHostB1.lean, Proof/KHostB2.lean), so over real inputs — the precondition — the two
  functions agree (Proof/NetMath5.lean).
-/
import proofs.«180094_g2000601136005399_pallasbulk_237_2_alg».proof.Defs
import proofs.«180094_g2000601136005399_pallasbulk_237_2_alg».proof.Proof.KFinal
import proofs.«180094_g2000601136005399_pallasbulk_237_2_alg».proof.Proof.KCombine2
import proofs.«180094_g2000601136005399_pallasbulk_237_2_alg».proof.Proof.KHostB1
import proofs.«180094_g2000601136005399_pallasbulk_237_2_alg».proof.Proof.KHostB2
import proofs.«180094_g2000601136005399_pallasbulk_237_2_alg».proof.Proof.RRun
import proofs.«180094_g2000601136005399_pallasbulk_237_2_alg».proof.Proof.RChain2
import proofs.«180094_g2000601136005399_pallasbulk_237_2_alg».proof.Proof.NetMath5
import proofs.«180094_g2000601136005399_pallasbulk_237_2_alg».proof.Proof.Finite
import proofs.«180094_g2000601136005399_pallasbulk_237_2_alg».proof.Proof.Gen.Kernel
import proofs.«180094_g2000601136005399_pallasbulk_237_2_alg».proof.Proof.Gen.KernelIdeal
import proofs.«180094_g2000601136005399_pallasbulk_237_2_alg».proof.Proof.Gen.ReferenceIdeal
import proofs.«180094_g2000601136005399_pallasbulk_237_2_alg».proof.Proof.Gen.Pre_finite_inputs

set_option maxRecDepth 16384

noncomputable section

namespace Cert.Proof

open Idealize.ShloMosaic Idealize.ShloMosaic.TcCoe Idealize.ShloMosaic.ValueIdx Idealize.SL.Sem

namespace KN
open Cert.KernelIdeal Cert.KernelIdeal.Gen Cert.KernelIdeal.Frm Cert.KernelIdeal.Net

variable (m : (ℓ : Loc nD τ sig) → Buf (Elt Ideal) ℓ)

/-- Row `n` of the fused kernel's result as its function of image `n` and of what its host code builds. -/
theorem kerOut_apply (c : Dev nD) (n : Fin 8192) (o : Fin 10) :
    outOf m c (ix2 n o)
      = netK (fun h w => (m ((c : Thread nD τ).loc main_arg0) : S8192x1x28x28.Idx → EReal) (ix4 n (0 : Fin 1) h w))
          (fun j k c' => (V m c main_v81 : S3x140x160.Idx → EReal) (ix3 j k c'))
          (fun c' => (V m c main_v84 : S1x160.Idx → EReal) (ix2 (0 : Fin 1) c'))
          (fun ki k c' => (V m c main_v109 : S5x160x200.Idx → EReal) (ix3 ki k c'))
          (fun c' => (V m c main_v112 : S1x200.Idx → EReal) (ix2 (0 : Fin 1) c'))
          (fun c' => (V m c main_v115 : S1x200.Idx → EReal) (ix2 (0 : Fin 1) c'))
          (fun j k => (m ((c : Thread nD τ).loc main_arg7) : S200x500.Idx → EReal) (ix2 j k))
          (fun k => (m ((c : Thread nD τ).loc main_arg8) : S1x500.Idx → EReal) (ix2 (0 : Fin 1) k))
          (fun k => (m ((c : Thread nD τ).loc main_arg9) : S1x500.Idx → EReal) (ix2 (0 : Fin 1) k))
          (fun k o => (m ((c : Thread nD τ).loc main_arg10) : S500x10.Idx → EReal) (ix2 k o))
          (fun o => (m ((c : Thread nD τ).loc main_arg11) : S1x10.Idx → EReal) (ix2 (0 : Fin 1) o)) o := by
  have hn := n.isLt
  show logits (tileOf (V m c main_v0) (⟨n.val / 256, by omega⟩ : Fin 32)) (V m c main_v81) (V m c main_v84) (V m c main_v109) (V m c main_v112) (V m c main_v115)
    (V m c main_arg7) (V m c main_arg8) (V m c main_arg9) (V m c main_arg10) (V m c main_arg11) (ix2 (⟨n.val % 256, Nat.mod_lt _ (by decide)⟩ : Fin 256) o) = _
  rw [logits_img, V_main_arg7, V_main_arg8, V_main_arg9, V_main_arg10, V_main_arg11]
  refine congrArg (fun im => netK im _ _ _ _ _ _ _ _ _ _ o) (funext fun h => funext fun w => ?_)
  have en : (⟨n.val / 256 * 256 + n.val % 256, by omega⟩ : Fin 8192) = n := Fin.ext (by show n.val / 256 * 256 + n.val % 256 = n.val; omega)
  show (V m c main_v0 : S8192x28x28.Idx → EReal) (ix3 (⟨n.val / 256 * 256 + n.val % 256, by omega⟩ : Fin 8192) h w) = _
  rw [en]
  exact x0_apply m c n h w

end KN

open Cert.NetSpec in
theorem algebraic : Cert.algebraic_KernelIdeal_ReferenceIdeal := by
  intro m ρ m' ρ' hpre hagree
  refine ⟨fun c => Cert.KernelIdeal.Net.outOf m c, Cert.KernelIdeal.Net.run m ρ, ?_⟩
  refine (θ_run Cert.ReferenceIdeal.defs _ _).mono (fun r h c => ⟨(h c).1.trans ?_, (h c).2⟩)
    (Cert.ReferenceIdeal.Net.run_value (F := Ideal) m' ρ')
  -- the reference's result buffer is the kernel's result array, entry by entry
  obtain ⟨a0, a1, a2, a3, a4, a5, a6, a7, a8, a9, a10, a11⟩ := hagree c
  obtain ⟨h0, h1, h2⟩ := Cert.NetMath.finite_three _ _ _ _ _ _ _ _ _ _ _ _ (hpre c)
  choose f0 hf0 using h0
  choose f1 hf1 using h1
  choose f2 hf2 using h2
  funext i
  obtain ⟨n, o, rfl⟩ : ∃ (n : Fin 8192) (o : Fin 10), i = ix2 n o := ⟨i 0, i 1, eq_ix2 i⟩
  refine (Cert.ReferenceIdeal.Net.refOut_apply m' ρ' c n o).trans ?_
  refine Eq.trans ?_ (KN.kerOut_apply m c n o).symm
  -- the parameters as plain functions
  let img : Fin 28 → Fin 28 → ℝ := fun h w => f0 (ix4 n (0 : Fin 1) h w)
  let w1 : Fin 25 → Fin 20 → ℝ := fun p co => f1 (ix3 p (0 : Fin 1) co)
  let s1 : Fin 20 → ℝ := fun co => f2 (ix2 (0 : Fin 1) co)
  have e0 : Cert.ReferenceIdeal.Net.aImg m' c n = fun h w => ((img h w : ℝ) : EReal) :=
    funext fun h => funext fun w => by
      show (m' ((c.tc : Thread Cert.ReferenceIdeal.nD Cert.ReferenceIdeal.τ).loc Cert.ReferenceIdeal.main_arg0) : Cert.ReferenceIdeal.S8192x1x28x28.Idx → EReal) (ix4 n (0 : Fin 1) h w) = _
      rw [a0]; exact hf0 _
  have e1 : Cert.ReferenceIdeal.Net.aW1 m' c = fun p co => ((w1 p co : ℝ) : EReal) :=
    funext fun p => funext fun co => by
      show (m' ((c.tc : Thread Cert.ReferenceIdeal.nD Cert.ReferenceIdeal.τ).loc Cert.ReferenceIdeal.main_arg1) : Cert.ReferenceIdeal.S25x1x20.Idx → EReal) (ix3 p (0 : Fin 1) co) = _
      rw [a1]; exact hf1 _
  have e2 : Cert.ReferenceIdeal.Net.aS1 m' c = fun co => ((s1 co : ℝ) : EReal) :=
    funext fun co => by
      show (m' ((c.tc : Thread Cert.ReferenceIdeal.nD Cert.ReferenceIdeal.τ).loc Cert.ReferenceIdeal.main_arg2) : Cert.ReferenceIdeal.S1x20.Idx → EReal) (ix2 (0 : Fin 1) co) = _
      rw [a2]; exact hf2 _
  have k0 : (fun h w => (m ((c.tc : Thread Cert.KernelIdeal.nD Cert.KernelIdeal.τ).loc Cert.KernelIdeal.main_arg0) : Cert.KernelIdeal.S8192x1x28x28.Idx → EReal) (ix4 n (0 : Fin 1) h w))
      = fun h w => ((img h w : ℝ) : EReal) := funext fun h => funext fun w => hf0 _
  rw [e0, e1, e2, k0]
  have e3 : Cert.ReferenceIdeal.Net.aT1 m' c = fun co => (m ((c.tc : Thread Cert.KernelIdeal.nD Cert.KernelIdeal.τ).loc Cert.KernelIdeal.main_arg3) : Cert.KernelIdeal.S1x20.Idx → EReal) (ix2 (0 : Fin 1) co) :=
    funext fun co => by
      show (m' ((c.tc : Thread Cert.ReferenceIdeal.nD Cert.ReferenceIdeal.τ).loc Cert.ReferenceIdeal.main_arg3) : Cert.ReferenceIdeal.S1x20.Idx → EReal) (ix2 (0 : Fin 1) co) = _
      rw [a3]
  have e4 : Cert.ReferenceIdeal.Net.aW2 m' c = fun p ci co => (m ((c.tc : Thread Cert.KernelIdeal.nD Cert.KernelIdeal.τ).loc Cert.KernelIdeal.main_arg4) : Cert.KernelIdeal.S25x20x50.Idx → EReal) (ix3 p ci co) :=
    funext fun p => funext fun ci => funext fun co => by
      show (m' ((c.tc : Thread Cert.ReferenceIdeal.nD Cert.ReferenceIdeal.τ).loc Cert.ReferenceIdeal.main_arg4) : Cert.ReferenceIdeal.S25x20x50.Idx → EReal) (ix3 p ci co) = _
      rw [a4]
  have e5 : Cert.ReferenceIdeal.Net.aS2 m' c = fun co => (m ((c.tc : Thread Cert.KernelIdeal.nD Cert.KernelIdeal.τ).loc Cert.KernelIdeal.main_arg5) : Cert.KernelIdeal.S1x50.Idx → EReal) (ix2 (0 : Fin 1) co) :=
    funext fun co => by
      show (m' ((c.tc : Thread Cert.ReferenceIdeal.nD Cert.ReferenceIdeal.τ).loc Cert.ReferenceIdeal.main_arg5) : Cert.ReferenceIdeal.S1x50.Idx → EReal) (ix2 (0 : Fin 1) co) = _
      rw [a5]
  have e6 : Cert.ReferenceIdeal.Net.aT2 m' c = fun co => (m ((c.tc : Thread Cert.KernelIdeal.nD Cert.KernelIdeal.τ).loc Cert.KernelIdeal.main_arg6) : Cert.KernelIdeal.S1x50.Idx → EReal) (ix2 (0 : Fin 1) co) :=
    funext fun co => by
      show (m' ((c.tc : Thread Cert.ReferenceIdeal.nD Cert.ReferenceIdeal.τ).loc Cert.ReferenceIdeal.main_arg6) : Cert.ReferenceIdeal.S1x50.Idx → EReal) (ix2 (0 : Fin 1) co) = _
      rw [a6]
  have e7 : Cert.ReferenceIdeal.Net.aFw1 m' c = fun j k => (m ((c.tc : Thread Cert.KernelIdeal.nD Cert.KernelIdeal.τ).loc Cert.KernelIdeal.main_arg7) : Cert.KernelIdeal.S200x500.Idx → EReal) (ix2 j k) :=
    funext fun j => funext fun k => by
      show (m' ((c.tc : Thread Cert.ReferenceIdeal.nD Cert.ReferenceIdeal.τ).loc Cert.ReferenceIdeal.main_arg7) : Cert.ReferenceIdeal.S200x500.Idx → EReal) (ix2 j k) = _
      rw [a7]
  have e8 : Cert.ReferenceIdeal.Net.aS3 m' c = fun k => (m ((c.tc : Thread Cert.KernelIdeal.nD Cert.KernelIdeal.τ).loc Cert.KernelIdeal.main_arg8) : Cert.KernelIdeal.S1x500.Idx → EReal) (ix2 (0 : Fin 1) k) :=
    funext fun k => by
      show (m' ((c.tc : Thread Cert.ReferenceIdeal.nD Cert.ReferenceIdeal.τ).loc Cert.ReferenceIdeal.main_arg8) : Cert.ReferenceIdeal.S1x500.Idx → EReal) (ix2 (0 : Fin 1) k) = _
      rw [a8]
  have e9 : Cert.ReferenceIdeal.Net.aT3 m' c = fun k => (m ((c.tc : Thread Cert.KernelIdeal.nD Cert.KernelIdeal.τ).loc Cert.KernelIdeal.main_arg9) : Cert.KernelIdeal.S1x500.Idx → EReal) (ix2 (0 : Fin 1) k) :=
    funext fun k => by
      show (m' ((c.tc : Thread Cert.ReferenceIdeal.nD Cert.ReferenceIdeal.τ).loc Cert.ReferenceIdeal.main_arg9) : Cert.ReferenceIdeal.S1x500.Idx → EReal) (ix2 (0 : Fin 1) k) = _
      rw [a9]
  have e10 : Cert.ReferenceIdeal.Net.aFw2 m' c = fun k o => (m ((c.tc : Thread Cert.KernelIdeal.nD Cert.KernelIdeal.τ).loc Cert.KernelIdeal.main_arg10) : Cert.KernelIdeal.S500x10.Idx → EReal) (ix2 k o) :=
    funext fun k => funext fun o => by
      show (m' ((c.tc : Thread Cert.ReferenceIdeal.nD Cert.ReferenceIdeal.τ).loc Cert.ReferenceIdeal.main_arg10) : Cert.ReferenceIdeal.S500x10.Idx → EReal) (ix2 k o) = _
      rw [a10]
  have e11 : Cert.ReferenceIdeal.Net.aFb2 m' c = fun o => (m ((c.tc : Thread Cert.KernelIdeal.nD Cert.KernelIdeal.τ).loc Cert.KernelIdeal.main_arg11) : Cert.KernelIdeal.S1x10.Idx → EReal) (ix2 (0 : Fin 1) o) :=
    funext fun o => by
      show (m' ((c.tc : Thread Cert.ReferenceIdeal.nD Cert.ReferenceIdeal.τ).loc Cert.ReferenceIdeal.main_arg11) : Cert.ReferenceIdeal.S1x10.Idx → EReal) (ix2 (0 : Fin 1) o) = _
      rw [a11]
  rw [e3, e4, e5, e6, e7, e8, e9, e10, e11]
  refine (Cert.NetMath.netK_eq_netR img w1 s1 _ _ _ _ _ _ _ _ _ _ _ _ _ _ ?_ ?_ ?_ ?_ ?_ o).symm
  · intro j ki wj wp co
    refine (Cert.KernelIdeal.Net.band1_apply m c j ki wj wp co).trans ?_
    by_cases hc : 3 * wp.val + j.val ≤ wj.val ∧ wj.val < 3 * wp.val + j.val + 5
    · rw [dif_pos hc, dif_pos hc]; exact congrArg₂ (· * ·) (hf1 _) (hf2 _)
    · rw [dif_neg hc, dif_neg hc]
  · intro wp co
    exact Cert.KernelIdeal.Net.t1t_apply m c wp co
  · intro ki wj ci wo co
    exact Cert.KernelIdeal.Net.band2_apply m c ki wj ci wo co
  · intro wo co
    exact Cert.KernelIdeal.Net.s2t_apply m c wo co
  · intro wo co
    exact Cert.KernelIdeal.Net.t2t_apply m c wo co

end Cert.Proof

end
-- ==== Proof.lean ====
/-
  The certificate of the fused MNIST network — two 5 × 5 convolutions with folded batch norm, rectifier and
  max-pooling, then two dense layers — in ONE kernel over batch tiles, against the reference's three kernels.

  Frames.  The fused program's one region keeps nothing between grid points and writes no argument
  (Proof/KernelFrame.lean at the word level, Proof/KernelIdealFrame.lean at the extended reals); the reference's
  frame is the generated one.  The idealization rewrote nothing, so `preserves` is `True`.

  Values (Proof/Algebraic.lean).  Each row of either result depends on one image.  The kernel computes both
  convolutions as products with banded matrices its host code assembles: at the extended reals a band entry is a
  weight (times the folded scale, in the first layer) or zero, so a banded product is the convolution's sum; in the
  first layer the scale leaves the sum because the inputs are real numbers — the one use of the precondition.  The
  two programs pool the same rectified values in different orders, and the dense layers are the same sums.
-/
import proofs.«180094_g2000601136005399_pallasbulk_237_2_alg».proof.Defs
import proofs.«180094_g2000601136005399_pallasbulk_237_2_alg».proof.Proof.Gen.Kernel
import proofs.«180094_g2000601136005399_pallasbulk_237_2_alg».proof.Proof.Gen.KernelIdeal
import proofs.«180094_g2000601136005399_pallasbulk_237_2_alg».proof.Proof.Gen.ReferenceIdeal
import proofs.«180094_g2000601136005399_pallasbulk_237_2_alg».proof.Proof.Gen.ReferenceIdeal.Frame
import proofs.«180094_g2000601136005399_pallasbulk_237_2_alg».proof.Proof.Gen.Pre_finite_inputs
import proofs.«180094_g2000601136005399_pallasbulk_237_2_alg».proof.Proof.KernelFrame
import proofs.«180094_g2000601136005399_pallasbulk_237_2_alg».proof.Proof.KernelIdealFrame
import proofs.«180094_g2000601136005399_pallasbulk_237_2_alg».proof.Proof.Algebraic
import Idealize.ShloMosaic.Adequacy
import Idealize.ShloMosaic.Init

noncomputable section

namespace Cert.Proof

open Idealize.ShloMosaic Idealize.SL.Sem

theorem frame_k : Cert.frame_Kernel := fun m ρ _ => Cert.Kernel.Frm.frame m ρ
theorem frame_ki : Cert.frame_KernelIdeal := fun m ρ _ => Cert.KernelIdeal.Frm.frame m ρ
theorem frame_ri : Cert.frame_ReferenceIdeal := fun m ρ _ => Cert.ReferenceIdeal.Gen.frame m ρ
theorem preserves : Cert.preserves_Kernel_KernelIdeal := trivial

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
